-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  IdealRules.named_const.Statement Cert.KernelIdeal.κ "neg_big" .f32 0xFF333332#32 ⊥

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v34) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x1024x1024 : Shape := ⟨3, ![8, 1024, 1024]⟩
abbrev S1024x1024 : Shape := ⟨2, ![1024, 1024]⟩
abbrev S1024 : Shape := ⟨1, ![1024]⟩
abbrev S_ : Shape := ⟨0, ![]⟩

class Facts : Prop where
  bcast_S_S8x1024x1024 : S_.BroadcastsInDim S8x1024x1024 (![] : Fin 0 → Fin S8x1024x1024.rank)
  reducesTo_S8x1024x1024_S_d0_1_2 : S8x1024x1024.ReducesTo [0, 1, 2] S_
  h_S_ : 0 < S_.numel
  bcast_S_S1024x1024 : S_.BroadcastsInDim S1024x1024 (![] : Fin 0 → Fin S1024x1024.rank)
  reducesTo_S1024x1024_S_d0_1 : S1024x1024.ReducesTo [0, 1] S_
  bcast_S_S1024 : S_.BroadcastsInDim S1024 (![] : Fin 0 → Fin S1024.rank)
  reducesTo_S1024_S_d0 : S1024.ReducesTo [0] S_

variable [Facts]

def fn_part2 {F : FTy → Type} [FloatOps F] (main_arg7 : FVec F S1024x1024 .f32) (main_arg8 : FVec F S1024 .f32) (main_v33 : IVec S_ 1) : IVec S_ 1 :=
  let main_v34 : FVec F S1024x1024 .f32 := Host.absf main_arg7
  let main_cst_12 : FVec F S_ .f32 := constant S_ .f32 0x7F800000#32
  let main_v35 : FVec F S1024x1024 .f32 := broadcastInDim S1024x1024 ![] bcast_S_S1024x1024 main_cst_12
  let main_v36 : IVec S1024x1024 1 := cmpf .olt main_v34 main_v35
  let main_c_13 : IVec S_ 1 := constantI S_ 1 1#1
  let main_v37 : IVec S_ 1 := (fun x v => Host.reduce IntOp.andi x v reducesTo_S1024x1024_S_d0_1 h_S_) main_v36 main_c_13
  let main_v38 : IVec S_ 1 := andi main_v33 main_v37
  let main_v39 : FVec F S1024 .f32 := Host.absf main_arg8
  let main_cst_14 : FVec F S_ .f32 := constant S_ .f32 0x7F800000#32
  let main_v40 : FVec F S1024 .f32 := broadcastInDim S1024 ![] bcast_S_S1024 main_cst_14
  let main_v41 : IVec S1024 1 := cmpf .olt main_v39 main_v40
  let main_c_15 : IVec S_ 1 := constantI S_ 1 1#1
  let main_v42 : IVec S_ 1 := (fun x v => Host.reduce IntOp.andi x v reducesTo_S1024_S_d0 h_S_) main_v41 main_c_15
  let main_v43 : IVec S_ 1 := andi main_v38 main_v42
  main_v43

def fn_part1 {F : FTy → Type} [FloatOps F] (main_arg4 : FVec F S1024 .f32) (main_arg5 : FVec F S1024x1024 .f32) (main_arg6 : FVec F S1024 .f32) (main_arg7 : FVec F S1024x1024 .f32) (main_arg8 : FVec F S1024 .f32) (main_v13 : IVec S_ 1) (main_v16 : IVec S1024x1024 1) : IVec S_ 1 :=
  let main_c_5 : IVec S_ 1 := constantI S_ 1 1#1
  let main_v17 : IVec S_ 1 := (fun x v => Host.reduce IntOp.andi x v reducesTo_S1024x1024_S_d0_1 h_S_) main_v16 main_c_5
  let main_v18 : IVec S_ 1 := andi main_v13 main_v17
  let main_v19 : FVec F S1024 .f32 := Host.absf main_arg4
  let main_cst_6 : FVec F S_ .f32 := constant S_ .f32 0x7F800000#32
  let main_v20 : FVec F S1024 .f32 := broadcastInDim S1024 ![] bcast_S_S1024 main_cst_6
  let main_v21 : IVec S1024 1 := cmpf .olt main_v19 main_v20
  let main_c_7 : IVec S_ 1 := constantI S_ 1 1#1
  let main_v22 : IVec S_ 1 := (fun x v => Host.reduce IntOp.andi x v reducesTo_S1024_S_d0 h_S_) main_v21 main_c_7
  let main_v23 : IVec S_ 1 := andi main_v18 main_v22
  let main_v24 : FVec F S1024x1024 .f32 := Host.absf main_arg5
  let main_cst_8 : FVec F S_ .f32 := constant S_ .f32 0x7F800000#32
  let main_v25 : FVec F S1024x1024 .f32 := broadcastInDim S1024x1024 ![] bcast_S_S1024x1024 main_cst_8
  let main_v26 : IVec S1024x1024 1 := cmpf .olt main_v24 main_v25
  let main_c_9 : IVec S_ 1 := constantI S_ 1 1#1
  let main_v27 : IVec S_ 1 := (fun x v => Host.reduce IntOp.andi x v reducesTo_S1024x1024_S_d0_1 h_S_) main_v26 main_c_9
  let main_v28 : IVec S_ 1 := andi main_v23 main_v27
  let main_v29 : FVec F S1024 .f32 := Host.absf main_arg6
  let main_cst_10 : FVec F S_ .f32 := constant S_ .f32 0x7F800000#32
  let main_v30 : FVec F S1024 .f32 := broadcastInDim S1024 ![] bcast_S_S1024 main_cst_10
  let main_v31 : IVec S1024 1 := cmpf .olt main_v29 main_v30
  let main_c_11 : IVec S_ 1 := constantI S_ 1 1#1
  let main_v32 : IVec S_ 1 := (fun x v => Host.reduce IntOp.andi x v reducesTo_S1024_S_d0 h_S_) main_v31 main_c_11
  let main_v33 : IVec S_ 1 := andi main_v28 main_v32
  fn_part2 (F := F) main_arg7 main_arg8 main_v33

def fn {F : FTy → Type} [FloatOps F] (main_arg0 : FVec F S8x1024x1024 .f32) (main_arg1 : FVec F S1024x1024 .f32) (main_arg2 : FVec F S1024 .f32) (main_arg3 : FVec F S1024x1024 .f32) (main_arg4 : FVec F S1024 .f32) (main_arg5 : FVec F S1024x1024 .f32) (main_arg6 : FVec F S1024 .f32) (main_arg7 : FVec F S1024x1024 .f32) (main_arg8 : FVec F S1024 .f32) : IVec S_ 1 :=
  let main_v0 : FVec F S8x1024x1024 .f32 := Host.absf main_arg0
  let main_cst : FVec F S_ .f32 := constant S_ .f32 0x7F800000#32
  let main_v1 : FVec F S8x1024x1024 .f32 := broadcastInDim S8x1024x1024 ![] bcast_S_S8x1024x1024 main_cst
  let main_v2 : IVec S8x1024x1024 1 := cmpf .olt main_v0 main_v1
  let main_c : IVec S_ 1 := constantI S_ 1 1#1
  let main_v3 : IVec S_ 1 := (fun x v => Host.reduce IntOp.andi x v reducesTo_S8x1024x1024_S_d0_1_2 h_S_) main_v2 main_c
  let main_v4 : FVec F S1024x1024 .f32 := Host.absf main_arg1
  let main_cst_0 : FVec F S_ .f32 := constant S_ .f32 0x7F800000#32
  let main_v5 : FVec F S1024x1024 .f32 := broadcastInDim S1024x1024 ![] bcast_S_S1024x1024 main_cst_0
  let main_v6 : IVec S1024x1024 1 := cmpf .olt main_v4 main_v5
  let main_c_1 : IVec S_ 1 := constantI S_ 1 1#1
  let main_v7 : IVec S_ 1 := (fun x v => Host.reduce IntOp.andi x v reducesTo_S1024x1024_S_d0_1 h_S_) main_v6 main_c_1
  let main_v8 : IVec S_ 1 := andi main_v3 main_v7
  let main_v9 : FVec F S1024 .f32 := Host.absf main_arg2
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_c_3 : IVec S_ 1 := constantI S_ 1 1#1
  let main_v12 : IVec S_ 1 := (fun x v => Host.reduce IntOp.andi x v reducesTo_S1024_S_d0 h_S_) main_v11 main_c_3
  let main_v13 : IVec S_ 1 := andi main_v8 main_v12
  let main_v14 : FVec F S1024x1024 .f32 := Host.absf main_arg3
  let main_cst_4 : FVec F S_ .f32 := constant S_ .f32 0x7F800000#32
  let main_v15 : FVec F S1024x1024 .f32 := broadcastInDim S1024x1024 ![] bcast_S_S1024x1024 main_cst_4
  let main_v16 : IVec S1024x1024 1 := cmpf .olt main_v14 main_v15
  fn_part1 (F := F) main_arg4 main_arg5 main_arg6 main_arg7 main_arg8 main_v13 main_v16
-- ==== Kernel.lean ====
abbrev S8x1024x1024 : Shape := ⟨3, ![8, 1024, 1024]⟩
abbrev S1024x1024 : Shape := ⟨2, ![1024, 1024]⟩
abbrev S1024 : Shape := ⟨1, ![1024]⟩
abbrev S8192x1024 : Shape := ⟨2, ![8192, 1024]⟩
abbrev S1x1024 : Shape := ⟨2, ![1, 1024]⟩
abbrev S512x1024 : Shape := ⟨2, ![512, 1024]⟩
abbrev S1x512x1024 : Shape := ⟨3, ![1, 512, 1024]⟩
abbrev S1x1024x1024 : Shape := ⟨3, ![1, 1024, 1024]⟩
abbrev S512x1 : Shape := ⟨2, ![512, 1]⟩
abbrev S512x512 : Shape := ⟨2, ![512, 512]⟩
abbrev S512 : Shape := ⟨1, ![512]⟩

abbrev nBuf : Space → Nat
  | .hbm => 29
  | .vmem => 27
  | .smem => 0
  | _ => 0

abbrev bufTy : (tb : Table) → Fin (tcTables nBuf tb) → BufTy
  | .hbm, ⟨0, _⟩ => ⟨S8x1024x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S8192x1024, .f32⟩
  | .hbm, ⟨10, _⟩ => ⟨S1024x1024, .f32⟩
  | .hbm, ⟨11, _⟩ => ⟨S1024x1024, .bf16⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .bf16⟩
  | .hbm, ⟨16, _⟩ => ⟨S1024x1024, .f32⟩
  | .hbm, ⟨17, _⟩ => ⟨S1024x1024, .bf16⟩
  | .hbm, ⟨18, _⟩ => ⟨S1x1024, .f32⟩
  | .hbm, ⟨19, _⟩ => ⟨S1x1024, .f32⟩
  | .hbm, ⟨20, _⟩ => ⟨S1x1024, .f32⟩
  | .hbm, ⟨21, _⟩ => ⟨S1x1024, .f32⟩
  | .hbm, ⟨22, _⟩ => ⟨S8192x1024, .bf16⟩
  | .hbm, ⟨23, _⟩ => ⟨S8192x1024, .bf16⟩
  | .hbm, ⟨24, _⟩ => ⟨S8192x1024, .bf16⟩
  | .hbm, ⟨25, _⟩ => ⟨S8x1024x1024, .bf16⟩
  | .hbm, ⟨26, _⟩ => ⟨S8x1024x1024, .bf16⟩
  | .hbm, ⟨27, _⟩ => ⟨S8x1024x1024, .bf16⟩
  | .hbm, ⟨28, _⟩ => ⟨S8x1024x1024, .f32⟩
  | .local _ .vmem, ⟨0, _⟩ => ⟨S512x1024, .f32⟩
  | .local _ .vmem, ⟨1, _⟩ => ⟨S512x1024, .f32⟩
  | .local _ .vmem, ⟨2, _⟩ => ⟨S1024x1024, .bf16⟩
  | .local _ .vmem, ⟨3, _⟩ => ⟨S1x1024, .f32⟩
  | .local _ .vmem, ⟨4, _⟩ => ⟨S1024x1024, .bf16⟩
  | .local _ .vmem, ⟨5, _⟩ => ⟨S1x1024, .f32⟩
  | .local _ .vmem, ⟨6, _⟩ => ⟨S1024x1024, .bf16⟩
  | .local _ .vmem, ⟨7, _⟩ => ⟨S1x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .bf16⟩
  | .local _ .vmem, ⟨11, _⟩ => ⟨S512x1024, .bf16⟩
  | .local _ .vmem, ⟨12, _⟩ => ⟨S512x1024, .bf16⟩
  | .local _ .vmem, ⟨13, _⟩ => ⟨S512x1024, .bf16⟩
  | .local _ .vmem, ⟨14, _⟩ => ⟨S1x512x1024, .bf16⟩
  | .local _ .vmem, ⟨15, _⟩ => ⟨S1x512x1024, .bf16⟩
  | .local _ .vmem, ⟨16, _⟩ => ⟨S1x1024x1024, .bf16⟩
  | .local _ .vmem, ⟨17, _⟩ => ⟨S1x1024x1024, .bf16⟩
  | .local _ .vmem, ⟨18, _⟩ => ⟨S1x1024x1024, .bf16⟩
  | .local _ .vmem, ⟨19, _⟩ => ⟨S1x1024x1024, .bf16⟩
  | .local _ .vmem, ⟨20, _⟩ => ⟨S1024x1024, .bf16⟩
  | .local _ .vmem, ⟨21, _⟩ => ⟨S1x1024, .f32⟩
  | .local _ .vmem, ⟨22, _⟩ => ⟨S1x512x1024, .f32⟩
  | .local _ .vmem, ⟨23, _⟩ => ⟨S1x512x1024, .f32⟩
  | .local _ .vmem, ⟨24, _⟩ => ⟨S512x1, .f32⟩
  | .local _ .vmem, ⟨25, _⟩ => ⟨S512x1, .f32⟩
  | .local _ .vmem, ⟨26, _⟩ => ⟨S512x1024, .f32⟩
  | _, _ => ⟨S8x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg7_1 : Ref sig .tc := ⟨.vmem, 9, rfl⟩
abbrev cc0_stg8_0 : Ref sig .tc := ⟨.vmem, 10, rfl⟩
abbrev cc0_stg8_1 : Ref sig .tc := ⟨.vmem, 11, rfl⟩
abbrev cc0_stg9_0 : Ref sig .tc := ⟨.vmem, 12, rfl⟩
abbrev cc0_stg9_1 : Ref sig .tc := ⟨.vmem, 13, rfl⟩
abbrev cc1_stg0_0 : Ref sig .tc := ⟨.vmem, 14, rfl⟩
abbrev cc1_stg0_1 : Ref sig .tc := ⟨.vmem, 15, rfl⟩
abbrev cc1_stg1_0 : Ref sig .tc := ⟨.vmem, 16, rfl⟩
abbrev cc1_stg1_1 : Ref sig .tc := ⟨.vmem, 17, rfl⟩
abbrev cc1_stg2_0 : Ref sig .tc := ⟨.vmem, 18, rfl⟩
abbrev cc1_stg2_1 : Ref sig .tc := ⟨.vmem, 19, rfl⟩
abbrev cc1_stg3_0 : Ref sig .tc := ⟨.vmem, 20, rfl⟩
abbrev cc1_stg4_0 : Ref sig .tc := ⟨.vmem, 21, rfl⟩
abbrev cc1_stg5_0 : Ref sig .tc := ⟨.vmem, 22, rfl⟩
abbrev cc1_stg5_1 : Ref sig .tc := ⟨.vmem, 23, rfl⟩
abbrev cc1_scratch0 : Ref sig .tc := ⟨.vmem, 24, rfl⟩
abbrev cc1_scratch1 : Ref sig .tc := ⟨.vmem, 25, rfl⟩
abbrev cc1_scratch2 : Ref sig .tc := ⟨.vmem, 26, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem6_0 : DmaSem sig := 7
abbrev cc0_sem7_0 : DmaSem sig := 8
abbrev cc0_sem7_1 : DmaSem sig := 9
abbrev cc0_sem8_0 : DmaSem sig := 10
abbrev cc0_sem8_1 : DmaSem sig := 11
abbrev cc0_sem9_0 : DmaSem sig := 12
abbrev cc0_sem9_1 : DmaSem sig := 13
abbrev cc1_sem0_0 : DmaSem sig := 14
abbrev cc1_sem0_1 : DmaSem sig := 15
abbrev cc1_sem1_0 : DmaSem sig := 16
abbrev cc1_sem1_1 : DmaSem sig := 17
abbrev cc1_sem2_0 : DmaSem sig := 18
abbrev cc1_sem2_1 : DmaSem sig := 19
abbrev cc1_sem3_0 : DmaSem sig := 20
abbrev cc1_sem4_0 : DmaSem sig := 21
abbrev cc1_sem5_0 : DmaSem sig := 22
abbrev cc1_sem5_1 : DmaSem sig := 23

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_9 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 2 → Memref sig .tc .vmem S512x1024 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev grid1 : Pipeline.Grid := ⟨3, ![8, 2, 2], ![false, false, false]⟩

def k1_cond2 (i : grid1.Coords) : BitVec 1 :=
  let arg2 : BitVec 32 := BitVec.ofNat 32 (i 2).val
  let arg1 : BitVec 32 := BitVec.ofNat 32 (i 1).val
  let v3 : BitVec 1 := Scalar.cmpi .sle arg2 arg1
  let v4 : BitVec 32 := Scalar.extui v3
  let c0_i32_1 : BitVec 32 := 0#32
  let v5 : BitVec 1 := Scalar.cmpi .ne v4 c0_i32_1
  v5

def k1_mult1 (i : grid1.Coords) : BitVec 32 :=
  let arg2 : BitVec 32 := BitVec.ofNat 32 (i 2).val
  let c512_i32 : BitVec 32 := 512#32
  let v9 : BitVec 32 := Scalar.muli arg2 c512_i32
  v9
def k1_off1 (i : grid1.Coords) : Fin 3 → Nat :=
  let c0_5 : Index := 0#32
  let arg2 : BitVec 32 := BitVec.ofNat 32 (i 2).val
  let c512_i32 : BitVec 32 := 512#32
  let v9 : BitVec 32 := Scalar.muli arg2 c512_i32
  let v10 : BitVec 32 := v9
  let v13 : Index := Scalar.indexCast v10
  let c0_6 : Index := 0#32
  ![0, v13.toNat, 0]
def k1_cond3 (i : grid1.Coords) : BitVec 1 :=
  let arg2 : BitVec 32 := BitVec.ofNat 32 (i 2).val
  let c1_i32 : BitVec 32 := 1#32
  let v6 : BitVec 1 := Scalar.cmpi .eq arg2 c1_i32
  let v7 : BitVec 32 := Scalar.extui v6
  let c0_i32_2 : BitVec 32 := 0#32
  let v8 : BitVec 1 := Scalar.cmpi .ne v7 c0_i32_2
  v8

def cc1_transform_0 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

def cc1_transform_1 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_2 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![arg0.toNat, c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat]

abbrev stage1_0 : Fin 2 → Memref sig .tc .vmem S1x512x1024 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true, false]

abbrev stage1_1 : Fin 2 → Memref sig .tc .vmem S1x1024x1024 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, false, false]

abbrev stage1_2 : Fin 2 → Memref sig .tc .vmem S1x1024x1024 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, false, false]

abbrev stage1_3 : Fin 1 → Memref sig .tc .vmem S1024x1024 .bf16 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false, false]

abbrev stage1_4 : Fin 1 → Memref sig .tc .vmem S1x1024 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false, false, false]

abbrev stage1_5 : Fin 2 → Memref sig .tc .vmem S1x512x1024 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true, true, false]

class Facts₀ : Prop where
  shapeCasts_S8x1024x1024_S8192x1024 : S8x1024x1024.ShapeCasts S8192x1024
  transposes_S1024x1024_S1024x1024_1_0 : S1024x1024.Transposes [1, 0] S1024x1024
  bitsLt_bf16_f32 : FTy.bits .bf16 < FTy.bits .f32
  shapeCasts_S1024_S1x1024 : S1024.ShapeCasts S1x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  packedbf16_S512x1024_S512x1024_0_0 : (Rect.unit (s := S512x1024) ![0, 0] S512x1024.size inb_S512x1024_S512x1024_0_0).PackedRows (EltTy.packing .bf16)
  shapeCasts_S8192x1024_S8x1024x1024 : S8192x1024.ShapeCasts S8x1024x1024
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S1x512x1024_S1x512x1024_0_0_0 : ∀ a, (![0, 0, 0] : Fin 3 → Nat) a + S1x512x1024.size a ≤ S1x512x1024.size a
  h_S1x512x1024 : 0 < S1x512x1024.numel
  shapeCasts_S1x512x1024_S512x1024 : S1x512x1024.ShapeCasts S512x1024
  iota_S512x512_d0_w32 : S512x512.Iotas .tc 32 [0]
  iota_S512x512_d1_w32 : S512x512.Iotas .tc 32 [1]
  reduces_S512x512_S512 : S512x512.Reduces [1] S512
  shapeCasts_S512_S512x1 : S512.ShapeCasts S512x1
  broadcasts_S512x1_S512x512 : S512x1.Broadcasts S512x512
  broadcasts_S512x1_S512x1024 : S512x1.Broadcasts S512x1024
  shapeCasts_S512x1024_S1x512x1024 : S512x1024.ShapeCasts S1x512x1024
  dot_S512x1024_S1024x1024_S512x1024_1_0_0_1_n_n_wf : DotDims.WF S512x1024 S1024x1024 S512x1024 [1] [0] [0] [1] [] []
  dot_S512x1024_S512x1024_S512x512_1_1_0_0_n_n_wf : DotDims.WF S512x1024 S512x1024 S512x512 [1] [1] [0] [0] [] []
  dot_S512x512_S512x1024_S512x1024_1_0_0_1_n_n_wf : DotDims.WF S512x512 S512x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S1024x1024.size a ≤ S1024x1024.size a
  hwx0_1 : ∀ i : grid0.Coords, EltTy.bits .bf16 = 32 ∨ (Rect.block (s := S1024x1024) S1024x1024.size (cc0_transform_1 i) (hinb0_1 i)).WholeWords (EltTy.packing .bf16)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x1024.size a ≤ S1x1024.size a
  hwx0_2 : ∀ i : grid0.Coords, EltTy.bits .f32 = 32 ∨ (Rect.block (s := S1x1024) S1x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x1024.size a ≤ S1x1024.size a
  hwx0_4 : ∀ i : grid0.Coords, EltTy.bits .f32 = 32 ∨ (Rect.block (s := S1x1024) S1x1024.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .bf16 = 32 ∨ (Rect.block (s := S8192x1024) S512x1024.size (cc0_transform_7 i) (hinb0_7 i)).WholeWords (EltTy.packing .bf16)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S512x1024.size a ≤ S8192x1024.size a
  hwx0_8 : ∀ i : grid0.Coords, EltTy.bits .bf16 = 32 ∨ (Rect.block (s := S8192x1024) S512x1024.size (cc0_transform_8 i) (hinb0_8 i)).WholeWords (EltTy.packing .bf16)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S512x1024.size a ≤ S8192x1024.size a
  hwx0_9 : ∀ i : grid0.Coords, EltTy.bits .bf16 = 32 ∨ (Rect.block (s := S8192x1024) S512x1024.size (cc0_transform_9 i) (hinb0_9 i)).WholeWords (EltTy.packing .bf16)
  hrank1 : 0 < grid1.rank
  k1_mult1_dvd : ∀ i : grid1.Coords, ∀ (k1_h2 : k1_cond2 i = 1#1), 512 ∣ (k1_mult1 i).toNat
  k1_off1_inb : ∀ i : grid1.Coords, ∀ (k1_h2 : k1_cond2 i = 1#1), ∀ a, (k1_off1 i) a + S1x512x1024.size a ≤ S1x1024x1024.size a
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x512x1024.size a ≤ S8x1024x1024.size a
  hwx1_0 : ∀ i : grid1.Coords, EltTy.bits .bf16 = 32 ∨ (Rect.block (s := S8x1024x1024) S1x512x1024.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x1024x1024.size a
  hwx1_1 : ∀ i : grid1.Coords, EltTy.bits .bf16 = 32 ∨ (Rect.block (s := S8x1024x1024) S1x1024x1024.size (cc1_transform_1 i) (hinb1_1 i)).WholeWords (EltTy.packing .bf16)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S1x1024x1024.size a ≤ S8x1024x1024.size a
  hwx1_2 : ∀ i : grid1.Coords, EltTy.bits .bf16 = 32 ∨ (Rect.block (s := S8x1024x1024) S1x1024x1024.size (cc1_transform_2 i) (hinb1_2 i)).WholeWords (EltTy.packing .bf16)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1024x1024.size a ≤ S1024x1024.size a
  hwx1_3 : ∀ i : grid1.Coords, EltTy.bits .bf16 = 32 ∨ (Rect.block (s := S1024x1024) S1024x1024.size (cc1_transform_3 i) (hinb1_3 i)).WholeWords (EltTy.packing .bf16)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S1x1024.size a ≤ S1x1024.size a
  hwx1_4 : ∀ i : grid1.Coords, EltTy.bits .f32 = 32 ∨ (Rect.block (s := S1x1024) S1x1024.size (cc1_transform_4 i) (hinb1_4 i)).WholeWords (EltTy.packing .f32)
  hstage1_5 : ∀ j, (stage1_5 j).IsWhole
  nbuf1_5 : grid1.bufCount reads1_5 false = 2
  hreads1_5 : ∀ i i' : grid1.Coords, (∀ a, reads1_5 a = true → i a = i' a) → cc1_transform_5 i = cc1_transform_5 i'
  hinb1_5 : ∀ (i : grid1.Coords) a, (cc1_transform_5 i a + 1) * S1x512x1024.size a ≤ S8x1024x1024.size a
  hwx1_5 : ∀ i : grid1.Coords, EltTy.bits .f32 = 32 ∨ (Rect.block (s := S8x1024x1024) S1x512x1024.size (cc1_transform_5 i) (hinb1_5 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf
def dot_S512x1024_S512x1024_S512x512_1_1_0_0_n_n : DotDims S512x1024 S512x1024 S512x512 where
  lhsContracting := [1]
  rhsContracting := [1]
  lhsNonContracting := [0]
  rhsNonContracting := [0]
  lhsBatch := []
  rhsBatch := []
  wf := dot_S512x1024_S512x1024_S512x512_1_1_0_0_n_n_wf
def dot_S512x512_S512x1024_S512x1024_1_0_0_1_n_n : DotDims S512x512 S512x1024 S512x1024 where
  lhsContracting := [1]
  rhsContracting := [0]
  lhsNonContracting := [0]
  rhsNonContracting := [1]
  lhsBatch := []
  rhsBatch := []
  wf := dot_S512x512_S512x1024_S512x1024_1_0_0_1_n_n_wf

abbrev win0_0 : Pipeline.Window sig grid0 :=
  Pipeline.Window.ofSpec (Memref.whole main_v0) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v2) S1024x1024.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v9) S1x1024.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v4) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v10) S1x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v6) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v11) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v13_0) S512x1024.size cc0_transform_7 reads0_7 true false 2 stage0_7 sem0_7
    hrank0 hreads0_7 hinb0_7 nbuf0_7 (Memref.isWhole_whole _) hwx0_7 hstage0_7

abbrev win0_8 : Pipeline.Window sig grid0 :=
  Pipeline.Window.ofSpec (Memref.whole main_v13_1) S512x1024.size cc0_transform_8 reads0_8 true false 2 stage0_8 sem0_8
    hrank0 hreads0_8 hinb0_8 nbuf0_8 (Memref.isWhole_whole _) hwx0_8 hstage0_8

abbrev win0_9 : Pipeline.Window sig grid0 :=
  Pipeline.Window.ofSpec (Memref.whole main_v13_2) S512x1024.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

abbrev win1_0 : Pipeline.Window sig grid1 :=
  Pipeline.Window.ofSpec (Memref.whole main_v14) S1x512x1024.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v15) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v16) S1x1024x1024.size cc1_transform_2 reads1_2 false false 2 stage1_2 sem1_2
    hrank1 hreads1_2 hinb1_2 nbuf1_2 (Memref.isWhole_whole _) hwx1_2 hstage1_2

abbrev win1_3 : Pipeline.Window sig grid1 :=
  Pipeline.Window.ofSpec (Memref.whole main_v8) S1024x1024.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v12) S1x1024.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v17) S1x512x1024.size cc1_transform_5 reads1_5 true false 2 stage1_5 sem1_5
    hrank1 hreads1_5 hinb1_5 nbuf1_5 (Memref.isWhole_whole _) hwx1_5 hstage1_5

abbrev win1 : Fin 6 → Pipeline.Window sig grid1 := fun | 0 => win1_0 | 1 => win1_1 | 2 => win1_2 | 3 => win1_3 | 4 => win1_4 | 5 => win1_5 | ⟨_ + 6, h⟩ => absurd h (Nat.not_lt.2 (Nat.le_add_left _ _))
abbrev spec1 : Fin 6 → Pipeline.WinSpec sig grid1.rank := fun w => (win1 w).toWinSpec

abbrev idle1 : Fin 6 → grid1.Coords → Bool := fun | 0 => fun _ => false | 1 => fun _ => false | 2 => fun _ => false | 3 => fun _ => false | 4 => fun _ => false | 5 => fun i => !(k1_cond3 i == 1#1) | ⟨_ + 6, h⟩ => absurd h (Nat.not_lt.2 (Nat.le_add_left _ _))

class Facts : Prop extends Facts₀ where

variable [Facts]
-- ==== ReferenceIdeal.lean ====
abbrev S8x1024x1024 : Shape := ⟨3, ![8, 1024, 1024]⟩
abbrev S1024x1024 : Shape := ⟨2, ![1024, 1024]⟩
abbrev S1024 : Shape := ⟨1, ![1024]⟩
abbrev S_ : Shape := ⟨0, ![]⟩
abbrev S1x1x1024 : Shape := ⟨3, ![1, 1, 1024]⟩
abbrev S8x1024 : Shape := ⟨2, ![8, 1024]⟩
abbrev S8x1024x1 : Shape := ⟨3, ![8, 1024, 1]⟩

abbrev nBuf : Space → Nat
  | .hbm => 62
  | .vmem => 0
  | .smem => 0
  | _ => 0

abbrev bufTy : (tb : Table) → Fin (tcTables nBuf tb) → BufTy
  | .hbm, ⟨0, _⟩ => ⟨S8x1024x1024, .f32⟩
  | .hbm, ⟨1, _⟩ => ⟨S1024x1024, .f32⟩
  | .hbm, ⟨2, _⟩ => ⟨S1024, .f32⟩
  | .hbm, ⟨3, _⟩ => ⟨S1024x1024, .f32⟩
  | .hbm, ⟨4, _⟩ => ⟨S1024, .f32⟩
  | .hbm, ⟨5, _⟩ => ⟨S1024x1024, .f32⟩
  | .hbm, ⟨6, _⟩ => ⟨S1024, .f32⟩
  | .hbm, ⟨7, _⟩ => ⟨S1024x1024, .f32⟩
  | .hbm, ⟨8, _⟩ => ⟨S1024, .f32⟩
  | .hbm, ⟨9, _⟩ => ⟨S_, .f32⟩
  | .hbm, ⟨10, _⟩ => ⟨S_, .f32⟩
  | .hbm, ⟨11, _⟩ => ⟨S_, .f32⟩
  | .hbm, ⟨12, _⟩ => ⟨S8x1024x1024, .f32⟩
  | .hbm, ⟨13, _⟩ => ⟨S1x1x1024, .f32⟩
  | .hbm, ⟨14, _⟩ => ⟨S8x1024x1024, .f32⟩
  | .hbm, ⟨15, _⟩ => ⟨S8x1024x1024, .f32⟩
  | .hbm, ⟨16, _⟩ => ⟨S8x1024x1024, .f32⟩
  | .hbm, ⟨17, _⟩ => ⟨S1x1x1024, .f32⟩
  | .hbm, ⟨18, _⟩ => ⟨S8x1024x1024, .f32⟩
  | .hbm, ⟨19, _⟩ => ⟨S8x1024x1024, .f32⟩
  | .hbm, ⟨20, _⟩ => ⟨S8x1024x1024, .f32⟩
  | .hbm, ⟨21, _⟩ => ⟨S1x1x1024, .f32⟩
  | .hbm, ⟨22, _⟩ => ⟨S8x1024x1024, .f32⟩
  | .hbm, ⟨23, _⟩ => ⟨S8x1024x1024, .f32⟩
  | .hbm, ⟨24, _⟩ => ⟨S_, .i1⟩
  | .hbm, ⟨25, _⟩ => ⟨S1024x1024, .i1⟩
  | .hbm, ⟨26, _⟩ => ⟨S1024x1024, .i32⟩
  | .hbm, ⟨27, _⟩ => ⟨S_, .i32⟩
  | .hbm, ⟨28, _⟩ => ⟨S1024x1024, .i32⟩
  | .hbm, ⟨29, _⟩ => ⟨S1024x1024, .i32⟩
  | .hbm, ⟨30, _⟩ => ⟨S1024x1024, .i32⟩
  | .hbm, ⟨31, _⟩ => ⟨S1024x1024, .i1⟩
  | .hbm, ⟨32, _⟩ => ⟨S_, .i1⟩
  | .hbm, ⟨33, _⟩ => ⟨S1024x1024, .i1⟩
  | .hbm, ⟨34, _⟩ => ⟨S1024x1024, .i1⟩
  | .hbm, ⟨35, _⟩ => ⟨S8x1024x1024, .f32⟩
  | .hbm, ⟨36, _⟩ => ⟨S8x1024x1024, .f32⟩
  | .hbm, ⟨37, _⟩ => ⟨S8x1024x1024, .f32⟩
  | .hbm, ⟨38, _⟩ => ⟨S_, .f32⟩
  | .hbm, ⟨39, _⟩ => ⟨S_, .f32⟩
  | .hbm, ⟨40, _⟩ => ⟨S8x1024x1024, .i1⟩
  | .hbm, ⟨41, _⟩ => ⟨S8x1024x1024, .f32⟩
  | .hbm, ⟨42, _⟩ => ⟨S8x1024x1024, .f32⟩
  | .hbm, ⟨43, _⟩ => ⟨S_, .f32⟩
  | .hbm, ⟨44, _⟩ => ⟨S8x1024, .f32⟩
  | .hbm, ⟨45, _⟩ => ⟨S_, .f32⟩
  | .hbm, ⟨46, _⟩ => ⟨S8x1024, .f32⟩
  | .hbm, ⟨47, _⟩ => ⟨S8x1024, .f32⟩
  | .hbm, ⟨48, _⟩ => ⟨S8x1024x1, .f32⟩
  | .hbm, ⟨49, _⟩ => ⟨S8x1024x1024, .f32⟩
  | .hbm, ⟨50, _⟩ => ⟨S8x1024x1024, .f32⟩
  | .hbm, ⟨51, _⟩ => ⟨S8x1024x1024, .f32⟩
  | .hbm, ⟨52, _⟩ => ⟨S_, .f32⟩
  | .hbm, ⟨53, _⟩ => ⟨S8x1024, .f32⟩
  | .hbm, ⟨54, _⟩ => ⟨S8x1024x1, .f32⟩
  | .hbm, ⟨55, _⟩ => ⟨S8x1024x1024, .f32⟩
  | .hbm, ⟨56, _⟩ => ⟨S8x1024x1024, .f32⟩
  | .hbm, ⟨57, _⟩ => ⟨S8x1024x1024, .f32⟩
  | .hbm, ⟨58, _⟩ => ⟨S8x1024x1024, .f32⟩
  | .hbm, ⟨59, _⟩ => ⟨S1x1x1024, .f32⟩
  | .hbm, ⟨60, _⟩ => ⟨S8x1024x1024, .f32⟩
  | .hbm, ⟨61, _⟩ => ⟨S8x1024x1024, .f32⟩
  | _, _ => ⟨S8x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_cst_0 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_c : Ref sig .tc := ⟨.hbm, 24, rfl⟩
abbrev main_v13 : Ref sig .tc := ⟨.hbm, 25, rfl⟩
abbrev main_call0_v0 : Ref sig .tc := ⟨.hbm, 26, rfl⟩
abbrev main_call0_c : Ref sig .tc := ⟨.hbm, 27, rfl⟩
abbrev main_call0_v1 : Ref sig .tc := ⟨.hbm, 28, rfl⟩
abbrev main_call0_v2 : Ref sig .tc := ⟨.hbm, 29, rfl⟩
abbrev main_call0_v3 : Ref sig .tc := ⟨.hbm, 30, rfl⟩
abbrev main_call0_v4 : Ref sig .tc := ⟨.hbm, 31, rfl⟩
abbrev main_call0_c_0 : Ref sig .tc := ⟨.hbm, 32, rfl⟩
abbrev main_call0_v5 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_1 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_v18 : Ref sig .tc := ⟨.hbm, 42, rfl⟩
abbrev main_cst_2 : Ref sig .tc := ⟨.hbm, 43, rfl⟩
abbrev main_v19 : Ref sig .tc := ⟨.hbm, 44, rfl⟩
abbrev main_cst_3 : Ref sig .tc := ⟨.hbm, 45, rfl⟩
abbrev main_v20 : Ref sig .tc := ⟨.hbm, 46, rfl⟩
abbrev main_v21 : Ref sig .tc := ⟨.hbm, 47, rfl⟩
abbrev main_v22 : Ref sig .tc := ⟨.hbm, 48, rfl⟩
abbrev main_v23 : Ref sig .tc := ⟨.hbm, 49, rfl⟩
abbrev main_v24 : Ref sig .tc := ⟨.hbm, 50, rfl⟩
abbrev main_v25 : Ref sig .tc := ⟨.hbm, 51, rfl⟩
abbrev main_cst_4 : Ref sig .tc := ⟨.hbm, 52, rfl⟩
abbrev main_v26 : Ref sig .tc := ⟨.hbm, 53, rfl⟩
abbrev main_v27 : Ref sig .tc := ⟨.hbm, 54, rfl⟩
abbrev main_v28 : Ref sig .tc := ⟨.hbm, 55, rfl⟩
abbrev main_v29 : Ref sig .tc := ⟨.hbm, 56, rfl⟩
abbrev main_v30 : Ref sig .tc := ⟨.hbm, 57, rfl⟩
abbrev main_v31 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩

abbrev nD : Nat := 1
abbrev τ : Topo := Topo.v7x

variable {F : FTy → Type} [FloatOps F]

class Facts₀ : Prop where
  bcast_S1024_S1x1x1024_2 : S1024.BroadcastsInDim S1x1x1024 (![2] : Fin 1 → Fin S1x1x1024.rank)
  bcast_S1x1x1024_S8x1024x1024_0_1_2 : S1x1x1024.BroadcastsInDim S8x1024x1024 (![0, 1, 2] : Fin 3 → Fin S8x1024x1024.rank)
  bcast_S_S1024x1024 : S_.BroadcastsInDim S1024x1024 (![] : Fin 0 → Fin S1024x1024.rank)
  bcast_S_S8x1024x1024 : S_.BroadcastsInDim S8x1024x1024 (![] : Fin 0 → Fin S8x1024x1024.rank)
  bcast_S1024x1024_S8x1024x1024_1_2 : S1024x1024.BroadcastsInDim S8x1024x1024 (![1, 2] : Fin 2 → Fin S8x1024x1024.rank)
  reducesTo_S8x1024x1024_S8x1024_d2 : S8x1024x1024.ReducesTo [2] S8x1024
  h_S_ : 0 < S_.numel
  bcast_S_S8x1024 : S_.BroadcastsInDim S8x1024 (![] : Fin 0 → Fin S8x1024.rank)
  bcast_S8x1024_S8x1024x1_0_1 : S8x1024.BroadcastsInDim S8x1024x1 (![0, 1] : Fin 2 → Fin S8x1024x1.rank)
  bcast_S8x1024x1_S8x1024x1024_0_1_2 : S8x1024x1.BroadcastsInDim S8x1024x1024 (![0, 1, 2] : Fin 3 → Fin S8x1024x1024.rank)
  dot_S8x1024x1024_S1024x1024_S8x1024x1024_2_1_01_0_n_n_wf : DotDims.WF S8x1024x1024 S1024x1024 S8x1024x1024 [2] [1] [0, 1] [0] [] []
  dot_S8x1024x1024_S8x1024x1024_S8x1024x1024_2_2_1_1_0_0_wf : DotDims.WF S8x1024x1024 S8x1024x1024 S8x1024x1024 [2] [2] [1] [1] [0] [0]
  dot_S8x1024x1024_S8x1024x1024_S8x1024x1024_2_1_1_2_0_0_wf : DotDims.WF S8x1024x1024 S8x1024x1024 S8x1024x1024 [2] [1] [1] [2] [0] [0]

variable [Facts₀]

def dot_S8x1024x1024_S1024x1024_S8x1024x1024_2_1_01_0_n_n : DotDims S8x1024x1024 S1024x1024 S8x1024x1024 where
  lhsContracting := [2]
  rhsContracting := [1]
  lhsNonContracting := [0, 1]
  rhsNonContracting := [0]
  lhsBatch := []
  rhsBatch := []
  wf := dot_S8x1024x1024_S1024x1024_S8x1024x1024_2_1_01_0_n_n_wf
def dot_S8x1024x1024_S8x1024x1024_S8x1024x1024_2_2_1_1_0_0 : DotDims S8x1024x1024 S8x1024x1024 S8x1024x1024 where
  lhsContracting := [2]
  rhsContracting := [2]
  lhsNonContracting := [1]
  rhsNonContracting := [1]
  lhsBatch := [0]
  rhsBatch := [0]
  wf := dot_S8x1024x1024_S8x1024x1024_S8x1024x1024_2_2_1_1_0_0_wf
def dot_S8x1024x1024_S8x1024x1024_S8x1024x1024_2_1_1_2_0_0 : DotDims S8x1024x1024 S8x1024x1024 S8x1024x1024 where
  lhsContracting := [2]
  rhsContracting := [1]
  lhsNonContracting := [1]
  rhsNonContracting := [2]
  lhsBatch := [0]
  rhsBatch := [0]
  wf := dot_S8x1024x1024_S8x1024x1024_S8x1024x1024_2_1_1_2_0_0_wf

class Facts : Prop extends Facts₀ where

variable [Facts]
-- ==== Proof.KRegion0.lean ====
import proofs.«171720_j40072044871789_2_alg».proof.Proof.Gen.Kernel.Launch
import proofs.«171720_j40072044871789_2_alg».proof.Proof.Gen.Kernel.Skeleton
import proofs.«171720_j40072044871789_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The fused q/k/v projection: what one grid step does to its windows

The first kernel of the program projects a block of 512 rows of the activations three times: against each of
three 1024x1024 weight matrices, adding the matching 1x1024 bias row to every row of the product. Its body is
straight-line: it reads the activation block, the three matrices and the three bias rows whole, and writes each of
the three 512x1024 results whole, once.

This file states that step over the contents `V` the buffers have when the kernel is entered: each window's
block at a grid point is read off `V`; an input window's buffer holds its block at every point (the weights and
biases have a constant block index, so they are fetched once and stay); each output window's buffer after the step
is a closed function of the input blocks, the one whole-buffer write laid over anything.
-/

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region0
-- the buffer contents of the core when the kernel is entered
variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not: where it is not fetched its
    block index has not moved, and the step leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's buffer holds its block at every point, fetched there or not: where it is not fetched its
    block index has not moved, and the step leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's buffer holds its block at every point, fetched there or not: where it is not fetched its
    block index has not moved, and the step leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's buffer holds its block at every point, fetched there or not: where it is not fetched its
    block index has not moved, and the step leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's buffer holds its block at every point, fetched there or not: where it is not fetched its
    block index has not moved, and the step leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's buffer holds its block at every point, fetched there or not: where it is not fetched its
    block index has not moved, and the step leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's buffer holds its block at every point, fetched there or not: where it is not fetched its
    block index has not moved, and the step leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one the whole buffer -/

abbrev r0_x : Rect S512x1024 := Rect.unit (s := S512x1024) ![0, 0] S512x1024.size inb_S512x1024_S512x1024_0_0
abbrev r0_w : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0

/-! ## What the body leaves in each output window's buffer -/

/-- Output window 7's buffer after the step, from the activation block, a weight matrix and its bias row: the one
    whole-buffer write of the projection. -/
def out0_7 (x0 : Vec F S512x1024 .f32) (x1 : Vec F S1024x1024 .bf16) (x2 : Vec F S1x1024 .f32) : Vec F S512x1024 .bf16 :=
  View.canon [⟨r0_x, k0_pay2 (View.ld x0 r0_x) (View.ld x1 r0_w) (View.ld x2 r0_b)⟩]

/-- Output window 8's buffer after the step, from the activation block, a weight matrix and its bias row: the one
    whole-buffer write of the projection. -/
def out0_8 (x0 : Vec F S512x1024 .f32) (x3 : Vec F S1024x1024 .bf16) (x4 : Vec F S1x1024 .f32) : Vec F S512x1024 .bf16 :=
  View.canon [⟨r0_x, k0_pay3 (View.ld x0 r0_x) (View.ld x3 r0_w) (View.ld x4 r0_b)⟩]

/-- Output window 9's buffer after the step, from the activation block, a weight matrix and its bias row: the one
    whole-buffer write of the projection. -/
def out0_9 (x0 : Vec F S512x1024 .f32) (x5 : Vec F S1024x1024 .bf16) (x6 : Vec F S1x1024 .f32) : Vec F S512x1024 .bf16 :=
  View.canon [⟨r0_x, k0_pay4 (View.ld x0 r0_x) (View.ld x5 r0_w) (View.ld x6 r0_b)⟩]

/-- One whole-buffer write covers the buffer. -/
theorem cover0 (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

/-! ## The body's triple -/

set_option maxHeartbeats 4000000 in
/-- The body on whole buffers, with the input buffers reading `x0 .. x6` and the output buffers holding anything, runs
    to the continuation with the input buffers unchanged and each output buffer at its projection of the inputs. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The pipeline's proof data -/

/-- The proof data of the kernel's pipeline on core `c`: the arrays as the kernel finds them; after the step at point
    `t` each input's buffer at its block and each output's at its projection of the input blocks; the invariant
    the rest of the core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the step leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.KRegion1Pre.lean ====
/-
  The attention kernel's region, part one: where its three conditional blocks run.

  The grid is (batch, query tile, key tile) = (8, 2, 2); point t has key tile t mod 2 and query tile (t / 2) mod 2.
  The first block (reset the running maximum, normaliser and weighted sum) runs at key tile 0; the second (fold one
  key tile into them) wherever the key tile is not after the query tile, that is everywhere but t ≡ 1 (mod 4); the
  third (normalise, project, write the output tile) at key tile 1.  The output tile is stored only there, and it is
  written back exactly there.
-/
import proofs.«171720_j40072044871789_2_alg».proof.Proof.Gen.Kernel.Launch
import proofs.«171720_j40072044871789_2_alg».proof.Proof.Gen.Kernel.Skeleton
import proofs.«171720_j40072044871789_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! ## The three conditions, from the grid coordinates -/

/-- "The key tile is the first": the reset block's condition. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- "The key tile is not after the query tile": the fold block's condition. -/
abbrev cond1_1 (i : grid1.Coords) : Prop := k1_cond2 i = 1#1
theorem hcond1_1 : ∀ t : Fin cfg1.N, cond1_1 (grid1.coords t) ↔ t.val % 4 ≠ 1 :=
  (by decide +kernel : ∀ t : Fin grid1.N, cond1_1 (grid1.coords t) ↔ t.val % 4 ≠ 1)

/-- "The key tile is the last": the output block's condition. -/
abbrev cond1_2 (i : grid1.Coords) : Prop := k1_cond3 i = 1#1
theorem hcond1_2 : ∀ t : Fin cfg1.N, cond1_2 (grid1.coords t) ↔ t.val % 2 = 1 :=
  (by decide +kernel : ∀ t : Fin grid1.N, cond1_2 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At key tile 0 nothing is stored into the output tile and it is not written back. -/
theorem idleAt1_5 : ∀ t : Fin cfg1.N, t.val % 2 = 0 → cfg1.idle 5 (grid1.coords t) = true := by decide +kernel
theorem noFlush1_5 : ∀ t : Fin cfg1.N, t.val % 2 = 0 → (cfg1.win 5).flush t = false := by decide +kernel
/-- At key tile 1 it is stored. -/
theorem liveAt1_5 : ∀ t : Fin cfg1.N, t.val % 2 = 1 → cfg1.idle 5 (grid1.coords t) = false := by decide +kernel

/-! ## The memrefs the body is called with -/

abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)
/-- The running maximum, the running normaliser and the running weighted sum: whole buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view
abbrev VO1_5 : View sig .tc .vmem S1x512x1024 .f32 := (Memref.whole cc1_stg5_0 : Memref sig .tc .vmem S1x512x1024 .f32).view

end Cert.Kernel.Hand

end
-- ==== Proof.KRun1A.lean ====
/-
  The attention kernel's body at a point of key tile 0 (the reset and the fold run, the output block does not).
  The three accumulators are stored whole by the reset, so what they held before does not matter; the fold then reads
  them back and stores them again.  The output tile's buffer is handed back as it was found.  What each accumulator
  ends with is a list of stored pieces.
-/
import proofs.«171720_j40072044871789_2_alg».proof.Proof.KRegion1Pre

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : cond1_1 i) (hc2 : ¬cond1_2 i)
    (x0 : Vec F S1x512x1024 .bf16) (x1 : Vec F S1x1024x1024 .bf16) (x2 : Vec F S1x1024x1024 .bf16) (x3 : Vec F S1024x1024 .bf16) (x4 : Vec F S1x1024 .f32) :
    Σ' (LS0 : List (View.Piece (Elt F) S512x1 .f32)) (LS1 : List (View.Piece (Elt F) S512x1 .f32)), { LS2 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc1__flash_o_kernel i arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__flash_o_kernel_eq_skeleton]; unfold cc1__flash_o_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e0, %g0, -, HS0⟩, ⟨%e1, %g1, -, HS1⟩, ⟨%e2, %g2, -, HS2⟩, Hk⟩
    obtain rfl := harg3.eq_unread hf0; obtain rfl := harg4.eq_unread hf1; obtain rfl := harg5.eq_unread hf2
    obtain rfl := harg6.eq_unread hf3; obtain rfl := harg7.eq_unread hf4
    obtain rfl := harg8.eq_unread hf5
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.Kernel.Hand

end
-- ==== Proof.KRun1B.lean ====
/-
  The attention kernel's body at a point where the key tile is the last and lies after the query tile (only the
  output block runs): the normaliser and the weighted sum are read, the quotient is projected and the output tile
  stored whole; the three accumulators are left as they were.
-/
import proofs.«171720_j40072044871789_2_alg».proof.Proof.KRegion1Pre

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_B (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : ¬cond1_1 i) (hc2 : cond1_2 i)
    (x0 : Vec F S1x512x1024 .bf16) (x1 : Vec F S1x1024x1024 .bf16) (x2 : Vec F S1x1024x1024 .bf16) (x3 : Vec F S1024x1024 .bf16) (x4 : Vec F S1x1024 .f32) (s1 : Vec F S512x1 .f32) (s2 : Vec F S512x1024 .f32) :
    { L5 : List (View.Piece (Elt F) S1x512x1024 .f32) //
      ∀ (s0 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare s0 ∗ owns (c : Thread nD τ) arg10 fullShare s1 ∗ owns (c : Thread nD τ) arg11 fullShare s2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)
                ∗ owns (c : Thread nD τ) arg9 fullShare s0 ∗ owns (c : Thread nD τ) arg10 fullShare s1 ∗ owns (c : Thread nD τ) arg11 fullShare s2) -∗ K ⟨⟩))
          ⊢ wp frame (wpE (defs₀ (F := F)) Variants.none c none) E (cc1__flash_o_kernel i arg3 harg3 arg4 harg4 arg5 harg5 arg6 harg6 arg7 harg7 arg8 harg8 arg9 harg9 arg10 harg10 arg11 harg11) K } := by
  refine ⟨?_, fun s0 E K => ?run⟩
  case run =>
    simp only [cc1__flash_o_kernel_eq_skeleton]; unfold cc1__flash_o_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g0, %hg0, HS0⟩, ⟨%g1, %hg1, HS1⟩, ⟨%g2, %hg2, HS2⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hg0; obtain rfl := harg10.eq_unread hg1; obtain rfl := harg11.eq_unread hg2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.Kernel.Hand

end
-- ==== Proof.KRun1C.lean ====
/-
  The attention kernel's body at a point where the key tile is the last and is the query tile's own (the fold and
  the output block run): the accumulators, at what the point before left, are folded with this key tile and stored
  again, then read back, the quotient projected and the output tile stored whole.
-/
import proofs.«171720_j40072044871789_2_alg».proof.Proof.KRegion1Pre

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

set_option maxHeartbeats 4000000 in
noncomputable def kernelRun1_C (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i) (hc2 : cond1_2 i)
    (x0 : Vec F S1x512x1024 .bf16) (x1 : Vec F S1x1024x1024 .bf16) (x2 : Vec F S1x1024x1024 .bf16) (x3 : Vec F S1024x1024 .bf16) (x4 : Vec F S1x1024 .f32) (s0 : Vec F S512x1 .f32) (s1 : Vec F S512x1 .f32) (s2 : Vec F S512x1024 .f32) :
    Σ' (L5 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare s0 ∗ owns (c : Thread nD τ) arg10 fullShare s1 ∗ owns (c : Thread nD τ) arg11 fullShare s2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc1__flash_o_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_o_kernel_eq_skeleton]; unfold cc1__flash_o_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g0, %hg0, HS0⟩, ⟨%g1, %hg1, HS1⟩, ⟨%g2, %hg2, HS2⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hg0; obtain rfl := harg10.eq_unread hg1; obtain rfl := harg11.eq_unread hg2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.Kernel.Hand

end
-- ==== Proof.KRegion1.lean ====
/-
  The attention kernel's region: what the output tile and the three accumulators (running maximum, running
  normaliser, running weighted sum) hold after each grid point, and the body's obligation to the pipeline.

  At a point of key tile 0 the accumulators are reset and the first key tile folded in; at key tile 1 the second key
  tile is folded in when it is the query tile's own (not when it lies after it), and then the quotient of the weighted
  sum by the normaliser is projected and stored as the output tile.  The accumulators are carried from key tile 0 to
  key tile 1 in the region's invariant; the output tile is stored, and written back, at key tile 1 only.
-/
import proofs.«171720_j40072044871789_2_alg».proof.Proof.KRun1A
import proofs.«171720_j40072044871789_2_alg».proof.Proof.KRun1B
import proofs.«171720_j40072044871789_2_alg».proof.Proof.KRun1C

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Every input window's current buffer holds its block at every point, fetched there or not: unfetched, the block
    index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The accumulators and the output tile, in this order: output tile, maximum, normaliser, weighted sum. -/
abbrev Acc (F : FTy → Type) : Type := Vec F S1x512x1024 .f32 × Vec F S512x1 .f32 × Vec F S512x1 .f32 × Vec F S512x1024 .f32

/-- Key tile 0: the output tile is not stored (a placeholder nothing reads); the accumulators hold the reset folded
    with the first key tile. -/
def valA (c : Dev nD) (t : Fin cfg1.N) (h : t.val % 2 = 0) : Acc F :=
  (VO1_5.read (Elt F) (VO1_5.writes (Elt F) VO1_5.junk []),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h) ((hcond1_1 t).mpr (by omega)) (fun hh => absurd ((hcond1_2 t).mp hh) (by omega)) (iblk1 V c 0 t) (iblk1 V c 1 t) (iblk1 V c 2 t) (iblk1 V c 3 t) (iblk1 V c 4 t)).1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h) ((hcond1_1 t).mpr (by omega)) (fun hh => absurd ((hcond1_2 t).mp hh) (by omega)) (iblk1 V c 0 t) (iblk1 V c 1 t) (iblk1 V c 2 t) (iblk1 V c 3 t) (iblk1 V c 4 t)).2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h) ((hcond1_1 t).mpr (by omega)) (fun hh => absurd ((hcond1_2 t).mp hh) (by omega)) (iblk1 V c 0 t) (iblk1 V c 1 t) (iblk1 V c 2 t) (iblk1 V c 3 t) (iblk1 V c 4 t)).2.2.1))

/-- Key tile 1 after the query tile: the accumulators stay; the output tile is stored from them. -/
def valB (c : Dev nD) (t : Fin cfg1.N) (h : t.val % 4 = 1) (p : Acc F) : Acc F :=
  (VO1_5.read (Elt F) (VO1_5.writes (Elt F) VO1_5.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) (fun hh => (hcond1_1 t).mp hh h) ((hcond1_2 t).mpr (by omega)) (iblk1 V c 0 t) (iblk1 V c 1 t) (iblk1 V c 2 t) (iblk1 V c 3 t) (iblk1 V c 4 t) p.2.2.1 p.2.2.2).1),
   p.2.1, p.2.2.1, p.2.2.2)

/-- Key tile 1 on the diagonal: the accumulators are folded with the second key tile, and the output tile stored. -/
def valC (c : Dev nD) (t : Fin cfg1.N) (h : t.val % 4 = 3) (p : Acc F) : Acc F :=
  (VO1_5.read (Elt F) (VO1_5.writes (Elt F) VO1_5.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) p.2.1 p.2.2.1 p.2.2.2).1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) p.2.1 p.2.2.1 p.2.2.2).2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) p.2.1 p.2.2.1 p.2.2.2).2.2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) p.2.1 p.2.2.1 p.2.2.2).2.2.2.1))

/-! ## The stores cover the buffers they go into -/

theorem scoverA_0 (c : Dev nD) (t : Fin cfg1.N) (h : t.val % 2 = 0) (y : S512x1.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h) ((hcond1_1 t).mpr (by omega)) (fun hh => absurd ((hcond1_2 t).mp hh) (by omega)) (iblk1 V c 0 t) (iblk1 V c 1 t) (iblk1 V c 2 t) (iblk1 V c 3 t) (iblk1 V c 4 t)).1, y ∈ pc.1.set :=
  View.cover_of_tiledL _ S512x1.size (by sl_kernel_rfl) y
theorem scoverA_1 (c : Dev nD) (t : Fin cfg1.N) (h : t.val % 2 = 0) (y : S512x1.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h) ((hcond1_1 t).mpr (by omega)) (fun hh => absurd ((hcond1_2 t).mp hh) (by omega)) (iblk1 V c 0 t) (iblk1 V c 1 t) (iblk1 V c 2 t) (iblk1 V c 3 t) (iblk1 V c 4 t)).2.1, y ∈ pc.1.set :=
  View.cover_of_tiledL _ S512x1.size (by sl_kernel_rfl) y
theorem scoverA_2 (c : Dev nD) (t : Fin cfg1.N) (h : t.val % 2 = 0) (y : S512x1024.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h) ((hcond1_1 t).mpr (by omega)) (fun hh => absurd ((hcond1_2 t).mp hh) (by omega)) (iblk1 V c 0 t) (iblk1 V c 1 t) (iblk1 V c 2 t) (iblk1 V c 3 t) (iblk1 V c 4 t)).2.2.1, y ∈ pc.1.set :=
  View.cover_of_tiledL _ S512x1024.size (by sl_kernel_rfl) y
theorem coverB_5 (c : Dev nD) (t : Fin cfg1.N) (h : t.val % 4 = 1) (s1 : Vec F S512x1 .f32) (s2 : Vec F S512x1024 .f32) (y : S1x512x1024.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) (fun hh => (hcond1_1 t).mp hh h) ((hcond1_2 t).mpr (by omega)) (iblk1 V c 0 t) (iblk1 V c 1 t) (iblk1 V c 2 t) (iblk1 V c 3 t) (iblk1 V c 4 t) s1 s2).1, y ∈ pc.1.set :=
  View.cover_of_tiledL _ S1x512x1024.size (by sl_kernel_rfl) y
theorem coverC_5 (c : Dev nD) (t : Fin cfg1.N) (h : t.val % 4 = 3) (s0 s1 : Vec F S512x1 .f32) (s2 : Vec F S512x1024 .f32) (y : S1x512x1024.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) s0 s1 s2).1, y ∈ pc.1.set :=
  View.cover_of_tiledL _ S1x512x1024.size (by sl_kernel_rfl) y
theorem scoverC_0 (c : Dev nD) (t : Fin cfg1.N) (h : t.val % 4 = 3) (s0 s1 : Vec F S512x1 .f32) (s2 : Vec F S512x1024 .f32) (y : S512x1.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) s0 s1 s2).2.1, y ∈ pc.1.set :=
  View.cover_of_tiledL _ S512x1.size (by sl_kernel_rfl) y
theorem scoverC_1 (c : Dev nD) (t : Fin cfg1.N) (h : t.val % 4 = 3) (s0 s1 : Vec F S512x1 .f32) (s2 : Vec F S512x1024 .f32) (y : S512x1.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) s0 s1 s2).2.2.1, y ∈ pc.1.set :=
  View.cover_of_tiledL _ S512x1.size (by sl_kernel_rfl) y
theorem scoverC_2 (c : Dev nD) (t : Fin cfg1.N) (h : t.val % 4 = 3) (s0 s1 : Vec F S512x1 .f32) (s2 : Vec F S512x1024 .f32) (y : S512x1024.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) s0 s1 s2).2.2.2.1, y ∈ pc.1.set :=
  View.cover_of_tiledL _ S512x1024.size (by sl_kernel_rfl) y

/-! ## The accumulation, point by point -/

/-- What the output tile's buffer and the accumulators hold after the body at position n. -/
def outsAt1 (c : Dev nD) : (n : ℕ) → n < cfg1.N → Acc F
  | 0, hn => valA V c ⟨0, hn⟩ (Nat.zero_mod _)
  | n + 1, hn =>
    if h0 : (n + 1) % 2 = 0 then valA V c ⟨n + 1, hn⟩ h0
    else if h1 : (n + 1) % 4 = 1 then valB V c ⟨n + 1, hn⟩ h1 (outsAt1 c n (Nat.lt_of_succ_lt hn))
    else valC V c ⟨n + 1, hn⟩ (by show (n + 1) % 4 = 3; omega) (outsAt1 c n (Nat.lt_of_succ_lt hn))

theorem outsAt1_A (c : Dev nD) (t : Fin cfg1.N) (h : t.val % 2 = 0) : outsAt1 V c t.val t.isLt = valA V c t h := by
  obtain ⟨n, hn⟩ := t
  cases n with
  | zero => rfl
  | succ n => exact dif_pos h

theorem outsAt1_B (c : Dev nD) (t : Fin cfg1.N) (h : t.val % 4 = 1) :
    outsAt1 V c t.val t.isLt = valB V c t h (outsAt1 V c (t.val - 1) (Nat.lt_of_le_of_lt (Nat.sub_le _ _) t.isLt)) := by
  obtain ⟨n, hn⟩ := t
  cases n with
  | zero => exact absurd (show (0 : ℕ) % 4 = 1 from h) (by decide)
  | succ n => exact (dif_neg (by have h' : (n + 1) % 4 = 1 := h; omega)).trans (dif_pos h)

theorem outsAt1_C (c : Dev nD) (t : Fin cfg1.N) (h : t.val % 4 = 3) :
    outsAt1 V c t.val t.isLt = valC V c t h (outsAt1 V c (t.val - 1) (Nat.lt_of_le_of_lt (Nat.sub_le _ _) t.isLt)) := by
  obtain ⟨n, hn⟩ := t
  cases n with
  | zero => exact absurd (show (0 : ℕ) % 4 = 3 from h) (by decide)
  | succ n => exact (dif_neg (by have h' : (n + 1) % 4 = 3 := h; omega)).trans (dif_neg (by have h' : (n + 1) % 4 = 3 := h; omega))

/-! ## The invariant -/

/-- The kernel's own scoped buffers. -/
abbrev scratch1 : List (Ref sig .tc) := [cc1_scratch0, cc1_scratch1, cc1_scratch2]

/-- The scoped buffers that are neither a staging buffer of this call nor its accumulators, at some contents. -/
abbrev others1 (c : Dev nD) : sProp 𝕄 := Pipeline.scopedRestBut (Ix := Unit) (Name := ℕ) (U := UR sig nD τ) (Lvl := ℕ) (Val := Elt F) spec1 c scratch1

/-- Before the first point the accumulators hold anything; after point n they hold what that point left. -/
def PhiS (c : Dev nD) : (n : ℕ) → n ≤ cfg1.N → sProp 𝕄
  | 0, _ => Pipeline.ΦA spec1 c
  | n + 1, hn => iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ others1 c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ others1 c ∗ (∃ r, prngReg c r)) := rfl

theorem PhiS_pos (c : Dev nD) (n : ℕ) (h : n ≤ cfg1.N) (hz : n ≠ 0) :
    PhiS V c n h = iprop(owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ others1 c ∗ (∃ r, prngReg c r)) := by
  cases n with
  | zero => exact absurd rfl hz
  | succ n => rfl

/-- The plain invariant with the accumulators split out of the scoped rest, each at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ others1 c) ∗ (∃ r, prngReg c r)) := by
  unfold Pipeline.ΦA
  rw [Pipeline.scopedRest_split_of_list spec1 c scratch1 (by decide) (by decide)]
  simp only [scM1_0, scM1_1, scM1_2, owns_whole, Idealize.SL.BI.bigSepL]
  try rfl

end Region1

end Cert.Kernel.Hand

end
-- ==== Proof.KRegion1Body.lean ====
/-
  The attention kernel's region: the proof data handed to the pipeline and the body's obligation at every grid point.
  Each input window's buffer holds its block; the invariant hands the body the three accumulators (at anything before
  the first point, then at what the point before left) and takes them back at what this point leaves; the output
  tile's buffer is handed back untouched at key tile 0 and holds the stored tile at key tile 1.
-/
import proofs.«171720_j40072044871789_2_alg».proof.Proof.KRegion1

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-- The proof data of the attention kernel's pipeline on core c, from the region-entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 32 := lt_of_lt_of_eq t.isLt (show cfg1.N = 32 from N_1)
  by_cases h0 : t.val % 2 = 0
  · -- key tile 0: reset and fold; the output tile's buffer goes back untouched
    rw [Dat.leavesExact_idle (dat1 V c) 5 t (idleAt1_5 t h0) (noFlush1_5 t h0)]
    rw [outsAt1_A V c t h0]
    unfold valA; (try dsimp only)
    by_cases hz : t.val = 0
    · rw [PhiS_castSucc V c t, PhiS_zero V c _ _ hz, PhiA1_eq]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) ((hcond1_1 t).mpr (by omega)) (fun hh => absurd ((hcond1_2 t).mp hh) (by omega)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hoth Hg]
      · isplitl [HS0]
        · unfold owns; iexists _; isplitr
          swap; · iexact HS0
          ipureintro; exact View.read_writes_of_cover _ _ _ _ _ (scoverA_0 V c t h0)
        isplitl [HS1]
        · unfold owns; iexists _; isplitr
          swap; · iexact HS1
          ipureintro; exact View.read_writes_of_cover _ _ _ _ _ (scoverA_1 V c t h0)
        isplitl [HS2]
        · unfold owns; iexists _; isplitr
          swap; · iexact HS2
          ipureintro; exact View.read_writes_of_cover _ _ _ _ _ (scoverA_2 V c t h0)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨HS0, HS1, HS2, Hoth, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) ((hcond1_1 t).mpr (by omega)) (fun hh => absurd ((hcond1_2 t).mp hh) (by omega)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hoth Hg]
      · isplitl [HS0]
        · unfold owns; iexists _; isplitr
          swap; · iexact HS0
          ipureintro; exact View.read_writes_of_cover _ _ _ _ _ (scoverA_0 V c t h0)
        isplitl [HS1]
        · unfold owns; iexists _; isplitr
          swap; · iexact HS1
          ipureintro; exact View.read_writes_of_cover _ _ _ _ _ (scoverA_1 V c t h0)
        isplitl [HS2]
        · unfold owns; iexists _; isplitr
          swap; · iexact HS2
          ipureintro; exact View.read_writes_of_cover _ _ _ _ _ (scoverA_2 V c t h0)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    rw [show (dat1 V c).leavesExact 5 t = owns (c : Thread nD τ) (ms1_5 t) fullShare ((dat1 V c).after 5 t) from by
      unfold Dat.leavesExact; rw [liveAt1_5 t (by omega)], after1_5]
    rw [PhiS_castSucc V c t, PhiS_pos V c _ _ hz]
    by_cases h1 : t.val % 4 = 1
    · -- key tile 1 after the query tile: the accumulators stay, the output tile is stored from them
      rw [outsAt1_B V c t h1]
      unfold valB; (try dsimp only)
      iintro ⟨⟨HS0, HS1, HS2, Hoth, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ (fun hh => absurd ((hcond1_0 t).mp hh) (by omega)) (fun hh => (hcond1_1 t).mp hh h1) ((hcond1_2 t).mpr (by omega)) (iblk1 V c 0 t) (iblk1 V c 1 t) (iblk1 V c 2 t) (iblk1 V c 3 t) (iblk1 V c 4 t) _ _).2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverB_5 V c t h1 _ _)
    · -- key tile 1 on the diagonal: the second key tile is folded in, then the output tile stored
      have h3 : t.val % 4 = 3 := by omega
      rw [outsAt1_C V c t h3]
      unfold valC; (try dsimp only)
      iintro ⟨⟨HS0, HS1, HS2, Hoth, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HS0 HS1 HS2 Hoth Hg]
      · isplitl [HS0]
        · unfold owns; iexists _; isplitr
          swap; · iexact HS0
          ipureintro; exact View.read_writes_of_cover _ _ _ _ _ (scoverC_0 V c t h3 _ _ _)
        isplitl [HS1]
        · unfold owns; iexists _; isplitr
          swap; · iexact HS1
          ipureintro; exact View.read_writes_of_cover _ _ _ _ _ (scoverC_1 V c t h3 _ _ _)
        isplitl [HS2]
        · unfold owns; iexists _; isplitr
          swap; · iexact HS2
          ipureintro; exact View.read_writes_of_cover _ _ _ _ _ (scoverC_2 V c t h3 _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_5 V c t h3 _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives back the plain one (the rest of the core's scoped memory and the generator
    register): what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, HS1, HS2, Hoth, Hg⟩
  isplitl [HS0 HS1 HS2 Hoth]
  · isplitl [HS0 HS1 HS2]
    · isplitl [HS0]; · iexists _; iexact HS0
      isplitl [HS1]; · iexists _; iexact HS1
      iexists _; iexact HS2
    iexact Hoth
  iexact Hg

theorem hout1 (c : Dev nD) : (dat1 V c).Φ (Fin.last cfg1.N) ⊢ Pipeline.ΦA spec1 c :=
  Phi_out1 V c _ (by rw [Fin.val_last]; have : cfg1.N = 32 := N_1; omega)

end Region1

end Cert.Kernel.Hand

end
-- ==== Proof.KRun.lean ====
/-
  The whole program as a run: the host operations before the projection kernel, that kernel's region, the host
  reshapes, the attention kernel's region.  At each boundary the TensorCore's unscoped buffers hold a valuation
  folded from the launch memory: a stretch of host operations applies them; a region leaves its windows' arrays at
  what its write-backs make of them and every other buffer alone.  Every weakly fair execution terminates, and at
  the end every unscoped buffer holds the last valuation.
-/
import proofs.«171720_j40072044871789_2_alg».proof.Proof.KRegion0
import proofs.«171720_j40072044871789_2_alg».proof.Proof.KRegion1Body
import proofs.«171720_j40072044871789_2_alg».proof.Proof.Gen.Kernel.Regions

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection kernel: its arrays at what the pipeline leaves, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshapes between the kernels. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention kernel. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer that no host operation writes and that is no window's array of either kernel ends as launched. -/
theorem W4_untouched (c : Dev nD) (b : Ref sig .tc) (h1 : ∀ w, Pipeline.arrRef spec1 w ≠ b) (h2 : b ∉ hostOps1_W)
    (h3 : ∀ w, Pipeline.arrRef spec0 w ≠ b) (h4 : b ∉ hostOps0_W) :
    W4 m ρ c (Proc.devRef .tc b) = m ((c : Thread nD τ).loc b) :=
  calc W4 m ρ c (Proc.devRef .tc b)
    _ = W3 m ρ c (Proc.devRef .tc b) := W4_of_ne m ρ c b h1
    _ = W2 m ρ c (Proc.devRef .tc b) := StableHlo.after_of_writes_sub hostOps1 _ hostOps1_writes h2
    _ = W1 m ρ c (Proc.devRef .tc b) := W2_of_ne m ρ c b h3
    _ = W0 m ρ c (Proc.devRef .tc b) := StableHlo.after_of_writes_sub hostOps0 _ hostOps0_writes h4
    _ = m ((c : Thread nD τ).loc b) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the
    contents after it; its arrays are split out of the unscoped buffers and put back at what the pipeline leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays are split out of the unscoped buffers and put back at what the pipeline leaves. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (pdats m ρ 1 c).Φ (Fin.last _) ⊢ (Pipeline.ΦA spec1 c : sProp 𝕄) := hout1 (V3 m ρ) c
    have h2 : (Pipeline.ΦA spec1 c : sProp 𝕄) ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched — none is written by a host operation, none is a window's
    array of either kernel (the kernels read reshaped and transposed copies). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_untouched m ρ c main_arg2 (by decide) (by decide) (by decide) (by decide)),
     (h c _ (mem_uc main_arg3 (by decide))).trans (W4_untouched m ρ c main_arg3 (by decide) (by decide) (by decide) (by decide)),
     (h c _ (mem_uc main_arg4 (by decide))).trans (W4_untouched m ρ c main_arg4 (by decide) (by decide) (by decide) (by decide)),
     (h c _ (mem_uc main_arg5 (by decide))).trans (W4_untouched m ρ c main_arg5 (by decide) (by decide) (by decide) (by decide)),
     (h c _ (mem_uc main_arg6 (by decide))).trans (W4_untouched m ρ c main_arg6 (by decide) (by decide) (by decide) (by decide)),
     (h c _ (mem_uc main_arg7 (by decide))).trans (W4_untouched m ρ c main_arg7 (by decide) (by decide) (by decide) (by decide)),
     (h c _ (mem_uc main_arg8 (by decide))).trans (W4_untouched m ρ c main_arg8 (by decide) (by decide) (by decide) (by decide))⟩)
    (run_all m ρ)

end Cert.Kernel.Hand

end
-- ==== Proof.KIRegion0.lean ====
import proofs.«171720_j40072044871789_2_alg».proof.Proof.Gen.KernelIdeal.Launch
import proofs.«171720_j40072044871789_2_alg».proof.Proof.Gen.KernelIdeal.Skeleton
import proofs.«171720_j40072044871789_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

/-!
# The fused q/k/v projection: what one grid step does to its windows

The first kernel of the program projects a block of 512 rows of the activations three times: against each of
three 1024x1024 weight matrices, adding the matching 1x1024 bias row to every row of the product. Its body is
straight-line: it reads the activation block, the three matrices and the three bias rows whole, and writes each of
the three 512x1024 results whole, once.

This file states that step over the contents `V` the buffers have when the kernel is entered: each window's
block at a grid point is read off `V`; an input window's buffer holds its block at every point (the weights and
biases have a constant block index, so they are fetched once and stay); each output window's buffer after the step
is a closed function of the input blocks, the one whole-buffer write laid over anything.
-/

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region0
-- the buffer contents of the core when the kernel is entered
variable (V : (c : Dev nD) → (b : Ref sig .tc) → Buf (Elt F) ((c : Thread nD τ).loc b))

/-! ## The windows' blocks -/

/-- Window `w`'s block at point `t`, read off its array as the kernel finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- Input window 0's buffer holds its block at every point, fetched there or not: where it is not fetched its
    block index has not moved, and the step leaves the block in place. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)

/-- Input window 1's buffer holds its block at every point, fetched there or not: where it is not fetched its
    block index has not moved, and the step leaves the block in place. -/
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- Input window 2's buffer holds its block at every point, fetched there or not: where it is not fetched its
    block index has not moved, and the step leaves the block in place. -/
theorem before0_2_of {c : Dev nD} (dat : Dat τ (Elt F) Unit ℕ (UR sig nD τ) ℕ cfg0 c) (hA : dat.A 2 = V c (Pipeline.arrRef spec0 2))
    (hafter : ∀ t, dat.after 2 t = iblk0 V c 2 t) (t : Fin cfg0.N) (d) : dat.before 2 t d = iblk0 V c 2 t :=
  (dat.before_in_eq_fetched 2 rfl (fun _ => rfl) (fun _ _ _ => rfl) (fun t => by rw [hafter]; unfold Dat.blockOf iblk0; rw [hA]; try rfl) t d).trans
    (by unfold Dat.fetched Dat.blockOf iblk0; rw [hA]; try rfl)

/-- Input window 3's buffer holds its block at every point, fetched there or not: where it is not fetched its
    block index has not moved, and the step leaves the block in place. -/
theorem before0_3_of {c : Dev nD} (dat : Dat τ (Elt F) Unit ℕ (UR sig nD τ) ℕ cfg0 c) (hA : dat.A 3 = V c (Pipeline.arrRef spec0 3))
    (hafter : ∀ t, dat.after 3 t = iblk0 V c 3 t) (t : Fin cfg0.N) (d) : dat.before 3 t d = iblk0 V c 3 t :=
  (dat.before_in_eq_fetched 3 rfl (fun _ => rfl) (fun _ _ _ => rfl) (fun t => by rw [hafter]; unfold Dat.blockOf iblk0; rw [hA]; try rfl) t d).trans
    (by unfold Dat.fetched Dat.blockOf iblk0; rw [hA]; try rfl)

/-- Input window 4's buffer holds its block at every point, fetched there or not: where it is not fetched its
    block index has not moved, and the step leaves the block in place. -/
theorem before0_4_of {c : Dev nD} (dat : Dat τ (Elt F) Unit ℕ (UR sig nD τ) ℕ cfg0 c) (hA : dat.A 4 = V c (Pipeline.arrRef spec0 4))
    (hafter : ∀ t, dat.after 4 t = iblk0 V c 4 t) (t : Fin cfg0.N) (d) : dat.before 4 t d = iblk0 V c 4 t :=
  (dat.before_in_eq_fetched 4 rfl (fun _ => rfl) (fun _ _ _ => rfl) (fun t => by rw [hafter]; unfold Dat.blockOf iblk0; rw [hA]; try rfl) t d).trans
    (by unfold Dat.fetched Dat.blockOf iblk0; rw [hA]; try rfl)

/-- Input window 5's buffer holds its block at every point, fetched there or not: where it is not fetched its
    block index has not moved, and the step leaves the block in place. -/
theorem before0_5_of {c : Dev nD} (dat : Dat τ (Elt F) Unit ℕ (UR sig nD τ) ℕ cfg0 c) (hA : dat.A 5 = V c (Pipeline.arrRef spec0 5))
    (hafter : ∀ t, dat.after 5 t = iblk0 V c 5 t) (t : Fin cfg0.N) (d) : dat.before 5 t d = iblk0 V c 5 t :=
  (dat.before_in_eq_fetched 5 rfl (fun _ => rfl) (fun _ _ _ => rfl) (fun t => by rw [hafter]; unfold Dat.blockOf iblk0; rw [hA]; try rfl) t d).trans
    (by unfold Dat.fetched Dat.blockOf iblk0; rw [hA]; try rfl)

/-- Input window 6's buffer holds its block at every point, fetched there or not: where it is not fetched its
    block index has not moved, and the step leaves the block in place. -/
theorem before0_6_of {c : Dev nD} (dat : Dat τ (Elt F) Unit ℕ (UR sig nD τ) ℕ cfg0 c) (hA : dat.A 6 = V c (Pipeline.arrRef spec0 6))
    (hafter : ∀ t, dat.after 6 t = iblk0 V c 6 t) (t : Fin cfg0.N) (d) : dat.before 6 t d = iblk0 V c 6 t :=
  (dat.before_in_eq_fetched 6 rfl (fun _ => rfl) (fun _ _ _ => rfl) (fun t => by rw [hafter]; unfold Dat.blockOf iblk0; rw [hA]; try rfl) t d).trans
    (by unfold Dat.fetched Dat.blockOf iblk0; rw [hA]; try rfl)

/-! ## The body's accesses: every one the whole buffer -/

abbrev r0_x : Rect S512x1024 := Rect.unit (s := S512x1024) ![0, 0] S512x1024.size inb_S512x1024_S512x1024_0_0
abbrev r0_w : Rect S1024x1024 := Rect.unit (s := S1024x1024) ![0, 0] S1024x1024.size inb_S1024x1024_S1024x1024_0_0
abbrev r0_b : Rect S1x1024 := Rect.unit (s := S1x1024) ![0, 0] S1x1024.size inb_S1x1024_S1x1024_0_0

/-! ## What the body leaves in each output window's buffer -/

/-- Output window 7's buffer after the step, from the activation block, a weight matrix and its bias row: the one
    whole-buffer write of the projection. -/
def out0_7 (x0 : Vec F S512x1024 .f32) (x1 : Vec F S1024x1024 .bf16) (x2 : Vec F S1x1024 .f32) : Vec F S512x1024 .bf16 :=
  View.canon [⟨r0_x, k0_pay2 (View.ld x0 r0_x) (View.ld x1 r0_w) (View.ld x2 r0_b)⟩]

/-- Output window 8's buffer after the step, from the activation block, a weight matrix and its bias row: the one
    whole-buffer write of the projection. -/
def out0_8 (x0 : Vec F S512x1024 .f32) (x3 : Vec F S1024x1024 .bf16) (x4 : Vec F S1x1024 .f32) : Vec F S512x1024 .bf16 :=
  View.canon [⟨r0_x, k0_pay3 (View.ld x0 r0_x) (View.ld x3 r0_w) (View.ld x4 r0_b)⟩]

/-- Output window 9's buffer after the step, from the activation block, a weight matrix and its bias row: the one
    whole-buffer write of the projection. -/
def out0_9 (x0 : Vec F S512x1024 .f32) (x5 : Vec F S1024x1024 .bf16) (x6 : Vec F S1x1024 .f32) : Vec F S512x1024 .bf16 :=
  View.canon [⟨r0_x, k0_pay4 (View.ld x0 r0_x) (View.ld x5 r0_w) (View.ld x6 r0_b)⟩]

/-- One whole-buffer write covers the buffer. -/
theorem cover0 (p0 : Vec F S512x1024 .bf16) (y : S512x1024.Idx) :
    ∃ pc ∈ ([⟨r0_x, p0⟩] : List (View.Piece (Elt F) S512x1024 .bf16)), y ∈ pc.1.set :=
  View.cover_of_tiled [⟨r0_x, p0⟩] S512x1024.size (by rfl) y

/-! ## The body's triple -/

set_option maxHeartbeats 4000000 in
/-- The body on whole buffers, with the input buffers reading `x0 .. x6` and the output buffers holding anything, runs
    to the continuation with the input buffers unchanged and each output buffer at its projection of the inputs. -/
theorem sound_kernel0 (c : Dev nD) (E : Set ℕ) (i : grid0.Coords) (arg1 : Memref sig .tc .vmem S512x1024 .f32) (harg1 : arg1.IsWhole) (arg2 : Memref sig .tc .vmem S1024x1024 .bf16) (harg2 : arg2.IsWhole) (arg3 : Memref sig .tc .vmem S1x1024 .f32) (harg3 : arg3.IsWhole) (arg4 : Memref sig .tc .vmem S1024x1024 .bf16) (harg4 : arg4.IsWhole) (arg5 : Memref sig .tc .vmem S1x1024 .f32) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S512x1024 .bf16) (harg8 : arg8.IsWhole) (arg9 : Memref sig .tc .vmem S512x1024 .bf16) (harg9 : arg9.IsWhole) (arg10 : Memref sig .tc .vmem S512x1024 .bf16) (harg10 : arg10.IsWhole)
    (x0 : Vec F S512x1024 .f32) (x1 : Vec F S1024x1024 .bf16) (x2 : Vec F S1x1024 .f32) (x3 : Vec F S1024x1024 .bf16) (x4 : Vec F S1x1024 .f32) (x5 : Vec F S1024x1024 .bf16) (x6 : Vec F S1x1024 .f32) (K : PUnit → sProp 𝕄) :
    iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ (∃ d, owns (c : Thread nD τ) arg8 fullShare d) ∗ (∃ d, owns (c : Thread nD τ) arg9 fullShare d) ∗ (∃ d, owns (c : Thread nD τ) arg10 fullShare d)
        ∗ (iprop(owns (c : Thread nD τ) arg1 fullShare x0 ∗ owns (c : Thread nD τ) arg2 fullShare x1 ∗ owns (c : Thread nD τ) arg3 fullShare x2 ∗ owns (c : Thread nD τ) arg4 fullShare x3 ∗ owns (c : Thread nD τ) arg5 fullShare x4 ∗ owns (c : Thread nD τ) arg6 fullShare x5 ∗ owns (c : Thread nD τ) arg7 fullShare x6 ∗ owns (c : Thread nD τ) arg8 fullShare (out0_7 x0 x1 x2) ∗ owns (c : Thread nD τ) arg9 fullShare (out0_8 x0 x3 x4) ∗ owns (c : Thread nD τ) arg10 fullShare (out0_9 x0 x5 x6)) -∗ K ⟨⟩))
      ⊢ wp frame (wpE (defs₀ (F := F)) Variants.none c none) E (cc0__qkv_kernel i arg1 harg1 arg2 harg2 arg3 harg3 arg4 harg4 arg5 harg5 arg6 harg6 arg7 harg7 arg8 harg8 arg9 harg9 arg10 harg10) K := by
  simp only [cc0__qkv_kernel_eq_skeleton]; unfold cc0__qkv_kernel_skel
  unfold owns
  iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, Hk⟩
  subst hf0 hf1 hf2 hf3 hf4 hf5 hf6
  sl_exec
  sl_step
  iapply Hk
  isplitl [H0]
  · iexists f0; isplitr; · ipureintro; rfl
    iexact H0
  isplitl [H1]
  · iexists f1; isplitr; · ipureintro; rfl
    iexact H1
  isplitl [H2]
  · iexists f2; isplitr; · ipureintro; rfl
    iexact H2
  isplitl [H3]
  · iexists f3; isplitr; · ipureintro; rfl
    iexact H3
  isplitl [H4]
  · iexists f4; isplitr; · ipureintro; rfl
    iexact H4
  isplitl [H5]
  · iexists f5; isplitr; · ipureintro; rfl
    iexact H5
  isplitl [H6]
  · iexists f6; isplitr; · ipureintro; rfl
    iexact H6
  isplitl [H7]
  · iexists _; isplitr
    swap; · iexact H7
    ipureintro
    exact View.read_writes_eq_canon _ _ _ (cover0 _)
  isplitl [H8]
  · iexists _; isplitr
    swap; · iexact H8
    ipureintro
    exact View.read_writes_eq_canon _ _ _ (cover0 _)
  iexists _; isplitr
  swap; · iexact H9
  ipureintro
  exact View.read_writes_eq_canon _ _ _ (cover0 _)

/-! ## The pipeline's proof data -/

/-- The proof data of the kernel's pipeline on core `c`: the arrays as the kernel finds them; after the step at point
    `t` each input's buffer at its block and each output's at its projection of the input blocks; the invariant
    the rest of the core's scoped memory and its generator register, untouched; nothing owed; full shares. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => iblk0 V c 2 t
    | ⟨3, _⟩ => iblk0 V c 3 t
    | ⟨4, _⟩ => iblk0 V c 4 t
    | ⟨5, _⟩ => iblk0 V c 5 t
    | ⟨6, _⟩ => iblk0 V c 6 t
    | ⟨7, _⟩ => out0_7 (iblk0 V c 0 t) (iblk0 V c 1 t) (iblk0 V c 2 t)
    | ⟨8, _⟩ => out0_8 (iblk0 V c 0 t) (iblk0 V c 3 t) (iblk0 V c 4 t)
    | ⟨9, _⟩ => out0_9 (iblk0 V c 0 t) (iblk0 V c 5 t) (iblk0 V c 6 t)
  Φ _ := Pipeline.ΦA spec0 c
  q _ := fullShare
  owed _ := 0

/-- The proof data's arrays are the entry contents. -/
theorem A_eq0 (c : Dev nD) (w : Fin cfg0.W) : (dat0 V c).A w = V c (Pipeline.arrRef spec0 w) := by
  dsimp only [dat0]

/-- What the step leaves, window by window. -/
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = iblk0 V c 2 t := by dsimp only [dat0]
theorem after0_3 (c : Dev nD) (t : Fin cfg0.N) : (dat0 V c).after 3 t = iblk0 V c 3 t := by dsimp only [dat0]
theorem after0_4 (c : Dev nD) (t : Fin cfg0.N) : (dat0 V c).after 4 t = iblk0 V c 4 t := by dsimp only [dat0]
theorem after0_5 (c : Dev nD) (t : Fin cfg0.N) : (dat0 V c).after 5 t = iblk0 V c 5 t := by dsimp only [dat0]
theorem after0_6 (c : Dev nD) (t : Fin cfg0.N) : (dat0 V c).after 6 t = iblk0 V c 6 t := by dsimp only [dat0]
theorem after0_7 (c : Dev nD) (t : Fin cfg0.N) : (dat0 V c).after 7 t = out0_7 (iblk0 V c 0 t) (iblk0 V c 1 t) (iblk0 V c 2 t) := by dsimp only [dat0]
theorem after0_8 (c : Dev nD) (t : Fin cfg0.N) : (dat0 V c).after 8 t = out0_8 (iblk0 V c 0 t) (iblk0 V c 3 t) (iblk0 V c 4 t) := by dsimp only [dat0]
theorem after0_9 (c : Dev nD) (t : Fin cfg0.N) : (dat0 V c).after 9 t = out0_9 (iblk0 V c 0 t) (iblk0 V c 5 t) (iblk0 V c 6 t) := by dsimp only [dat0]

/-- Each input's buffer holds its block at every point. -/
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d
theorem before0_2 (c : Dev nD) (t : Fin cfg0.N) (d) : (dat0 V c).before 2 t d = iblk0 V c 2 t :=
  before0_2_of V (dat0 V c) (A_eq0 V c 2) (after0_2 V c) t d
theorem before0_3 (c : Dev nD) (t : Fin cfg0.N) (d) : (dat0 V c).before 3 t d = iblk0 V c 3 t :=
  before0_3_of V (dat0 V c) (A_eq0 V c 3) (after0_3 V c) t d
theorem before0_4 (c : Dev nD) (t : Fin cfg0.N) (d) : (dat0 V c).before 4 t d = iblk0 V c 4 t :=
  before0_4_of V (dat0 V c) (A_eq0 V c 4) (after0_4 V c) t d
theorem before0_5 (c : Dev nD) (t : Fin cfg0.N) (d) : (dat0 V c).before 5 t d = iblk0 V c 5 t :=
  before0_5_of V (dat0 V c) (A_eq0 V c 5) (after0_5 V c) t d
theorem before0_6 (c : Dev nD) (t : Fin cfg0.N) (d) : (dat0 V c).before 6 t d = iblk0 V c 6 t :=
  before0_6_of V (dat0 V c) (A_eq0 V c 6) (after0_6 V c) t d

/-! ## The body obligation, at a generic point -/

/-- What the body is called with at point `t`, the windows one by one, -/
def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d))
    ∗ (∃ d, owns (c : Thread nD τ) (st0_5 t) fullShare ((dat0 V c).before 5 t d))
    ∗ (∃ d, owns (c : Thread nD τ) (st0_6 t) fullShare ((dat0 V c).before 6 t d))
    ∗ (∃ d, owns (c : Thread nD τ) (st0_7 t) fullShare ((dat0 V c).before 7 t d))
    ∗ (∃ d, owns (c : Thread nD τ) (st0_8 t) fullShare ((dat0 V c).before 8 t d))
    ∗ (∃ d, owns (c : Thread nD τ) (st0_9 t) fullShare ((dat0 V c).before 9 t d)))

/-- and what it returns. -/
def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t)
    ∗ owns (c : Thread nD τ) (st0_5 t) fullShare ((dat0 V c).after 5 t)
    ∗ owns (c : Thread nD τ) (st0_6 t) fullShare ((dat0 V c).after 6 t)
    ∗ owns (c : Thread nD τ) (st0_7 t) fullShare ((dat0 V c).after 7 t)
    ∗ owns (c : Thread nD τ) (st0_8 t) fullShare ((dat0 V c).after 8 t)
    ∗ owns (c : Thread nD τ) (st0_9 t) fullShare ((dat0 V c).after 9 t))

set_option maxHeartbeats 1000000 in
/-- The body at any point: the inputs' buffers hold their blocks, so the body's triple applies; the invariant and what
    the core owes pass through unread. -/
theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1, before0_2, before0_3, before0_4, before0_5, before0_6]
  rw [show (dat0 V c).Φ t.succ = (dat0 V c).Φ t.castSucc from rfl,
    show (dat0 V c).owesAt () t.succ = (dat0 V c).owesAt () t.castSucc from rfl,
    after0_0, after0_1, after0_2, after0_3, after0_4, after0_5, after0_6, after0_7, after0_8, after0_9]
  iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  iapply (sound_kernel0 c Set.univ _ _ _ _ _ _ _ _ _ _ _ _ _ _ _ _ _ _ _ _ _ (iblk0 V c 0 t) (iblk0 V c 1 t) (iblk0 V c 2 t) (iblk0 V c 3 t) (iblk0 V c 4 t) (iblk0 V c 5 t) (iblk0 V c 6 t) _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  iintro ⟨H0, H1, H2, H3, H4, H5, H6, H7, H8, H9⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  iexact H9

/-- The pipeline library's body obligation, at every point. -/
theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.KIRegion1Pre.lean ====
/-
  The attention kernel's region, part one: where its three conditional blocks run.

  The grid is (batch, query tile, key tile) = (8, 2, 2); point t has key tile t mod 2 and query tile (t / 2) mod 2.
  The first block (reset the running maximum, normaliser and weighted sum) runs at key tile 0; the second (fold one
  key tile into them) wherever the key tile is not after the query tile, that is everywhere but t ≡ 1 (mod 4); the
  third (normalise, project, write the output tile) at key tile 1.  The output tile is stored only there, and it is
  written back exactly there.
-/
import proofs.«171720_j40072044871789_2_alg».proof.Proof.Gen.KernelIdeal.Launch
import proofs.«171720_j40072044871789_2_alg».proof.Proof.Gen.KernelIdeal.Skeleton
import proofs.«171720_j40072044871789_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-! ## The three conditions, from the grid coordinates -/

/-- "The key tile is the first": the reset block's condition. -/
abbrev cond1_0 (i : grid1.Coords) : Prop := (Scalar.cmpi .ne (Scalar.extui (Scalar.cmpi .eq (BitVec.ofNat 32 (i 2).val) 0#32)) 0#32) = 1#1
theorem hcond1_0 : ∀ t : Fin cfg1.N, cond1_0 (grid1.coords t) ↔ t.val % 2 = 0 :=
  (by decide +kernel : ∀ t : Fin grid1.N, cond1_0 (grid1.coords t) ↔ t.val % 2 = 0)

/-- "The key tile is not after the query tile": the fold block's condition. -/
abbrev cond1_1 (i : grid1.Coords) : Prop := k1_cond2 i = 1#1
theorem hcond1_1 : ∀ t : Fin cfg1.N, cond1_1 (grid1.coords t) ↔ t.val % 4 ≠ 1 :=
  (by decide +kernel : ∀ t : Fin grid1.N, cond1_1 (grid1.coords t) ↔ t.val % 4 ≠ 1)

/-- "The key tile is the last": the output block's condition. -/
abbrev cond1_2 (i : grid1.Coords) : Prop := k1_cond3 i = 1#1
theorem hcond1_2 : ∀ t : Fin cfg1.N, cond1_2 (grid1.coords t) ↔ t.val % 2 = 1 :=
  (by decide +kernel : ∀ t : Fin grid1.N, cond1_2 (grid1.coords t) ↔ t.val % 2 = 1)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
theorem liveAt1_3 : ∀ t : Fin cfg1.N, cfg1.idle 3 (grid1.coords t) = false := by decide +kernel
theorem liveAt1_4 : ∀ t : Fin cfg1.N, cfg1.idle 4 (grid1.coords t) = false := by decide +kernel
/-- At key tile 0 nothing is stored into the output tile and it is not written back. -/
theorem idleAt1_5 : ∀ t : Fin cfg1.N, t.val % 2 = 0 → cfg1.idle 5 (grid1.coords t) = true := by decide +kernel
theorem noFlush1_5 : ∀ t : Fin cfg1.N, t.val % 2 = 0 → (cfg1.win 5).flush t = false := by decide +kernel
/-- At key tile 1 it is stored. -/
theorem liveAt1_5 : ∀ t : Fin cfg1.N, t.val % 2 = 1 → cfg1.idle 5 (grid1.coords t) = false := by decide +kernel

/-! ## The memrefs the body is called with -/

abbrev ms1_0 (t : Fin cfg1.N) : Memref sig .tc .vmem S1x512x1024 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .bf16 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S1x1024x1024 .bf16 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1024x1024 .bf16 := win1_3.stage (cfg1.slots t 3)
abbrev hs1_3 (t : Fin cfg1.N) : (ms1_3 t).IsWhole := hstage1_3 ((cfg1.slots t 3).cast nbuf1_3)
abbrev ms1_4 (t : Fin cfg1.N) : Memref sig .tc .vmem S1x1024 .f32 := win1_4.stage (cfg1.slots t 4)
abbrev hs1_4 (t : Fin cfg1.N) : (ms1_4 t).IsWhole := hstage1_4 ((cfg1.slots t 4).cast nbuf1_4)
abbrev ms1_5 (t : Fin cfg1.N) : Memref sig .tc .vmem S1x512x1024 .f32 := win1_5.stage (cfg1.slots t 5)
abbrev hs1_5 (t : Fin cfg1.N) : (ms1_5 t).IsWhole := hstage1_5 ((cfg1.slots t 5).cast nbuf1_5)
/-- The running maximum, the running normaliser and the running weighted sum: whole buffers of the kernel's own. -/
abbrev scM1_0 : Memref sig .tc .vmem S512x1 .f32 := Memref.whole cc1_scratch0
abbrev scM1_1 : Memref sig .tc .vmem S512x1 .f32 := Memref.whole cc1_scratch1
abbrev scM1_2 : Memref sig .tc .vmem S512x1024 .f32 := Memref.whole cc1_scratch2
abbrev VS1_0 : View sig .tc .vmem S512x1 .f32 := scM1_0.view
abbrev VS1_1 : View sig .tc .vmem S512x1 .f32 := scM1_1.view
abbrev VS1_2 : View sig .tc .vmem S512x1024 .f32 := scM1_2.view
abbrev VO1_5 : View sig .tc .vmem S1x512x1024 .f32 := (Memref.whole cc1_stg5_0 : Memref sig .tc .vmem S1x512x1024 .f32).view

end Cert.KernelIdeal.Hand

end
-- ==== Proof.KIRun1A.lean ====
/-
  The attention kernel's body at a point of key tile 0 (the reset and the fold run, the output block does not).
  The three accumulators are stored whole by the reset, so what they held before does not matter; the fold then reads
  them back and stores them again.  The output tile's buffer is handed back as it was found.  What each accumulator
  ends with is a list of stored pieces.
-/
import proofs.«171720_j40072044871789_2_alg».proof.Proof.KIRegion1Pre

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_A (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : cond1_0 i) (hc1 : cond1_1 i) (hc2 : ¬cond1_2 i)
    (x0 : Vec F S1x512x1024 .bf16) (x1 : Vec F S1x1024x1024 .bf16) (x2 : Vec F S1x1024x1024 .bf16) (x3 : Vec F S1024x1024 .bf16) (x4 : Vec F S1x1024 .f32) :
    Σ' (LS0 : List (View.Piece (Elt F) S512x1 .f32)) (LS1 : List (View.Piece (Elt F) S512x1 .f32)), { LS2 : List (View.Piece (Elt F) S512x1024 .f32) //
      ∀ (xi5 : Vec F S1x512x1024 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
            ∗ (∃ d, owns (c : Thread nD τ) arg9 fullShare d) ∗ (∃ d, owns (c : Thread nD τ) arg10 fullShare d) ∗ (∃ d, owns (c : Thread nD τ) arg11 fullShare d)
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare xi5
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc1__flash_o_kernel i arg3 harg3 arg4 harg4 arg5 harg5 arg6 harg6 arg7 harg7 arg8 harg8 arg9 harg9 arg10 harg10 arg11 harg11) K } := by
  refine ⟨?_, ?_, ?_, fun xi5 E K => ?run⟩
  case run =>
    simp only [cc1__flash_o_kernel_eq_skeleton]; unfold cc1__flash_o_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%e0, %g0, -, HS0⟩, ⟨%e1, %g1, -, HS1⟩, ⟨%e2, %g2, -, HS2⟩, Hk⟩
    obtain rfl := harg3.eq_unread hf0; obtain rfl := harg4.eq_unread hf1; obtain rfl := harg5.eq_unread hf2
    obtain rfl := harg6.eq_unread hf3; obtain rfl := harg7.eq_unread hf4
    obtain rfl := harg8.eq_unread hf5
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [HS0]; · iexists _; iexact HS0
    isplitl [HS1]; · iexists _; iexact HS1
    iexists _; iexact HS2

end Cert.KernelIdeal.Hand

end
-- ==== Proof.KIRun1B.lean ====
/-
  The attention kernel's body at a point where the key tile is the last and lies after the query tile (only the
  output block runs): the normaliser and the weighted sum are read, the quotient is projected and the output tile
  stored whole; the three accumulators are left as they were.
-/
import proofs.«171720_j40072044871789_2_alg».proof.Proof.KIRegion1Pre

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_B (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : ¬cond1_1 i) (hc2 : cond1_2 i)
    (x0 : Vec F S1x512x1024 .bf16) (x1 : Vec F S1x1024x1024 .bf16) (x2 : Vec F S1x1024x1024 .bf16) (x3 : Vec F S1024x1024 .bf16) (x4 : Vec F S1x1024 .f32) (s1 : Vec F S512x1 .f32) (s2 : Vec F S512x1024 .f32) :
    { L5 : List (View.Piece (Elt F) S1x512x1024 .f32) //
      ∀ (s0 : Vec F S512x1 .f32) (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare s0 ∗ owns (c : Thread nD τ) arg10 fullShare s1 ∗ owns (c : Thread nD τ) arg11 fullShare s2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)
                ∗ owns (c : Thread nD τ) arg9 fullShare s0 ∗ owns (c : Thread nD τ) arg10 fullShare s1 ∗ owns (c : Thread nD τ) arg11 fullShare s2) -∗ K ⟨⟩))
          ⊢ wp frame (wpE (defs₀ (F := F)) Variants.none c none) E (cc1__flash_o_kernel i arg3 harg3 arg4 harg4 arg5 harg5 arg6 harg6 arg7 harg7 arg8 harg8 arg9 harg9 arg10 harg10 arg11 harg11) K } := by
  refine ⟨?_, fun s0 E K => ?run⟩
  case run =>
    simp only [cc1__flash_o_kernel_eq_skeleton]; unfold cc1__flash_o_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g0, %hg0, HS0⟩, ⟨%g1, %hg1, HS1⟩, ⟨%g2, %hg2, HS2⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hg0; obtain rfl := harg10.eq_unread hg1; obtain rfl := harg11.eq_unread hg2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]
    · iexists _; isplitr; · ipureintro; exact harg9.read_unread _
      iexact HS0
    isplitl [HS1]
    · iexists _; isplitr; · ipureintro; exact harg10.read_unread _
      iexact HS1
    iexists _; isplitr; · ipureintro; exact harg11.read_unread _
    iexact HS2

end Cert.KernelIdeal.Hand

end
-- ==== Proof.KIRun1C.lean ====
/-
  The attention kernel's body at a point where the key tile is the last and is the query tile's own (the fold and
  the output block run): the accumulators, at what the point before left, are folded with this key tile and stored
  again, then read back, the quotient projected and the output tile stored whole.
-/
import proofs.«171720_j40072044871789_2_alg».proof.Proof.KIRegion1Pre

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

set_option maxHeartbeats 4000000 in
noncomputable def kernelRun1_C (c : Dev nD) (i : grid1.Coords) (arg3 : Memref sig .tc .vmem S1x512x1024 .bf16) (harg3 : arg3.IsWhole) (arg4 : Memref sig .tc .vmem S1x1024x1024 .bf16) (harg4 : arg4.IsWhole) (arg5 : Memref sig .tc .vmem S1x1024x1024 .bf16) (harg5 : arg5.IsWhole) (arg6 : Memref sig .tc .vmem S1024x1024 .bf16) (harg6 : arg6.IsWhole) (arg7 : Memref sig .tc .vmem S1x1024 .f32) (harg7 : arg7.IsWhole) (arg8 : Memref sig .tc .vmem S1x512x1024 .f32) (harg8 : arg8.IsWhole) (arg9 : Memref sig .tc .vmem S512x1 .f32) (harg9 : arg9.IsWhole) (arg10 : Memref sig .tc .vmem S512x1 .f32) (harg10 : arg10.IsWhole) (arg11 : Memref sig .tc .vmem S512x1024 .f32) (harg11 : arg11.IsWhole) (hc0 : ¬cond1_0 i) (hc1 : cond1_1 i) (hc2 : cond1_2 i)
    (x0 : Vec F S1x512x1024 .bf16) (x1 : Vec F S1x1024x1024 .bf16) (x2 : Vec F S1x1024x1024 .bf16) (x3 : Vec F S1024x1024 .bf16) (x4 : Vec F S1x1024 .f32) (s0 : Vec F S512x1 .f32) (s1 : Vec F S512x1 .f32) (s2 : Vec F S512x1024 .f32) :
    Σ' (L5 : List (View.Piece (Elt F) S1x512x1024 .f32)) (LS0 : List (View.Piece (Elt F) S512x1 .f32)) (LS1 : List (View.Piece (Elt F) S512x1 .f32)), { LS2 : List (View.Piece (Elt F) S512x1024 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ d, owns (c : Thread nD τ) arg8 fullShare d)
            ∗ owns (c : Thread nD τ) arg9 fullShare s0 ∗ owns (c : Thread nD τ) arg10 fullShare s1 ∗ owns (c : Thread nD τ) arg11 fullShare s2
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ (∃ f, arg8.view.loc (c : Thread nD τ) ↦[arg8.view.set]{fullShare} arg8.view.writes (Elt F) f L5)
                ∗ (∃ f, arg9.view.loc (c : Thread nD τ) ↦[arg9.view.set]{fullShare} arg9.view.writes (Elt F) f LS0)
                ∗ (∃ f, arg10.view.loc (c : Thread nD τ) ↦[arg10.view.set]{fullShare} arg10.view.writes (Elt F) f LS1)
                ∗ (∃ f, arg11.view.loc (c : Thread nD τ) ↦[arg11.view.set]{fullShare} arg11.view.writes (Elt F) f LS2)) -∗ K ⟨⟩))
          ⊢ wp frame (wpE (defs₀ (F := F)) Variants.none c none) E (cc1__flash_o_kernel i arg3 harg3 arg4 harg4 arg5 harg5 arg6 harg6 arg7 harg7 arg8 harg8 arg9 harg9 arg10 harg10 arg11 harg11) K } := by
  refine ⟨?_, ?_, ?_, ?_, fun E K => ?run⟩
  case run =>
    simp only [cc1__flash_o_kernel_eq_skeleton]; unfold cc1__flash_o_kernel_skel
    simp only [k1_part1_eq_skeleton]; unfold k1_part1_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%g0, %hg0, HS0⟩, ⟨%g1, %hg1, HS1⟩, ⟨%g2, %hg2, HS2⟩, Hk⟩
    obtain rfl := harg3.eq_unread hf0; obtain rfl := harg4.eq_unread hf1; obtain rfl := harg5.eq_unread hf2
    obtain rfl := harg6.eq_unread hf3; obtain rfl := harg7.eq_unread hf4
    obtain rfl := harg9.eq_unread hg0; obtain rfl := harg10.eq_unread hg1; obtain rfl := harg11.eq_unread hg2
    sl_exec (disch := first | exact hc0 | exact hc1 | exact hc2)
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]; · iexists _; iexact H5
    isplitl [HS0]; · iexists _; iexact HS0
    isplitl [HS1]; · iexists _; iexact HS1
    iexists _; iexact HS2

end Cert.KernelIdeal.Hand

end
-- ==== Proof.KIRegion1.lean ====
/-
  The attention kernel's region: what the output tile and the three accumulators (running maximum, running
  normaliser, running weighted sum) hold after each grid point, and the body's obligation to the pipeline.

  At a point of key tile 0 the accumulators are reset and the first key tile folded in; at key tile 1 the second key
  tile is folded in when it is the query tile's own (not when it lies after it), and then the quotient of the weighted
  sum by the normaliser is projected and stored as the output tile.  The accumulators are carried from key tile 0 to
  key tile 1 in the region's invariant; the output tile is stored, and written back, at key tile 1 only.
-/
import proofs.«171720_j40072044871789_2_alg».proof.Proof.KIRun1A
import proofs.«171720_j40072044871789_2_alg».proof.Proof.KIRun1B
import proofs.«171720_j40072044871789_2_alg».proof.Proof.KIRun1C

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1

variable (V : (c : Dev nD) → (b : Ref sig .tc) → Buf (Elt F) ((c : Thread nD τ).loc b))

/-! ## The windows' blocks -/

/-- Window w's block at point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- Every input window's current buffer holds its block at every point, fetched there or not: unfetched, the block
    index has not moved. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)
theorem before1_3_of {c : Dev nD} (dat : Dat τ (Elt F) Unit ℕ (UR sig nD τ) ℕ cfg1 c) (hA : dat.A 3 = V c (Pipeline.arrRef spec1 3))
    (hafter : ∀ t, dat.after 3 t = iblk1 V c 3 t) (t : Fin cfg1.N) (d) : dat.before 3 t d = iblk1 V c 3 t :=
  (dat.before_in_eq_fetched 3 rfl (fun _ => rfl) (fun _ _ _ => rfl) (fun t => by rw [hafter]; unfold Dat.blockOf iblk1; rw [hA]; try rfl) t d).trans
    (by unfold Dat.fetched Dat.blockOf iblk1; rw [hA]; try rfl)
theorem before1_4_of {c : Dev nD} (dat : Dat τ (Elt F) Unit ℕ (UR sig nD τ) ℕ cfg1 c) (hA : dat.A 4 = V c (Pipeline.arrRef spec1 4))
    (hafter : ∀ t, dat.after 4 t = iblk1 V c 4 t) (t : Fin cfg1.N) (d) : dat.before 4 t d = iblk1 V c 4 t :=
  (dat.before_in_eq_fetched 4 rfl (fun _ => rfl) (fun _ _ _ => rfl) (fun t => by rw [hafter]; unfold Dat.blockOf iblk1; rw [hA]; try rfl) t d).trans
    (by unfold Dat.fetched Dat.blockOf iblk1; rw [hA]; try rfl)

/-! ## What each case leaves -/

/-- The accumulators and the output tile, in this order: output tile, maximum, normaliser, weighted sum. -/
abbrev Acc (F : FTy → Type) : Type := Vec F S1x512x1024 .f32 × Vec F S512x1 .f32 × Vec F S512x1 .f32 × Vec F S512x1024 .f32

/-- Key tile 0: the output tile is not stored (a placeholder nothing reads); the accumulators hold the reset folded
    with the first key tile. -/
def valA (c : Dev nD) (t : Fin cfg1.N) (h : t.val % 2 = 0) : Acc F :=
  (VO1_5.read (Elt F) (VO1_5.writes (Elt F) VO1_5.junk []),
   VS1_0.read (Elt F) (VS1_0.writes (Elt F) VS1_0.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h) ((hcond1_1 t).mpr (by omega)) (fun hh => absurd ((hcond1_2 t).mp hh) (by omega)) (iblk1 V c 0 t) (iblk1 V c 1 t) (iblk1 V c 2 t) (iblk1 V c 3 t) (iblk1 V c 4 t)).1),
   VS1_1.read (Elt F) (VS1_1.writes (Elt F) VS1_1.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h) ((hcond1_1 t).mpr (by omega)) (fun hh => absurd ((hcond1_2 t).mp hh) (by omega)) (iblk1 V c 0 t) (iblk1 V c 1 t) (iblk1 V c 2 t) (iblk1 V c 3 t) (iblk1 V c 4 t)).2.1),
   VS1_2.read (Elt F) (VS1_2.writes (Elt F) VS1_2.junk (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h) ((hcond1_1 t).mpr (by omega)) (fun hh => absurd ((hcond1_2 t).mp hh) (by omega)) (iblk1 V c 0 t) (iblk1 V c 1 t) (iblk1 V c 2 t) (iblk1 V c 3 t) (iblk1 V c 4 t)).2.2.1))

/-- Key tile 1 after the query tile: the accumulators stay; the output tile is stored from them. -/
def valB (c : Dev nD) (t : Fin cfg1.N) (h : t.val % 4 = 1) (p : Acc F) : Acc F :=
  (VO1_5.read (Elt F) (VO1_5.writes (Elt F) VO1_5.junk (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) (fun hh => (hcond1_1 t).mp hh h) ((hcond1_2 t).mpr (by omega)) (iblk1 V c 0 t) (iblk1 V c 1 t) (iblk1 V c 2 t) (iblk1 V c 3 t) (iblk1 V c 4 t) p.2.2.1 p.2.2.2).1),
   p.2.1, p.2.2.1, p.2.2.2)

/-- Key tile 1 on the diagonal: the accumulators are folded with the second key tile, and the output tile stored. -/
def valC (c : Dev nD) (t : Fin cfg1.N) (h : t.val % 4 = 3) (p : Acc F) : Acc F :=
  (VO1_5.read (Elt F) (VO1_5.writes (Elt F) VO1_5.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) p.2.1 p.2.2.1 p.2.2.2).1),
   VS1_0.read (Elt F) (VS1_0.writes (Elt F) VS1_0.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) p.2.1 p.2.2.1 p.2.2.2).2.1),
   VS1_1.read (Elt F) (VS1_1.writes (Elt F) VS1_1.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) p.2.1 p.2.2.1 p.2.2.2).2.2.1),
   VS1_2.read (Elt F) (VS1_2.writes (Elt F) VS1_2.junk (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) p.2.1 p.2.2.1 p.2.2.2).2.2.2.1))

/-! ## The stores cover the buffers they go into -/

theorem scoverA_0 (c : Dev nD) (t : Fin cfg1.N) (h : t.val % 2 = 0) (y : S512x1.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h) ((hcond1_1 t).mpr (by omega)) (fun hh => absurd ((hcond1_2 t).mp hh) (by omega)) (iblk1 V c 0 t) (iblk1 V c 1 t) (iblk1 V c 2 t) (iblk1 V c 3 t) (iblk1 V c 4 t)).1, y ∈ pc.1.set :=
  View.cover_of_tiledL _ S512x1.size (by sl_kernel_rfl) y
theorem scoverA_1 (c : Dev nD) (t : Fin cfg1.N) (h : t.val % 2 = 0) (y : S512x1.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h) ((hcond1_1 t).mpr (by omega)) (fun hh => absurd ((hcond1_2 t).mp hh) (by omega)) (iblk1 V c 0 t) (iblk1 V c 1 t) (iblk1 V c 2 t) (iblk1 V c 3 t) (iblk1 V c 4 t)).2.1, y ∈ pc.1.set :=
  View.cover_of_tiledL _ S512x1.size (by sl_kernel_rfl) y
theorem scoverA_2 (c : Dev nD) (t : Fin cfg1.N) (h : t.val % 2 = 0) (y : S512x1024.Idx) :
    ∃ pc ∈ (kernelRun1_A c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) ((hcond1_0 t).mpr h) ((hcond1_1 t).mpr (by omega)) (fun hh => absurd ((hcond1_2 t).mp hh) (by omega)) (iblk1 V c 0 t) (iblk1 V c 1 t) (iblk1 V c 2 t) (iblk1 V c 3 t) (iblk1 V c 4 t)).2.2.1, y ∈ pc.1.set :=
  View.cover_of_tiledL _ S512x1024.size (by sl_kernel_rfl) y
theorem coverB_5 (c : Dev nD) (t : Fin cfg1.N) (h : t.val % 4 = 1) (s1 : Vec F S512x1 .f32) (s2 : Vec F S512x1024 .f32) (y : S1x512x1024.Idx) :
    ∃ pc ∈ (kernelRun1_B c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) (fun hh => (hcond1_1 t).mp hh h) ((hcond1_2 t).mpr (by omega)) (iblk1 V c 0 t) (iblk1 V c 1 t) (iblk1 V c 2 t) (iblk1 V c 3 t) (iblk1 V c 4 t) s1 s2).1, y ∈ pc.1.set :=
  View.cover_of_tiledL _ S1x512x1024.size (by sl_kernel_rfl) y
theorem coverC_5 (c : Dev nD) (t : Fin cfg1.N) (h : t.val % 4 = 3) (s0 s1 : Vec F S512x1 .f32) (s2 : Vec F S512x1024 .f32) (y : S1x512x1024.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) s0 s1 s2).1, y ∈ pc.1.set :=
  View.cover_of_tiledL _ S1x512x1024.size (by sl_kernel_rfl) y
theorem scoverC_0 (c : Dev nD) (t : Fin cfg1.N) (h : t.val % 4 = 3) (s0 s1 : Vec F S512x1 .f32) (s2 : Vec F S512x1024 .f32) (y : S512x1.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) s0 s1 s2).2.1, y ∈ pc.1.set :=
  View.cover_of_tiledL _ S512x1.size (by sl_kernel_rfl) y
theorem scoverC_1 (c : Dev nD) (t : Fin cfg1.N) (h : t.val % 4 = 3) (s0 s1 : Vec F S512x1 .f32) (s2 : Vec F S512x1024 .f32) (y : S512x1.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) s0 s1 s2).2.2.1, y ∈ pc.1.set :=
  View.cover_of_tiledL _ S512x1.size (by sl_kernel_rfl) y
theorem scoverC_2 (c : Dev nD) (t : Fin cfg1.N) (h : t.val % 4 = 3) (s0 s1 : Vec F S512x1 .f32) (s2 : Vec F S512x1024 .f32) (y : S512x1024.Idx) :
    ∃ pc ∈ (kernelRun1_C c (grid1.coords t) (ms1_0 t) (hs1_0 t) (ms1_1 t) (hs1_1 t) (ms1_2 t) (hs1_2 t) (ms1_3 t) (hs1_3 t) (ms1_4 t) (hs1_4 t) (ms1_5 t) (hs1_5 t) scM1_0 (Memref.isWhole_whole _) scM1_1 (Memref.isWhole_whole _) scM1_2 (Memref.isWhole_whole _) (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) s0 s1 s2).2.2.2.1, y ∈ pc.1.set :=
  View.cover_of_tiledL _ S512x1024.size (by sl_kernel_rfl) y

/-! ## The accumulation, point by point -/

/-- What the output tile's buffer and the accumulators hold after the body at position n. -/
def outsAt1 (c : Dev nD) : (n : ℕ) → n < cfg1.N → Acc F
  | 0, hn => valA V c ⟨0, hn⟩ (Nat.zero_mod _)
  | n + 1, hn =>
    if h0 : (n + 1) % 2 = 0 then valA V c ⟨n + 1, hn⟩ h0
    else if h1 : (n + 1) % 4 = 1 then valB V c ⟨n + 1, hn⟩ h1 (outsAt1 c n (Nat.lt_of_succ_lt hn))
    else valC V c ⟨n + 1, hn⟩ (by show (n + 1) % 4 = 3; omega) (outsAt1 c n (Nat.lt_of_succ_lt hn))

theorem outsAt1_A (c : Dev nD) (t : Fin cfg1.N) (h : t.val % 2 = 0) : outsAt1 V c t.val t.isLt = valA V c t h := by
  obtain ⟨n, hn⟩ := t
  cases n with
  | zero => rfl
  | succ n => exact dif_pos h

theorem outsAt1_B (c : Dev nD) (t : Fin cfg1.N) (h : t.val % 4 = 1) :
    outsAt1 V c t.val t.isLt = valB V c t h (outsAt1 V c (t.val - 1) (Nat.lt_of_le_of_lt (Nat.sub_le _ _) t.isLt)) := by
  obtain ⟨n, hn⟩ := t
  cases n with
  | zero => exact absurd (show (0 : ℕ) % 4 = 1 from h) (by decide)
  | succ n => exact (dif_neg (by have h' : (n + 1) % 4 = 1 := h; omega)).trans (dif_pos h)

theorem outsAt1_C (c : Dev nD) (t : Fin cfg1.N) (h : t.val % 4 = 3) :
    outsAt1 V c t.val t.isLt = valC V c t h (outsAt1 V c (t.val - 1) (Nat.lt_of_le_of_lt (Nat.sub_le _ _) t.isLt)) := by
  obtain ⟨n, hn⟩ := t
  cases n with
  | zero => exact absurd (show (0 : ℕ) % 4 = 3 from h) (by decide)
  | succ n => exact (dif_neg (by have h' : (n + 1) % 4 = 3 := h; omega)).trans (dif_neg (by have h' : (n + 1) % 4 = 3 := h; omega))

/-! ## The invariant -/

/-- The kernel's own scoped buffers. -/
abbrev scratch1 : List (Ref sig .tc) := [cc1_scratch0, cc1_scratch1, cc1_scratch2]

/-- The scoped buffers that are neither a staging buffer of this call nor its accumulators, at some contents. -/
abbrev others1 (c : Dev nD) : sProp 𝕄 := Pipeline.scopedRestBut (Ix := Unit) (Name := ℕ) (U := UR sig nD τ) (Lvl := ℕ) (Val := Elt F) spec1 c scratch1

/-- Before the first point the accumulators hold anything; after point n they hold what that point left. -/
def PhiS (c : Dev nD) : (n : ℕ) → n ≤ cfg1.N → sProp 𝕄
  | 0, _ => Pipeline.ΦA spec1 c
  | n + 1, hn => iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ others1 c ∗ (∃ r, prngReg c r))

theorem PhiS_zero (c : Dev nD) (n : ℕ) (h : n ≤ cfg1.N) (hz : n = 0) : PhiS V c n h = Pipeline.ΦA spec1 c := by
  subst hz; rfl

theorem PhiS_succ (c : Dev nD) (n : ℕ) (hn : n < cfg1.N) :
    PhiS V c (n + 1) hn = iprop(owns (c : Thread nD τ) scM1_0 fullShare (outsAt1 V c n hn).2.1 ∗ owns (c : Thread nD τ) scM1_1 fullShare (outsAt1 V c n hn).2.2.1
      ∗ owns (c : Thread nD τ) scM1_2 fullShare (outsAt1 V c n hn).2.2.2 ∗ others1 c ∗ (∃ r, prngReg c r)) := rfl

theorem PhiS_pos (c : Dev nD) (n : ℕ) (h : n ≤ cfg1.N) (hz : n ≠ 0) :
    PhiS V c n h = iprop(owns (c : Thread nD τ) scM1_0 fullShare (outsAt1 V c (n - 1) (by omega)).2.1 ∗ owns (c : Thread nD τ) scM1_1 fullShare (outsAt1 V c (n - 1) (by omega)).2.2.1
      ∗ owns (c : Thread nD τ) scM1_2 fullShare (outsAt1 V c (n - 1) (by omega)).2.2.2 ∗ others1 c ∗ (∃ r, prngReg c r)) := by
  cases n with
  | zero => exact absurd rfl hz
  | succ n => rfl

/-- The plain invariant with the accumulators split out of the scoped rest, each at some contents. -/
theorem PhiA1_eq (c : Dev nD) :
    (Pipeline.ΦA spec1 c : sProp 𝕄)
      = iprop(iprop(iprop((∃ d, owns (c : Thread nD τ) scM1_0 fullShare d) ∗ (∃ d, owns (c : Thread nD τ) scM1_1 fullShare d) ∗ (∃ d, owns (c : Thread nD τ) scM1_2 fullShare d)) ∗ others1 c) ∗ (∃ r, prngReg c r)) := by
  unfold Pipeline.ΦA
  rw [Pipeline.scopedRest_split_of_list spec1 c scratch1 (by decide) (by decide)]
  simp only [scM1_0, scM1_1, scM1_2, owns_whole, Idealize.SL.BI.bigSepL]
  try rfl

end Region1

end Cert.KernelIdeal.Hand

end
-- ==== Proof.KIRegion1Body.lean ====
/-
  The attention kernel's region: the proof data handed to the pipeline and the body's obligation at every grid point.
  Each input window's buffer holds its block; the invariant hands the body the three accumulators (at anything before
  the first point, then at what the point before left) and takes them back at what this point leaves; the output
  tile's buffer is handed back untouched at key tile 0 and holds the stored tile at key tile 1.
-/
import proofs.«171720_j40072044871789_2_alg».proof.Proof.KIRegion1

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Region1

variable (V : (c : Dev nD) → (b : Ref sig .tc) → Buf (Elt F) ((c : Thread nD τ).loc b))

/-- The proof data of the attention kernel's pipeline on core c, from the region-entry contents V. -/
def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => (outsAt1 V c t.val t.isLt).1
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]

theorem PhiS_castSucc (c : Dev nD) (t : Fin cfg1.N) :
    (dat1 V c).Φ t.castSucc = PhiS V c t.val (Nat.le_of_lt t.isLt) := by
  dsimp only [dat1]; simp only [Fin.coe_castSucc]

theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = iblk1 V c 3 t := by dsimp only [dat1]
theorem after1_4 (c : Dev nD) (t : Fin cfg1.N) : (dat1 V c).after 4 t = iblk1 V c 4 t := by dsimp only [dat1]
theorem after1_5 (c : Dev nD) (t : Fin cfg1.N) : (dat1 V c).after 5 t = (outsAt1 V c t.val t.isLt).1 := by dsimp only [dat1]

theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d
theorem before1_3 (c : Dev nD) (t : Fin cfg1.N) (d) : (dat1 V c).before 3 t d = iblk1 V c 3 t :=
  before1_3_of V (dat1 V c) (A_eq1 V c 3) (after1_3 V c) t d
theorem before1_4 (c : Dev nD) (t : Fin cfg1.N) (d) : (dat1 V c).before 4 t d = iblk1 V c 4 t :=
  before1_4_of V (dat1 V c) (A_eq1 V c 4) (after1_4 V c) t d

/-! ## The body obligation, at a generic point -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d))
    ∗ (∃ d, owns (c : Thread nD τ) (ms1_4 t) fullShare ((dat1 V c).before 4 t d))
    ∗ (∃ d, owns (c : Thread nD τ) (ms1_5 t) fullShare ((dat1 V c).before 5 t d)))

def bodyPost1 (c : Dev nD) (t : Fin cfg1.N) : sProp 𝕄 :=
  iprop((dat1 V c).Φ t.succ ∗ (dat1 V c).owesAt () t.succ
    ∗ (dat1 V c).leavesExact 0 t
    ∗ (dat1 V c).leavesExact 1 t
    ∗ (dat1 V c).leavesExact 2 t
    ∗ (dat1 V c).leavesExact 3 t
    ∗ (dat1 V c).leavesExact 4 t
    ∗ (dat1 V c).leavesExact 5 t)

set_option maxHeartbeats 8000000 in
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2, before1_3, before1_4]
  rw [show (dat1 V c).owesAt () t.succ = (dat1 V c).owesAt () t.castSucc from rfl]
  rw [show (dat1 V c).Φ t.succ = PhiS V c (t.val + 1) t.isLt from rfl, PhiS_succ]
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  rw [show (dat1 V c).leavesExact 3 t = owns (c : Thread nD τ) (ms1_3 t) fullShare ((dat1 V c).after 3 t) from by
    unfold Dat.leavesExact; rw [liveAt1_3 t], after1_3]
  rw [show (dat1 V c).leavesExact 4 t = owns (c : Thread nD τ) (ms1_4 t) fullShare ((dat1 V c).after 4 t) from by
    unfold Dat.leavesExact; rw [liveAt1_4 t], after1_4]
  have hN : t.val < 32 := lt_of_lt_of_eq t.isLt (show cfg1.N = 32 from N_1)
  by_cases h0 : t.val % 2 = 0
  · -- key tile 0: reset and fold; the output tile's buffer goes back untouched
    rw [Dat.leavesExact_idle (dat1 V c) 5 t (idleAt1_5 t h0) (noFlush1_5 t h0)]
    rw [outsAt1_A V c t h0]
    unfold valA; (try dsimp only)
    by_cases hz : t.val = 0
    · rw [PhiS_castSucc V c t, PhiS_zero V c _ _ hz, PhiA1_eq]
      iintro ⟨⟨⟨⟨HS0, HS1, HS2⟩, Hoth⟩, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) ((hcond1_1 t).mpr (by omega)) (fun hh => absurd ((hcond1_2 t).mp hh) (by omega)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexact HS0
      isplitl [HS1]; · iexact HS1
      isplitl [HS2]; · iexact HS2
      iintro ⟨H0, H1, H2, H3, H4, H5, ⟨%es0, HS0⟩, ⟨%es1, HS1⟩, ⟨%es2, HS2⟩⟩
      isplitl [HS0 HS1 HS2 Hoth Hg]
      · isplitl [HS0]
        · unfold owns; iexists _; isplitr
          swap; · iexact HS0
          ipureintro; exact View.read_writes_of_cover _ _ _ _ _ (scoverA_0 V c t h0)
        isplitl [HS1]
        · unfold owns; iexists _; isplitr
          swap; · iexact HS1
          ipureintro; exact View.read_writes_of_cover _ _ _ _ _ (scoverA_1 V c t h0)
        isplitl [HS2]
        · unfold owns; iexists _; isplitr
          swap; · iexact HS2
          ipureintro; exact View.read_writes_of_cover _ _ _ _ _ (scoverA_2 V c t h0)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
    · rw [PhiS_castSucc V c t, PhiS_pos V c _ _ hz]
      iintro ⟨⟨HS0, HS1, HS2, Hoth, Hg⟩, Ho, ⟨%d0, H0⟩, ⟨%d1, H1⟩, ⟨%d2, H2⟩, ⟨%d3, H3⟩, ⟨%d4, H4⟩, ⟨%d5, H5⟩⟩
      iapply ((kernelRun1_A c (grid1.coords t) _ _ _ _ _ _ _ _ _ _ _ _ _ _ _ _ _ _ ((hcond1_0 t).mpr h0) ((hcond1_1 t).mpr (by omega)) (fun hh => absurd ((hcond1_2 t).mp hh) (by omega)) (iblk1 V c 0 t) (iblk1 V c 1 t) (iblk1 V c 2 t) (iblk1 V c 3 t) (iblk1 V c 4 t)).2.2.2 _ Set.univ _)
      isplitl [H0]; · iexact H0
      isplitl [H1]; · iexact H1
      isplitl [H2]; · iexact H2
      isplitl [H3]; · iexact H3
      isplitl [H4]; · iexact H4
      isplitl [H5]; · iexact H5
      isplitl [HS0]; · iexists _; iexact HS0
      isplitl [HS1]; · iexists _; iexact HS1
      isplitl [HS2]; · iexists _; iexact HS2
      iintro ⟨H0, H1, H2, H3, H4, H5, ⟨%es0, HS0⟩, ⟨%es1, HS1⟩, ⟨%es2, HS2⟩⟩
      isplitl [HS0 HS1 HS2 Hoth Hg]
      · isplitl [HS0]
        · unfold owns; iexists _; isplitr
          swap; · iexact HS0
          ipureintro; exact View.read_writes_of_cover _ _ _ _ _ (scoverA_0 V c t h0)
        isplitl [HS1]
        · unfold owns; iexists _; isplitr
          swap; · iexact HS1
          ipureintro; exact View.read_writes_of_cover _ _ _ _ _ (scoverA_1 V c t h0)
        isplitl [HS2]
        · unfold owns; iexists _; isplitr
          swap; · iexact HS2
          ipureintro; exact View.read_writes_of_cover _ _ _ _ _ (scoverA_2 V c t h0)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      iexists _; iexact H5
  · have hz : t.val ≠ 0 := by omega
    rw [show (dat1 V c).leavesExact 5 t = owns (c : Thread nD τ) (ms1_5 t) fullShare ((dat1 V c).after 5 t) from by
      unfold Dat.leavesExact; rw [liveAt1_5 t (by omega)], after1_5]
    rw [PhiS_castSucc V c t, PhiS_pos V c _ _ hz]
    by_cases h1 : t.val % 4 = 1
    · -- key tile 1 after the query tile: the accumulators stay, the output tile is stored from them
      rw [outsAt1_B V c t h1]
      unfold valB; (try dsimp only)
      iintro ⟨⟨HS0, HS1, HS2, Hoth, Hg⟩, Ho, ⟨%d0, H0⟩, ⟨%d1, H1⟩, ⟨%d2, H2⟩, ⟨%d3, H3⟩, ⟨%d4, H4⟩, ⟨%d5, H5⟩⟩
      iapply ((kernelRun1_B c (grid1.coords t) _ _ _ _ _ _ _ _ _ _ _ _ _ _ _ _ _ _ (fun hh => absurd ((hcond1_0 t).mp hh) (by omega)) (fun hh => (hcond1_1 t).mp hh h1) ((hcond1_2 t).mpr (by omega)) (iblk1 V c 0 t) (iblk1 V c 1 t) (iblk1 V c 2 t) (iblk1 V c 3 t) (iblk1 V c 4 t) _ _).2 _ Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, HS0, HS1, HS2⟩
      isplitl [HS0 HS1 HS2 Hoth Hg]
      · isplitl [HS0]; · iexact HS0
        isplitl [HS1]; · iexact HS1
        isplitl [HS2]; · iexact HS2
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverB_5 V c t h1 _ _)
    · -- key tile 1 on the diagonal: the second key tile is folded in, then the output tile stored
      have h3 : t.val % 4 = 3 := by omega
      rw [outsAt1_C V c t h3]
      unfold valC; (try dsimp only)
      iintro ⟨⟨HS0, HS1, HS2, Hoth, Hg⟩, Ho, ⟨%d0, H0⟩, ⟨%d1, H1⟩, ⟨%d2, H2⟩, ⟨%d3, H3⟩, ⟨%d4, H4⟩, ⟨%d5, H5⟩⟩
      iapply ((kernelRun1_C c (grid1.coords t) _ _ _ _ _ _ _ _ _ _ _ _ _ _ _ _ _ _ (fun hh => absurd ((hcond1_0 t).mp hh) (by omega)) ((hcond1_1 t).mpr (by omega)) ((hcond1_2 t).mpr (by omega)) (iblk1 V c 0 t) (iblk1 V c 1 t) (iblk1 V c 2 t) (iblk1 V c 3 t) (iblk1 V c 4 t) _ _ _).2.2.2.2 Set.univ _)
      isplitl [H0]; · iexact H0
      isplitl [H1]; · iexact H1
      isplitl [H2]; · iexact H2
      isplitl [H3]; · iexact H3
      isplitl [H4]; · iexact H4
      isplitl [H5]; · iexists _; iexact H5
      isplitl [HS0]; · iexact HS0
      isplitl [HS1]; · iexact HS1
      isplitl [HS2]; · iexact HS2
      iintro ⟨H0, H1, H2, H3, H4, ⟨%e5, H5⟩, ⟨%es0, HS0⟩, ⟨%es1, HS1⟩, ⟨%es2, HS2⟩⟩
      isplitl [HS0 HS1 HS2 Hoth Hg]
      · isplitl [HS0]
        · unfold owns; iexists _; isplitr
          swap; · iexact HS0
          ipureintro; exact View.read_writes_of_cover _ _ _ _ _ (scoverC_0 V c t h3 _ _ _)
        isplitl [HS1]
        · unfold owns; iexists _; isplitr
          swap; · iexact HS1
          ipureintro; exact View.read_writes_of_cover _ _ _ _ _ (scoverC_1 V c t h3 _ _ _)
        isplitl [HS2]
        · unfold owns; iexists _; isplitr
          swap; · iexact HS2
          ipureintro; exact View.read_writes_of_cover _ _ _ _ _ (scoverC_2 V c t h3 _ _ _)
        isplitl [Hoth]; · iexact Hoth
        iexact Hg
      isplitl [Ho]; · iexact Ho
      isplitl [H0]; · iexact H0
      isplitl [H1]; · iexact H1
      isplitl [H2]; · iexact H2
      isplitl [H3]; · iexact H3
      isplitl [H4]; · iexact H4
      unfold owns; iexists _; isplitr
      swap; · iexact H5
      ipureintro; exact View.read_writes_of_cover _ _ _ _ _ (coverC_5 V c t h3 _ _ _)

/-- The library's body obligation, at every point. -/
theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After any point the invariant gives back the plain one (the rest of the core's scoped memory and the generator
    register): what the accumulators hold is forgotten. -/
theorem Phi_out1 (c : Dev nD) (t : Fin (cfg1.N + 1)) (ht : t.val ≠ 0) : (dat1 V c).Φ t ⊢ Pipeline.ΦA spec1 c := by
  rw [show (dat1 V c).Φ t = PhiS V c t.val (Nat.le_of_lt_succ t.isLt) from rfl, PhiS_pos V c _ _ ht, PhiA1_eq]
  iintro ⟨HS0, HS1, HS2, Hoth, Hg⟩
  isplitl [HS0 HS1 HS2 Hoth]
  · isplitl [HS0 HS1 HS2]
    · isplitl [HS0]; · iexists _; iexact HS0
      isplitl [HS1]; · iexists _; iexact HS1
      iexists _; iexact HS2
    iexact Hoth
  iexact Hg

theorem hout1 (c : Dev nD) : (dat1 V c).Φ (Fin.last cfg1.N) ⊢ Pipeline.ΦA spec1 c :=
  Phi_out1 V c _ (by rw [Fin.val_last]; have : cfg1.N = 32 := N_1; omega)

end Region1

end Cert.KernelIdeal.Hand

end
-- ==== Proof.KIRun.lean ====
/-
  The whole program as a run: the host operations before the projection kernel, that kernel's region, the host
  reshapes, the attention kernel's region.  At each boundary the TensorCore's unscoped buffers hold a valuation
  folded from the launch memory: a stretch of host operations applies them; a region leaves its windows' arrays at
  what its write-backs make of them and every other buffer alone.  Every weakly fair execution terminates, and at
  the end every unscoped buffer holds the last valuation.
-/
import proofs.«171720_j40072044871789_2_alg».proof.Proof.KIRegion0
import proofs.«171720_j40072044871789_2_alg».proof.Proof.KIRegion1Body
import proofs.«171720_j40072044871789_2_alg».proof.Proof.Gen.KernelIdeal.Regions

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-! ## The buffer contents at each boundary -/

/-- At launch. -/
abbrev W0 : Dev nD → Valuation τ sig (Elt F) := fun c b => (s₀ m ρ).mem ((c : Dev nD), b)
/-- After the first stretch of host operations. -/
abbrev W1 : Dev nD → Valuation τ sig (Elt F) := fun c => StableHlo.after hostOps0 (W0 m ρ c)
abbrev V1 : (c : Dev nD) → (b : Ref sig .tc) → Buf (Elt F) ((c : Thread nD τ).loc b) := fun c b => W1 m ρ c b
/-- After the projection kernel: its arrays at what the pipeline leaves, the rest as entered. -/
def W2 (c : Dev nD) : Valuation τ sig (Elt F) :=
  Pipeline.withArrays spec0 c (W1 m ρ c) fun w => (dat0 (V1 m ρ) c).arrAt w cfg0.N
theorem W2_arr (c : Dev nD) (w : Fin cfg0.W) :
    W2 m ρ c (Proc.devRef .tc (Pipeline.arrRef spec0 w)) = (dat0 (V1 m ρ) c).arrAt w cfg0.N := by
  unfold W2; exact Pipeline.withArrays_arr spec0 launch0.win.arr_inj c _ _ w
theorem W2_of_ne (c : Dev nD) (b : Ref sig .tc) (hb : ∀ w, Pipeline.arrRef spec0 w ≠ b) :
    W2 m ρ c (Proc.devRef .tc b) = W1 m ρ c (Proc.devRef .tc b) := by
  unfold W2; exact Pipeline.withArrays_of_ne spec0 c _ _ b hb
abbrev V2 : (c : Dev nD) → (b : Ref sig .tc) → Buf (Elt F) ((c : Thread nD τ).loc b) := fun c b => W2 m ρ c b
theorem hF0 (c : Dev nD) (w : Fin cfg0.W) : (dat0 (V1 m ρ) c).arrAt w cfg0.N = V2 m ρ c (Pipeline.arrRef spec0 w) :=
  (W2_arr m ρ c w).symm
theorem hrest0 (c : Dev nD) : ∀ b, b ∉ Finset.univ.image (Pipeline.arrRef spec0) → V2 m ρ c b = V1 m ρ c b :=
  fun b hb => W2_of_ne m ρ c b fun w e => hb (Finset.mem_image.mpr ⟨w, Finset.mem_univ _, e⟩)

/-- After the reshapes between the kernels. -/
abbrev W3 : Dev nD → Valuation τ sig (Elt F) := fun c => StableHlo.after hostOps1 (W2 m ρ c)
abbrev V3 : (c : Dev nD) → (b : Ref sig .tc) → Buf (Elt F) ((c : Thread nD τ).loc b) := fun c b => W3 m ρ c b
/-- After the attention kernel. -/
def W4 (c : Dev nD) : Valuation τ sig (Elt F) :=
  Pipeline.withArrays spec1 c (W3 m ρ c) fun w => (dat1 (V3 m ρ) c).arrAt w cfg1.N
theorem W4_arr (c : Dev nD) (w : Fin cfg1.W) :
    W4 m ρ c (Proc.devRef .tc (Pipeline.arrRef spec1 w)) = (dat1 (V3 m ρ) c).arrAt w cfg1.N := by
  unfold W4; exact Pipeline.withArrays_arr spec1 launch1.win.arr_inj c _ _ w
theorem W4_of_ne (c : Dev nD) (b : Ref sig .tc) (hb : ∀ w, Pipeline.arrRef spec1 w ≠ b) :
    W4 m ρ c (Proc.devRef .tc b) = W3 m ρ c (Proc.devRef .tc b) := by
  unfold W4; exact Pipeline.withArrays_of_ne spec1 c _ _ b hb
abbrev V4 : (c : Dev nD) → (b : Ref sig .tc) → Buf (Elt F) ((c : Thread nD τ).loc b) := fun c b => W4 m ρ c b
theorem hF1 (c : Dev nD) (w : Fin cfg1.W) : (dat1 (V3 m ρ) c).arrAt w cfg1.N = V4 m ρ c (Pipeline.arrRef spec1 w) :=
  (W4_arr m ρ c w).symm
theorem hrest1 (c : Dev nD) : ∀ b, b ∉ Finset.univ.image (Pipeline.arrRef spec1) → V4 m ρ c b = V3 m ρ c b :=
  fun b hb => W4_of_ne m ρ c b fun w e => hb (Finset.mem_image.mpr ⟨w, Finset.mem_univ _, e⟩)

/-- A buffer that no host operation writes and that is no window's array of either kernel ends as launched. -/
theorem W4_untouched (c : Dev nD) (b : Ref sig .tc) (h1 : ∀ w, Pipeline.arrRef spec1 w ≠ b) (h2 : b ∉ hostOps1_W)
    (h3 : ∀ w, Pipeline.arrRef spec0 w ≠ b) (h4 : b ∉ hostOps0_W) :
    W4 m ρ c (Proc.devRef .tc b) = m ((c : Thread nD τ).loc b) :=
  calc W4 m ρ c (Proc.devRef .tc b)
    _ = W3 m ρ c (Proc.devRef .tc b) := W4_of_ne m ρ c b h1
    _ = W2 m ρ c (Proc.devRef .tc b) := StableHlo.after_of_writes_sub hostOps1 _ hostOps1_writes h2
    _ = W1 m ρ c (Proc.devRef .tc b) := W2_of_ne m ρ c b h3
    _ = W0 m ρ c (Proc.devRef .tc b) := StableHlo.after_of_writes_sub hostOps0 _ hostOps0_writes h4
    _ = m ((c : Thread nD τ).loc b) := rfl

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V1 m ρ) c
  | ⟨1, _⟩ => fun c => dat1 (V3 m ρ) c
abbrev 𝒱₀ : Variants := Variants.none
abbrev L : GSem nD τ sig → Finset Unit := fun _ => ∅
abbrev lv : GSem nD τ sig → Unit → ℕ := fun _ _ => 0
/-- What rides beside the buffers: the generator register at some state, and nothing owed. -/
abbrev R (c : Dev nD) : sProp 𝕄 := iprop((∃ r, prngReg c r) ∗ ∃ W, owes (c : Thread nD τ) (0 : CellTallies nD τ sig Unit) W)
abbrev hseg (ops : List (HloOp τ sig (Elt F))) (hsub : ops.Forall fun op => op.bufs ⊆ StableHlo.tcRefs τ sig)
    (hfresh : ops.Forall fun op => op.fresh = ∅) (W : Dev nD → Valuation τ sig (Elt F)) :
    Pipeline.HostSeg (Name := ℕ) (U := UR sig nD τ) (pcfgs (F := F)) defs₀ 𝒱₀ L lv :=
  Pipeline.HostSeg.ofOps _ _ _ _ _ (Pipeline.ucRefs τ sig) ops
    (fun op h => Pipeline.sub_ucRefs op ((List.forall_iff_forall_mem.mp hsub) op h))
    (fun op h => (List.forall_iff_forall_mem.mp hfresh) op h) W R
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W4 m ρ c) ∗ ∃ r, prngReg c r)

/-! ## The regions as segments -/

set_option backward.isDefEq.respectTransparency.types false in
/-- Region 0 over the thread state: entered from every unscoped buffer at the contents before it, left at the
    contents after it; its arrays are split out of the unscoped buffers and put back at what the pipeline leaves. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V1 m ρ) c).loose
  hwaits := Pipeline.hwaits_of_owed_zero _ _ _ _ L lv 0 fun _ _ => rfl
  pre c := iprop(StableHlo.held (c : Thread nD τ) (Pipeline.ucRefs τ sig) (W1 m ρ c) ∗ R c)
  post c := iprop(StableHlo.held (c : Thread nD τ) (Pipeline.ucRefs τ sig) (W2 m ρ c) ∗ R c)
  X c := iprop(∃ r, prngReg c r)
  Y c := iprop(∃ r, prngReg c r)
  Z c := Pipeline.unscopedRest (Ix := Unit) (Name := ℕ) (U := UR sig nD τ) (Lvl := ℕ) spec0 c (V1 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none, show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V1 m ρ c) (V2 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 over the thread state: entered from every unscoped buffer at the contents before it, left at the
    contents after it; its arrays are split out of the unscoped buffers and put back at what the pipeline leaves. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V3 m ρ) c).loose
  hwaits := Pipeline.hwaits_of_owed_zero _ _ _ _ L lv 1 fun _ _ => rfl
  pre c := iprop(StableHlo.held (c : Thread nD τ) (Pipeline.ucRefs τ sig) (W3 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V3 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V3 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    have h1 : (pdats m ρ 1 c).Φ (Fin.last _) ⊢ (Pipeline.ΦA spec1 c : sProp 𝕄) := hout1 (V3 m ρ) c
    have h2 : (Pipeline.ΦA spec1 c : sProp 𝕄) ⊢ iprop((∃ r, prngReg c r) ∗ emp ∗ Pipeline.scopedRest (Ix := Unit) (Name := ℕ) (U := UR sig nD τ) (Lvl := ℕ) (Val := Elt F) spec1 c) := by
      unfold Pipeline.ΦA
      iintro ⟨Hr, Hp⟩
      isplitl [Hp]; · iexact Hp
      isplitr; · iempintro
      iexact Hr
    exact h1.trans h2
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V3 m ρ c) (V4 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

/-! ## @main as segments, and the launch -/

abbrev segs : List (Pipeline.Seg (pcfgs (F := F)) adm (pdats m ρ) () defs₀ 𝒱₀ L lv) :=
  [ .host (hseg hostOps0 hostOps0_sub hostOps0_fresh (W0 m ρ)),
    .region (reg0 m ρ),
    .host (hseg hostOps1 hostOps1_sub hostOps1_fresh (W2 m ρ)),
    .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and every final state holds every unscoped buffer at the last valuation. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W4 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W4 m ρ c b)
    (hfin := fun c s' => by
      iintro ⟨⟨Hh, -⟩, HSI⟩
      unfold StableHlo.held
      imodintro
      iapply (pointsTo_read_all (Pipeline.ucRefs τ sig) (fun b => (((c : Thread nD τ)).1, b)) (W4 m ρ c) s')
      isplitl [Hh] <;> iassumption)
    (hQ := fun s h => h)

/-- THE FRAME: every argument array ends as launched — none is written by a host operation, none is a window's
    array of either kernel (the kernels read reshaped and transposed copies). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun r h c =>
    ⟨(h c _ (mem_uc main_arg0 (by decide))).trans (W4_untouched m ρ c main_arg0 (by decide) (by decide) (by decide) (by decide)),
     (h c _ (mem_uc main_arg1 (by decide))).trans (W4_untouched m ρ c main_arg1 (by decide) (by decide) (by decide) (by decide)),
     (h c _ (mem_uc main_arg2 (by decide))).trans (W4_untouched m ρ c main_arg2 (by decide) (by decide) (by decide) (by decide)),
     (h c _ (mem_uc main_arg3 (by decide))).trans (W4_untouched m ρ c main_arg3 (by decide) (by decide) (by decide) (by decide)),
     (h c _ (mem_uc main_arg4 (by decide))).trans (W4_untouched m ρ c main_arg4 (by decide) (by decide) (by decide) (by decide)),
     (h c _ (mem_uc main_arg5 (by decide))).trans (W4_untouched m ρ c main_arg5 (by decide) (by decide) (by decide) (by decide)),
     (h c _ (mem_uc main_arg6 (by decide))).trans (W4_untouched m ρ c main_arg6 (by decide) (by decide) (by decide) (by decide)),
     (h c _ (mem_uc main_arg7 (by decide))).trans (W4_untouched m ρ c main_arg7 (by decide) (by decide) (by decide) (by decide)),
     (h c _ (mem_uc main_arg8 (by decide))).trans (W4_untouched m ρ c main_arg8 (by decide) (by decide) (by decide) (by decide))⟩)
    (run_all m ρ)

end Cert.KernelIdeal.Hand

end
-- ==== Proof.LibFiniteAll.lean ====
/-
  A printed "every entry is finite" test, read back on the extended reals.

  The test `all(|x| < +inf)` prints as: the absolute value of every entry, compared (ordered, less-than) with the
  broadcast of the single-precision word of plus infinity, and the resulting array of truth values reduced by `and`
  into a result that has one index. On the extended reals the absolute value is `max x (-x)` and the word
  0x7F800000 (sign 0, exponent field all ones, mantissa 0) denotes plus infinity. So an entry passes the comparison
  exactly when it is neither plus nor minus infinity, that is, when it is a real number; and a reduction by `and`
  that came out 1 met a 1 at every entry.
-/
import Idealize.ShloMosaic.PureOps.Ideal
import Idealize.ShloMosaic.Lib.ReduceAll

namespace Cert.FiniteAll

open Idealize.ShloMosaic

/-- The single-precision word with sign 0, exponent field all ones and mantissa 0 denotes plus infinity. -/
theorem ofBits_inf_f32 : Ideal.ofBits .f32 0x7F800000#32 = (⊤ : EReal) := by
  simp [Ideal.ofBits, Ideal.ieee]

/-- An extended real whose absolute value `max x (-x)` lies below plus infinity is a real number: plus infinity
    is its own absolute value, and the negative of minus infinity is plus infinity. -/
theorem exists_real_of_abs_lt_top {x : EReal} (h : max x (-x) < ⊤) : ∃ r : ℝ, x = (r : EReal) := by
  induction x using EReal.rec with
  | bot => simp at h
  | coe r => exact ⟨r, rfl⟩
  | top => simp at h

/-- One entry: if the ordered comparison `|x| < +inf` answers 1, then `x` is a real number. -/
theorem exists_real_of_cmp (x : Ideal .f32)
    (h : FloatOps.cmpf .olt (FloatOps.hostAbsf x) (FloatOps.ofBits (F := Ideal) .f32 0x7F800000#32) = 1#1) :
    ∃ r : ℝ, (x : EReal) = (r : EReal) := by
  have h' : Ideal.cmp .olt (max (x : EReal) (-(x : EReal))) (Ideal.ofBits .f32 0x7F800000#32) = 1#1 := h
  rw [ofBits_inf_f32] at h'
  unfold Ideal.cmp at h'
  by_cases hlt : max (x : EReal) (-(x : EReal)) < ⊤
  · exact exists_real_of_abs_lt_top hlt
  · simp [hlt] at h'

/-- THE ARRAY FACT: if `|x| < +inf`, taken entry by entry against the broadcast word of plus infinity and reduced
    by `and` into a result with one index, is 1, then every entry of `x` is a real number. The shape of `x`, the
    reduced axes, the shape the constant is broadcast from and the reduction's starting value are arbitrary. -/
theorem all_real_of_reduce_and {s t u z : Shape} {axes : List (Fin s.rank)} [Subsingleton t.Idx]
    (x : FVec Ideal s .f32) (dims : Fin z.rank → Fin s.rank) (hb : z.BroadcastsInDim s dims)
    (init : u.Idx → BitVec 1) (hr : s.ReducesTo axes t) (hu : 0 < u.numel) (j : t.Idx)
    (e : Host.reduce IntOp.andi
          (cmpf .olt (Host.absf x) (broadcastInDim s dims hb (constant (F := Ideal) z .f32 0x7F800000#32)))
          init hr hu j = 1#1)
    (i : s.Idx) : ∃ r : ℝ, (x i : EReal) = (r : EReal) :=
  exists_real_of_cmp (x i) (Host.reduce_andi_all _ init hr hu j e i)

end Cert.FiniteAll
-- ==== Proof.KIFinite.lean ====
/-
  The precondition read back: every entry of every argument array is a real number.

  The precondition is the conjunction, over the nine argument arrays, of "the absolute value of every entry is below
  plus infinity", each taken entry by entry and reduced by `and` into a single truth value, the nine results joined
  by `and`. A conjunction that is 1 has every conjunct 1; a reduction by `and` that is 1 met a 1 at every entry; and
  an extended real whose absolute value is below plus infinity is neither infinity, that is, a real number.
-/
import proofs.«171720_j40072044871789_2_alg».proof.Defs
import proofs.«171720_j40072044871789_2_alg».proof.Proof.Gen.Pre_finite_inputs
import proofs.«171720_j40072044871789_2_alg».proof.Proof.LibFiniteAll
import Idealize.ShloMosaic.Lib.Affine
import Idealize.ShloMosaic.Lib.ValueIdx

noncomputable section

namespace Cert.KernelIdeal.Hand

open Idealize.ShloMosaic Idealize.ShloMosaic.TcCoe Idealize.SL.Sem Cert.KernelIdeal

/-- The scalar shape has one index. -/
instance : Subsingleton Cert.Pre_finite_inputs.S_.Idx := ⟨fun _ _ => funext fun d => d.elim0⟩

/-- An entrywise `and` of two arrays of truth values is 1 at an index exactly when both are. -/
theorem vandi_eq_one {s : Shape} (a b : IVec s 1) (i : s.Idx) :
    Idealize.ShloMosaic.andi a b i = 1#1 ↔ a i = 1#1 ∧ b i = 1#1 := IntOp.andi_eq_one

/-- The printed test on nine arrays: if it answers 1, every entry of every array is a real number. The test is the
    conjunction, argument by argument, of "every entry's absolute value is below plus infinity". -/
theorem all_real_of_fn [Cert.Pre_finite_inputs.Facts]
    (x0 : FVec Ideal Cert.Pre_finite_inputs.S8x1024x1024 .f32) (x1 : FVec Ideal Cert.Pre_finite_inputs.S1024x1024 .f32) (x2 : FVec Ideal Cert.Pre_finite_inputs.S1024 .f32) (x3 : FVec Ideal Cert.Pre_finite_inputs.S1024x1024 .f32) (x4 : FVec Ideal Cert.Pre_finite_inputs.S1024 .f32) (x5 : FVec Ideal Cert.Pre_finite_inputs.S1024x1024 .f32) (x6 : FVec Ideal Cert.Pre_finite_inputs.S1024 .f32) (x7 : FVec Ideal Cert.Pre_finite_inputs.S1024x1024 .f32) (x8 : FVec Ideal Cert.Pre_finite_inputs.S1024 .f32)
    (h : Cert.Pre_finite_inputs.fn (F := Ideal) x0 x1 x2 x3 x4 x5 x6 x7 x8 = fun _ => 1#1) :
    (∀ i : Cert.Pre_finite_inputs.S8x1024x1024.Idx, ∃ r : ℝ, (x0 i : EReal) = (r : EReal))
      ∧ (∀ i : Cert.Pre_finite_inputs.S1024x1024.Idx, ∃ r : ℝ, (x1 i : EReal) = (r : EReal))
      ∧ (∀ i : Cert.Pre_finite_inputs.S1024.Idx, ∃ r : ℝ, (x2 i : EReal) = (r : EReal))
      ∧ (∀ i : Cert.Pre_finite_inputs.S1024x1024.Idx, ∃ r : ℝ, (x3 i : EReal) = (r : EReal))
      ∧ (∀ i : Cert.Pre_finite_inputs.S1024.Idx, ∃ r : ℝ, (x4 i : EReal) = (r : EReal))
      ∧ (∀ i : Cert.Pre_finite_inputs.S1024x1024.Idx, ∃ r : ℝ, (x5 i : EReal) = (r : EReal))
      ∧ (∀ i : Cert.Pre_finite_inputs.S1024.Idx, ∃ r : ℝ, (x6 i : EReal) = (r : EReal))
      ∧ (∀ i : Cert.Pre_finite_inputs.S1024x1024.Idx, ∃ r : ℝ, (x7 i : EReal) = (r : EReal))
      ∧ (∀ i : Cert.Pre_finite_inputs.S1024.Idx, ∃ r : ℝ, (x8 i : EReal) = (r : EReal)) := by
  have h0 := congrFun h ValueIdx.ix0
  dsimp only [Cert.Pre_finite_inputs.fn, Cert.Pre_finite_inputs.fn_part1, Cert.Pre_finite_inputs.fn_part2] at h0
  obtain ⟨h0, e8⟩ := (vandi_eq_one _ _ _).mp h0
  obtain ⟨h0, e7⟩ := (vandi_eq_one _ _ _).mp h0
  obtain ⟨h0, e6⟩ := (vandi_eq_one _ _ _).mp h0
  obtain ⟨h0, e5⟩ := (vandi_eq_one _ _ _).mp h0
  obtain ⟨h0, e4⟩ := (vandi_eq_one _ _ _).mp h0
  obtain ⟨h0, e3⟩ := (vandi_eq_one _ _ _).mp h0
  obtain ⟨h0, e2⟩ := (vandi_eq_one _ _ _).mp h0
  obtain ⟨e0, e1⟩ := (vandi_eq_one _ _ _).mp h0
  exact ⟨Cert.FiniteAll.all_real_of_reduce_and x0 _ _ _ _ _ _ e0, Cert.FiniteAll.all_real_of_reduce_and x1 _ _ _ _ _ _ e1,
    Cert.FiniteAll.all_real_of_reduce_and x2 _ _ _ _ _ _ e2, Cert.FiniteAll.all_real_of_reduce_and x3 _ _ _ _ _ _ e3,
    Cert.FiniteAll.all_real_of_reduce_and x4 _ _ _ _ _ _ e4, Cert.FiniteAll.all_real_of_reduce_and x5 _ _ _ _ _ _ e5,
    Cert.FiniteAll.all_real_of_reduce_and x6 _ _ _ _ _ _ e6, Cert.FiniteAll.all_real_of_reduce_and x7 _ _ _ _ _ _ e7,
    Cert.FiniteAll.all_real_of_reduce_and x8 _ _ _ _ _ _ e8⟩

/-- FROM THE PRECONDITION: on every device, every entry of each of the nine argument arrays is a real number. -/
theorem finite_args [Cert.Pre_finite_inputs.Facts] (m : (ℓ : Loc nD τ sig) → Buf (Elt Ideal) ℓ) (h : Cert.Pre_KernelIdeal m) (c : Dev nD) :
    (∀ i : S8x1024x1024.Idx, ∃ r : ℝ, ((m ((c.tc : Thread nD τ).loc main_arg0) : FVec Ideal S8x1024x1024 .f32) i : EReal) = (r : EReal))
      ∧ (∀ i : S1024x1024.Idx, ∃ r : ℝ, ((m ((c.tc : Thread nD τ).loc main_arg1) : FVec Ideal S1024x1024 .f32) i : EReal) = (r : EReal))
      ∧ (∀ i : S1024.Idx, ∃ r : ℝ, ((m ((c.tc : Thread nD τ).loc main_arg2) : FVec Ideal S1024 .f32) i : EReal) = (r : EReal))
      ∧ (∀ i : S1024x1024.Idx, ∃ r : ℝ, ((m ((c.tc : Thread nD τ).loc main_arg3) : FVec Ideal S1024x1024 .f32) i : EReal) = (r : EReal))
      ∧ (∀ i : S1024.Idx, ∃ r : ℝ, ((m ((c.tc : Thread nD τ).loc main_arg4) : FVec Ideal S1024 .f32) i : EReal) = (r : EReal))
      ∧ (∀ i : S1024x1024.Idx, ∃ r : ℝ, ((m ((c.tc : Thread nD τ).loc main_arg5) : FVec Ideal S1024x1024 .f32) i : EReal) = (r : EReal))
      ∧ (∀ i : S1024.Idx, ∃ r : ℝ, ((m ((c.tc : Thread nD τ).loc main_arg6) : FVec Ideal S1024 .f32) i : EReal) = (r : EReal))
      ∧ (∀ i : S1024x1024.Idx, ∃ r : ℝ, ((m ((c.tc : Thread nD τ).loc main_arg7) : FVec Ideal S1024x1024 .f32) i : EReal) = (r : EReal))
      ∧ (∀ i : S1024.Idx, ∃ r : ℝ, ((m ((c.tc : Thread nD τ).loc main_arg8) : FVec Ideal S1024 .f32) i : EReal) = (r : EReal)) :=
  all_real_of_fn _ _ _ _ _ _ _ _ _ (h c)

/-- Argument 0, entry by entry. -/
theorem finite_arg0 [Cert.Pre_finite_inputs.Facts] (m : (ℓ : Loc nD τ sig) → Buf (Elt Ideal) ℓ) (h : Cert.Pre_KernelIdeal m) (c : Dev nD)
    (i : S8x1024x1024.Idx) : ∃ r : ℝ, ((m ((c.tc : Thread nD τ).loc main_arg0) : FVec Ideal S8x1024x1024 .f32) i : EReal) = (r : EReal) :=
  (finite_args m h c).1 i

/-- Argument 1, entry by entry. -/
theorem finite_arg1 [Cert.Pre_finite_inputs.Facts] (m : (ℓ : Loc nD τ sig) → Buf (Elt Ideal) ℓ) (h : Cert.Pre_KernelIdeal m) (c : Dev nD)
    (i : S1024x1024.Idx) : ∃ r : ℝ, ((m ((c.tc : Thread nD τ).loc main_arg1) : FVec Ideal S1024x1024 .f32) i : EReal) = (r : EReal) :=
  (finite_args m h c).2.1 i

/-- Argument 2, entry by entry. -/
theorem finite_arg2 [Cert.Pre_finite_inputs.Facts] (m : (ℓ : Loc nD τ sig) → Buf (Elt Ideal) ℓ) (h : Cert.Pre_KernelIdeal m) (c : Dev nD)
    (i : S1024.Idx) : ∃ r : ℝ, ((m ((c.tc : Thread nD τ).loc main_arg2) : FVec Ideal S1024 .f32) i : EReal) = (r : EReal) :=
  (finite_args m h c).2.2.1 i

/-- Argument 3, entry by entry. -/
theorem finite_arg3 [Cert.Pre_finite_inputs.Facts] (m : (ℓ : Loc nD τ sig) → Buf (Elt Ideal) ℓ) (h : Cert.Pre_KernelIdeal m) (c : Dev nD)
    (i : S1024x1024.Idx) : ∃ r : ℝ, ((m ((c.tc : Thread nD τ).loc main_arg3) : FVec Ideal S1024x1024 .f32) i : EReal) = (r : EReal) :=
  (finite_args m h c).2.2.2.1 i

/-- Argument 4, entry by entry. -/
theorem finite_arg4 [Cert.Pre_finite_inputs.Facts] (m : (ℓ : Loc nD τ sig) → Buf (Elt Ideal) ℓ) (h : Cert.Pre_KernelIdeal m) (c : Dev nD)
    (i : S1024.Idx) : ∃ r : ℝ, ((m ((c.tc : Thread nD τ).loc main_arg4) : FVec Ideal S1024 .f32) i : EReal) = (r : EReal) :=
  (finite_args m h c).2.2.2.2.1 i

/-- Argument 5, entry by entry. -/
theorem finite_arg5 [Cert.Pre_finite_inputs.Facts] (m : (ℓ : Loc nD τ sig) → Buf (Elt Ideal) ℓ) (h : Cert.Pre_KernelIdeal m) (c : Dev nD)
    (i : S1024x1024.Idx) : ∃ r : ℝ, ((m ((c.tc : Thread nD τ).loc main_arg5) : FVec Ideal S1024x1024 .f32) i : EReal) = (r : EReal) :=
  (finite_args m h c).2.2.2.2.2.1 i

/-- Argument 6, entry by entry. -/
theorem finite_arg6 [Cert.Pre_finite_inputs.Facts] (m : (ℓ : Loc nD τ sig) → Buf (Elt Ideal) ℓ) (h : Cert.Pre_KernelIdeal m) (c : Dev nD)
    (i : S1024.Idx) : ∃ r : ℝ, ((m ((c.tc : Thread nD τ).loc main_arg6) : FVec Ideal S1024 .f32) i : EReal) = (r : EReal) :=
  (finite_args m h c).2.2.2.2.2.2.1 i

/-- Argument 7, entry by entry. -/
theorem finite_arg7 [Cert.Pre_finite_inputs.Facts] (m : (ℓ : Loc nD τ sig) → Buf (Elt Ideal) ℓ) (h : Cert.Pre_KernelIdeal m) (c : Dev nD)
    (i : S1024x1024.Idx) : ∃ r : ℝ, ((m ((c.tc : Thread nD τ).loc main_arg7) : FVec Ideal S1024x1024 .f32) i : EReal) = (r : EReal) :=
  (finite_args m h c).2.2.2.2.2.2.2.1 i

/-- Argument 8, entry by entry. -/
theorem finite_arg8 [Cert.Pre_finite_inputs.Facts] (m : (ℓ : Loc nD τ sig) → Buf (Elt Ideal) ℓ) (h : Cert.Pre_KernelIdeal m) (c : Dev nD)
    (i : S1024.Idx) : ∃ r : ℝ, ((m ((c.tc : Thread nD τ).loc main_arg8) : FVec Ideal S1024 .f32) i : EReal) = (r : EReal) :=
  (finite_args m h c).2.2.2.2.2.2.2.2 i

/-- A real number is neither plus nor minus infinity. -/
theorem ne_top_bot_of_real {x : EReal} (h : ∃ r : ℝ, x = (r : EReal)) : x ≠ ⊤ ∧ x ≠ ⊥ := by
  obtain ⟨r, rfl⟩ := h
  exact ⟨EReal.coe_ne_top r, EReal.coe_ne_bot r⟩

end Cert.KernelIdeal.Hand

end
-- ==== Proof.LibLogShift.lean ====
/-
  The shift law behind a log-domain normalisation, on the extended reals.

  Fix a finite family `L n` of extended reals, none of them `+∞` (think `L n = log a n` of real numbers `a n`:
  a real number's logarithm is a real number or `-∞`). Write `M` for the family's maximum (the fold of `max`
  from `-∞`), `e n = exp (L n - M)` for the shifted exponentials, `ls = log (∑ n, e n)`, and
  `lw n = (L n - M) - ls` for the normalised logarithms. Two programs may carry the normaliser differently:
  one keeps `e n` and the offset `M - (ls + M)`; the other recomputes the maximum `w` of the `lw n` and
  uses `exp (lw n - w)` and the offset `w`. The law says these are the same numbers:

      w = M - (ls + M)        and        exp (lw n - w) = e n   for every n.

  There are two cases. If `M` is a real number `m`, some `L n` equals `m`, every shifted term `L n - M` is
  `≤ 0` (a real number or `-∞`) and one of them is `0`; so `∑ e` is a real number `≥ 1`, `ls` is a real number,
  the maximum of the `lw n` is `0 - ls`, and everything is arithmetic of real numbers (with `-∞` absorbing).
  If `M = -∞`, every `L n` is `-∞`; with the conventions `-∞ - (-∞) = -∞`, `exp (-∞) = 0`, `log 0 = -∞` both
  sides are `-∞` and `0`. (`M = +∞` is excluded by the hypothesis, and is where the law would fail.)
-/
import Idealize.ShloMosaic.PureOps.Ideal
import Mathlib.Data.Finset.Fold

noncomputable section

namespace Cert.LogShift

open Idealize.ShloMosaic

variable {ι : Type} [Fintype ι]

/-- The maximum of a finite family as both programs compute it: the fold of `max` from `-∞`. -/
def cmax (L : ι → EReal) : EReal := (Finset.univ : Finset ι).fold max ⊥ L

theorem le_cmax (L : ι → EReal) (n : ι) : L n ≤ cmax L :=
  (Finset.le_fold_max (L n)).mpr (Or.inr ⟨n, Finset.mem_univ n, le_rfl⟩)

theorem cmax_le {L : ι → EReal} {b : EReal} (h : ∀ n, L n ≤ b) : cmax L ≤ b :=
  (Finset.fold_max_le b).mpr ⟨bot_le, fun n _ => h n⟩

/-- A maximum that is not `-∞` is attained. -/
theorem exists_eq_cmax {L : ι → EReal} (h : cmax L ≠ ⊥) : ∃ n, L n = cmax L := by
  rcases (Finset.le_fold_max (cmax L)).mp (le_refl (cmax L)) with h0 | ⟨n, -, hn⟩
  · exact absurd (le_bot_iff.mp h0) h
  · exact ⟨n, le_antisymm (le_cmax L n) hn⟩

theorem cmax_eq_bot {L : ι → EReal} (h : ∀ n, L n = ⊥) : cmax L = ⊥ :=
  le_bot_iff.mp (cmax_le fun n => (h n).le)

theorem eq_bot_of_cmax_eq_bot {L : ι → EReal} (h : cmax L = ⊥) (n : ι) : L n = ⊥ :=
  le_bot_iff.mp (h ▸ le_cmax L n)

theorem cmax_ne_top {L : ι → EReal} (h : ∀ n, L n ≠ ⊤) : cmax L ≠ ⊤ := by
  intro e
  rcases (Finset.le_fold_max ⊤).mp (le_of_eq e.symm) with h0 | ⟨n, -, hn⟩
  · exact absurd (top_le_iff.mp h0) (by decide)
  · exact h n (top_le_iff.mp hn)

/-- A fold of `max` that starts from `-∞` is the family's maximum. -/
theorem fold_eq_cmax {N : ℕ} (f g : Fin N → EReal) (b : EReal) (hb : b = ⊥) (h : ∀ n, f n = g n) :
    (Finset.univ : Finset (Fin N)).fold max b f = cmax g := by
  subst hb
  exact congrArg (fun u => (Finset.univ : Finset (Fin N)).fold max ⊥ u) (funext h)

/-- The f32 word `0xFF800000` denotes `-∞`. -/
theorem neg_inf : Ideal.ofBits .f32 0xFF800000#32 = (⊥ : EReal) := by
  simp [Ideal.ofBits, Ideal.ieee]

/-- A finite sum of real numbers, taken in the extended reals, is the real sum. -/
theorem coe_sum (s : Finset ι) (f : ι → ℝ) : (∑ n ∈ s, (f n : EReal)) = ((∑ n ∈ s, f n : ℝ) : EReal) := by
  classical
  induction s using Finset.induction_on with
  | empty => simp
  | insert a s ha ih => rw [Finset.sum_insert ha, Finset.sum_insert ha, ih, EReal.coe_add]

/-- The logarithm of a number other than `+∞` is not `+∞`. -/
theorem log_ne_top {a : EReal} (h : a ≠ ⊤) : Ideal.log a ≠ ⊤ := by
  induction a using EReal.rec with
  | bot => simp
  | top => exact absurd rfl h
  | coe r =>
    rw [Ideal.log_coe]
    split
    · decide
    · exact EReal.coe_ne_top _

/-- THE SHIFT LAW (the file's header). -/
theorem shift_law (L : ι → EReal) (hL : ∀ n, L n ≠ ⊤) :
    cmax (fun n => L n - cmax L - Ideal.log (∑ n, Ideal.exp (L n - cmax L)))
        = cmax L - (Ideal.log (∑ n, Ideal.exp (L n - cmax L)) + cmax L)
      ∧ ∀ n, Ideal.exp (L n - cmax L - Ideal.log (∑ n, Ideal.exp (L n - cmax L))
            - cmax (fun n => L n - cmax L - Ideal.log (∑ n, Ideal.exp (L n - cmax L))))
          = Ideal.exp (L n - cmax L) := by
  have hM := cmax_ne_top hL
  generalize hMd : cmax L = M at hM ⊢
  induction M using EReal.rec with
  | top => exact absurd rfl hM
  | bot =>
    -- every term is -∞
    have hb : ∀ n, L n = ⊥ := eq_bot_of_cmax_eq_bot hMd
    have hsh : ∀ n, L n - ⊥ = ⊥ := fun n => by rw [hb n]; rfl
    simp only [hsh, Ideal.exp_bot, Finset.sum_const_zero]
    have hl0 : Ideal.log 0 = ⊥ := by
      rw [show (0 : EReal) = ((0 : ℝ) : EReal) from rfl, Ideal.log_coe, if_pos le_rfl]
    rw [hl0]
    have hbb : (⊥ : EReal) - ⊥ = ⊥ := rfl
    have hc : cmax (fun _ : ι => (⊥ : EReal) - ⊥) = ⊥ := cmax_eq_bot fun _ => hbb
    rw [hc]
    refine ⟨?_, fun n => ?_⟩
    · simp [hbb]
    · rw [hbb, hbb, Ideal.exp_bot]
  | coe m =>
    -- the maximum is a real number m, attained at some n₀
    obtain ⟨n₀, hn₀⟩ : ∃ n, L n = (m : EReal) := by
      have := exists_eq_cmax (L := L) (by rw [hMd]; exact EReal.coe_ne_bot m)
      rwa [hMd] at this
    have hle : ∀ n, L n ≤ (m : EReal) := fun n => hMd ▸ le_cmax L n
    -- each shifted term is -∞ or a real number ≤ 0; its exponential is a real number in [0, 1]
    have hsh : ∀ n, L n - (m : EReal) = ⊥ ∨ ∃ s : ℝ, s ≤ 0 ∧ L n - (m : EReal) = (s : EReal) := by
      intro n
      have h1 := hL n; have h2 := hle n
      induction hLn : L n using EReal.rec with
      | bot => exact Or.inl rfl
      | top => exact absurd hLn h1
      | coe l =>
        rw [hLn] at h2
        exact Or.inr ⟨l - m, by have := EReal.coe_le_coe_iff.mp h2; linarith, (EReal.coe_sub l m).symm⟩
    have hex : ∀ n, ∃ r : ℝ, 0 ≤ r ∧ Ideal.exp (L n - (m : EReal)) = (r : EReal) := by
      intro n
      rcases hsh n with h | ⟨s, -, h⟩
      · exact ⟨0, le_rfl, by rw [h, Ideal.exp_bot]; rfl⟩
      · exact ⟨Real.exp s, (Real.exp_pos s).le, by rw [h, Ideal.exp_coe]⟩
    choose er her0 her using hex
    have hsum : (∑ n, Ideal.exp (L n - (m : EReal))) = ((∑ n, er n : ℝ) : EReal) := by
      rw [← coe_sum]; exact Finset.sum_congr rfl fun n _ => her n
    have her1 : er n₀ = 1 := by
      have := her n₀
      rw [hn₀, ← EReal.coe_sub, sub_self, Ideal.exp_coe, Real.exp_zero] at this
      exact (EReal.coe_eq_coe_iff.mp this).symm
    have hSpos : 0 < ∑ n, er n :=
      lt_of_lt_of_le (by rw [her1]; exact one_pos)
        (Finset.single_le_sum (f := er) (fun n _ => her0 n) (Finset.mem_univ n₀))
    have hls : Ideal.log (∑ n, Ideal.exp (L n - (m : EReal))) = ((Real.log (∑ n, er n) : ℝ) : EReal) := by
      rw [hsum, Ideal.log_coe, if_neg (not_le.mpr hSpos)]
    rw [hls]
    generalize Real.log (∑ n, er n) = lam
    -- the recomputed maximum is 0 - ls
    have hw : cmax (fun n => L n - (m : EReal) - (lam : EReal)) = ((-lam : ℝ) : EReal) := by
      apply le_antisymm
      · apply cmax_le
        intro n
        rcases hsh n with h | ⟨s, hs, h⟩
        · rw [h]; exact bot_le
        · rw [h, ← EReal.coe_sub]; exact EReal.coe_le_coe_iff.mpr (by linarith)
      · have := le_cmax (fun n => L n - (m : EReal) - (lam : EReal)) n₀
        refine le_trans (le_of_eq ?_) this
        show _ = L n₀ - (m : EReal) - (lam : EReal)
        rw [hn₀, ← EReal.coe_sub, ← EReal.coe_sub]; congr 1; ring
    rw [hw]
    refine ⟨?_, fun n => ?_⟩
    · rw [← EReal.coe_add, ← EReal.coe_sub]; congr 1; ring
    · rcases hsh n with h | ⟨s, -, h⟩
      · rw [h]; rfl
      · rw [h, ← EReal.coe_sub, ← EReal.coe_sub]; congr 2; ring

/-! ## One entry of a log-domain matrix product, written both ways

  Entry `(b, k)` of the product depends on row `b` of the left matrix (`x n`) and column `k` of the right one
  (`a n`). With `L n = log (a n)`: both programs compute `log (∑ n, exp (x n - max x) · R n) + max x + w`; one takes
  `R n = exp (L n - M)` and `w = M - (ls + M)`, the other `R n = exp (lw n - max lw)` and `w = max lw`. -/

/-- `log ∑ exp` of the family shifted by its maximum. -/
def lse (L : ι → EReal) : EReal := Ideal.log (∑ n, Ideal.exp (L n - cmax L))

/-- The normalised logarithms `(L n - M) - ls`. -/
def lw (L : ι → EReal) (n : ι) : EReal := L n - cmax L - lse L

/-- The shift law over the two names above. -/
theorem shift_law' (L : ι → EReal) (hL : ∀ n, L n ≠ ⊤) :
    cmax (lw L) = cmax L - (lse L + cmax L) ∧ ∀ n, Ideal.exp (lw L n - cmax (lw L)) = Ideal.exp (L n - cmax L) :=
  shift_law L hL

/-- The entry with the shifted exponentials kept and the offset `M - (ls + M)`. -/
def entryK (x a : ι → EReal) : EReal :=
  Ideal.log (∑ n, Ideal.exp (x n - cmax x) * Ideal.exp (Ideal.log (a n) - cmax fun n => Ideal.log (a n)))
    + cmax x + (cmax (fun n => Ideal.log (a n)) - (lse (fun n => Ideal.log (a n)) + cmax fun n => Ideal.log (a n)))

/-- The entry with the maximum of the normalised logarithms recomputed. -/
def entryR (x a : ι → EReal) : EReal :=
  Ideal.log (∑ n, Ideal.exp (x n - cmax x) * Ideal.exp (lw (fun n => Ideal.log (a n)) n - cmax (lw fun n => Ideal.log (a n))))
    + cmax x + cmax (lw fun n => Ideal.log (a n))

/-- The two entries are one number when no `a n` is `+∞`. -/
theorem entryR_eq_entryK (x a : ι → EReal) (ha : ∀ n, a n ≠ ⊤) : entryR x a = entryK x a := by
  obtain ⟨h1, h2⟩ := shift_law' (fun n => Ideal.log (a n)) (fun n => log_ne_top (ha n))
  unfold entryR entryK
  rw [Finset.sum_congr rfl (fun n _ => congrArg (Ideal.exp (x n - cmax x) * ·) (h2 n)), h1]

end Cert.LogShift

end
-- ==== Proof.Spec.lean ====
/-
  Causal single-head self-attention with linear input and output layers, as one function of the argument
  arrays, entry by entry, on the extended reals.

  For a batch element n, a position t and a feature e:

      q, k, v  =  x · Wᵀ + b                       (three linear layers of the same input)
      s(i, j)  =  (Σ_d q(i, d) · k(j, d)) / 32     for j ≤ i,   -∞ for j > i     (the causal mask)
      ctx(i, d) = Σ_j  exp (s(i, j) - M_i) / (Σ_j' exp (s(i, j') - M_i)) · v(j, d),   M_i = max_j s(i, j)
      y        =  ctx · Woᵀ + bo

  The scale is 1/32 = 1024^(-1/2), the feature extent being 1024.
-/
import Idealize.ShloMosaic.PureOps.Ideal
import Idealize.ShloMosaic.Lib.ValueIdx
import proofs.«171720_j40072044871789_2_alg».proof.Proof.LibLogShift

noncomputable section

open scoped BigOperators

namespace Cert.Attn

open Idealize.ShloMosaic Idealize.ShloMosaic.ValueIdx Cert.LogShift

/-- An array of shape [8, 1024, 1024] by coordinates. -/
abbrev T3 : Type := Fin 8 → Fin 1024 → Fin 1024 → EReal
/-- A matrix of shape [1024, 1024] by coordinates. -/
abbrev M2 : Type := Fin 1024 → Fin 1024 → EReal
/-- A vector of length 1024. -/
abbrev V1 : Type := Fin 1024 → EReal

/-- The linear layer x · Wᵀ + b: entry (n, t, e) is Σ_d x(n, t, d) · W(e, d) + b(e). -/
def lin (x : T3) (w : M2) (b : V1) : T3 := fun n t e => (∑ d : Fin 1024, x n t d * w e d) + b e

/-- The masked, scaled score of query position i against key position j. -/
def score (q k : T3) (n : Fin 8) (i j : Fin 1024) : EReal :=
  if j.val ≤ i.val then (∑ d : Fin 1024, q n i d * k n j d) * ((1 / 32 : ℝ) : EReal) else ⊥

/-- The softmax weight of position j in a row of scores: exp (s j - max s) / Σ_j' exp (s j' - max s). -/
def weight (s : Fin 1024 → EReal) (j : Fin 1024) : EReal :=
  Ideal.div (Ideal.exp (s j - cmax s)) (∑ j' : Fin 1024, Ideal.exp (s j' - cmax s))

/-- The attention context: the softmax-weighted sum of the value rows. -/
def ctx (q k v : T3) : T3 := fun n i d => ∑ j : Fin 1024, weight (score q k n i) j * v n j d

/-- The whole block. -/
def attention (x : T3) (wq : M2) (bq : V1) (wk : M2) (bk : V1) (wv : M2) (bv : V1) (wo : M2) (bo : V1) : T3 :=
  lin (ctx (lin x wq bq) (lin x wk bk) (lin x wv bv)) wo bo

/-- An array of shape [8, 1024, 1024] read by coordinates. -/
def arr3 (x : (⟨3, ![8, 1024, 1024]⟩ : Shape).Idx → EReal) : T3 := fun n t d => x (ix3 n t d)
/-- A matrix of shape [1024, 1024] read by coordinates. -/
def arr2 (w : (⟨2, ![1024, 1024]⟩ : Shape).Idx → EReal) : M2 := fun e d => w (ix2 e d)
/-- A vector of length 1024 read by its coordinate. -/
def arr1 (b : (⟨1, ![1024]⟩ : Shape).Idx → EReal) : V1 := fun e => b (ix1 e)

/-- The block as a function of the nine argument arrays, at an index of the result. -/
def block (x : (⟨3, ![8, 1024, 1024]⟩ : Shape).Idx → EReal)
    (wq : (⟨2, ![1024, 1024]⟩ : Shape).Idx → EReal) (bq : (⟨1, ![1024]⟩ : Shape).Idx → EReal)
    (wk : (⟨2, ![1024, 1024]⟩ : Shape).Idx → EReal) (bk : (⟨1, ![1024]⟩ : Shape).Idx → EReal)
    (wv : (⟨2, ![1024, 1024]⟩ : Shape).Idx → EReal) (bv : (⟨1, ![1024]⟩ : Shape).Idx → EReal)
    (wo : (⟨2, ![1024, 1024]⟩ : Shape).Idx → EReal) (bo : (⟨1, ![1024]⟩ : Shape).Idx → EReal) :
    (⟨3, ![8, 1024, 1024]⟩ : Shape).Idx → EReal :=
  fun i => attention (arr3 x) (arr2 wq) (arr1 bq) (arr2 wk) (arr1 bk) (arr2 wv) (arr1 bv) (arr2 wo) (arr1 bo) (i 0) (i 1) (i 2)

end Cert.Attn

end
-- ==== Proof.Consts.lean ====
/-
  The f32 words this certificate's programs spell, as the extended reals they denote, each evaluated once.

  1024 and -1/2 are the reference's scale constants: 1024 = 32², so 1024 ^ (-1/2) = 32 ^ (-1) = 1/32, which is also what
  the word 0x3D000000 (2 ^ (-5)) denotes. The word 0xFF800000 denotes -∞ and the zero word denotes 0. A scalar constant
  denotes what the same word denotes as a vector element.
-/
import Idealize.ShloMosaic.PureOps.Ideal
import Idealize.ShloMosaic.PureOps.Ideal.Laws
import proofs.«171720_j40072044871789_2_alg».proof.Proof.LibLogShift

noncomputable section

namespace Cert.Consts

open Idealize.ShloMosaic

/-- The f32 word `0x44800000` denotes 1024. -/
theorem ofBits_1024 : Ideal.ofBits .f32 0x44800000#32 = ((1024 : ℝ) : EReal) := by
  simp [Ideal.ofBits, Ideal.ieee, -EReal.coe_mul]; norm_num

/-- The f32 word `0xBF000000` denotes -1/2. -/
theorem ofBits_neg_half : Ideal.ofBits .f32 0xBF000000#32 = ((-(1 / 2) : ℝ) : EReal) := by
  simp [Ideal.ofBits, Ideal.ieee, -EReal.coe_mul]; norm_num

/-- The f32 word `0x3D000000` denotes 1/32. -/
theorem ofBits_scale : Ideal.ofBits .f32 0x3D000000#32 = ((1 / 32 : ℝ) : EReal) := by
  simp [Ideal.ofBits, Ideal.ieee, -EReal.coe_mul]; norm_num

/-- 1024 = 32², so 1024 ^ (-1/2) = 32 ^ (-1) = 1/32. -/
theorem rpow_1024 : Real.rpow 1024 (-(1 / 2)) = 1 / 32 := by
  have h : (1024 : ℝ) = 32 ^ (2 : ℝ) := by norm_num
  show (1024 : ℝ) ^ (-(1 / 2) : ℝ) = 1 / 32
  rw [h, ← Real.rpow_mul (by norm_num)]
  norm_num

/-- The power of the two scale constants is the extended real 1/32. -/
theorem scale_eq :
    Ideal.pow (Ideal.ofBits .f32 0x44800000#32) (Ideal.ofBits .f32 0xBF000000#32) = ((1 / 32 : ℝ) : EReal) := by
  rw [ofBits_1024, ofBits_neg_half, Ideal.pow_coe_coe, rpow_1024]

/-- The scalar constant 1/32. -/
theorem scalar_scale : Scalar.ofBits (F := Ideal) .f32 0x3D000000#32 = ((1 / 32 : ℝ) : EReal) := ofBits_scale

/-- The scalar constant -∞. -/
theorem scalar_neg_inf : Scalar.ofBits (F := Ideal) .f32 0xFF800000#32 = (⊥ : EReal) := Cert.LogShift.neg_inf

/-- The scalar constant 0. -/
theorem scalar_zero : Scalar.ofBits (F := Ideal) .f32 0x00000000#32 = (0 : EReal) := Ideal.ofBits_zero_f32

end Cert.Consts

end
-- ==== Proof.RefIdx.lean ====
/-
  The reference attention block, read at an index: the operand indices and the causal mask.

  Two groups of small facts about the reference program's operations, each stated at explicit coordinates
  (n : Fin 8) (i j : Fin 1024):

  * the operand indices. A contraction's result entry (n, t, e) reads its left operand at (n, t, k) and its right
    operand at (e, k) (or (n, j, k), or (n, k, d), according to the contraction); a broadcast's result entry reads the
    operand at the coordinates the broadcast keeps;
  * the causal mask. Entry (i, j) of the lower triangle compares the row number i with the column number j as signed
    32-bit words; both are below 1024, so the comparison is that of the numbers, and the entry is the bit of j ≤ i.
-/
import proofs.«171720_j40072044871789_2_alg».proof.Proof.Gen.ReferenceIdeal.Read
import proofs.«171720_j40072044871789_2_alg».proof.Proof.Spec
import proofs.«171720_j40072044871789_2_alg».proof.Proof.Consts

noncomputable section

open scoped BigOperators

namespace Cert.ReferenceIdeal.RefSpec

open Idealize.ShloMosaic Idealize.ShloMosaic.ValueIdx Cert.ReferenceIdeal Cert.ReferenceIdeal.Read Cert.Attn Cert.LogShift Cert.Consts

/-! ## Index equations: the operand indices of each operation, at a result index given by coordinates -/

theorem lidx_v1 (n : Fin 8) (t e k : Fin 1024) : lidx_main_v1 (ix3 n t e) k = ix3 n t k := by
  funext a; match a with | ⟨0, _⟩ => rfl | ⟨1, _⟩ => rfl | ⟨2, _⟩ => rfl
theorem ridx_v1 (n : Fin 8) (t e k : Fin 1024) : ridx_main_v1 (ix3 n t e) k = ix2 e k := by
  funext a; match a with | ⟨0, _⟩ => rfl | ⟨1, _⟩ => rfl
theorem lidx_v5 (n : Fin 8) (t e k : Fin 1024) : lidx_main_v5 (ix3 n t e) k = ix3 n t k := by
  funext a; match a with | ⟨0, _⟩ => rfl | ⟨1, _⟩ => rfl | ⟨2, _⟩ => rfl
theorem ridx_v5 (n : Fin 8) (t e k : Fin 1024) : ridx_main_v5 (ix3 n t e) k = ix2 e k := by
  funext a; match a with | ⟨0, _⟩ => rfl | ⟨1, _⟩ => rfl
theorem lidx_v9 (n : Fin 8) (t e k : Fin 1024) : lidx_main_v9 (ix3 n t e) k = ix3 n t k := by
  funext a; match a with | ⟨0, _⟩ => rfl | ⟨1, _⟩ => rfl | ⟨2, _⟩ => rfl
theorem ridx_v9 (n : Fin 8) (t e k : Fin 1024) : ridx_main_v9 (ix3 n t e) k = ix2 e k := by
  funext a; match a with | ⟨0, _⟩ => rfl | ⟨1, _⟩ => rfl
theorem lidx_v31 (n : Fin 8) (t e k : Fin 1024) : lidx_main_v31 (ix3 n t e) k = ix3 n t k := by
  funext a; match a with | ⟨0, _⟩ => rfl | ⟨1, _⟩ => rfl | ⟨2, _⟩ => rfl
theorem ridx_v31 (n : Fin 8) (t e k : Fin 1024) : ridx_main_v31 (ix3 n t e) k = ix2 e k := by
  funext a; match a with | ⟨0, _⟩ => rfl | ⟨1, _⟩ => rfl
theorem idx_v2_v3 (n : Fin 8) (t e : Fin 1024) : idx_main_v2 (idx_main_v3 (ix3 n t e)) = ix1 e := by
  funext a; match a with | ⟨0, _⟩ => rfl
theorem idx_v6_v7 (n : Fin 8) (t e : Fin 1024) : idx_main_v6 (idx_main_v7 (ix3 n t e)) = ix1 e := by
  funext a; match a with | ⟨0, _⟩ => rfl
theorem idx_v10_v11 (n : Fin 8) (t e : Fin 1024) : idx_main_v10 (idx_main_v11 (ix3 n t e)) = ix1 e := by
  funext a; match a with | ⟨0, _⟩ => rfl
theorem idx_v32_v33 (n : Fin 8) (t e : Fin 1024) : idx_main_v32 (idx_main_v33 (ix3 n t e)) = ix1 e := by
  funext a; match a with | ⟨0, _⟩ => rfl
theorem lidx_v15 (n : Fin 8) (i j k : Fin 1024) : lidx_main_v15 (ix3 n i j) k = ix3 n i k := by
  funext a; match a with | ⟨0, _⟩ => rfl | ⟨1, _⟩ => rfl | ⟨2, _⟩ => rfl
theorem ridx_v15 (n : Fin 8) (i j k : Fin 1024) : ridx_main_v15 (ix3 n i j) k = ix3 n j k := by
  funext a; match a with | ⟨0, _⟩ => rfl | ⟨1, _⟩ => rfl | ⟨2, _⟩ => rfl
theorem lidx_v30 (n : Fin 8) (i d k : Fin 1024) : lidx_main_v30 (ix3 n i d) k = ix3 n i k := by
  funext a; match a with | ⟨0, _⟩ => rfl | ⟨1, _⟩ => rfl | ⟨2, _⟩ => rfl
theorem ridx_v30 (n : Fin 8) (i d k : Fin 1024) : ridx_main_v30 (ix3 n i d) k = ix3 n k d := by
  funext a; match a with | ⟨0, _⟩ => rfl | ⟨1, _⟩ => rfl | ⟨2, _⟩ => rfl
theorem idx_call1_v1 (n : Fin 8) (i j : Fin 1024) : idx_main_call1_v1 (ix3 n i j) = ix2 i j := by
  funext a; match a with | ⟨0, _⟩ => rfl | ⟨1, _⟩ => rfl
theorem idx_v22_v23 (n : Fin 8) (i j : Fin 1024) : idx_main_v22 (idx_main_v23 (ix3 n i j)) = ix2 n i := by
  funext a; match a with | ⟨0, _⟩ => rfl | ⟨1, _⟩ => rfl
theorem idx_v27_v28 (n : Fin 8) (i j : Fin 1024) : idx_main_v27 (idx_main_v28 (ix3 n i j)) = ix2 n i := by
  funext a; match a with | ⟨0, _⟩ => rfl | ⟨1, _⟩ => rfl
theorem idx_v26 (n : Fin 8) (i k : Fin 1024) : idx_main_v26 (ix2 n i) k = ix3 n i k := by
  funext a; match a with | ⟨0, _⟩ => rfl | ⟨1, _⟩ => rfl | ⟨2, _⟩ => rfl

/-! ## The causal mask: entry (i, j) of the lower triangle is the bit of j ≤ i -/

/-- A number below 1024, as a 32-bit word read signed, is itself. -/
theorem toInt_ofNat_small (n : Nat) (h : n < 1024) : (BitVec.ofNat 32 n).toInt = (n : Int) := by
  rw [BitVec.toInt_eq_toNat_cond, BitVec.toNat_ofNat]; omega

/-- The comparison "row number ≥ column number" on the two iotas, at (i, j), is the bit of j ≤ i. -/
theorem cmp_ge (i j : Fin 1024) :
    IntOp.cmpi .sge (IntOp.addi (BitVec.ofNat 32 i.val) 0#32) (BitVec.ofNat 32 j.val) = if j.val ≤ i.val then 1#1 else 0#1 := by
  have e : IntOp.addi (BitVec.ofNat 32 i.val) 0#32 = BitVec.ofNat 32 i.val := BitVec.add_zero _
  rw [e]
  by_cases h : j.val ≤ i.val
  · rw [if_pos h]
    refine IntOp.cmpi_sge.mpr ?_
    rw [toInt_ofNat_small _ i.isLt, toInt_ofNat_small _ j.isLt]; omega
  · rw [if_neg h]
    refine eq_zero_of_ne_one fun c => h ?_
    have := IntOp.cmpi_sge.mp c
    rw [toInt_ofNat_small _ i.isLt, toInt_ofNat_small _ j.isLt] at this; omega

/-- The lower-triangular mask at (i, j): the select between the all-true and the all-false array on that comparison. -/
theorem tril_ix2 (i j : Fin 1024) : val_main_v14 (F := Ideal) (ix2 i j) = if j.val ≤ i.val then 1#1 else 0#1 := by
  rw [val_main_v14_apply, val_main_call0_v4_apply, val_main_call0_v2_apply, val_main_call0_v0_apply,
    val_main_call0_v1_apply, val_main_call0_c_apply, val_main_call0_v3_apply, val_main_v13_apply, val_main_c_apply,
    val_main_call0_v5_apply, val_main_call0_c_0_apply]
  show Scalar.select (IntOp.cmpi .sge (IntOp.addi (BitVec.ofNat 32 i.val) 0#32) (BitVec.ofNat 32 j.val)) 1#1 0#1 = _
  rw [cmp_ge]
  by_cases h : j.val ≤ i.val
  · rw [if_pos h, select_one]
  · rw [if_neg h, select_zero]

end Cert.ReferenceIdeal.RefSpec

end
-- ==== Proof.RefSpec.lean ====
/-
  The reference attention block IS the specification: read at every index of its result, the reference program's
  value is the block of the specification, as a function of the nine argument arrays.

  The proof follows the program stage by stage, each stage stated at explicit coordinates (n : Fin 8) (i j : Fin 1024):

  * the three linear layers: a contraction over the feature axis plus the broadcast bias is Σ_d x(n, t, d) · W(e, d) + b(e);
  * the scores: the contraction of a query row with a key row, times the scale 1024 ^ (-1/2) = 1/32, kept where the
    mask's bit is set (j ≤ i) and replaced by -∞ elsewhere;
  * the row maximum: the program folds max over the row from -∞ and then takes the maximum with -∞ once more; max is
    commutative and associative and -∞ is its neutral element, so both steps together are the row's maximum;
  * the softmax: exp of the score less the row maximum; the row sum started from 0 is the sum; the quotient is the weight;
  * the context: the contraction of the weights with the value rows over the key position;
  * the output layer: one more linear layer.
-/
import proofs.«171720_j40072044871789_2_alg».proof.Proof.RefIdx

noncomputable section

open scoped BigOperators

namespace Cert.ReferenceIdeal.RefSpec

open Idealize.ShloMosaic Idealize.ShloMosaic.ValueIdx Cert.ReferenceIdeal Cert.ReferenceIdeal.Read Cert.Attn Cert.LogShift Cert.Consts

/-! ## The three linear layers -/

/-- A linear layer of the input at (n, t, e): Σ_d x(n, t, d) · W(e, d) + b(e). -/
theorem v4_ix3 (x0 : (⟨S8x1024x1024, .f32⟩ : BufTy).Contents (Elt Ideal)) (x1 : (⟨S1024x1024, .f32⟩ : BufTy).Contents (Elt Ideal)) (x2 : (⟨S1024, .f32⟩ : BufTy).Contents (Elt Ideal)) (n : Fin 8) (t e : Fin 1024) :
    val_main_v4 (F := Ideal) x0 x1 x2 (ix3 n t e) = lin (arr3 x0) (arr2 x1) (arr1 x2) n t e := by
  rw [val_main_v4_apply, val_main_v1_apply, val_main_v3_apply, val_main_v2_apply, idx_v2_v3, Ideal.addf_def]
  simp only [lidx_v1, ridx_v1]
  rfl

/-- A linear layer of the input at (n, t, e): Σ_d x(n, t, d) · W(e, d) + b(e). -/
theorem v8_ix3 (x0 : (⟨S8x1024x1024, .f32⟩ : BufTy).Contents (Elt Ideal)) (x3 : (⟨S1024x1024, .f32⟩ : BufTy).Contents (Elt Ideal)) (x4 : (⟨S1024, .f32⟩ : BufTy).Contents (Elt Ideal)) (n : Fin 8) (t e : Fin 1024) :
    val_main_v8 (F := Ideal) x0 x3 x4 (ix3 n t e) = lin (arr3 x0) (arr2 x3) (arr1 x4) n t e := by
  rw [val_main_v8_apply, val_main_v5_apply, val_main_v7_apply, val_main_v6_apply, idx_v6_v7, Ideal.addf_def]
  simp only [lidx_v5, ridx_v5]
  rfl

/-- A linear layer of the input at (n, t, e): Σ_d x(n, t, d) · W(e, d) + b(e). -/
theorem v12_ix3 (x0 : (⟨S8x1024x1024, .f32⟩ : BufTy).Contents (Elt Ideal)) (x5 : (⟨S1024x1024, .f32⟩ : BufTy).Contents (Elt Ideal)) (x6 : (⟨S1024, .f32⟩ : BufTy).Contents (Elt Ideal)) (n : Fin 8) (t e : Fin 1024) :
    val_main_v12 (F := Ideal) x0 x5 x6 (ix3 n t e) = lin (arr3 x0) (arr2 x5) (arr1 x6) n t e := by
  rw [val_main_v12_apply, val_main_v9_apply, val_main_v11_apply, val_main_v10_apply, idx_v10_v11, Ideal.addf_def]
  simp only [lidx_v9, ridx_v9]
  rfl

/-! ## The masked, scaled scores -/

/-- The score at (n, i, j): the contraction of the query row i with the key row j, times 1/32, where j ≤ i; -∞ elsewhere. -/
theorem v18_ix3 (x0 : (⟨S8x1024x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (n : Fin 8) (i j : Fin 1024) :
    val_main_v18 (F := Ideal) x0 x1 x2 x3 x4 (ix3 n i j) = score (lin (arr3 x0) (arr2 x1) (arr1 x2)) (lin (arr3 x0) (arr2 x3) (arr1 x4)) n i j := by
  rw [val_main_v18_apply, val_main_call1_v1_apply, idx_call1_v1, tril_ix2, val_main_v17_apply, val_main_v15_apply,
    val_main_v16_apply, val_main_v0_apply, val_main_cst_apply, val_main_cst_0_apply, val_main_call1_v2_apply,
    val_main_call1_v0_apply, val_main_cst_1_apply]
  simp only [lidx_v15, ridx_v15, v4_ix3, v8_ix3, Ideal.mulf_def, Ideal.hostPowf_def, Ideal.ofBits_def, scale_eq, neg_inf]
  unfold score
  by_cases h : j.val ≤ i.val
  · rw [if_pos h, if_pos h, select_one]
  · rw [if_neg h, if_neg h, select_zero]

/-! ## The row maximum -/

/-- Dropping the last axis of an [8, 1024, 1024] array leaves an [8, 1024] one. -/
theorem reduces_d2 : S8x1024x1024.Reduces [2] S8x1024 := by decide

/-- The source index over (n, i) with k on the dropped axis is (n, i, k). -/
theorem lift_d2 (n : Fin 8) (i k : Fin 1024) : reduces_d2.lift (ix2 n i) k = ix3 n i k := by
  funext c; match c with | ⟨0, _⟩ => exact Fin.ext rfl | ⟨1, _⟩ => exact Fin.ext rfl | ⟨2, _⟩ => exact Fin.ext rfl

/-- The row maximum at (n, i): the maximum of -∞ and the fold of max from -∞ over the row is the row's maximum. -/
theorem v21_ix2 (x0 : (⟨S8x1024x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (n : Fin 8) (i : Fin 1024) :
    val_main_v21 (F := Ideal) x0 x1 x2 x3 x4 (ix2 n i) = cmax (score (lin (arr3 x0) (arr2 x1) (arr1 x2)) (lin (arr3 x0) (arr2 x3) (arr1 x4)) n i) := by
  rw [val_main_v21_apply, val_main_v20_apply, val_main_cst_3_apply, Ideal.maximumf_def, Ideal.ofBits_def, neg_inf]
  refine (max_eq_right bot_le).trans ?_
  unfold val_main_v19
  refine (Host.reduce_eq_fold_single (FloatOps.maximumf (F := Ideal) (φ := .f32)) _ _ _ reduces_d2 _ (ix2 n i)).trans ?_
  refine fold_eq_cmax (N := 1024) _ _ _ ?_ fun k => ?_
  · rw [val_main_cst_2_apply]; exact neg_inf
  · show val_main_v18 (F := Ideal) x0 x1 x2 x3 x4 (reduces_d2.lift (ix2 n i) k) = _
    rw [lift_d2, v18_ix3]

/-! ## The softmax of a row -/

/-- The shifted exponential at (n, i, j): exp (s(i, j) - M_i). -/
theorem v25_ix3 (x0 : (⟨S8x1024x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (n : Fin 8) (i j : Fin 1024) :
    val_main_v25 (F := Ideal) x0 x1 x2 x3 x4 (ix3 n i j)
      = Ideal.exp (score (lin (arr3 x0) (arr2 x1) (arr1 x2)) (lin (arr3 x0) (arr2 x3) (arr1 x4)) n i j - cmax (score (lin (arr3 x0) (arr2 x1) (arr1 x2)) (lin (arr3 x0) (arr2 x3) (arr1 x4)) n i)) := by
  rw [val_main_v25_apply, val_main_v24_apply, val_main_v23_apply, val_main_v22_apply, idx_v22_v23, v21_ix2, v18_ix3,
    Ideal.hostUnary_exp_def, Ideal.subf_def]

/-- The row sum at (n, i): 0 + Σ_j' exp (s(i, j') - M_i) is the sum. -/
theorem v26_ix2 (x0 : (⟨S8x1024x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (n : Fin 8) (i : Fin 1024) :
    val_main_v26 (F := Ideal) x0 x1 x2 x3 x4 (ix2 n i)
      = ∑ j' : Fin 1024, Ideal.exp (score (lin (arr3 x0) (arr2 x1) (arr1 x2)) (lin (arr3 x0) (arr2 x3) (arr1 x4)) n i j' - cmax (score (lin (arr3 x0) (arr2 x1) (arr1 x2)) (lin (arr3 x0) (arr2 x3) (arr1 x4)) n i)) := by
  rw [val_main_v26_apply, val_main_cst_4_apply, Ideal.ofBits_def, Ideal.ofBits_zero_f32, zero_add]
  simp only [idx_v26, v25_ix3]

/-- The softmax weight at (n, i, j). -/
theorem v29_ix3 (x0 : (⟨S8x1024x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (n : Fin 8) (i j : Fin 1024) :
    val_main_v29 (F := Ideal) x0 x1 x2 x3 x4 (ix3 n i j) = weight (score (lin (arr3 x0) (arr2 x1) (arr1 x2)) (lin (arr3 x0) (arr2 x3) (arr1 x4)) n i) j := by
  rw [val_main_v29_apply, val_main_v28_apply, val_main_v27_apply, idx_v27_v28, v26_ix2, v25_ix3, Ideal.hostDivf_def]
  rfl

/-! ## The weighted sum of the value rows, and the output layer -/

/-- The attention context at (n, i, d): Σ_j weight(i, j) · v(j, d). -/
theorem v30_ix3 (x0 : (⟨S8x1024x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (n : Fin 8) (i d : Fin 1024) :
    val_main_v30 (F := Ideal) x0 x1 x2 x3 x4 x5 x6 (ix3 n i d) = ctx (lin (arr3 x0) (arr2 x1) (arr1 x2)) (lin (arr3 x0) (arr2 x3) (arr1 x4)) (lin (arr3 x0) (arr2 x5) (arr1 x6)) n i d := by
  rw [val_main_v30_apply]
  simp only [lidx_v30, ridx_v30, v29_ix3, v12_ix3]
  rfl

/-- The block's result at (n, t, e). -/
theorem v34_ix3 (x0 : (⟨S8x1024x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) (n : Fin 8) (t e : Fin 1024) :
    val_main_v34 (F := Ideal) x0 x1 x2 x3 x4 x5 x6 x7 x8 (ix3 n t e)
      = attention (arr3 x0) (arr2 x1) (arr1 x2) (arr2 x3) (arr1 x4) (arr2 x5) (arr1 x6) (arr2 x7) (arr1 x8) n t e := by
  rw [val_main_v34_apply, val_main_v31_apply, val_main_v33_apply, val_main_v32_apply, idx_v32_v33, Ideal.addf_def]
  simp only [lidx_v31, ridx_v31, v30_ix3]
  rfl

/-- THE REFERENCE IS THE SPECIFICATION: the reference program's result, as a function of its nine arguments, is the block. -/
theorem ref_is_block (x0 : (⟨S8x1024x1024, .f32⟩ : BufTy).Contents (Elt Ideal)) (x1 : (⟨S1024x1024, .f32⟩ : BufTy).Contents (Elt Ideal)) (x2 : (⟨S1024, .f32⟩ : BufTy).Contents (Elt Ideal)) (x3 : (⟨S1024x1024, .f32⟩ : BufTy).Contents (Elt Ideal)) (x4 : (⟨S1024, .f32⟩ : BufTy).Contents (Elt Ideal)) (x5 : (⟨S1024x1024, .f32⟩ : BufTy).Contents (Elt Ideal)) (x6 : (⟨S1024, .f32⟩ : BufTy).Contents (Elt Ideal)) (x7 : (⟨S1024x1024, .f32⟩ : BufTy).Contents (Elt Ideal)) (x8 : (⟨S1024, .f32⟩ : BufTy).Contents (Elt Ideal)) :
    val_main_v34 (F := Ideal) x0 x1 x2 x3 x4 x5 x6 x7 x8 = block x0 x1 x2 x3 x4 x5 x6 x7 x8 := by
  funext i
  obtain ⟨n, t, e, rfl⟩ : ∃ (n : Fin 8) (t e : Fin 1024), i = ix3 n t e := ⟨i 0, i 1, i 2, eq_ix3 i⟩
  exact v34_ix3 x0 x1 x2 x3 x4 x5 x6 x7 x8 n t e

end Cert.ReferenceIdeal.RefSpec

end
-- ==== Proof.Claims.lean ====
/-
  The certificate's five claims.

  The three programs run and leave their arguments as launched; the idealized kernel differs from the kernel by one
  named constant, whose name denotes -∞; and, at the ideal values, the idealized kernel and the reference end with the
  same result from memories that agree on the arguments. The last claim is stated here from ONE hypothesis: that the
  kernel's result buffer ends holding the specification's block of the arguments. The reference's result is that block
  too, so the two results are one function of the arguments.
-/
import proofs.«171720_j40072044871789_2_alg».proof.Defs
import proofs.«171720_j40072044871789_2_alg».proof.Proof.Gen.Kernel
import proofs.«171720_j40072044871789_2_alg».proof.Proof.Gen.KernelIdeal
import proofs.«171720_j40072044871789_2_alg».proof.Proof.Gen.ReferenceIdeal
import proofs.«171720_j40072044871789_2_alg».proof.Proof.Gen.Pre_finite_inputs
import proofs.«171720_j40072044871789_2_alg».proof.Proof.Gen.ReferenceIdeal.Run
import proofs.«171720_j40072044871789_2_alg».proof.Proof.Gen.ReferenceIdeal.Read
import proofs.«171720_j40072044871789_2_alg».proof.Proof.KRun
import proofs.«171720_j40072044871789_2_alg».proof.Proof.KIRun
import proofs.«171720_j40072044871789_2_alg».proof.Proof.KIFinite
import proofs.«171720_j40072044871789_2_alg».proof.Proof.RefSpec
import proofs.«171720_j40072044871789_2_alg».proof.Proof.Spec

noncomputable section

namespace Cert.Proof.Claims

open Idealize.ShloMosaic Idealize.ShloMosaic.TcCoe Idealize.SL.Sem

/-- The kernel runs and leaves its arguments as launched. -/
theorem frame_k : Cert.frame_Kernel := fun m ρ _ => Cert.Kernel.Hand.frame (F := Bits) m ρ

/-- The idealized kernel runs and leaves its arguments as launched. -/
theorem frame_ki : Cert.frame_KernelIdeal := fun m ρ _ => Cert.KernelIdeal.Hand.frame (F := Ideal) m ρ

/-- The reference runs and leaves its arguments as launched. -/
theorem frame_ri : Cert.frame_ReferenceIdeal := fun m ρ _ =>
  (θ_run Cert.ReferenceIdeal.defs _ _).mono (fun _ h c => (h c).2) (Cert.ReferenceIdeal.Value.run (F := Ideal) m ρ)

/-- The one rewrite between the kernel and its idealization: the named constant denotes -∞. -/
theorem preserves : Cert.preserves_Kernel_KernelIdeal :=
  IdealRules.named_const.statement Cert.KernelIdeal.κ "neg_big" .f32 0xFF333332#32 ⊥ rfl

/-- THE VALUE CLAIM FROM ONE HYPOTHESIS: if the idealized kernel's result buffer ends holding the specification's
    block of the arguments, then the idealized kernel and the reference, from memories that agree on the arguments,
    end with one and the same result, that block, and unchanged arguments. -/
theorem algebraic_of
    (hres : ∀ (m : (ℓ : Loc Cert.KernelIdeal.nD Cert.KernelIdeal.τ Cert.KernelIdeal.sig) → Buf (Elt Ideal) ℓ) (ρ : Dev Cert.KernelIdeal.nD → PrngReg),
      Cert.Pre_KernelIdeal m → ∀ c : Dev Cert.KernelIdeal.nD,
        Cert.KernelIdeal.Hand.W4 m ρ c (Proc.devRef .tc Cert.KernelIdeal.main_v17)
          = Cert.Attn.block (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) :
    Cert.algebraic_KernelIdeal_ReferenceIdeal := by
  intro m ρ m' ρ' hpre hagree
  refine ⟨fun c => Cert.Attn.block (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)), ?_, ?_⟩
  · exact (θ_run _ _ _).mono (fun r h c =>
      ⟨(h c _ (Cert.KernelIdeal.Hand.mem_uc Cert.KernelIdeal.main_v17 (by decide))).trans (hres m ρ hpre c),
       (h c _ (Cert.KernelIdeal.Hand.mem_uc Cert.KernelIdeal.main_arg0 (by decide))).trans (Cert.KernelIdeal.Hand.W4_untouched m ρ c Cert.KernelIdeal.main_arg0 (by decide) (by decide) (by decide) (by decide)),
       (h c _ (Cert.KernelIdeal.Hand.mem_uc Cert.KernelIdeal.main_arg1 (by decide))).trans (Cert.KernelIdeal.Hand.W4_untouched m ρ c Cert.KernelIdeal.main_arg1 (by decide) (by decide) (by decide) (by decide)),
       (h c _ (Cert.KernelIdeal.Hand.mem_uc Cert.KernelIdeal.main_arg2 (by decide))).trans (Cert.KernelIdeal.Hand.W4_untouched m ρ c Cert.KernelIdeal.main_arg2 (by decide) (by decide) (by decide) (by decide)),
       (h c _ (Cert.KernelIdeal.Hand.mem_uc Cert.KernelIdeal.main_arg3 (by decide))).trans (Cert.KernelIdeal.Hand.W4_untouched m ρ c Cert.KernelIdeal.main_arg3 (by decide) (by decide) (by decide) (by decide)),
       (h c _ (Cert.KernelIdeal.Hand.mem_uc Cert.KernelIdeal.main_arg4 (by decide))).trans (Cert.KernelIdeal.Hand.W4_untouched m ρ c Cert.KernelIdeal.main_arg4 (by decide) (by decide) (by decide) (by decide)),
       (h c _ (Cert.KernelIdeal.Hand.mem_uc Cert.KernelIdeal.main_arg5 (by decide))).trans (Cert.KernelIdeal.Hand.W4_untouched m ρ c Cert.KernelIdeal.main_arg5 (by decide) (by decide) (by decide) (by decide)),
       (h c _ (Cert.KernelIdeal.Hand.mem_uc Cert.KernelIdeal.main_arg6 (by decide))).trans (Cert.KernelIdeal.Hand.W4_untouched m ρ c Cert.KernelIdeal.main_arg6 (by decide) (by decide) (by decide) (by decide)),
       (h c _ (Cert.KernelIdeal.Hand.mem_uc Cert.KernelIdeal.main_arg7 (by decide))).trans (Cert.KernelIdeal.Hand.W4_untouched m ρ c Cert.KernelIdeal.main_arg7 (by decide) (by decide) (by decide) (by decide)),
       (h c _ (Cert.KernelIdeal.Hand.mem_uc Cert.KernelIdeal.main_arg8 (by decide))).trans (Cert.KernelIdeal.Hand.W4_untouched m ρ c Cert.KernelIdeal.main_arg8 (by decide) (by decide) (by decide) (by decide))⟩)
      (Cert.KernelIdeal.Hand.run_all m ρ)
  · refine (θ_run Cert.ReferenceIdeal.defs _ _).mono (fun _ h c => ⟨?_, (h c).2⟩) (Cert.ReferenceIdeal.Value.run (F := Ideal) m' ρ')
    rw [(h c).1, Cert.ReferenceIdeal.Read.val_main_v34_eq, Cert.ReferenceIdeal.RefSpec.ref_is_block, (hagree c).1, (hagree c).2.1, (hagree c).2.2.1, (hagree c).2.2.2.1, (hagree c).2.2.2.2.1, (hagree c).2.2.2.2.2.1, (hagree c).2.2.2.2.2.2.1, (hagree c).2.2.2.2.2.2.2.1, (hagree c).2.2.2.2.2.2.2.2]

end Cert.Proof.Claims

end
-- ==== Proof.LibPlainDot.lean ====
/-
  A plain matrix product read at an index, on the extended reals.

  For dimension numbers that contract the left operand's second axis against the right operand's
  first, with no batch axes (an `M×K` matrix times a `K×N` matrix), entry `(p, c)` of the product is
  `Σ_{q < K} l[p, q] · r[q, c]`. The library states a product as a sum over the contraction shape's
  multi-indices; here that sum is re-indexed by the one contracted coordinate, once, for every record
  of this form and every extent.
-/
import Idealize.ShloMosaic.PureOps.Ideal.Laws
import Idealize.ShloMosaic.Lib.ValueIdx

noncomputable section

open scoped BigOperators

namespace Cert.PlainDot

open Idealize.ShloMosaic Idealize.ShloMosaic.ValueIdx

variable {M K N : Nat} (d : DotDims ⟨2, ![M, K]⟩ ⟨2, ![K, N]⟩ ⟨2, ![M, N]⟩)

/-- The dimension numbers of a plain product: contract left axis 1 with right axis 0, keep left axis 0 and
    right axis 1 in that order, no batch axes. -/
structure IsPlain : Prop where
  lc : d.lhsContracting = [1]
  rc : d.rhsContracting = [0]
  ln : d.lhsNonContracting = [0]
  rn : d.rhsNonContracting = [1]
  lb : d.lhsBatch = []
  rb : d.rhsBatch = []

variable {d}

/-- The contraction shape has one axis. -/
theorem contr_rank (h : IsPlain d) : d.contr.rank = 1 := by rw [d.rank_contr, h.lc]; rfl

/-- That axis has the shared extent `K`. -/
theorem contr_size (h : IsPlain d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsPlain d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand is read at the result's column. -/
theorem rhs_col (h : IsPlain d) (j : (⟨2, ![M, N]⟩ : Shape).Idx) (k : d.contr.Idx) : (d.rhsIdx j k 1).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate. -/
theorem sum_contr (h : IsPlain d) (l : (⟨2, ![M, K]⟩ : Shape).Idx → EReal) (r : (⟨2, ![K, N]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 q (j 1)) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 q (j 1) := funext fun a => Fin.ext (by
    match a with
    | ⟨0, _⟩ => exact (d.rhsIdx_val_of_single h.rc j _).trans hq
    | ⟨1, _⟩ => exact rhs_col h j _)
  rw [el, er]
  rfl

/-- A `tpu.matmul` into a zero accumulator, at entry `(p, c)`. -/
theorem matmul_zero_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    matmul d prec l r (constant ⟨2, ![M, N]⟩ .f32 0x00000000#32) (ix2 p c) = ∑ q : Fin K, l (ix2 p q) * r (ix2 q c) :=
  (Ideal.matmul_constant_zero_apply d prec l r (ix2 p c)).trans (sum_contr h l r (ix2 p c))

/-- The host's `dot_general`, at entry `(p, c)`. -/
theorem dotGeneral_apply (h : IsPlain d) (prec : Option ContractPrecision) {φ₁ φ₂ : FTy}
    (l : FVec Ideal ⟨2, ![M, K]⟩ φ₁) (r : FVec Ideal ⟨2, ![K, N]⟩ φ₂) (p : Fin M) (c : Fin N) :
    Host.dotGeneral d prec l r (ix2 p c) = ∑ q : Fin K, l (ix2 p q) * r (ix2 q c) :=
  (Ideal.dotGeneral_apply d prec .single l r (ix2 p c)).trans (sum_contr h l r (ix2 p c))

end Cert.PlainDot

end
-- ==== Proof.LibDenseLayer.lean ====
/-
  Dense (fully connected) layers on the extended reals, and the same layers as a vector unit computes them.

  A matrix is a function of a rank-2 index. The AFFINE layer  l · w + b  has entry (p, c) equal to
  Σ_q l[p,q] · w[q,c] + b[0,c], the bias a 1×N row repeated down the rows; the HIDDEN layer takes the maximum of that with
  the float word of 0.0 (relu; the word is never evaluated). Three kinds of facts, any extents, no program needed:

  * entry (p, c) of a layer depends only on row p of the left operand, column c of the weights and entry c of the bias
    row (`affine_congr`, `hidden_congr`; `network_rows` for a stack of two hidden layers and an affine one), which is what
    lets a block computed from a tile of an operand be read as a block of the layer of the whole arrays;
  * a product into a zero accumulator, plus the bias row broadcast down the rows, and the maximum with the zero splat,
    is the layer as a whole array (`affine_eq`, `hidden_eq`; `product_apply` for the product alone), for dimension numbers
    contracting the left operand's second axis against the right operand's first, any operand formats;
  * a change of float format is the identity (`truncf_eq`) and a vector reshaped to a 1×A row is `row` of it
    (`reshape_row`).
-/
import Idealize.ShloMosaic.PureOps.Ideal.Laws
import Idealize.ShloMosaic.Lib.ValueIdx
import Idealize.ShloMosaic.Lib.ValueLayout
import proofs.«171720_j40072044871789_2_alg».proof.Proof.LibPlainDot

noncomputable section

open scoped BigOperators

namespace Cert.DenseLayer

open Idealize.ShloMosaic Idealize.ShloMosaic.ValueIdx

/-- An A×B matrix of extended reals. -/
abbrev Mat (A B : Nat) : Type := (⟨2, ![A, B]⟩ : Shape).Idx → EReal
/-- A length-A vector of extended reals. -/
abbrev Vect (A : Nat) : Type := (⟨1, ![A]⟩ : Shape).Idx → EReal

/-- The float word of 0.0 read on the extended reals. -/
abbrev zeroWord : EReal := Ideal.ofBits .f32 0x00000000#32

/-- A vector laid out as a 1×A row. -/
def row {A : Nat} (v : Vect A) : Mat 1 A := fun i => v (ix1 (i 1))

theorem row_apply {A : Nat} (v : Vect A) (u : Fin 1) (c : Fin A) : row v (ix2 u c) = v (ix1 c) := rfl

/-- A vector reshaped to a 1×A row is `row` of it. -/
theorem reshape_row {A : Nat} (v : Vect A) (h : (⟨1, ![A]⟩ : Shape).ShapeCasts ⟨2, ![1, A]⟩) :
    shapeCast ⟨2, ![1, A]⟩ v h = row v := by
  funext i
  obtain ⟨u, q, rfl⟩ : ∃ (u : Fin 1) (q : Fin A), i = ix2 u q := ⟨i 0, i 1, eq_ix2 i⟩
  rw [shapeCast_a_1a_apply, row_apply]

/-- l · w + b, the bias a 1×N row repeated down the rows. -/
def affine {M K N : Nat} (l : Mat M K) (w : Mat K N) (b : Mat 1 N) : Mat M N :=
  fun j => (∑ q : Fin K, l (ix2 (j 0) q) * w (ix2 q (j 1))) + b (ix2 (0 : Fin 1) (j 1))

theorem affine_apply {M K N : Nat} (l : Mat M K) (w : Mat K N) (b : Mat 1 N) (p : Fin M) (c : Fin N) :
    affine l w b (ix2 p c) = (∑ q : Fin K, l (ix2 p q) * w (ix2 q c)) + b (ix2 (0 : Fin 1) c) := rfl

/-- relu(l · w + b). -/
def hidden {M K N : Nat} (l : Mat M K) (w : Mat K N) (b : Mat 1 N) : Mat M N :=
  fun j => max (affine l w b j) zeroWord

theorem hidden_apply {M K N : Nat} (l : Mat M K) (w : Mat K N) (b : Mat 1 N) (p : Fin M) (c : Fin N) :
    hidden l w b (ix2 p c) = max ((∑ q : Fin K, l (ix2 p q) * w (ix2 q c)) + b (ix2 (0 : Fin 1) c)) zeroWord := rfl

/-! ## An entry depends on one row, one column and one bias entry -/

section Congr
variable {M M' K N N' : Nat}

theorem affine_congr (l : Mat M K) (l' : Mat M' K) (w : Mat K N) (w' : Mat K N') (b : Mat 1 N) (b' : Mat 1 N')
    (p : Fin M) (p' : Fin M') (c : Fin N) (c' : Fin N')
    (hl : ∀ q : Fin K, l (ix2 p q) = l' (ix2 p' q)) (hw : ∀ q : Fin K, w (ix2 q c) = w' (ix2 q c'))
    (hb : b (ix2 (0 : Fin 1) c) = b' (ix2 (0 : Fin 1) c')) :
    affine l w b (ix2 p c) = affine l' w' b' (ix2 p' c') := by
  rw [affine_apply, affine_apply, hb]
  exact congrArg (· + b' (ix2 (0 : Fin 1) c')) (Finset.sum_congr rfl fun q _ => by rw [hl q, hw q])

theorem hidden_congr (l : Mat M K) (l' : Mat M' K) (w : Mat K N) (w' : Mat K N') (b : Mat 1 N) (b' : Mat 1 N')
    (p : Fin M) (p' : Fin M') (c : Fin N) (c' : Fin N')
    (hl : ∀ q : Fin K, l (ix2 p q) = l' (ix2 p' q)) (hw : ∀ q : Fin K, w (ix2 q c) = w' (ix2 q c'))
    (hb : b (ix2 (0 : Fin 1) c) = b' (ix2 (0 : Fin 1) c')) :
    hidden l w b (ix2 p c) = hidden l' w' b' (ix2 p' c') :=
  congrArg (max · zeroWord) (affine_congr l l' w w' b b' p p' c c' hl hw hb)

/-- Rows of a network of two hidden layers and an affine one: a block of input rows gives the same rows of the output. -/
theorem network_rows {K1 K2 K3 : Nat} (x : Mat M K1) (x' : Mat M' K1) (w1 : Mat K1 K2) (b1 : Mat 1 K2) (w2 : Mat K2 K3) (b2 : Mat 1 K3)
    (w3 : Mat K3 N) (b3 : Mat 1 N) (p : Fin M) (p' : Fin M') (hx : ∀ q : Fin K1, x (ix2 p q) = x' (ix2 p' q)) (c : Fin N) :
    affine (hidden (hidden x w1 b1) w2 b2) w3 b3 (ix2 p c) = affine (hidden (hidden x' w1 b1) w2 b2) w3 b3 (ix2 p' c) :=
  affine_congr _ _ w3 w3 b3 b3 p p' c c
    (fun n => hidden_congr _ _ w2 w2 b2 b2 p p' n n
      (fun k => hidden_congr x x' w1 w1 b1 b1 p p' k k hx (fun _ => rfl) rfl) (fun _ => rfl) rfl)
    (fun _ => rfl) rfl

end Congr

/-! ## The layers as the vector unit computes them -/

section Unit
variable {M K N : Nat} {d : DotDims ⟨2, ![M, K]⟩ ⟨2, ![K, N]⟩ ⟨2, ![M, N]⟩}

/-- Product into a zero accumulator plus the bias row: the affine layer. -/
theorem affine_eq (hd : Cert.PlainDot.IsPlain d) (prec : Option ContractPrecision) {φ₁ φ₂ : FTy}
    (l : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    addf (matmul d prec l w (constant ⟨2, ![M, N]⟩ .f32 0x00000000#32)) (broadcastTo ⟨2, ![M, N]⟩ b hb)
      = affine l w b := by
  funext j
  obtain ⟨p, c, rfl⟩ : ∃ (p : Fin M) (c : Fin N), j = ix2 p c := ⟨j 0, j 1, eq_ix2 j⟩
  rw [addf_apply, Cert.PlainDot.matmul_zero_apply hd, broadcastTo_1b_ab_apply, affine_apply]

/-- … and the maximum with the zero splat: the hidden layer. -/
theorem hidden_eq (hd : Cert.PlainDot.IsPlain d) (prec : Option ContractPrecision) {φ₁ φ₂ : FTy}
    (l : FVec Ideal ⟨2, ![M, K]⟩ φ₁) (w : FVec Ideal ⟨2, ![K, N]⟩ φ₂) (b : FVec Ideal ⟨2, ![1, N]⟩ .f32)
    (hb : (⟨2, ![1, N]⟩ : Shape).Broadcasts ⟨2, ![M, N]⟩) :
    maximumf (addf (matmul d prec l w (constant ⟨2, ![M, N]⟩ .f32 0x00000000#32)) (broadcastTo ⟨2, ![M, N]⟩ b hb))
        (broadcast ⟨2, ![M, N]⟩ (Scalar.ofBits (F := Ideal) .f32 0x00000000#32))
      = hidden l w b := by
  rw [affine_eq hd]
  rfl

/-- A product into a zero accumulator alone, entry by entry. -/
theorem product_apply (hd : Cert.PlainDot.IsPlain d) (prec : Option ContractPrecision) {φ₁ φ₂ : FTy}
    (l : FVec Ideal ⟨2, ![M, K]⟩ φ₁) (w : FVec Ideal ⟨2, ![K, N]⟩ φ₂) (p : Fin M) (c : Fin N) :
    matmul d prec l w (constant ⟨2, ![M, N]⟩ .f32 0x00000000#32) (ix2 p c) = ∑ q : Fin K, l (ix2 p q) * w (ix2 q c) :=
  Cert.PlainDot.matmul_zero_apply hd prec l w p c

end Unit

/-- A change of float format is the identity on the extended reals. -/
theorem truncf_eq {s : Shape} {φ ψ : FTy} (a : FVec Ideal s φ) (h : ψ.bits < φ.bits) :
    (truncf ψ a h : FVec Ideal s ψ) = a := rfl

end Cert.DenseLayer

end
-- ==== Proof.KIRegion0Value.lean ====
import proofs.«171720_j40072044871789_2_alg».proof.Proof.KIRegion0
import proofs.«171720_j40072044871789_2_alg».proof.Proof.LibDenseLayer
import Idealize.ShloMosaic.Lib.Pipeline.Value

/-!
# The fused q/k/v projection on the extended reals, entry by entry

On the extended reals a change of float format is the identity, so each of the three results of a grid step is the
affine map of its inputs: entry `(p, c)` is the sum over `k` of activation `(p, k)` times weight `(k, c)`, plus
entry `c` of the bias row. A whole-buffer load reads the buffer and a whole-buffer store leaves its payload, so the
buffer contents after the step are the payload itself.
-/

noncomputable section

open scoped BigOperators

namespace Cert.KernelIdeal.Hand

open Cert.KernelIdeal Cert.KernelIdeal.Gen
open Idealize.ShloMosaic Idealize.ShloMosaic.ValueIdx

/-- The product contracts the activations' second axis against the weights' first, with no batch axes. -/
theorem plain0 : Cert.PlainDot.IsPlain (M := 512) (K := 1024) (N := 1024) dot_S512x1024_S1024x1024_S512x1024_1_0_0_1_n_n :=
  ⟨rfl, rfl, rfl, rfl, rfl, rfl⟩

/-- The offsets of a whole-buffer access of a matrix, as the constant function. -/
theorem zero_offsets : (![0, 0] : Fin 2 → ℕ) = fun _ => 0 := by
  funext a; fin_cases a <;> rfl

/-- Entry `(p, c)` of the first projection's payload: row `p` of the activations against column `c` of the weights, plus the
    bias entry `c`. -/
theorem k0_pay2_apply (x0 : Vec Ideal S512x1024 .f32) (w : Vec Ideal S1024x1024 .bf16) (b : Vec Ideal S1x1024 .f32)
    (p : Fin 512) (c : Fin 1024) :
    k0_pay2 (F := Ideal) x0 w b (ix2 p c) = (∑ k : Fin 1024, x0 (ix2 p k) * w (ix2 k c)) + b (ix2 0 c) := by
  unfold k0_pay2 k0_pay1
  simp only [shapeCast_self]
  rw [truncf_apply, Cert.DenseLayer.affine_eq plain0, Cert.DenseLayer.affine_apply]
  rfl

/-- Entry `(p, c)` of the second projection's payload: row `p` of the activations against column `c` of the weights, plus the
    bias entry `c`. -/
theorem k0_pay3_apply (x0 : Vec Ideal S512x1024 .f32) (w : Vec Ideal S1024x1024 .bf16) (b : Vec Ideal S1x1024 .f32)
    (p : Fin 512) (c : Fin 1024) :
    k0_pay3 (F := Ideal) x0 w b (ix2 p c) = (∑ k : Fin 1024, x0 (ix2 p k) * w (ix2 k c)) + b (ix2 0 c) := by
  unfold k0_pay3 k0_pay1
  simp only [shapeCast_self]
  rw [truncf_apply, Cert.DenseLayer.affine_eq plain0, Cert.DenseLayer.affine_apply]
  rfl

/-- Entry `(p, c)` of the third projection's payload: row `p` of the activations against column `c` of the weights, plus the
    bias entry `c`. -/
theorem k0_pay4_apply (x0 : Vec Ideal S512x1024 .f32) (w : Vec Ideal S1024x1024 .bf16) (b : Vec Ideal S1x1024 .f32)
    (p : Fin 512) (c : Fin 1024) :
    k0_pay4 (F := Ideal) x0 w b (ix2 p c) = (∑ k : Fin 1024, x0 (ix2 p k) * w (ix2 k c)) + b (ix2 0 c) := by
  unfold k0_pay4 k0_pay1
  simp only [shapeCast_self]
  rw [truncf_apply, Cert.DenseLayer.affine_eq plain0, Cert.DenseLayer.affine_apply]
  rfl

/-- Entry `(p, c)` of output window 7's buffer after a grid step. -/
theorem out0_7_apply (x0 : Vec Ideal S512x1024 .f32) (w : Vec Ideal S1024x1024 .bf16) (b : Vec Ideal S1x1024 .f32)
    (p : Fin 512) (c : Fin 1024) :
    out0_7 x0 w b (ValueIdx.ix2 p c) = (∑ k : Fin 1024, x0 (ValueIdx.ix2 p k) * w (ValueIdx.ix2 k c)) + b (ValueIdx.ix2 0 c) := by
  unfold out0_7
  rw [View.canon_unit_zero (S := S512x1024) zero_offsets, View.ld_unit_zero (S := S512x1024) zero_offsets,
    View.ld_unit_zero (S := S1024x1024) zero_offsets, View.ld_unit_zero (S := S1x1024) zero_offsets]
  exact k0_pay2_apply x0 w b p c

/-- Entry `(p, c)` of output window 8's buffer after a grid step. -/
theorem out0_8_apply (x0 : Vec Ideal S512x1024 .f32) (w : Vec Ideal S1024x1024 .bf16) (b : Vec Ideal S1x1024 .f32)
    (p : Fin 512) (c : Fin 1024) :
    out0_8 x0 w b (ValueIdx.ix2 p c) = (∑ k : Fin 1024, x0 (ValueIdx.ix2 p k) * w (ValueIdx.ix2 k c)) + b (ValueIdx.ix2 0 c) := by
  unfold out0_8
  rw [View.canon_unit_zero (S := S512x1024) zero_offsets, View.ld_unit_zero (S := S512x1024) zero_offsets,
    View.ld_unit_zero (S := S1024x1024) zero_offsets, View.ld_unit_zero (S := S1x1024) zero_offsets]
  exact k0_pay3_apply x0 w b p c

/-- Entry `(p, c)` of output window 9's buffer after a grid step. -/
theorem out0_9_apply (x0 : Vec Ideal S512x1024 .f32) (w : Vec Ideal S1024x1024 .bf16) (b : Vec Ideal S1x1024 .f32)
    (p : Fin 512) (c : Fin 1024) :
    out0_9 x0 w b (ValueIdx.ix2 p c) = (∑ k : Fin 1024, x0 (ValueIdx.ix2 p k) * w (ValueIdx.ix2 k c)) + b (ValueIdx.ix2 0 c) := by
  unfold out0_9
  rw [View.canon_unit_zero (S := S512x1024) zero_offsets, View.ld_unit_zero (S := S512x1024) zero_offsets,
    View.ld_unit_zero (S := S1024x1024) zero_offsets, View.ld_unit_zero (S := S1x1024) zero_offsets]
  exact k0_pay4_apply x0 w b p c

end Cert.KernelIdeal.Hand

end
-- ==== Proof.KIArr0.lean ====
import proofs.«171720_j40072044871789_2_alg».proof.Proof.KIRegion0Value
import Idealize.ShloMosaic.Lib.Pipeline.Value
import Idealize.ShloMosaic.Lib.Tactic

/-!
# The three projections as whole arrays

The first kernel runs over 16 grid points. Point `t` reads rows `512 t … 512 t + 511` of the activations and the whole of
each weight matrix and bias row, and writes rows `512 t … 512 t + 511` of each of the three results. Row `p` of what it
writes is the affine map of row `p` of its activation block, which is row `512 t + p` of the activations: so every
point writes its block of ONE function of the whole operand arrays, `X · W + b` entry by entry. The 16 row blocks
tile the 8192 rows (row `R` lies in the block of point `R / 512`), so each result array ends holding that function.
-/

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

/-- The affine map `X · W + b` of an 8192x1024 array, a 1024x1024 matrix and a 1x1024 row, entry by entry. -/
def proj2 (X : Vec Ideal S8192x1024 .f32) (Wt : Vec Ideal S1024x1024 .bf16) (B : Vec Ideal S1x1024 .f32) : S8192x1024.Idx → EReal :=
  fun i => (∑ k : Fin 1024, X (ix2 ⟨(i 0).val, idx2_lt0 i⟩ k) * Wt (ix2 k ⟨(i 1).val, idx2_lt1 i⟩)) + B (ix2 0 ⟨(i 1).val, idx2_lt1 i⟩)

theorem proj2_apply (X : Vec Ideal S8192x1024 .f32) (Wt : Vec Ideal S1024x1024 .bf16) (B : Vec Ideal S1x1024 .f32)
    (R : Fin 8192) (e : Fin 1024) :
    proj2 X Wt B (ix2 R e) = (∑ k : Fin 1024, X (ix2 R k) * Wt (ix2 k e)) + B (ix2 0 e) := rfl

/-- The block index of every window at every grid point: the activations and the results move down the rows with the
    point, the weights and biases stay. -/
theorem index_facts0 : ∀ t : Fin cfg0.N,
    (win0_0.index t (0 : Fin 2) = t.val ∧ win0_0.index t (1 : Fin 2) = 0)
    ∧ (win0_1.index t (0 : Fin 2) = 0 ∧ win0_1.index t (1 : Fin 2) = 0)
    ∧ (win0_2.index t (0 : Fin 2) = 0 ∧ win0_2.index t (1 : Fin 2) = 0)
    ∧ (win0_3.index t (0 : Fin 2) = 0 ∧ win0_3.index t (1 : Fin 2) = 0)
    ∧ (win0_4.index t (0 : Fin 2) = 0 ∧ win0_4.index t (1 : Fin 2) = 0)
    ∧ (win0_5.index t (0 : Fin 2) = 0 ∧ win0_5.index t (1 : Fin 2) = 0)
    ∧ (win0_6.index t (0 : Fin 2) = 0 ∧ win0_6.index t (1 : Fin 2) = 0)
    ∧ (win0_7.index t (0 : Fin 2) = t.val ∧ win0_7.index t (1 : Fin 2) = 0)
    ∧ (win0_8.index t (0 : Fin 2) = t.val ∧ win0_8.index t (1 : Fin 2) = 0)
    ∧ (win0_9.index t (0 : Fin 2) = t.val ∧ win0_9.index t (1 : Fin 2) = 0) :=
  (by decide +kernel : ∀ t : Fin grid0.N, _)

section Arrays
variable (V : (c : Dev nD) → (b : Ref sig .tc) → Buf (Elt Ideal) ((c : Thread nD τ).loc b))

/-! ## The input blocks as parts of the operand arrays -/

/-- Row `p` of the activation block at point `t` is row `512 t + p` of the activations. -/
theorem iblk0_0_apply (c : Dev nD) (t : Fin cfg0.N) (p : Fin 512) (k : Fin 1024) (R : Fin 8192) (hR : R.val = t.val * 512 + p.val) :
    (iblk0 V c 0 t : Vec Ideal S512x1024 .f32) (ix2 p k) = (V c main_v0 : S8192x1024.Idx → EReal) (ix2 R k) := by
  have hi := (index_facts0 t).1
  unfold iblk0
  rw [View.read_apply]
  show V c main_v0 _ = V c main_v0 _
  congr 1
  funext a
  apply Fin.ext
  match a with
  | ⟨0, _⟩ => show win0_0.index t 0 * 512 + 1 * p.val = R.val; rw [hi.1, hR]; omega
  | ⟨1, _⟩ => show win0_0.index t 1 * 1024 + 1 * k.val = k.val; rw [hi.2]; omega

/-- The block of window 1 at every point is its whole array. -/
theorem iblk0_1_eq (c : Dev nD) (t : Fin cfg0.N) :
    (iblk0 V c 1 t : Vec Ideal S1024x1024 .bf16) = (V c main_v2 : S1024x1024.Idx → EReal) := by
  have hi := (index_facts0 t).2.1
  funext x
  unfold iblk0
  rw [View.read_apply]
  show V c main_v2 _ = V c main_v2 x
  congr 1
  funext a
  apply Fin.ext
  match a with
  | ⟨0, _⟩ => show win0_1.index t 0 * 1024 + 1 * (x 0).val = (x 0).val; rw [hi.1]; omega
  | ⟨1, _⟩ => show win0_1.index t 1 * 1024 + 1 * (x 1).val = (x 1).val; rw [hi.2]; omega

/-- The block of window 2 at every point is its whole array. -/
theorem iblk0_2_eq (c : Dev nD) (t : Fin cfg0.N) :
    (iblk0 V c 2 t : Vec Ideal S1x1024 .f32) = (V c main_v9 : S1x1024.Idx → EReal) := by
  have hi := (index_facts0 t).2.2.1
  funext x
  unfold iblk0
  rw [View.read_apply]
  show V c main_v9 _ = V c main_v9 x
  congr 1
  funext a
  apply Fin.ext
  match a with
  | ⟨0, _⟩ => show win0_2.index t 0 * 1 + 1 * (x 0).val = (x 0).val; rw [hi.1]; omega
  | ⟨1, _⟩ => show win0_2.index t 1 * 1024 + 1 * (x 1).val = (x 1).val; rw [hi.2]; omega

/-- The block of window 3 at every point is its whole array. -/
theorem iblk0_3_eq (c : Dev nD) (t : Fin cfg0.N) :
    (iblk0 V c 3 t : Vec Ideal S1024x1024 .bf16) = (V c main_v4 : S1024x1024.Idx → EReal) := by
  have hi := (index_facts0 t).2.2.2.1
  funext x
  unfold iblk0
  rw [View.read_apply]
  show V c main_v4 _ = V c main_v4 x
  congr 1
  funext a
  apply Fin.ext
  match a with
  | ⟨0, _⟩ => show win0_3.index t 0 * 1024 + 1 * (x 0).val = (x 0).val; rw [hi.1]; omega
  | ⟨1, _⟩ => show win0_3.index t 1 * 1024 + 1 * (x 1).val = (x 1).val; rw [hi.2]; omega

/-- The block of window 4 at every point is its whole array. -/
theorem iblk0_4_eq (c : Dev nD) (t : Fin cfg0.N) :
    (iblk0 V c 4 t : Vec Ideal S1x1024 .f32) = (V c main_v10 : S1x1024.Idx → EReal) := by
  have hi := (index_facts0 t).2.2.2.2.1
  funext x
  unfold iblk0
  rw [View.read_apply]
  show V c main_v10 _ = V c main_v10 x
  congr 1
  funext a
  apply Fin.ext
  match a with
  | ⟨0, _⟩ => show win0_4.index t 0 * 1 + 1 * (x 0).val = (x 0).val; rw [hi.1]; omega
  | ⟨1, _⟩ => show win0_4.index t 1 * 1024 + 1 * (x 1).val = (x 1).val; rw [hi.2]; omega

/-- The block of window 5 at every point is its whole array. -/
theorem iblk0_5_eq (c : Dev nD) (t : Fin cfg0.N) :
    (iblk0 V c 5 t : Vec Ideal S1024x1024 .bf16) = (V c main_v6 : S1024x1024.Idx → EReal) := by
  have hi := (index_facts0 t).2.2.2.2.2.1
  funext x
  unfold iblk0
  rw [View.read_apply]
  show V c main_v6 _ = V c main_v6 x
  congr 1
  funext a
  apply Fin.ext
  match a with
  | ⟨0, _⟩ => show win0_5.index t 0 * 1024 + 1 * (x 0).val = (x 0).val; rw [hi.1]; omega
  | ⟨1, _⟩ => show win0_5.index t 1 * 1024 + 1 * (x 1).val = (x 1).val; rw [hi.2]; omega

/-- The block of window 6 at every point is its whole array. -/
theorem iblk0_6_eq (c : Dev nD) (t : Fin cfg0.N) :
    (iblk0 V c 6 t : Vec Ideal S1x1024 .f32) = (V c main_v11 : S1x1024.Idx → EReal) := by
  have hi := (index_facts0 t).2.2.2.2.2.2.1
  funext x
  unfold iblk0
  rw [View.read_apply]
  show V c main_v11 _ = V c main_v11 x
  congr 1
  funext a
  apply Fin.ext
  match a with
  | ⟨0, _⟩ => show win0_6.index t 0 * 1 + 1 * (x 0).val = (x 0).val; rw [hi.1]; omega
  | ⟨1, _⟩ => show win0_6.index t 1 * 1024 + 1 * (x 1).val = (x 1).val; rw [hi.2]; omega

/-! ## Result window 7 -/

/-- What point `t` leaves in result window 7's buffer, at an entry, is the whole-array function at the matching entry
    `512 t` rows further down. -/
theorem out0_7_block (c : Dev nD) (t : Fin cfg0.N) (j : S512x1024.Idx) (i : S8192x1024.Idx)
    (h0 : (i 0).val = t.val * 512 + (j 0).val) (h1 : (i 1).val = (j 1).val) :
    out0_7 (iblk0 V c 0 t) (iblk0 V c 1 t) (iblk0 V c 2 t) j = proj2 (V c main_v0) (V c main_v2) (V c main_v9) i := by
  obtain ⟨p, e, rfl⟩ : ∃ (p : Fin 512) (e : Fin 1024), j = ix2 p e := ⟨j 0, j 1, eq_ix2 j⟩
  obtain ⟨R, e', rfl⟩ : ∃ (R : Fin 8192) (e' : Fin 1024), i = ix2 R e' := ⟨i 0, i 1, eq_ix2 i⟩
  have h0' : R.val = t.val * 512 + p.val := h0
  obtain rfl : e' = e := Fin.ext h1
  rw [iblk0_1_eq, iblk0_2_eq, out0_7_apply, proj2_apply]
  exact congrArg (· + (V c main_v9 : S1x1024.Idx → EReal) (ix2 0 e'))
    (Finset.sum_congr rfl fun k _ => congrArg (· * (V c main_v2 : S1024x1024.Idx → EReal) (ix2 k e'))
      (iblk0_0_apply V c t p k R h0'))

/-- What point `t` writes back to result 7 is its block of the whole-array function. -/
theorem flushed0_7_eq (c : Dev nD) (t : Fin cfg0.N) :
    (dat0 V c).flushed 7 t = ((cfg0.win 7).blk t).view.read (Elt Ideal) (proj2 (V c main_v0) (V c main_v2) (V c main_v9)) := by
  show (cfg0.win 7).cut (grid0.coords t) ((dat0 V c).after 7 t) = _
  rw [after0_7]
  have hi := (index_facts0 t).2.2.2.2.2.2.2.1
  funext j
  show out0_7 (iblk0 V c 0 t) (iblk0 V c 1 t) (iblk0 V c 2 t) j
    = proj2 (V c main_v0) (V c main_v2) (V c main_v9) (((cfg0.win 7).blk t).view.emb j)
  refine out0_7_block V c t j _ ?_ ?_
  · show win0_7.index t (0 : Fin 2) * 512 + 1 * (j 0).val = t.val * 512 + (j 0).val; rw [hi.1]; omega
  · show win0_7.index t (1 : Fin 2) * 1024 + 1 * (j 1).val = (j 1).val; rw [hi.2]; omega

/-- An entry of the array is in point `t`'s block iff each coordinate is in the block's range on its axis. -/
theorem mem_blk0_7 (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v13_0).slice (win0_7.rect t)).set ↔ _
  rw [View.set_slice_whole, Rect.mem_set_unit]
  exact Iff.rfl

/-- Row `R` of the array lies in the block of point `R / 512`, which writes back. -/
theorem cover0_7 (i : S8192x1024.Idx) :
    ∃ t : Fin cfg0.N, (cfg0.win 7).flush t = true ∧ i ∈ ((cfg0.win 7).blk t).view.set := by
  have hi0 : (i 0).val < 8192 := (i 0).isLt
  have hi1 : (i 1).val < 1024 := (i 1).isLt
  have hN : cfg0.N = 16 := N_0
  let t : Fin cfg0.N := ⟨(i 0).val / 512, by rw [hN]; omega⟩
  have hi := (index_facts0 t).2.2.2.2.2.2.2.1
  have ht : t.val = (i 0).val / 512 := rfl
  refine ⟨t, flush0_7 t, ?_⟩
  rw [mem_blk0_7]
  intro a
  match a with
  | ⟨0, _⟩ => show win0_7.index t (0 : Fin 2) * 512 ≤ (i 0).val ∧ (i 0).val < win0_7.index t (0 : Fin 2) * 512 + 512; rw [hi.1]; omega
  | ⟨1, _⟩ => show win0_7.index t (1 : Fin 2) * 1024 ≤ (i 1).val ∧ (i 1).val < win0_7.index t (1 : Fin 2) * 1024 + 1024; rw [hi.2]; omega

/-- Result 7 after the run is the whole-array function of the operand arrays. -/
theorem arr0_7 (c : Dev nD) : (dat0 V c).arrAt 7 cfg0.N = proj2 (V c main_v0) (V c main_v2) (V c main_v9) :=
  (dat0 V c).arrAt_eq_of_cover 7 (proj2 (V c main_v0) (V c main_v2) (V c main_v9)) (fun t _ => flushed0_7_eq V c t) (cover0_7)

/-! ## Result window 8 -/

/-- What point `t` leaves in result window 8's buffer, at an entry, is the whole-array function at the matching entry
    `512 t` rows further down. -/
theorem out0_8_block (c : Dev nD) (t : Fin cfg0.N) (j : S512x1024.Idx) (i : S8192x1024.Idx)
    (h0 : (i 0).val = t.val * 512 + (j 0).val) (h1 : (i 1).val = (j 1).val) :
    out0_8 (iblk0 V c 0 t) (iblk0 V c 3 t) (iblk0 V c 4 t) j = proj2 (V c main_v0) (V c main_v4) (V c main_v10) i := by
  obtain ⟨p, e, rfl⟩ : ∃ (p : Fin 512) (e : Fin 1024), j = ix2 p e := ⟨j 0, j 1, eq_ix2 j⟩
  obtain ⟨R, e', rfl⟩ : ∃ (R : Fin 8192) (e' : Fin 1024), i = ix2 R e' := ⟨i 0, i 1, eq_ix2 i⟩
  have h0' : R.val = t.val * 512 + p.val := h0
  obtain rfl : e' = e := Fin.ext h1
  rw [iblk0_3_eq, iblk0_4_eq, out0_8_apply, proj2_apply]
  exact congrArg (· + (V c main_v10 : S1x1024.Idx → EReal) (ix2 0 e'))
    (Finset.sum_congr rfl fun k _ => congrArg (· * (V c main_v4 : S1024x1024.Idx → EReal) (ix2 k e'))
      (iblk0_0_apply V c t p k R h0'))

/-- What point `t` writes back to result 8 is its block of the whole-array function. -/
theorem flushed0_8_eq (c : Dev nD) (t : Fin cfg0.N) :
    (dat0 V c).flushed 8 t = ((cfg0.win 8).blk t).view.read (Elt Ideal) (proj2 (V c main_v0) (V c main_v4) (V c main_v10)) := by
  show (cfg0.win 8).cut (grid0.coords t) ((dat0 V c).after 8 t) = _
  rw [after0_8]
  have hi := (index_facts0 t).2.2.2.2.2.2.2.2.1
  funext j
  show out0_8 (iblk0 V c 0 t) (iblk0 V c 3 t) (iblk0 V c 4 t) j
    = proj2 (V c main_v0) (V c main_v4) (V c main_v10) (((cfg0.win 8).blk t).view.emb j)
  refine out0_8_block V c t j _ ?_ ?_
  · show win0_8.index t (0 : Fin 2) * 512 + 1 * (j 0).val = t.val * 512 + (j 0).val; rw [hi.1]; omega
  · show win0_8.index t (1 : Fin 2) * 1024 + 1 * (j 1).val = (j 1).val; rw [hi.2]; omega

/-- An entry of the array is in point `t`'s block iff each coordinate is in the block's range on its axis. -/
theorem mem_blk0_8 (t : Fin cfg0.N) (i : S8192x1024.Idx) :
    i ∈ ((cfg0.win 8).blk t).view.set ↔ ∀ a : Fin 2, win0_8.index t a * S512x1024.size a ≤ (i a).val ∧ (i a).val < win0_8.index t a * S512x1024.size a + S512x1024.size a := by
  show i ∈ ((View.whole main_v13_1).slice (win0_8.rect t)).set ↔ _
  rw [View.set_slice_whole, Rect.mem_set_unit]
  exact Iff.rfl

/-- Row `R` of the array lies in the block of point `R / 512`, which writes back. -/
theorem cover0_8 (i : S8192x1024.Idx) :
    ∃ t : Fin cfg0.N, (cfg0.win 8).flush t = true ∧ i ∈ ((cfg0.win 8).blk t).view.set := by
  have hi0 : (i 0).val < 8192 := (i 0).isLt
  have hi1 : (i 1).val < 1024 := (i 1).isLt
  have hN : cfg0.N = 16 := N_0
  let t : Fin cfg0.N := ⟨(i 0).val / 512, by rw [hN]; omega⟩
  have hi := (index_facts0 t).2.2.2.2.2.2.2.2.1
  have ht : t.val = (i 0).val / 512 := rfl
  refine ⟨t, flush0_8 t, ?_⟩
  rw [mem_blk0_8]
  intro a
  match a with
  | ⟨0, _⟩ => show win0_8.index t (0 : Fin 2) * 512 ≤ (i 0).val ∧ (i 0).val < win0_8.index t (0 : Fin 2) * 512 + 512; rw [hi.1]; omega
  | ⟨1, _⟩ => show win0_8.index t (1 : Fin 2) * 1024 ≤ (i 1).val ∧ (i 1).val < win0_8.index t (1 : Fin 2) * 1024 + 1024; rw [hi.2]; omega

/-- Result 8 after the run is the whole-array function of the operand arrays. -/
theorem arr0_8 (c : Dev nD) : (dat0 V c).arrAt 8 cfg0.N = proj2 (V c main_v0) (V c main_v4) (V c main_v10) :=
  (dat0 V c).arrAt_eq_of_cover 8 (proj2 (V c main_v0) (V c main_v4) (V c main_v10)) (fun t _ => flushed0_8_eq V c t) (cover0_8)

/-! ## Result window 9 -/

/-- What point `t` leaves in result window 9's buffer, at an entry, is the whole-array function at the matching entry
    `512 t` rows further down. -/
theorem out0_9_block (c : Dev nD) (t : Fin cfg0.N) (j : S512x1024.Idx) (i : S8192x1024.Idx)
    (h0 : (i 0).val = t.val * 512 + (j 0).val) (h1 : (i 1).val = (j 1).val) :
    out0_9 (iblk0 V c 0 t) (iblk0 V c 5 t) (iblk0 V c 6 t) j = proj2 (V c main_v0) (V c main_v6) (V c main_v11) i := by
  obtain ⟨p, e, rfl⟩ : ∃ (p : Fin 512) (e : Fin 1024), j = ix2 p e := ⟨j 0, j 1, eq_ix2 j⟩
  obtain ⟨R, e', rfl⟩ : ∃ (R : Fin 8192) (e' : Fin 1024), i = ix2 R e' := ⟨i 0, i 1, eq_ix2 i⟩
  have h0' : R.val = t.val * 512 + p.val := h0
  obtain rfl : e' = e := Fin.ext h1
  rw [iblk0_5_eq, iblk0_6_eq, out0_9_apply, proj2_apply]
  exact congrArg (· + (V c main_v11 : S1x1024.Idx → EReal) (ix2 0 e'))
    (Finset.sum_congr rfl fun k _ => congrArg (· * (V c main_v6 : S1024x1024.Idx → EReal) (ix2 k e'))
      (iblk0_0_apply V c t p k R h0'))

/-- What point `t` writes back to result 9 is its block of the whole-array function. -/
theorem flushed0_9_eq (c : Dev nD) (t : Fin cfg0.N) :
    (dat0 V c).flushed 9 t = ((cfg0.win 9).blk t).view.read (Elt Ideal) (proj2 (V c main_v0) (V c main_v6) (V c main_v11)) := by
  show (cfg0.win 9).cut (grid0.coords t) ((dat0 V c).after 9 t) = _
  rw [after0_9]
  have hi := (index_facts0 t).2.2.2.2.2.2.2.2.2
  funext j
  show out0_9 (iblk0 V c 0 t) (iblk0 V c 5 t) (iblk0 V c 6 t) j
    = proj2 (V c main_v0) (V c main_v6) (V c main_v11) (((cfg0.win 9).blk t).view.emb j)
  refine out0_9_block V c t j _ ?_ ?_
  · show win0_9.index t (0 : Fin 2) * 512 + 1 * (j 0).val = t.val * 512 + (j 0).val; rw [hi.1]; omega
  · show win0_9.index t (1 : Fin 2) * 1024 + 1 * (j 1).val = (j 1).val; rw [hi.2]; omega

/-- An entry of the array is in point `t`'s block iff each coordinate is in the block's range on its axis. -/
theorem mem_blk0_9 (t : Fin cfg0.N) (i : S8192x1024.Idx) :
    i ∈ ((cfg0.win 9).blk t).view.set ↔ ∀ a : Fin 2, win0_9.index t a * S512x1024.size a ≤ (i a).val ∧ (i a).val < win0_9.index t a * S512x1024.size a + S512x1024.size a := by
  show i ∈ ((View.whole main_v13_2).slice (win0_9.rect t)).set ↔ _
  rw [View.set_slice_whole, Rect.mem_set_unit]
  exact Iff.rfl

/-- Row `R` of the array lies in the block of point `R / 512`, which writes back. -/
theorem cover0_9 (i : S8192x1024.Idx) :
    ∃ t : Fin cfg0.N, (cfg0.win 9).flush t = true ∧ i ∈ ((cfg0.win 9).blk t).view.set := by
  have hi0 : (i 0).val < 8192 := (i 0).isLt
  have hi1 : (i 1).val < 1024 := (i 1).isLt
  have hN : cfg0.N = 16 := N_0
  let t : Fin cfg0.N := ⟨(i 0).val / 512, by rw [hN]; omega⟩
  have hi := (index_facts0 t).2.2.2.2.2.2.2.2.2
  have ht : t.val = (i 0).val / 512 := rfl
  refine ⟨t, flush0_9 t, ?_⟩
  rw [mem_blk0_9]
  intro a
  match a with
  | ⟨0, _⟩ => show win0_9.index t (0 : Fin 2) * 512 ≤ (i 0).val ∧ (i 0).val < win0_9.index t (0 : Fin 2) * 512 + 512; rw [hi.1]; omega
  | ⟨1, _⟩ => show win0_9.index t (1 : Fin 2) * 1024 ≤ (i 1).val ∧ (i 1).val < win0_9.index t (1 : Fin 2) * 1024 + 1024; rw [hi.2]; omega

/-- Result 9 after the run is the whole-array function of the operand arrays. -/
theorem arr0_9 (c : Dev nD) : (dat0 V c).arrAt 9 cfg0.N = proj2 (V c main_v0) (V c main_v6) (V c main_v11) :=
  (dat0 V c).arrAt_eq_of_cover 9 (proj2 (V c main_v0) (V c main_v6) (V c main_v11)) (fun t _ => flushed0_9_eq V c t) (cover0_9)

end Arrays

end Cert.KernelIdeal.Hand

end
-- ==== Proof.KIHost.lean ====
/-
  The host operations around the two kernels, as values.

  Before the first kernel the program flattens the input [8, 1024, 1024] to [8192, 1024] (row n · 1024 + t is row t of
  batch element n), transposes each of the four weight matrices and narrows it to bf16, and writes each bias vector as a
  one-row matrix. Between the kernels it cuts the three [8192, 1024] results back into [8, 1024, 1024]. Each result
  buffer holds the operation's function of the contents of its operand, whatever the buffers held before; read at an
  index, a reshape keeps the row-major position, a transpose swaps the two coordinates, and a change of format is the
  identity on extended reals.
-/
import proofs.«171720_j40072044871789_2_alg».proof.Proof.Gen.KernelIdeal.Launch
import Idealize.ShloMosaic.Lib.StableHlo.Run
import Idealize.ShloMosaic.Lib.Pipeline.Value
import Idealize.ShloMosaic.Lib.ValueIdx
import Idealize.ShloMosaic.Lib.ValueLayout

noncomputable section

namespace Cert.KernelIdeal.Hand

open Cert.KernelIdeal Cert.KernelIdeal.Gen Idealize.ShloMosaic Idealize.ShloMosaic.TcCoe Idealize.SL.Sem Idealize.ShloMosaic.StableHlo Idealize.ShloMosaic.ValueIdx

variable {F : FTy → Type} [FloatOps F] [Named F]

/-! ## What each host operation leaves in its result buffer, for any contents of the buffers before it -/

/-- The input's rows put one under the other: [8, 1024, 1024] cast to [8192, 1024]. -/
theorem after0_v0 (W : Valuation τ sig (Elt F)) :
    (StableHlo.after hostOps0 W (Proc.devRef .tc main_v0) : (⟨S8192x1024, .f32⟩ : BufTy).Contents (Elt F))
      = shapeCast S8192x1024 (W (Proc.devRef .tc main_arg0) : (⟨S8x1024x1024, .f32⟩ : BufTy).Contents (Elt F)) shapeCasts_S8x1024x1024_S8192x1024 := by
  dsimp only [hostOps0]; after_results; rfl
/-- The query weight matrix transposed, then narrowed to bf16. -/
theorem after0_v2 (W : Valuation τ sig (Elt F)) :
    (StableHlo.after hostOps0 W (Proc.devRef .tc main_v2) : (⟨S1024x1024, .bf16⟩ : BufTy).Contents (Elt F))
      = truncf .bf16 (transpose S1024x1024 [1, 0] (W (Proc.devRef .tc main_arg1) : (⟨S1024x1024, .f32⟩ : BufTy).Contents (Elt F)) transposes_S1024x1024_S1024x1024_1_0) bitsLt_bf16_f32 := by
  dsimp only [hostOps0]; after_results
/-- The key weight matrix transposed, then narrowed to bf16. -/
theorem after0_v4 (W : Valuation τ sig (Elt F)) :
    (StableHlo.after hostOps0 W (Proc.devRef .tc main_v4) : (⟨S1024x1024, .bf16⟩ : BufTy).Contents (Elt F))
      = truncf .bf16 (transpose S1024x1024 [1, 0] (W (Proc.devRef .tc main_arg3) : (⟨S1024x1024, .f32⟩ : BufTy).Contents (Elt F)) transposes_S1024x1024_S1024x1024_1_0) bitsLt_bf16_f32 := by
  dsimp only [hostOps0]; after_results
/-- The value weight matrix transposed, then narrowed to bf16. -/
theorem after0_v6 (W : Valuation τ sig (Elt F)) :
    (StableHlo.after hostOps0 W (Proc.devRef .tc main_v6) : (⟨S1024x1024, .bf16⟩ : BufTy).Contents (Elt F))
      = truncf .bf16 (transpose S1024x1024 [1, 0] (W (Proc.devRef .tc main_arg5) : (⟨S1024x1024, .f32⟩ : BufTy).Contents (Elt F)) transposes_S1024x1024_S1024x1024_1_0) bitsLt_bf16_f32 := by
  dsimp only [hostOps0]; after_results
/-- The output weight matrix transposed, then narrowed to bf16. -/
theorem after0_v8 (W : Valuation τ sig (Elt F)) :
    (StableHlo.after hostOps0 W (Proc.devRef .tc main_v8) : (⟨S1024x1024, .bf16⟩ : BufTy).Contents (Elt F))
      = truncf .bf16 (transpose S1024x1024 [1, 0] (W (Proc.devRef .tc main_arg7) : (⟨S1024x1024, .f32⟩ : BufTy).Contents (Elt F)) transposes_S1024x1024_S1024x1024_1_0) bitsLt_bf16_f32 := by
  dsimp only [hostOps0]; after_results
/-- The query bias as a one-row matrix: [1024] cast to [1, 1024]. -/
theorem after0_v9 (W : Valuation τ sig (Elt F)) :
    (StableHlo.after hostOps0 W (Proc.devRef .tc main_v9) : (⟨S1x1024, .f32⟩ : BufTy).Contents (Elt F))
      = shapeCast S1x1024 (W (Proc.devRef .tc main_arg2) : (⟨S1024, .f32⟩ : BufTy).Contents (Elt F)) shapeCasts_S1024_S1x1024 := by
  dsimp only [hostOps0]; after_results; rfl
/-- The key bias as a one-row matrix: [1024] cast to [1, 1024]. -/
theorem after0_v10 (W : Valuation τ sig (Elt F)) :
    (StableHlo.after hostOps0 W (Proc.devRef .tc main_v10) : (⟨S1x1024, .f32⟩ : BufTy).Contents (Elt F))
      = shapeCast S1x1024 (W (Proc.devRef .tc main_arg4) : (⟨S1024, .f32⟩ : BufTy).Contents (Elt F)) shapeCasts_S1024_S1x1024 := by
  dsimp only [hostOps0]; after_results; rfl
/-- The value bias as a one-row matrix: [1024] cast to [1, 1024]. -/
theorem after0_v11 (W : Valuation τ sig (Elt F)) :
    (StableHlo.after hostOps0 W (Proc.devRef .tc main_v11) : (⟨S1x1024, .f32⟩ : BufTy).Contents (Elt F))
      = shapeCast S1x1024 (W (Proc.devRef .tc main_arg6) : (⟨S1024, .f32⟩ : BufTy).Contents (Elt F)) shapeCasts_S1024_S1x1024 := by
  dsimp only [hostOps0]; after_results; rfl
/-- The output bias as a one-row matrix: [1024] cast to [1, 1024]. -/
theorem after0_v12 (W : Valuation τ sig (Elt F)) :
    (StableHlo.after hostOps0 W (Proc.devRef .tc main_v12) : (⟨S1x1024, .f32⟩ : BufTy).Contents (Elt F))
      = shapeCast S1x1024 (W (Proc.devRef .tc main_arg8) : (⟨S1024, .f32⟩ : BufTy).Contents (Elt F)) shapeCasts_S1024_S1x1024 := by
  dsimp only [hostOps0]; after_results; rfl
/-- The queries cut back into batch elements: [8192, 1024] cast to [8, 1024, 1024]. -/
theorem after1_v14 (W : Valuation τ sig (Elt F)) :
    (StableHlo.after hostOps1 W (Proc.devRef .tc main_v14) : (⟨S8x1024x1024, .bf16⟩ : BufTy).Contents (Elt F))
      = shapeCast S8x1024x1024 (W (Proc.devRef .tc main_v13_0) : (⟨S8192x1024, .bf16⟩ : BufTy).Contents (Elt F)) shapeCasts_S8192x1024_S8x1024x1024 := by
  dsimp only [hostOps1]; after_results; rfl
/-- The keys cut back into batch elements: [8192, 1024] cast to [8, 1024, 1024]. -/
theorem after1_v15 (W : Valuation τ sig (Elt F)) :
    (StableHlo.after hostOps1 W (Proc.devRef .tc main_v15) : (⟨S8x1024x1024, .bf16⟩ : BufTy).Contents (Elt F))
      = shapeCast S8x1024x1024 (W (Proc.devRef .tc main_v13_1) : (⟨S8192x1024, .bf16⟩ : BufTy).Contents (Elt F)) shapeCasts_S8192x1024_S8x1024x1024 := by
  dsimp only [hostOps1]; after_results; rfl
/-- The values cut back into batch elements: [8192, 1024] cast to [8, 1024, 1024]. -/
theorem after1_v16 (W : Valuation τ sig (Elt F)) :
    (StableHlo.after hostOps1 W (Proc.devRef .tc main_v16) : (⟨S8x1024x1024, .bf16⟩ : BufTy).Contents (Elt F))
      = shapeCast S8x1024x1024 (W (Proc.devRef .tc main_v13_2) : (⟨S8192x1024, .bf16⟩ : BufTy).Contents (Elt F)) shapeCasts_S8192x1024_S8x1024x1024 := by
  dsimp only [hostOps1]; after_results; rfl

/-! ## Those terms read at an index -/

section Read
variable {α : Type}

/-- Row r = n · 1024 + t of the [8192, 1024] cast of an [8, 1024, 1024] array is row t of batch element n:
    both indices have the row-major position (n · 1024 + t) · 1024 + d. -/
theorem flatten_apply (x : (⟨3, ![8, 1024, 1024]⟩ : Shape).Idx → α) (h : S8x1024x1024.ShapeCasts S8192x1024)
    (n : Fin 8) (t d : Fin 1024) (r : Fin 8192) (hr : r.val = n.val * 1024 + t.val) :
    shapeCast S8192x1024 x h (ix2 r d) = x (ix3 n t d) :=
  shapeCast_apply x h _ _ (by
    rw [Shape.rowMajor_val_two, Shape.rowMajor_val_three]
    show (n.val * 1024 + t.val) * 1024 + d.val = r.val * 1024 + d.val
    rw [hr])

/-- The same with the row written out. -/
theorem flatten_apply' (x : (⟨3, ![8, 1024, 1024]⟩ : Shape).Idx → α) (h : S8x1024x1024.ShapeCasts S8192x1024)
    (n : Fin 8) (t d : Fin 1024) :
    shapeCast S8192x1024 x h (ix2 (⟨n.val * 1024 + t.val, by have := n.isLt; have := t.isLt; omega⟩ : Fin 8192) d) = x (ix3 n t d) :=
  flatten_apply x h n t d _ rfl

/-- Conversely every row r of the cast is row r mod 1024 of batch element r / 1024. -/
theorem flatten_apply_row (x : (⟨3, ![8, 1024, 1024]⟩ : Shape).Idx → α) (h : S8x1024x1024.ShapeCasts S8192x1024)
    (r : Fin 8192) (d : Fin 1024) :
    shapeCast S8192x1024 x h (ix2 r d)
      = x (ix3 (⟨r.val / 1024, by have := r.isLt; omega⟩ : Fin 8) (⟨r.val % 1024, by omega⟩ : Fin 1024) d) :=
  flatten_apply x h _ _ d r (by show r.val = r.val / 1024 * 1024 + r.val % 1024; omega)

/-- Entry (n, t, d) of the [8, 1024, 1024] cast of an [8192, 1024] array is entry (n · 1024 + t, d). -/
theorem unflatten_apply (y : (⟨2, ![8192, 1024]⟩ : Shape).Idx → α) (h : S8192x1024.ShapeCasts S8x1024x1024)
    (n : Fin 8) (t d : Fin 1024) (r : Fin 8192) (hr : r.val = n.val * 1024 + t.val) :
    shapeCast S8x1024x1024 y h (ix3 n t d) = y (ix2 r d) :=
  shapeCast_apply y h _ _ (by
    rw [Shape.rowMajor_val_two, Shape.rowMajor_val_three]
    show r.val * 1024 + d.val = (n.val * 1024 + t.val) * 1024 + d.val
    rw [hr])

/-- The same with the row written out. -/
theorem unflatten_apply' (y : (⟨2, ![8192, 1024]⟩ : Shape).Idx → α) (h : S8192x1024.ShapeCasts S8x1024x1024)
    (n : Fin 8) (t d : Fin 1024) :
    shapeCast S8x1024x1024 y h (ix3 n t d)
      = y (ix2 (⟨n.val * 1024 + t.val, by have := n.isLt; have := t.isLt; omega⟩ : Fin 8192) d) :=
  unflatten_apply y h n t d _ rfl

/-- A vector as a one-row matrix: entry (0, c) is entry c. -/
theorem row_apply (b : (⟨1, ![1024]⟩ : Shape).Idx → α) (h : S1024.ShapeCasts S1x1024) (u : Fin 1) (c : Fin 1024) :
    shapeCast S1x1024 b h (ix2 u c) = b (ix1 c) :=
  shapeCast_a_1a_apply b h u c

end Read

/-- A weight matrix transposed and narrowed, at the ideal values: entry (k, c) is entry (c, k) of the matrix, the
    narrowing being the identity on extended reals. -/
theorem wT_apply (w : (⟨S1024x1024, .f32⟩ : BufTy).Contents (Elt Ideal)) (ht : S1024x1024.Transposes [1, 0] S1024x1024)
    (hb : FTy.bits .bf16 < FTy.bits .f32) (k c : Fin 1024) :
    (truncf (F := Ideal) .bf16 (transpose S1024x1024 [1, 0] w ht) hb : (⟨S1024x1024, .bf16⟩ : BufTy).Contents (Elt Ideal)) (ix2 k c) = w (ix2 c k) :=
  transpose_ix2_apply w ht k c

/-! ## The host-written buffers read at an index, straight from the contents before the operations -/

/-- Row n · 1024 + t of the flattened input is row t of batch element n of the input. -/
theorem after0_v0_apply (W : Valuation τ sig (Elt F)) (n : Fin 8) (t d : Fin 1024) (r : Fin 8192)
    (hr : r.val = n.val * 1024 + t.val) :
    (StableHlo.after hostOps0 W (Proc.devRef .tc main_v0) : (⟨S8192x1024, .f32⟩ : BufTy).Contents (Elt F)) (ix2 r d)
      = (W (Proc.devRef .tc main_arg0) : (⟨S8x1024x1024, .f32⟩ : BufTy).Contents (Elt F)) (ix3 n t d) :=
  (congrFun (after0_v0 W) _).trans (flatten_apply _ _ n t d r hr)
/-- Entry (k, c) of the prepared weight matrix is entry (c, k) of the argument, at the ideal values. -/
theorem after0_v2_apply (W : Valuation τ sig (Elt Ideal)) (k c : Fin 1024) :
    (StableHlo.after hostOps0 W (Proc.devRef .tc main_v2) : (⟨S1024x1024, .bf16⟩ : BufTy).Contents (Elt Ideal)) (ix2 k c)
      = (W (Proc.devRef .tc main_arg1) : (⟨S1024x1024, .f32⟩ : BufTy).Contents (Elt Ideal)) (ix2 c k) :=
  (congrFun (after0_v2 W) _).trans (wT_apply _ _ _ k c)
/-- Entry (k, c) of the prepared weight matrix is entry (c, k) of the argument, at the ideal values. -/
theorem after0_v4_apply (W : Valuation τ sig (Elt Ideal)) (k c : Fin 1024) :
    (StableHlo.after hostOps0 W (Proc.devRef .tc main_v4) : (⟨S1024x1024, .bf16⟩ : BufTy).Contents (Elt Ideal)) (ix2 k c)
      = (W (Proc.devRef .tc main_arg3) : (⟨S1024x1024, .f32⟩ : BufTy).Contents (Elt Ideal)) (ix2 c k) :=
  (congrFun (after0_v4 W) _).trans (wT_apply _ _ _ k c)
/-- Entry (k, c) of the prepared weight matrix is entry (c, k) of the argument, at the ideal values. -/
theorem after0_v6_apply (W : Valuation τ sig (Elt Ideal)) (k c : Fin 1024) :
    (StableHlo.after hostOps0 W (Proc.devRef .tc main_v6) : (⟨S1024x1024, .bf16⟩ : BufTy).Contents (Elt Ideal)) (ix2 k c)
      = (W (Proc.devRef .tc main_arg5) : (⟨S1024x1024, .f32⟩ : BufTy).Contents (Elt Ideal)) (ix2 c k) :=
  (congrFun (after0_v6 W) _).trans (wT_apply _ _ _ k c)
/-- Entry (k, c) of the prepared weight matrix is entry (c, k) of the argument, at the ideal values. -/
theorem after0_v8_apply (W : Valuation τ sig (Elt Ideal)) (k c : Fin 1024) :
    (StableHlo.after hostOps0 W (Proc.devRef .tc main_v8) : (⟨S1024x1024, .bf16⟩ : BufTy).Contents (Elt Ideal)) (ix2 k c)
      = (W (Proc.devRef .tc main_arg7) : (⟨S1024x1024, .f32⟩ : BufTy).Contents (Elt Ideal)) (ix2 c k) :=
  (congrFun (after0_v8 W) _).trans (wT_apply _ _ _ k c)
/-- Entry (0, c) of the bias as a one-row matrix is entry c of the argument. -/
theorem after0_v9_apply (W : Valuation τ sig (Elt F)) (u : Fin 1) (c : Fin 1024) :
    (StableHlo.after hostOps0 W (Proc.devRef .tc main_v9) : (⟨S1x1024, .f32⟩ : BufTy).Contents (Elt F)) (ix2 u c)
      = (W (Proc.devRef .tc main_arg2) : (⟨S1024, .f32⟩ : BufTy).Contents (Elt F)) (ix1 c) :=
  (congrFun (after0_v9 W) _).trans (row_apply _ _ u c)
/-- Entry (0, c) of the bias as a one-row matrix is entry c of the argument. -/
theorem after0_v10_apply (W : Valuation τ sig (Elt F)) (u : Fin 1) (c : Fin 1024) :
    (StableHlo.after hostOps0 W (Proc.devRef .tc main_v10) : (⟨S1x1024, .f32⟩ : BufTy).Contents (Elt F)) (ix2 u c)
      = (W (Proc.devRef .tc main_arg4) : (⟨S1024, .f32⟩ : BufTy).Contents (Elt F)) (ix1 c) :=
  (congrFun (after0_v10 W) _).trans (row_apply _ _ u c)
/-- Entry (0, c) of the bias as a one-row matrix is entry c of the argument. -/
theorem after0_v11_apply (W : Valuation τ sig (Elt F)) (u : Fin 1) (c : Fin 1024) :
    (StableHlo.after hostOps0 W (Proc.devRef .tc main_v11) : (⟨S1x1024, .f32⟩ : BufTy).Contents (Elt F)) (ix2 u c)
      = (W (Proc.devRef .tc main_arg6) : (⟨S1024, .f32⟩ : BufTy).Contents (Elt F)) (ix1 c) :=
  (congrFun (after0_v11 W) _).trans (row_apply _ _ u c)
/-- Entry (0, c) of the bias as a one-row matrix is entry c of the argument. -/
theorem after0_v12_apply (W : Valuation τ sig (Elt F)) (u : Fin 1) (c : Fin 1024) :
    (StableHlo.after hostOps0 W (Proc.devRef .tc main_v12) : (⟨S1x1024, .f32⟩ : BufTy).Contents (Elt F)) (ix2 u c)
      = (W (Proc.devRef .tc main_arg8) : (⟨S1024, .f32⟩ : BufTy).Contents (Elt F)) (ix1 c) :=
  (congrFun (after0_v12 W) _).trans (row_apply _ _ u c)
/-- Entry (n, t, d) of the array cut back into batch elements is entry (n · 1024 + t, d) of the flat one. -/
theorem after1_v14_apply (W : Valuation τ sig (Elt F)) (n : Fin 8) (t d : Fin 1024) (r : Fin 8192)
    (hr : r.val = n.val * 1024 + t.val) :
    (StableHlo.after hostOps1 W (Proc.devRef .tc main_v14) : (⟨S8x1024x1024, .bf16⟩ : BufTy).Contents (Elt F)) (ix3 n t d)
      = (W (Proc.devRef .tc main_v13_0) : (⟨S8192x1024, .bf16⟩ : BufTy).Contents (Elt F)) (ix2 r d) :=
  (congrFun (after1_v14 W) _).trans (unflatten_apply _ _ n t d r hr)
/-- Entry (n, t, d) of the array cut back into batch elements is entry (n · 1024 + t, d) of the flat one. -/
theorem after1_v15_apply (W : Valuation τ sig (Elt F)) (n : Fin 8) (t d : Fin 1024) (r : Fin 8192)
    (hr : r.val = n.val * 1024 + t.val) :
    (StableHlo.after hostOps1 W (Proc.devRef .tc main_v15) : (⟨S8x1024x1024, .bf16⟩ : BufTy).Contents (Elt F)) (ix3 n t d)
      = (W (Proc.devRef .tc main_v13_1) : (⟨S8192x1024, .bf16⟩ : BufTy).Contents (Elt F)) (ix2 r d) :=
  (congrFun (after1_v15 W) _).trans (unflatten_apply _ _ n t d r hr)
/-- Entry (n, t, d) of the array cut back into batch elements is entry (n · 1024 + t, d) of the flat one. -/
theorem after1_v16_apply (W : Valuation τ sig (Elt F)) (n : Fin 8) (t d : Fin 1024) (r : Fin 8192)
    (hr : r.val = n.val * 1024 + t.val) :
    (StableHlo.after hostOps1 W (Proc.devRef .tc main_v16) : (⟨S8x1024x1024, .bf16⟩ : BufTy).Contents (Elt F)) (ix3 n t d)
      = (W (Proc.devRef .tc main_v13_2) : (⟨S8192x1024, .bf16⟩ : BufTy).Contents (Elt F)) (ix2 r d) :=
  (congrFun (after1_v16 W) _).trans (unflatten_apply _ _ n t d r hr)

end Cert.KernelIdeal.Hand

end
-- ==== Proof.KIQkv.lean ====
import proofs.«171720_j40072044871789_2_alg».proof.Proof.KIRun
import proofs.«171720_j40072044871789_2_alg».proof.Proof.KIArr0
import proofs.«171720_j40072044871789_2_alg».proof.Proof.KIHost
import proofs.«171720_j40072044871789_2_alg».proof.Proof.Spec

/-!
# What the second kernel is handed: the specification's linear layers

The host flattens the input `[8, 1024, 1024]` to `[8192, 1024]`, transposes each weight matrix and writes each bias as
a one-row matrix; the first kernel computes `X · W + b` three times; the host cuts the three results back to
`[8, 1024, 1024]`. Read at an entry `(n, t, e)`: row `1024 n + t` of the flattened input is row `t` of batch element
`n`, entry `(k, e)` of a transposed weight matrix is entry `(e, k)` of the matrix, so each array is
`Σ_k x(n, t, k) · W(e, k) + b(e)`: the linear layer of the specification. The output weights and bias reach the second
kernel as the host left them, the first kernel writing neither.
-/

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

variable (m : (ℓ : Loc nD τ sig) → Buf (Elt Ideal) ℓ) (ρ : Dev nD → PrngReg)

/-- The queries the second kernel reads: the specification's linear layer of the input with the query weights and bias. -/
theorem q3_apply (c : Dev nD) (n : Fin 8) (t e : Fin 1024) :
    (V3 m ρ c main_v14 : S8x1024x1024.Idx → EReal) (ix3 n t e)
      = Cert.Attn.lin (Cert.Attn.arr3 (m ((c : Thread nD τ).loc main_arg0))) (Cert.Attn.arr2 (m ((c : Thread nD τ).loc main_arg1)))
          (Cert.Attn.arr1 (m ((c : Thread nD τ).loc main_arg2))) n t e := by
  have hn := n.isLt
  have ht := t.isLt
  let r : Fin 8192 := ⟨n.val * 1024 + t.val, by omega⟩
  have e2 : W2 m ρ c (Proc.devRef .tc main_v13_0) = (dat0 (V1 m ρ) c).arrAt 7 cfg0.N := W2_arr m ρ c 7
  refine (after1_v14_apply (W2 m ρ c) n t e r rfl).trans ?_
  rw [e2, arr0_7 (V1 m ρ) c, proj2_apply]
  unfold Cert.Attn.lin Cert.Attn.arr3 Cert.Attn.arr2 Cert.Attn.arr1
  refine congrArg₂ (· + ·) (Finset.sum_congr rfl fun k _ => congrArg₂ (· * ·) ?_ ?_) ?_
  · exact after0_v0_apply (W0 m ρ c) n t k r rfl
  · exact after0_v2_apply (W0 m ρ c) k e
  · exact after0_v9_apply (W0 m ρ c) 0 e

/-- The keys the second kernel reads: the specification's linear layer of the input with the key weights and bias. -/
theorem k3_apply (c : Dev nD) (n : Fin 8) (t e : Fin 1024) :
    (V3 m ρ c main_v15 : S8x1024x1024.Idx → EReal) (ix3 n t e)
      = Cert.Attn.lin (Cert.Attn.arr3 (m ((c : Thread nD τ).loc main_arg0))) (Cert.Attn.arr2 (m ((c : Thread nD τ).loc main_arg3)))
          (Cert.Attn.arr1 (m ((c : Thread nD τ).loc main_arg4))) n t e := by
  have hn := n.isLt
  have ht := t.isLt
  let r : Fin 8192 := ⟨n.val * 1024 + t.val, by omega⟩
  have e2 : W2 m ρ c (Proc.devRef .tc main_v13_1) = (dat0 (V1 m ρ) c).arrAt 8 cfg0.N := W2_arr m ρ c 8
  refine (after1_v15_apply (W2 m ρ c) n t e r rfl).trans ?_
  rw [e2, arr0_8 (V1 m ρ) c, proj2_apply]
  unfold Cert.Attn.lin Cert.Attn.arr3 Cert.Attn.arr2 Cert.Attn.arr1
  refine congrArg₂ (· + ·) (Finset.sum_congr rfl fun k _ => congrArg₂ (· * ·) ?_ ?_) ?_
  · exact after0_v0_apply (W0 m ρ c) n t k r rfl
  · exact after0_v4_apply (W0 m ρ c) k e
  · exact after0_v10_apply (W0 m ρ c) 0 e

/-- The values the second kernel reads: the specification's linear layer of the input with the value weights and bias. -/
theorem v3_apply (c : Dev nD) (n : Fin 8) (t e : Fin 1024) :
    (V3 m ρ c main_v16 : S8x1024x1024.Idx → EReal) (ix3 n t e)
      = Cert.Attn.lin (Cert.Attn.arr3 (m ((c : Thread nD τ).loc main_arg0))) (Cert.Attn.arr2 (m ((c : Thread nD τ).loc main_arg5)))
          (Cert.Attn.arr1 (m ((c : Thread nD τ).loc main_arg6))) n t e := by
  have hn := n.isLt
  have ht := t.isLt
  let r : Fin 8192 := ⟨n.val * 1024 + t.val, by omega⟩
  have e2 : W2 m ρ c (Proc.devRef .tc main_v13_2) = (dat0 (V1 m ρ) c).arrAt 9 cfg0.N := W2_arr m ρ c 9
  refine (after1_v16_apply (W2 m ρ c) n t e r rfl).trans ?_
  rw [e2, arr0_9 (V1 m ρ) c, proj2_apply]
  unfold Cert.Attn.lin Cert.Attn.arr3 Cert.Attn.arr2 Cert.Attn.arr1
  refine congrArg₂ (· + ·) (Finset.sum_congr rfl fun k _ => congrArg₂ (· * ·) ?_ ?_) ?_
  · exact after0_v0_apply (W0 m ρ c) n t k r rfl
  · exact after0_v6_apply (W0 m ρ c) k e
  · exact after0_v11_apply (W0 m ρ c) 0 e

/-- The output weights the second kernel reads: the argument matrix transposed. -/
theorem wo3_apply (c : Dev nD) (d e : Fin 1024) :
    (V3 m ρ c main_v8 : S1024x1024.Idx → EReal) (ix2 d e) = (m ((c : Thread nD τ).loc main_arg7) : S1024x1024.Idx → EReal) (ix2 e d) := by
  have h3 : W3 m ρ c (Proc.devRef .tc main_v8) = W2 m ρ c (Proc.devRef .tc main_v8) :=
    StableHlo.after_of_writes_sub hostOps1 _ hostOps1_writes (by decide)
  have h2 : W2 m ρ c (Proc.devRef .tc main_v8) = W1 m ρ c (Proc.devRef .tc main_v8) := W2_of_ne m ρ c main_v8 (by decide)
  exact (congrFun (h3.trans h2) (ix2 d e)).trans (after0_v8_apply (W0 m ρ c) d e)

/-- The output bias the second kernel reads: the argument vector as a one-row matrix. -/
theorem bo3_apply (c : Dev nD) (e : Fin 1024) :
    (V3 m ρ c main_v12 : S1x1024.Idx → EReal) (ix2 0 e) = (m ((c : Thread nD τ).loc main_arg8) : S1024.Idx → EReal) (ix1 e) := by
  have h3 : W3 m ρ c (Proc.devRef .tc main_v12) = W2 m ρ c (Proc.devRef .tc main_v12) :=
    StableHlo.after_of_writes_sub hostOps1 _ hostOps1_writes (by decide)
  have h2 : W2 m ρ c (Proc.devRef .tc main_v12) = W1 m ρ c (Proc.devRef .tc main_v12) := W2_of_ne m ρ c main_v12 (by decide)
  exact (congrFun (h3.trans h2) (ix2 0 e)).trans (after0_v12_apply (W0 m ρ c) 0 e)

end Cert.KernelIdeal.Hand

end
-- ==== Proof.LibLoadAt.lean ====
/-
  A load through a unit-stride rectangle, read at explicit coordinates.

  A rectangle of sizes `(a, b, …)` at offsets `off` inside an array picks, at its own position `(p, q, …)`, the
  array's element whose coordinate on each axis is the offset plus the position. The target coordinates are named by
  the caller and tied to the offsets by one equation per axis, so that offsets a program computes can be read through
  their closed form. Ranks one to three, any extents, any element type; no program needed.
-/
import Idealize.ShloMosaic.Lib.Pipeline.Value
import Idealize.ShloMosaic.Lib.ValueIdx

namespace Cert.LoadAt

open Idealize.ShloMosaic Idealize.ShloMosaic.ValueIdx

variable {Val : EltTy → Type} {e : EltTy}

/-- A window of `a` consecutive entries of a vector. -/
theorem ld_unit1 {A a : ℕ} (X : (⟨1, ![A]⟩ : Shape).Idx → Val e) {off : Fin 1 → ℕ}
    (inb : ∀ i, off i + (![a] : Fin 1 → ℕ) i ≤ (⟨1, ![A]⟩ : Shape).size i)
    (p : Fin a) (P : Fin A) (hP : P.val = off 0 + p.val) :
    View.ld X (Rect.unit (s := ⟨1, ![A]⟩) off ![a] inb) (ix1 p) = X (ix1 P) := by
  show X _ = X _
  congr 1
  funext i
  apply Fin.ext
  match i with
  | ⟨0, _⟩ => show off 0 + 1 * p.val = P.val; rw [Nat.one_mul, hP]

/-- An `a × b` box of a matrix. -/
theorem ld_unit2 {A B a b : ℕ} (X : (⟨2, ![A, B]⟩ : Shape).Idx → Val e) {off : Fin 2 → ℕ}
    (inb : ∀ i, off i + (![a, b] : Fin 2 → ℕ) i ≤ (⟨2, ![A, B]⟩ : Shape).size i)
    (p : Fin a) (q : Fin b) (P : Fin A) (Q : Fin B) (hP : P.val = off 0 + p.val) (hQ : Q.val = off 1 + q.val) :
    View.ld X (Rect.unit (s := ⟨2, ![A, B]⟩) off ![a, b] inb) (ix2 p q) = X (ix2 P Q) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]

/-- An `a × b × c` box of a rank-3 array. -/
theorem ld_unit3 {A B C a b c : ℕ} (X : (⟨3, ![A, B, C]⟩ : Shape).Idx → Val e) {off : Fin 3 → ℕ}
    (inb : ∀ i, off i + (![a, b, c] : Fin 3 → ℕ) i ≤ (⟨3, ![A, B, C]⟩ : Shape).size i)
    (p : Fin a) (q : Fin b) (r : Fin c) (P : Fin A) (Q : Fin B) (R : Fin C)
    (hP : P.val = off 0 + p.val) (hQ : Q.val = off 1 + q.val) (hR : R.val = off 2 + r.val) :
    View.ld X (Rect.unit (s := ⟨3, ![A, B, C]⟩) off ![a, b, c] inb) (ix3 p q r) = X (ix3 P Q R) := by
  show X _ = X _
  congr 1
  funext i
  apply Fin.ext
  match i with
  | ⟨0, _⟩ => show off 0 + 1 * p.val = P.val; rw [Nat.one_mul, hP]
  | ⟨1, _⟩ => show off 1 + 1 * q.val = Q.val; rw [Nat.one_mul, hQ]
  | ⟨2, _⟩ => show off 2 + 1 * r.val = R.val; rw [Nat.one_mul, hR]

end Cert.LoadAt
-- ==== Proof.KIBlk1.lean ====
/-
  The attention kernel's blocks, read at coordinates.

  The grid is (batch, query tile, key tile) = (8, 2, 2): point t has batch t / 4, query tile t / 2 mod 2 and key tile
  t mod 2. The query window's block at a point is rows (query tile) · 512 … + 511 of the point's batch element; the key
  and value windows' blocks are the whole batch element; the output weight matrix and bias are whole; inside the body,
  the key tile loaded from a staged batch element is its rows (key tile) · 512 … + 511. The output window's block is
  placed like the query window's, it is written back at the points of key tile 1, and those blocks fill the output
  array: index (n, s, e) lies in the block of the point 4 n + 2 (s / 512) + 1.
-/
import proofs.«171720_j40072044871789_2_alg».proof.Proof.KIRegion1
import proofs.«171720_j40072044871789_2_alg».proof.Proof.LibLoadAt
import Idealize.ShloMosaic.Lib.Pipeline.Value
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.ValueIdx
open Idealize.SL.Sem
open Idealize.ShloMosaic.Pipeline (Dat Cfg Window)

variable {F : FTy → Type} [FloatOps F] [Named F]

/-! ## The grid: point t has batch t / 4, query tile t / 2 mod 2, key tile t mod 2 -/

theorem coords1_0 : ∀ t : Fin cfg1.N, ((grid1.coords t) 0).val = t.val / 4 :=
  (by decide +kernel : ∀ t : Fin grid1.N, ((grid1.coords t) 0).val = t.val / 4)
theorem coords1_1 : ∀ t : Fin cfg1.N, ((grid1.coords t) 1).val = t.val / 2 % 2 :=
  (by decide +kernel : ∀ t : Fin grid1.N, ((grid1.coords t) 1).val = t.val / 2 % 2)
theorem coords1_2 : ∀ t : Fin cfg1.N, ((grid1.coords t) 2).val = t.val % 2 :=
  (by decide +kernel : ∀ t : Fin grid1.N, ((grid1.coords t) 2).val = t.val % 2)

/-- A point's number is below 32. -/
theorem lt32 (t : Fin cfg1.N) : t.val < 32 := N_1 ▸ t.isLt

/-! ## The block index of each window at each point, decided over the grid -/

theorem idx1_0 : ∀ t : Fin cfg1.N, win1_0.index t (0 : Fin 3) = t.val / 4 ∧ win1_0.index t (1 : Fin 3) = t.val / 2 % 2
    ∧ win1_0.index t (2 : Fin 3) = 0 :=
  (by decide +kernel : ∀ t : Fin grid1.N, _)
theorem idx1_1 : ∀ t : Fin cfg1.N, win1_1.index t (0 : Fin 3) = t.val / 4 ∧ win1_1.index t (1 : Fin 3) = 0
    ∧ win1_1.index t (2 : Fin 3) = 0 :=
  (by decide +kernel : ∀ t : Fin grid1.N, _)
theorem idx1_2 : ∀ t : Fin cfg1.N, win1_2.index t (0 : Fin 3) = t.val / 4 ∧ win1_2.index t (1 : Fin 3) = 0
    ∧ win1_2.index t (2 : Fin 3) = 0 :=
  (by decide +kernel : ∀ t : Fin grid1.N, _)
theorem idx1_3 : ∀ t : Fin cfg1.N, win1_3.index t (0 : Fin 2) = 0 ∧ win1_3.index t (1 : Fin 2) = 0 :=
  (by decide +kernel : ∀ t : Fin grid1.N, _)
theorem idx1_4 : ∀ t : Fin cfg1.N, win1_4.index t (0 : Fin 2) = 0 ∧ win1_4.index t (1 : Fin 2) = 0 :=
  (by decide +kernel : ∀ t : Fin grid1.N, _)
theorem idx1_5 : ∀ t : Fin cfg1.N, win1_5.index t (0 : Fin 3) = t.val / 4 ∧ win1_5.index t (1 : Fin 3) = t.val / 2 % 2
    ∧ win1_5.index t (2 : Fin 3) = 0 :=
  (by decide +kernel : ∀ t : Fin grid1.N, _)

section Blocks

variable (V : (c : Dev nD) → (b : Ref sig .tc) → Buf (Elt F) ((c : Thread nD τ).loc b))

/-! ## The input windows' blocks at coordinates -/

/-- The query tile: row r of the block is row (query tile) · 512 + r of the point's batch element. -/
theorem blk1_0 (c : Dev nD) (t : Fin cfg1.N) (r : Fin 512) (d : Fin 1024) :
    iblk1 V c 0 t (ix3 (0 : Fin 1) r d)
      = V c main_v14 (ix3 (⟨t.val / 4, by have := lt32 t; omega⟩ : Fin 8)
          (⟨t.val / 2 % 2 * 512 + r.val, by have := r.isLt; omega⟩ : Fin 1024) d) := by
  show V c main_v14 (((cfg1.win 0).blk t).view.emb (ix3 (0 : Fin 1) r d)) = _
  refine congrArg (V c main_v14) (funext fun a => Fin.ext ?_)
  obtain ⟨e0, e1, e2⟩ := idx1_0 t
  match a with
  | ⟨0, _⟩ => show win1_0.index t (0 : Fin 3) * 1 + 1 * 0 = t.val / 4; omega
  | ⟨1, _⟩ => show win1_0.index t (1 : Fin 3) * 512 + 1 * r.val = t.val / 2 % 2 * 512 + r.val; omega
  | ⟨2, _⟩ => show win1_0.index t (2 : Fin 3) * 1024 + 1 * d.val = d.val; omega

/-- The keys: the whole batch element. -/
theorem blk1_1 (c : Dev nD) (t : Fin cfg1.N) (j d : Fin 1024) :
    iblk1 V c 1 t (ix3 (0 : Fin 1) j d) = V c main_v15 (ix3 (⟨t.val / 4, by have := lt32 t; omega⟩ : Fin 8) j d) := by
  show V c main_v15 (((cfg1.win 1).blk t).view.emb (ix3 (0 : Fin 1) j d)) = _
  refine congrArg (V c main_v15) (funext fun a => Fin.ext ?_)
  obtain ⟨e0, e1, e2⟩ := idx1_1 t
  match a with
  | ⟨0, _⟩ => show win1_1.index t (0 : Fin 3) * 1 + 1 * 0 = t.val / 4; omega
  | ⟨1, _⟩ => show win1_1.index t (1 : Fin 3) * 1024 + 1 * j.val = j.val; omega
  | ⟨2, _⟩ => show win1_1.index t (2 : Fin 3) * 1024 + 1 * d.val = d.val; omega

/-- The values: the whole batch element. -/
theorem blk1_2 (c : Dev nD) (t : Fin cfg1.N) (j d : Fin 1024) :
    iblk1 V c 2 t (ix3 (0 : Fin 1) j d) = V c main_v16 (ix3 (⟨t.val / 4, by have := lt32 t; omega⟩ : Fin 8) j d) := by
  show V c main_v16 (((cfg1.win 2).blk t).view.emb (ix3 (0 : Fin 1) j d)) = _
  refine congrArg (V c main_v16) (funext fun a => Fin.ext ?_)
  obtain ⟨e0, e1, e2⟩ := idx1_2 t
  match a with
  | ⟨0, _⟩ => show win1_2.index t (0 : Fin 3) * 1 + 1 * 0 = t.val / 4; omega
  | ⟨1, _⟩ => show win1_2.index t (1 : Fin 3) * 1024 + 1 * j.val = j.val; omega
  | ⟨2, _⟩ => show win1_2.index t (2 : Fin 3) * 1024 + 1 * d.val = d.val; omega

/-- The output weight matrix: whole. -/
theorem blk1_3 (c : Dev nD) (t : Fin cfg1.N) (d e : Fin 1024) :
    iblk1 V c 3 t (ix2 d e) = V c main_v8 (ix2 d e) := by
  show V c main_v8 (((cfg1.win 3).blk t).view.emb (ix2 d e)) = _
  refine congrArg (V c main_v8) (funext fun a => Fin.ext ?_)
  obtain ⟨e0, e1⟩ := idx1_3 t
  match a with
  | ⟨0, _⟩ => show win1_3.index t (0 : Fin 2) * 1024 + 1 * d.val = d.val; omega
  | ⟨1, _⟩ => show win1_3.index t (1 : Fin 2) * 1024 + 1 * e.val = e.val; omega

/-- The output bias as a one-row matrix: whole. -/
theorem blk1_4 (c : Dev nD) (t : Fin cfg1.N) (e : Fin 1024) :
    iblk1 V c 4 t (ix2 (0 : Fin 1) e) = V c main_v12 (ix2 (0 : Fin 1) e) := by
  show V c main_v12 (((cfg1.win 4).blk t).view.emb (ix2 (0 : Fin 1) e)) = _
  refine congrArg (V c main_v12) (funext fun a => Fin.ext ?_)
  obtain ⟨e0, e1⟩ := idx1_4 t
  match a with
  | ⟨0, _⟩ => show win1_4.index t (0 : Fin 2) * 1 + 1 * 0 = 0; omega
  | ⟨1, _⟩ => show win1_4.index t (1 : Fin 2) * 1024 + 1 * e.val = e.val; omega

end Blocks

/-! ## Loads inside the kernel's body -/

/-- The offsets of the key-tile load, decided over the grid: the key tile's first row on the middle axis. -/
theorem off1_eq : ∀ t : Fin cfg1.N, k1_off1 (grid1.coords t) (0 : Fin 3) = 0
    ∧ k1_off1 (grid1.coords t) (1 : Fin 3) = t.val % 2 * 512 ∧ k1_off1 (grid1.coords t) (2 : Fin 3) = 0 :=
  (by decide +kernel : ∀ t : Fin grid1.N, _)

/-- THE KEY TILE: row c of the loaded tile is row (key tile) · 512 + c of the staged batch element. -/
theorem ktile (t : Fin cfg1.N) (x1 : Vec F S1x1024x1024 .bf16)
    (inb : ∀ a, (k1_off1 (grid1.coords t)) a + S1x512x1024.size a ≤ S1x1024x1024.size a) (c : Fin 512) (d : Fin 1024) :
    View.ld x1 (Rect.unit (s := S1x1024x1024) (k1_off1 (grid1.coords t)) S1x512x1024.size inb) (ix3 (0 : Fin 1) c d)
      = x1 (ix3 (0 : Fin 1) (⟨t.val % 2 * 512 + c.val, by have := c.isLt; omega⟩ : Fin 1024) d) := by
  obtain ⟨e0, e1, e2⟩ := off1_eq t
  exact Cert.LoadAt.ld_unit3 (Val := Elt F) x1 inb (0 : Fin 1) c d (0 : Fin 1) _ d
    (by rw [e0]; rfl) (by show t.val % 2 * 512 + c.val = _; rw [e1]) (by rw [e2, Nat.zero_add])

theorem hz2 : (![0, 0] : Fin 2 → Nat) = fun _ => 0 := funext fun a => by fin_cases a <;> rfl
theorem hz3 : (![0, 0, 0] : Fin 3 → Nat) = fun _ => 0 := funext fun a => by fin_cases a <;> rfl

/-- A load of the whole of a buffer of shape 512x1 reads its contents. -/
theorem ld_whole_S512x1 {e : EltTy} (x : Vec F S512x1 e)
    (inb : ∀ a, (![0, 0] : Fin 2 → Nat) a + S512x1.size a ≤ S512x1.size a) :
    View.ld x (Rect.unit (s := S512x1) ![0, 0] S512x1.size inb) = x :=
  View.ld_unit_zero (hz2) inb x
/-- A load of the whole of a buffer of shape 512x1024 reads its contents. -/
theorem ld_whole_S512x1024 {e : EltTy} (x : Vec F S512x1024 e)
    (inb : ∀ a, (![0, 0] : Fin 2 → Nat) a + S512x1024.size a ≤ S512x1024.size a) :
    View.ld x (Rect.unit (s := S512x1024) ![0, 0] S512x1024.size inb) = x :=
  View.ld_unit_zero (hz2) inb x
/-- A load of the whole of a buffer of shape 1024x1024 reads its contents. -/
theorem ld_whole_S1024x1024 {e : EltTy} (x : Vec F S1024x1024 e)
    (inb : ∀ a, (![0, 0] : Fin 2 → Nat) a + S1024x1024.size a ≤ S1024x1024.size a) :
    View.ld x (Rect.unit (s := S1024x1024) ![0, 0] S1024x1024.size inb) = x :=
  View.ld_unit_zero (hz2) inb x
/-- A load of the whole of a buffer of shape 1x1024 reads its contents. -/
theorem ld_whole_S1x1024 {e : EltTy} (x : Vec F S1x1024 e)
    (inb : ∀ a, (![0, 0] : Fin 2 → Nat) a + S1x1024.size a ≤ S1x1024.size a) :
    View.ld x (Rect.unit (s := S1x1024) ![0, 0] S1x1024.size inb) = x :=
  View.ld_unit_zero (hz2) inb x
/-- A load of the whole of a buffer of shape 1x512x1024 reads its contents. -/
theorem ld_whole_S1x512x1024 {e : EltTy} (x : Vec F S1x512x1024 e)
    (inb : ∀ a, (![0, 0, 0] : Fin 3 → Nat) a + S1x512x1024.size a ≤ S1x512x1024.size a) :
    View.ld x (Rect.unit (s := S1x512x1024) ![0, 0, 0] S1x512x1024.size inb) = x :=
  View.ld_unit_zero (hz3) inb x

/-! ## The output window -/

/-- The output tile read off an array: row r of the block is row (query tile) · 512 + r of the point's batch element. -/
theorem out5_read (t : Fin cfg1.N) (G : S8x1024x1024.Idx → Elt F .f32) (r : Fin 512) (e : Fin 1024) :
    ((cfg1.win 5).blk t).view.read (Elt F) G (ix3 (0 : Fin 1) r e)
      = G (ix3 (⟨t.val / 4, by have := lt32 t; omega⟩ : Fin 8)
          (⟨t.val / 2 % 2 * 512 + r.val, by have := r.isLt; omega⟩ : Fin 1024) e) := by
  show G (((cfg1.win 5).blk t).view.emb (ix3 (0 : Fin 1) r e)) = _
  refine congrArg G (funext fun a => Fin.ext ?_)
  obtain ⟨e0, e1, e2⟩ := idx1_5 t
  match a with
  | ⟨0, _⟩ => show win1_5.index t (0 : Fin 3) * 1 + 1 * 0 = t.val / 4; omega
  | ⟨1, _⟩ => show win1_5.index t (1 : Fin 3) * 512 + 1 * r.val = t.val / 2 % 2 * 512 + r.val; omega
  | ⟨2, _⟩ => show win1_5.index t (2 : Fin 3) * 1024 + 1 * e.val = e.val; omega

/-- An index of the output array is in point t's block iff each coordinate is in the block's range on its axis. -/
theorem mem_blk1_5 (t : Fin cfg1.N) (i : S8x1024x1024.Idx) :
    i ∈ ((cfg1.win 5).blk t).view.set ↔ ∀ a : Fin 3, win1_5.index t a * S1x512x1024.size a ≤ (i a).val
      ∧ (i a).val < win1_5.index t a * S1x512x1024.size a + S1x512x1024.size a := by
  show i ∈ ((View.whole main_v17).slice (win1_5.rect t)).set ↔ _
  rw [View.set_slice_whole, Rect.mem_set_unit]
  exact Iff.rfl

/-- EVERY INDEX OF THE OUTPUT IS WRITTEN BACK: index (n, s, e) lies in the block of the point with batch n, query tile
    s / 512 and key tile 1, where the output tile is written back. -/
theorem out5_cover (i : S8x1024x1024.Idx) :
    ∃ t : Fin cfg1.N, (cfg1.win 5).flush t = true ∧ i ∈ ((cfg1.win 5).blk t).view.set := by
  have h0 : (i 0).val < 8 := (i 0).isLt
  have h1 : (i 1).val < 1024 := (i 1).isLt
  have h2 : (i 2).val < 1024 := (i 2).isLt
  refine ⟨⟨(i 0).val * 4 + (i 1).val / 512 * 2 + 1, by rw [show cfg1.N = 32 from N_1]; omega⟩, ?_, ?_⟩
  · exact (flush1_5 _).mpr (by show ((i 0).val * 4 + (i 1).val / 512 * 2 + 1) % 2 = 1; omega)
  · rw [mem_blk1_5]
    obtain ⟨e0, e1, e2⟩ := idx1_5 ⟨(i 0).val * 4 + (i 1).val / 512 * 2 + 1, by rw [show cfg1.N = 32 from N_1]; omega⟩
    have q0 : ((i 0).val * 4 + (i 1).val / 512 * 2 + 1) / 4 = (i 0).val := by omega
    have q1 : ((i 0).val * 4 + (i 1).val / 512 * 2 + 1) / 2 % 2 = (i 1).val / 512 := by omega
    intro a
    match a with
    | ⟨0, _⟩ =>
      show win1_5.index _ (0 : Fin 3) * 1 ≤ (i 0).val ∧ (i 0).val < win1_5.index _ (0 : Fin 3) * 1 + 1
      rw [e0]; show _ / 4 * 1 ≤ _ ∧ _ < _ / 4 * 1 + 1; rw [q0]; omega
    | ⟨1, _⟩ =>
      show win1_5.index _ (1 : Fin 3) * 512 ≤ (i 1).val ∧ (i 1).val < win1_5.index _ (1 : Fin 3) * 512 + 512
      rw [e1]; show _ / 2 % 2 * 512 ≤ _ ∧ _ < _ / 2 % 2 * 512 + 512; rw [q1]; omega
    | ⟨2, _⟩ =>
      show win1_5.index _ (2 : Fin 3) * 1024 ≤ (i 2).val ∧ (i 2).val < win1_5.index _ (2 : Fin 3) * 1024 + 1024
      rw [e2]; omega

end Cert.KernelIdeal.Hand

end
-- ==== Proof.KIArr1.lean ====
import proofs.«171720_j40072044871789_2_alg».proof.Proof.KIRegion1Body
import proofs.«171720_j40072044871789_2_alg».proof.Proof.KIBlk1
import Idealize.ShloMosaic.Lib.Pipeline.Value

/-!
# The attention kernel's output array from its rows

The second kernel writes an output tile back at the points of key tile 1: the point with batch `n` and query tile `q`
writes rows `512 q … 512 q + 511` of batch element `n`. These tiles fill the output array. So if every tile written
back is, row by row, the matching rows of ONE array `G`, the output array ends holding `G`.
-/

noncomputable section

namespace Cert.KernelIdeal.Hand

open Cert.KernelIdeal Cert.KernelIdeal.Gen
open Idealize.ShloMosaic Idealize.ShloMosaic.TcCoe Idealize.ShloMosaic.ValueIdx Idealize.SL.Sem
open Idealize.ShloMosaic.Pipeline (Dat)

section Output
variable (V : (c : Dev nD) → (b : Ref sig .tc) → Buf (Elt Ideal) ((c : Thread nD τ).loc b))

/-- What a point of key tile 1 writes back is its block of `G`, when the tile it holds is `G`'s rows. -/
theorem flushed1_5_of_rows (c : Dev nD) (G : S8x1024x1024.Idx → EReal)
    (hrow : ∀ (t : Fin cfg1.N) (r : Fin 512) (e : Fin 1024), t.val % 2 = 1 →
      ((outsAt1 V c t.val t.isLt).1 : S1x512x1024.Idx → EReal) (ix3 (0 : Fin 1) r e)
        = G (ix3 (⟨t.val / 4, by have := t.isLt; have : cfg1.N = 32 := N_1; omega⟩ : Fin 8)
            (⟨t.val / 2 % 2 * 512 + r.val, by have := r.isLt; omega⟩ : Fin 1024) e))
    (t : Fin cfg1.N) (hf : (cfg1.win 5).flush t = true) :
    (dat1 V c).flushed 5 t = ((cfg1.win 5).blk t).view.read (Elt Ideal) G := by
  show (cfg1.win 5).cut (grid1.coords t) ((dat1 V c).after 5 t) = _
  rw [after1_5]
  funext j
  obtain ⟨u, r, e, rfl⟩ : ∃ (u : Fin 1) (r : Fin 512) (e : Fin 1024), j = ix3 u r e := ⟨j 0, j 1, j 2, eq_ix3 j⟩
  obtain rfl : u = 0 := Subsingleton.elim _ _
  rw [out5_read]
  exact hrow t r e ((flush1_5 t).mp hf)

/-- The output array after the run is `G`, when every tile written back is `G`'s rows. -/
theorem arr1_5_of_rows (c : Dev nD) (G : S8x1024x1024.Idx → EReal)
    (hrow : ∀ (t : Fin cfg1.N) (r : Fin 512) (e : Fin 1024), t.val % 2 = 1 →
      ((outsAt1 V c t.val t.isLt).1 : S1x512x1024.Idx → EReal) (ix3 (0 : Fin 1) r e)
        = G (ix3 (⟨t.val / 4, by have := t.isLt; have : cfg1.N = 32 := N_1; omega⟩ : Fin 8)
            (⟨t.val / 2 % 2 * 512 + r.val, by have := r.isLt; omega⟩ : Fin 1024) e)) :
    (dat1 V c).arrAt 5 cfg1.N = G :=
  (dat1 V c).arrAt_eq_of_cover 5 G (flushed1_5_of_rows V c G hrow) (fun i => out5_cover i)

end Output

end Cert.KernelIdeal.Hand

end
-- ==== Proof.LibRealSum.lean ====
/-
  Real numbers inside the extended reals: they are closed under sums, products, maxima and finite sums,
  and on them a weighted sum of matrix-vector products may be exchanged with the matrix-vector product of
  the weighted sums. A sum over 136 consecutive coordinates is also split into blocks of 64, 64 and 8.
-/
import Idealize.ShloMosaic.PureOps.Ideal

noncomputable section

namespace Cert.RealSum

/-- An extended real that is a real number. -/
def IsReal (x : EReal) : Prop := ∃ r : ℝ, x = (r : EReal)

/-- Zero is a real number. -/
theorem isReal_zero : IsReal 0 := ⟨0, EReal.coe_zero.symm⟩

/-- The image of a real number in the extended reals is a real number. -/
theorem isReal_coe (r : ℝ) : IsReal (r : EReal) := ⟨r, rfl⟩

/-- The sum of two real numbers is a real number. -/
theorem IsReal.add {x y : EReal} (hx : IsReal x) (hy : IsReal y) : IsReal (x + y) := by
  obtain ⟨p, rfl⟩ := hx
  obtain ⟨q, rfl⟩ := hy
  exact ⟨p + q, (EReal.coe_add p q).symm⟩

/-- The product of two real numbers is a real number. -/
theorem IsReal.mul {x y : EReal} (hx : IsReal x) (hy : IsReal y) : IsReal (x * y) := by
  obtain ⟨p, rfl⟩ := hx
  obtain ⟨q, rfl⟩ := hy
  exact ⟨p * q, (EReal.coe_mul p q).symm⟩

/-- The larger of two real numbers is a real number, because it is one of the two. -/
theorem IsReal.max {x y : EReal} (hx : IsReal x) (hy : IsReal y) : IsReal (max x y) := by
  rcases max_choice x y with h | h
  · rw [h]; exact hx
  · rw [h]; exact hy

/-- A finite sum of real numbers is a real number. -/
theorem isReal_sum {ι : Type} (s : Finset ι) (f : ι → EReal) (h : ∀ e ∈ s, IsReal (f e)) :
    IsReal (∑ e ∈ s, f e) :=
  Finset.sum_induction f IsReal (fun _ _ hx hy => hx.add hy) isReal_zero h

/-- An extended real that is neither plus nor minus infinity is a real number. -/
theorem isReal_of_ne_top_of_ne_bot {x : EReal} (ht : x ≠ ⊤) (hb : x ≠ ⊥) : IsReal x :=
  ⟨x.toReal, (EReal.coe_toReal ht hb).symm⟩

/-- A nonnegative extended real other than plus infinity is a real number: being at least zero, it is
    not minus infinity either. -/
theorem isReal_of_nonneg_of_ne_top {x : EReal} (h0 : 0 ≤ x) (ht : x ≠ ⊤) : IsReal x :=
  isReal_of_ne_top_of_ne_bot ht (lt_of_lt_of_le EReal.bot_lt_zero h0).ne'

/-- The image of a finite sum of real numbers is the sum of the images. -/
private theorem coe_sum {ι : Type} (s : Finset ι) (g : ι → ℝ) :
    ((∑ e ∈ s, g e : ℝ) : EReal) = ∑ e ∈ s, (g e : EReal) := by
  classical
  induction s using Finset.induction_on with
  | empty => rw [Finset.sum_empty, Finset.sum_empty, EReal.coe_zero]
  | insert b t hb ih => rw [Finset.sum_insert hb, Finset.sum_insert hb, EReal.coe_add, ih]

/-- The exchange law over the real numbers: both sides expand to the double sum of `a e k * w k * c e`,
    summed in the two possible orders. -/
private theorem commute_real {ι κ : Type} [Fintype κ] (s : Finset ι) (a : ι → κ → ℝ) (w : κ → ℝ)
    (c : ι → ℝ) :
    ∑ e ∈ s, (∑ k, a e k * w k) * c e = ∑ k, (∑ e ∈ s, a e k * c e) * w k := by
  simp only [Finset.sum_mul]
  rw [Finset.sum_comm]
  refine Finset.sum_congr rfl (fun k _ => Finset.sum_congr rfl (fun e _ => ?_))
  exact mul_right_comm (a e k) (w k) (c e)

/-- THE COMMUTE LAW: a weighted sum over edges of matrix-vector products is the matrix-vector product of
    the weighted sums, when every entry is real. Both edge sums start from zero, as a scatter-add into a
    zero array does. -/
theorem commute {ι κ : Type} [Fintype κ] (s : Finset ι) (a : ι → κ → EReal) (w : κ → EReal)
    (c : ι → EReal) (ha : ∀ e k, IsReal (a e k)) (hw : ∀ k, IsReal (w k)) (hc : ∀ e, IsReal (c e)) :
    (0 + ∑ e ∈ s, (∑ k, a e k * w k) * c e) = ∑ k, (0 + ∑ e ∈ s, a e k * c e) * w k := by
  choose a' ha' using ha
  choose w' hw' using hw
  choose c' hc' using hc
  -- every entry is the image of a real number, so both sides are images of real expressions
  have hL : (0 + ∑ e ∈ s, (∑ k, a e k * w k) * c e)
      = ((∑ e ∈ s, (∑ k, a' e k * w' k) * c' e : ℝ) : EReal) := by
    rw [zero_add, coe_sum]
    refine Finset.sum_congr rfl (fun e _ => ?_)
    rw [EReal.coe_mul, coe_sum, hc' e]
    congr 1
    refine Finset.sum_congr rfl (fun k _ => ?_)
    rw [EReal.coe_mul, ha' e k, hw' k]
  have hR : (∑ k, (0 + ∑ e ∈ s, a e k * c e) * w k)
      = ((∑ k, (∑ e ∈ s, a' e k * c' e) * w' k : ℝ) : EReal) := by
    rw [coe_sum]
    refine Finset.sum_congr rfl (fun k _ => ?_)
    rw [zero_add, EReal.coe_mul, coe_sum, hw' k]
    congr 1
    refine Finset.sum_congr rfl (fun e _ => ?_)
    rw [EReal.coe_mul, ha' e k, hc' e]
  rw [hL, hR, commute_real s a' w' c']

/-- A sum over 136 coordinates split as 64 + 64 + 8 consecutive coordinates, grouped
    (first + second) + third. -/
theorem sum_split_136 (f : Fin 136 → EReal) :
    ∑ q : Fin 136, f q
      = (∑ q : Fin 64, f ⟨q.val, by omega⟩ + ∑ q : Fin 64, f ⟨64 + q.val, by omega⟩)
        + ∑ q : Fin 8, f ⟨128 + q.val, by omega⟩ := by
  have h1 : ∑ q : Fin (64 + 64 + 8), f q
      = ∑ q : Fin (64 + 64), f (Fin.castAdd 8 q) + ∑ q : Fin 8, f (Fin.natAdd (64 + 64) q) :=
    Fin.sum_univ_add (fun q : Fin (64 + 64 + 8) => f q)
  have h2 : ∑ q : Fin (64 + 64), f (Fin.castAdd 8 q)
      = ∑ q : Fin 64, f (Fin.castAdd 8 (Fin.castAdd 64 q))
        + ∑ q : Fin 64, f (Fin.castAdd 8 (Fin.natAdd 64 q)) :=
    Fin.sum_univ_add (fun q : Fin (64 + 64) => f (Fin.castAdd 8 q))
  rw [h2] at h1
  exact h1

end Cert.RealSum
-- ==== Proof.SpecReal.lean ====
/-
  Real-valuedness in the specification.

  When every entry of the arguments is a real number, a linear layer's entries are real numbers (finite sums of
  products, plus a bias). A score at a key position not after the query position is a real number (a finite sum of
  products times 1/32); at a key position after it the score is -∞. So no score is +∞; and since key position 0 is
  never after the query position, every row of scores has a real entry and its maximum is a real number.
-/
import proofs.«171720_j40072044871789_2_alg».proof.Proof.Spec
import proofs.«171720_j40072044871789_2_alg».proof.Proof.LibRealSum

noncomputable section

open scoped BigOperators

namespace Cert.Attn

open Cert.RealSum Cert.LogShift Idealize.ShloMosaic

/-- An array of real entries, read by coordinates, has real entries. -/
theorem arr3_real (x : (⟨3, ![8, 1024, 1024]⟩ : Shape).Idx → EReal) (h : ∀ i, IsReal (x i)) (n : Fin 8) (t d : Fin 1024) :
    IsReal (arr3 x n t d) := h _
theorem arr2_real (w : (⟨2, ![1024, 1024]⟩ : Shape).Idx → EReal) (h : ∀ i, IsReal (w i)) (e d : Fin 1024) :
    IsReal (arr2 w e d) := h _
theorem arr1_real (b : (⟨1, ![1024]⟩ : Shape).Idx → EReal) (h : ∀ i, IsReal (b i)) (e : Fin 1024) :
    IsReal (arr1 b e) := h _

/-- A linear layer of real arguments is real: a finite sum of products of reals, plus a real. -/
theorem lin_real (x : T3) (w : M2) (b : V1) (hx : ∀ n t d, IsReal (x n t d)) (hw : ∀ e d, IsReal (w e d))
    (hb : ∀ e, IsReal (b e)) (n : Fin 8) (t e : Fin 1024) : IsReal (lin x w b n t e) := by
  show IsReal ((∑ d : Fin 1024, x n t d * w e d) + b e)
  exact (isReal_sum _ _ fun d _ => (hx n t d).mul (hw e d)).add (hb e)

/-- The contraction of a query row with a key row is real. -/
theorem dot_real (q k : T3) (hq : ∀ n t d, IsReal (q n t d)) (hk : ∀ n t d, IsReal (k n t d)) (n : Fin 8) (i j : Fin 1024) :
    IsReal (∑ d : Fin 1024, q n i d * k n j d) :=
  isReal_sum _ _ fun d _ => (hq n i d).mul (hk n j d)

/-- At a key position not after the query position the score is real. -/
theorem score_real_of_le (q k : T3) (hq : ∀ n t d, IsReal (q n t d)) (hk : ∀ n t d, IsReal (k n t d)) (n : Fin 8)
    (i j : Fin 1024) (h : j.val ≤ i.val) : IsReal (score q k n i j) := by
  unfold score
  rw [if_pos h]
  exact (dot_real q k hq hk n i j).mul (isReal_coe _)

/-- At a key position after the query position the score is -∞. -/
theorem score_bot_of_lt (q k : T3) (n : Fin 8) (i j : Fin 1024) (h : i.val < j.val) : score q k n i j = ⊥ := by
  unfold score
  rw [if_neg (by omega)]

/-- So there it is not -∞ … -/
theorem score_ne_bot_of_le (q k : T3) (hq : ∀ n t d, IsReal (q n t d)) (hk : ∀ n t d, IsReal (k n t d)) (n : Fin 8)
    (i j : Fin 1024) (h : j.val ≤ i.val) : score q k n i j ≠ ⊥ := by
  obtain ⟨r, hr⟩ := score_real_of_le q k hq hk n i j h
  rw [hr]; exact EReal.coe_ne_bot r

/-- … and no score is +∞. -/
theorem score_ne_top (q k : T3) (hq : ∀ n t d, IsReal (q n t d)) (hk : ∀ n t d, IsReal (k n t d)) (n : Fin 8)
    (i j : Fin 1024) : score q k n i j ≠ ⊤ := by
  by_cases h : j.val ≤ i.val
  · obtain ⟨r, hr⟩ := score_real_of_le q k hq hk n i j h
    rw [hr]; exact EReal.coe_ne_top r
  · rw [score_bot_of_lt q k n i j (by omega)]; exact bot_ne_top

/-- The maximum of a row of scores is not +∞ … -/
theorem cmax_score_ne_top (q k : T3) (hq : ∀ n t d, IsReal (q n t d)) (hk : ∀ n t d, IsReal (k n t d)) (n : Fin 8)
    (i : Fin 1024) : cmax (score q k n i) ≠ ⊤ :=
  cmax_ne_top fun j => score_ne_top q k hq hk n i j

/-- … nor -∞, key position 0 being never after the query position … -/
theorem cmax_score_ne_bot (q k : T3) (hq : ∀ n t d, IsReal (q n t d)) (hk : ∀ n t d, IsReal (k n t d)) (n : Fin 8)
    (i : Fin 1024) : cmax (score q k n i) ≠ ⊥ := fun e =>
  score_ne_bot_of_le q k hq hk n i ⟨0, by omega⟩ (Nat.zero_le _) (eq_bot_of_cmax_eq_bot e _)

/-- … so it is a real number. -/
theorem cmax_score_real (q k : T3) (hq : ∀ n t d, IsReal (q n t d)) (hk : ∀ n t d, IsReal (k n t d)) (n : Fin 8)
    (i : Fin 1024) : IsReal (cmax (score q k n i)) :=
  isReal_of_ne_top_of_ne_bot (cmax_score_ne_top q k hq hk n i) (cmax_score_ne_bot q k hq hk n i)

end Cert.Attn

end
-- ==== Proof.LibBlockSum.lean ====
import Mathlib.Algebra.BigOperators.Fin
import Mathlib.Algebra.BigOperators.Intervals

/-!
# Summing a long sequence block by block

A sum over `T * B` consecutive indices can be taken as `T` partial sums of `B`
consecutive terms each, added up one after the other.  In an additive commutative
monoid the result is the same as the single sum over all `T * B` indices:

* `Cert.BlockSum.sum_blocks`: the general statement, for any number `T` of blocks of any
  length `B`;
* `Cert.BlockSum.sum_20x5000`: twenty blocks of five thousand terms, started from zero,
  with the block count written `19 + 1` and the position written `5000 * s + r`, equal
  to the sum over all one hundred thousand indices.

Only commutativity and associativity of the addition are used.
-/

namespace Cert.BlockSum

/-- `T` partial sums of `B` consecutive terms add up to the sum over all `T * B` terms. -/
theorem sum_blocks {β : Type*} [AddCommMonoid β] (T B : ℕ) (f : ℕ → β) :
    ∑ s ∈ Finset.range T, ∑ r : Fin B, f (s * B + r.val) = ∑ n : Fin (T * B), f n.val := by
  rw [Fin.sum_univ_eq_sum_range (fun n => f n) (T * B)]
  induction T with
  | zero => simp
  | succ T ih =>
    -- the last block is the tail of the range of length `T * B + B`
    rw [Finset.sum_range_succ, ih, Nat.succ_mul, Finset.sum_range_add,
      Fin.sum_univ_eq_sum_range (fun r => f (T * B + r)) B]

/-- Twenty blocks of five thousand terms, accumulated from zero, give the sum of all
one hundred thousand terms. -/
theorem sum_20x5000 {β : Type*} [AddCommMonoid β] (g : Fin 100000 → β) (f : ℕ → β)
    (hf : ∀ n : Fin 100000, f n.val = g n) :
    (0 : β) + ∑ s ∈ Finset.range (19 + 1), ∑ r : Fin 5000, f (5000 * s + r.val)
      = ∑ n : Fin 100000, g n := by
  rw [zero_add]
  calc ∑ s ∈ Finset.range (19 + 1), ∑ r : Fin 5000, f (5000 * s + r.val)
      = ∑ s ∈ Finset.range 20, ∑ r : Fin 5000, f (s * 5000 + r.val) := by
        refine Finset.sum_congr rfl fun s _ => Finset.sum_congr rfl fun r _ => ?_
        rw [Nat.mul_comm]
    _ = ∑ n : Fin (20 * 5000), f n.val := sum_blocks 20 5000 f
    _ = ∑ n : Fin 100000, g n := Finset.sum_congr rfl fun n _ => hf n

end Cert.BlockSum
-- ==== Proof.LibOnlineSoftmax.lean ====
/-
  The online softmax law, on the extended reals.

  A softmax-weighted sum  Σ_n (e_n / Σ_n' e_n') · v_n  with  e_n = exp (s_n - M),  M = max_n s_n,  can be
  accumulated tile by tile without knowing M in advance.  The keys are cut into tiles of B consecutive
  positions.  A running maximum m, a running normaliser l and a running weighted sum a are kept; at tile k

      m' = max m (max of the tile's scores)
      l' = exp (m - m') · l + Σ_r exp (s_{kB+r} - m')
      a' = exp (m - m') · a + Σ_r exp (s_{kB+r} - m') · v_{kB+r}

  starting from m = -∞, l = 0, a = 0, and at the end the result is a / l.  When every score and value is a real
  number this is the one-pass softmax-weighted sum: after each tile m is the maximum M' of the scores seen so
  far, l = Σ exp (s_n - M') and a = Σ exp (s_n - M') · v_n over the positions seen so far, because
  exp (M_old - M') · exp (s_n - M_old) = exp (s_n - M'); on the first tile the factor exp (-∞ - M') is 0 and
  multiplies 0.  Dividing a finite real sum by the positive real normaliser distributes over the sum.
-/
import Idealize.ShloMosaic.PureOps.Ideal
import proofs.«171720_j40072044871789_2_alg».proof.Proof.LibLogShift
import proofs.«171720_j40072044871789_2_alg».proof.Proof.LibBlockSum

noncomputable section

open scoped BigOperators

namespace Cert.OnlineSoftmax

open Idealize.ShloMosaic Cert.LogShift

/-- A family over the first N positions, continued by zero: lets a tile address position k·B + r by a natural number. -/
def ext {N : ℕ} (f : Fin N → EReal) : ℕ → EReal := fun n => if h : n < N then f ⟨n, h⟩ else 0

theorem ext_apply {N : ℕ} (f : Fin N → EReal) (n : ℕ) (h : n < N) : ext f n = f ⟨n, h⟩ := dif_pos h

variable (B : ℕ)

/-- The running maximum after tile k, from the running maximum m before it. -/
def stepM (m : EReal) (s : ℕ → EReal) (k : ℕ) : EReal := max m (cmax fun r : Fin B => s (k * B + r.val))

/-- The running normaliser after tile k. -/
def stepL (m l : EReal) (s : ℕ → EReal) (k : ℕ) : EReal :=
  Ideal.exp (m - stepM B m s k) * l + ∑ r : Fin B, Ideal.exp (s (k * B + r.val) - stepM B m s k)

/-- The running weighted sum after tile k. -/
def stepA (m a : EReal) (s v : ℕ → EReal) (k : ℕ) : EReal :=
  Ideal.exp (m - stepM B m s k) * a + ∑ r : Fin B, Ideal.exp (s (k * B + r.val) - stepM B m s k) * v (k * B + r.val)

/-- The three running quantities after tiles 0, …, k, started from -∞, 0, 0. -/
def runM (s : ℕ → EReal) : ℕ → EReal
  | 0 => stepM B ⊥ s 0
  | k + 1 => stepM B (runM s k) s (k + 1)

def runL (s : ℕ → EReal) : ℕ → EReal
  | 0 => stepL B ⊥ 0 s 0
  | k + 1 => stepL B (runM B s k) (runL s k) s (k + 1)

def runA (s v : ℕ → EReal) : ℕ → EReal
  | 0 => stepA B ⊥ 0 s v 0
  | k + 1 => stepA B (runM B s k) (runA s v k) s v (k + 1)

/-! ## Real families

  With real scores and values every quantity of the recursion is a real number, so the law is proved over real
  families indexed by the natural numbers and transferred through `ext` at the end. -/

/-- A real family over the first N positions, continued by zero. -/
def rext {N : ℕ} (f : Fin N → ℝ) : ℕ → ℝ := fun n => if h : n < N then f ⟨n, h⟩ else 0

theorem rext_apply {N : ℕ} (f : Fin N → ℝ) (n : Fin N) : rext f n.val = f n := dif_pos n.2

/-- The continuation by zero of a family of real numbers is a family of real numbers. -/
theorem ext_coe {N : ℕ} (f : Fin N → ℝ) :
    ext (fun n => (f n : EReal)) = fun n => ((rext f n : ℝ) : EReal) := by
  funext n
  unfold ext rext
  split <;> rfl

theorem exp_coe_sub (a b : ℝ) : Ideal.exp ((a : EReal) - (b : EReal)) = ((Real.exp (a - b) : ℝ) : EReal) := by
  rw [← EReal.coe_sub, Ideal.exp_coe]

/-- A nonempty tile of real scores has a real maximum, which bounds the tile and is attained in it. -/
theorem tile_max (hB : 0 < B) (x : ℕ → ℝ) (k : ℕ) :
    ∃ μt : ℝ, cmax (fun r : Fin B => ((x (k * B + r.val) : ℝ) : EReal)) = (μt : EReal)
      ∧ (∀ r : Fin B, x (k * B + r.val) ≤ μt) ∧ ∃ r : Fin B, x (k * B + r.val) = μt := by
  have hne_bot : cmax (fun r : Fin B => ((x (k * B + r.val) : ℝ) : EReal)) ≠ ⊥ := by
    intro e
    exact EReal.coe_ne_bot _ (eq_bot_of_cmax_eq_bot e ⟨0, hB⟩)
  obtain ⟨r0, hr0⟩ := exists_eq_cmax hne_bot
  refine ⟨x (k * B + r0.val), hr0.symm, fun r => ?_, r0, rfl⟩
  have h := le_cmax (fun r : Fin B => ((x (k * B + r.val) : ℝ) : EReal)) r
  rw [← hr0] at h
  exact EReal.coe_le_coe_iff.mp h

/-- The running maximum from -∞ is the tile's maximum. -/
theorem stepM_bot (x : ℕ → ℝ) (k : ℕ) (μt : ℝ)
    (ht : cmax (fun r : Fin B => ((x (k * B + r.val) : ℝ) : EReal)) = (μt : EReal)) :
    stepM B ⊥ (fun n => ((x n : ℝ) : EReal)) k = (μt : EReal) := by
  unfold stepM
  rw [ht]
  exact max_eq_right bot_le

/-- The running maximum from a real number is the larger of it and the tile's maximum. -/
theorem stepM_coe (x : ℕ → ℝ) (k : ℕ) (μ μt : ℝ)
    (ht : cmax (fun r : Fin B => ((x (k * B + r.val) : ℝ) : EReal)) = (μt : EReal)) :
    stepM B (μ : EReal) (fun n => ((x n : ℝ) : EReal)) k = ((max μ μt : ℝ) : EReal) := by
  unfold stepM
  rw [ht]
  exact (EReal.coe_strictMono.monotone.map_max).symm

/-- From -∞ and 0 the normaliser is the tile's sum: the factor exp (-∞ - m') multiplies 0. -/
theorem stepL_bot (x : ℕ → ℝ) (k : ℕ) (μ' : ℝ)
    (hm : stepM B ⊥ (fun n => ((x n : ℝ) : EReal)) k = (μ' : EReal)) :
    stepL B ⊥ 0 (fun n => ((x n : ℝ) : EReal)) k
      = ((∑ r : Fin B, Real.exp (x (k * B + r.val) - μ') : ℝ) : EReal) := by
  unfold stepL
  rw [hm, mul_zero, zero_add]
  simp only [exp_coe_sub]
  rw [coe_sum]

theorem stepA_bot (x y : ℕ → ℝ) (k : ℕ) (μ' : ℝ)
    (hm : stepM B ⊥ (fun n => ((x n : ℝ) : EReal)) k = (μ' : EReal)) :
    stepA B ⊥ 0 (fun n => ((x n : ℝ) : EReal)) (fun n => ((y n : ℝ) : EReal)) k
      = ((∑ r : Fin B, Real.exp (x (k * B + r.val) - μ') * y (k * B + r.val) : ℝ) : EReal) := by
  unfold stepA
  rw [hm, mul_zero, zero_add]
  simp only [exp_coe_sub, ← EReal.coe_mul]
  rw [coe_sum]

/-- From real numbers the normaliser is a real number. -/
theorem stepL_coe (x : ℕ → ℝ) (k : ℕ) (μ μ' l : ℝ)
    (hm : stepM B (μ : EReal) (fun n => ((x n : ℝ) : EReal)) k = (μ' : EReal)) :
    stepL B (μ : EReal) (l : EReal) (fun n => ((x n : ℝ) : EReal)) k
      = ((Real.exp (μ - μ') * l + ∑ r : Fin B, Real.exp (x (k * B + r.val) - μ') : ℝ) : EReal) := by
  unfold stepL
  rw [hm]
  simp only [exp_coe_sub]
  rw [coe_sum, ← EReal.coe_mul, ← EReal.coe_add]

theorem stepA_coe (x y : ℕ → ℝ) (k : ℕ) (μ μ' a : ℝ)
    (hm : stepM B (μ : EReal) (fun n => ((x n : ℝ) : EReal)) k = (μ' : EReal)) :
    stepA B (μ : EReal) (a : EReal) (fun n => ((x n : ℝ) : EReal)) (fun n => ((y n : ℝ) : EReal)) k
      = ((Real.exp (μ - μ') * a + ∑ r : Fin B, Real.exp (x (k * B + r.val) - μ') * y (k * B + r.val) : ℝ) : EReal) := by
  unfold stepA
  rw [hm]
  simp only [exp_coe_sub, ← EReal.coe_mul]
  rw [coe_sum, ← EReal.coe_add]

/-- THE INVARIANT: after tile k the running maximum is a real number μ that bounds the (k + 1) · B scores seen so
    far and is one of them, and the normaliser and the weighted sum are the sums of exp (x n - μ) and of
    exp (x n - μ) · y n over those positions. -/
theorem run_inv (hB : 0 < B) (x y : ℕ → ℝ) (k : ℕ) :
    ∃ μ : ℝ, runM B (fun n => ((x n : ℝ) : EReal)) k = (μ : EReal)
      ∧ (∀ n, n < (k + 1) * B → x n ≤ μ)
      ∧ (∃ n, n < (k + 1) * B ∧ x n = μ)
      ∧ runL B (fun n => ((x n : ℝ) : EReal)) k
          = ((∑ n ∈ Finset.range ((k + 1) * B), Real.exp (x n - μ) : ℝ) : EReal)
      ∧ runA B (fun n => ((x n : ℝ) : EReal)) (fun n => ((y n : ℝ) : EReal)) k
          = ((∑ n ∈ Finset.range ((k + 1) * B), Real.exp (x n - μ) * y n : ℝ) : EReal) := by
  induction k with
  | zero =>
    obtain ⟨μt, ht, hub, r0, hr0⟩ := tile_max B hB x 0
    have hm := stepM_bot B x 0 μt ht
    refine ⟨μt, hm, ?_, ?_, ?_, ?_⟩
    · intro n hn
      have hn' : n < B := by simpa using hn
      simpa using hub ⟨n, hn'⟩
    · exact ⟨r0.val, by simpa using r0.2, by simpa using hr0⟩
    · show stepL B ⊥ 0 (fun n => ((x n : ℝ) : EReal)) 0 = _
      rw [stepL_bot B x 0 μt hm, Fin.sum_univ_eq_sum_range (fun n => Real.exp (x (0 * B + n) - μt)) B]
      simp
    · show stepA B ⊥ 0 (fun n => ((x n : ℝ) : EReal)) (fun n => ((y n : ℝ) : EReal)) 0 = _
      rw [stepA_bot B x y 0 μt hm,
        Fin.sum_univ_eq_sum_range (fun n => Real.exp (x (0 * B + n) - μt) * y (0 * B + n)) B]
      simp
  | succ k ih =>
    obtain ⟨μ, hM, hub, ⟨n0, hn0, hatt⟩, hL, hA⟩ := ih
    obtain ⟨μt, ht, hubt, r0, hr0⟩ := tile_max B hB x (k + 1)
    have hm := stepM_coe B x (k + 1) μ μt ht
    have hsucc : (k + 1 + 1) * B = (k + 1) * B + B := Nat.succ_mul (k + 1) B
    refine ⟨max μ μt, ?_, ?_, ?_, ?_, ?_⟩
    · show stepM B (runM B (fun n => ((x n : ℝ) : EReal)) k) (fun n => ((x n : ℝ) : EReal)) (k + 1) = _
      rw [hM]; exact hm
    · intro n hn
      by_cases h : n < (k + 1) * B
      · exact le_trans (hub n h) (le_max_left _ _)
      · obtain ⟨r, rfl⟩ := Nat.exists_eq_add_of_le (not_lt.mp h)
        have hr : r < B := by omega
        exact le_trans (hubt ⟨r, hr⟩) (le_max_right _ _)
    · rcases le_total μt μ with h | h
      · exact ⟨n0, by omega, by rw [max_eq_left h]; exact hatt⟩
      · exact ⟨(k + 1) * B + r0.val, by have := r0.2; omega, by rw [max_eq_right h]; exact hr0⟩
    · show stepL B (runM B (fun n => ((x n : ℝ) : EReal)) k) (runL B (fun n => ((x n : ℝ) : EReal)) k)
          (fun n => ((x n : ℝ) : EReal)) (k + 1) = _
      rw [hM, hL, stepL_coe B x (k + 1) μ (max μ μt) _ hm, hsucc, Finset.sum_range_add, Finset.mul_sum,
        Fin.sum_univ_eq_sum_range (fun n => Real.exp (x ((k + 1) * B + n) - max μ μt)) B]
      congr 2
      refine Finset.sum_congr rfl fun n _ => ?_
      rw [← Real.exp_add]
      congr 1
      ring
    · show stepA B (runM B (fun n => ((x n : ℝ) : EReal)) k)
          (runA B (fun n => ((x n : ℝ) : EReal)) (fun n => ((y n : ℝ) : EReal)) k)
          (fun n => ((x n : ℝ) : EReal)) (fun n => ((y n : ℝ) : EReal)) (k + 1) = _
      rw [hM, hA, stepA_coe B x y (k + 1) μ (max μ μt) _ hm, hsucc, Finset.sum_range_add, Finset.mul_sum,
        Fin.sum_univ_eq_sum_range
          (fun n => Real.exp (x ((k + 1) * B + n) - max μ μt) * y ((k + 1) * B + n)) B]
      congr 2
      refine Finset.sum_congr rfl fun n _ => ?_
      rw [← mul_assoc, ← Real.exp_add]
      congr 2
      ring

/-- THE LAW: for real scores σ and values ν over N = (T + 1) · B positions (B > 0), the tile-by-tile result
    a / l after the last tile is the one-pass softmax-weighted sum. -/
theorem online_softmax (T : ℕ) (hB : 0 < B) (N : ℕ) (hN : N = (T + 1) * B) (σ ν : Fin N → ℝ) :
    Ideal.div (runA B (ext fun n => (σ n : EReal)) (ext fun n => (ν n : EReal)) T) (runL B (ext fun n => (σ n : EReal)) T)
      = ∑ n : Fin N, Ideal.div (Ideal.exp ((σ n : EReal) - cmax fun n' : Fin N => (σ n' : EReal)))
            (∑ n' : Fin N, Ideal.exp ((σ n' : EReal) - cmax fun n'' : Fin N => (σ n'' : EReal))) * (ν n : EReal) := by
  subst hN
  rw [ext_coe, ext_coe]
  obtain ⟨μ, -, hub, ⟨n0, hn0, hatt⟩, hL, hA⟩ := run_inv B hB (rext σ) (rext ν) T
  -- the maximum of all the scores is μ
  have hcm : cmax (fun n : Fin ((T + 1) * B) => (σ n : EReal)) = (μ : EReal) := by
    apply le_antisymm
    · refine cmax_le fun n => EReal.coe_le_coe_iff.mpr ?_
      rw [← rext_apply σ n]
      exact hub n.val n.2
    · refine le_trans (le_of_eq ?_) (le_cmax (fun n : Fin ((T + 1) * B) => (σ n : EReal)) ⟨n0, hn0⟩)
      show (μ : EReal) = ((σ ⟨n0, hn0⟩ : ℝ) : EReal)
      rw [← hatt, ← rext_apply σ ⟨n0, hn0⟩]
  -- the sums over the first N natural numbers are the sums over the N positions
  have hLs : (∑ n ∈ Finset.range ((T + 1) * B), Real.exp (rext σ n - μ))
      = ∑ n : Fin ((T + 1) * B), Real.exp (σ n - μ) := by
    rw [← Fin.sum_univ_eq_sum_range (fun n => Real.exp (rext σ n - μ))]
    exact Finset.sum_congr rfl fun n _ => by rw [rext_apply]
  have hAs : (∑ n ∈ Finset.range ((T + 1) * B), Real.exp (rext σ n - μ) * rext ν n)
      = ∑ n : Fin ((T + 1) * B), Real.exp (σ n - μ) * ν n := by
    rw [← Fin.sum_univ_eq_sum_range (fun n => Real.exp (rext σ n - μ) * rext ν n)]
    exact Finset.sum_congr rfl fun n _ => by rw [rext_apply, rext_apply]
  -- the normaliser is a positive real number
  have hpos : 0 < ∑ n : Fin ((T + 1) * B), Real.exp (σ n - μ) :=
    Finset.sum_pos (fun _ _ => Real.exp_pos _) ⟨⟨n0, hn0⟩, Finset.mem_univ _⟩
  rw [hcm, hA, hL, hLs, hAs]
  simp only [exp_coe_sub]
  rw [coe_sum]
  simp only [Ideal.div_coe (ne_of_gt hpos), ← EReal.coe_mul]
  rw [coe_sum, Finset.sum_mul]
  congr 1
  exact Finset.sum_congr rfl fun n _ => by ring

end Cert.OnlineSoftmax

end
-- ==== Proof.LibMaskedSoftmax.lean ====
/-
  The online softmax law with a causal mask.

  A row of attention scores is a family s_n of extended reals, each a real number or -∞ (a masked position), with
  at least one real number among the first B.  The running maximum m, normaliser l and weighted sum a are folded
  tile by tile exactly as for real scores,

      m' = max m (max of the tile),   l' = exp (m - m') · l + Σ_r exp (s_{kB+r} - m'),
      a' = exp (m - m') · a + Σ_r exp (s_{kB+r} - m') · v_{kB+r},

  from -∞, 0, 0.  A masked position has exp (-∞ - m') = 0 and adds nothing; a wholly masked tile leaves m
  unchanged, since exp (m - m) = 1.  So after any number of tiles m is a real number μ, the largest score seen,
  and l, a are the sums of exp (s_n - μ) and exp (s_n - μ) · v_n over the positions seen.  If every position after
  the tiles folded is masked, the quotient a / l is therefore the softmax-weighted sum over ALL positions: the
  maximum of the whole row is μ and the masked tail contributes zeros.
-/
import proofs.«171720_j40072044871789_2_alg».proof.Proof.LibOnlineSoftmax

noncomputable section

open scoped BigOperators

namespace Cert.MaskedSoftmax

open Idealize.ShloMosaic Cert.LogShift Cert.OnlineSoftmax

/-- exp (s - μ) as a real number: 0 at a masked position. -/
def w (s : EReal) (μ : ℝ) : ℝ := (Ideal.exp (s - (μ : EReal))).toReal

theorem w_bot (μ : ℝ) : w ⊥ μ = 0 := by
  unfold w; rw [EReal.bot_sub, Ideal.exp_bot]; exact EReal.toReal_zero

theorem w_coe (x μ : ℝ) : w (x : EReal) μ = Real.exp (x - μ) := by
  unfold w; rw [exp_coe_sub]; exact EReal.toReal_coe _

/-- For a score that is not +∞ the exponential of the shifted score is the real number `w`. -/
theorem exp_sub {s : EReal} (hs : s ≠ ⊤) (μ : ℝ) : Ideal.exp (s - (μ : EReal)) = ((w s μ : ℝ) : EReal) := by
  induction s using EReal.rec with
  | bot => rw [w_bot, EReal.bot_sub, Ideal.exp_bot, EReal.coe_zero]
  | coe x => rw [w_coe, exp_coe_sub]
  | top => exact absurd rfl hs

/-- Moving the reference point: exp (μ - μ') · exp (s - μ) = exp (s - μ'). -/
theorem w_shift {s : EReal} (hs : s ≠ ⊤) (μ μ' : ℝ) : Real.exp (μ - μ') * w s μ = w s μ' := by
  induction s using EReal.rec with
  | bot => rw [w_bot, w_bot, mul_zero]
  | coe x => rw [w_coe, w_coe, ← Real.exp_add]; congr 1; ring
  | top => exact absurd rfl hs

theorem w_self (μ : ℝ) : w (μ : EReal) μ = 1 := by rw [w_coe, sub_self, Real.exp_zero]

theorem w_nonneg (s : EReal) (hs : s ≠ ⊤) (μ : ℝ) : 0 ≤ w s μ := by
  induction s using EReal.rec with
  | bot => rw [w_bot]
  | coe x => rw [w_coe]; exact (Real.exp_pos _).le
  | top => exact absurd rfl hs

variable (B : ℕ)

/-- One tile folded into a real running maximum: the new maximum is a real number, at least the old one, bounds
    the tile, and is the old one or a score of the tile. -/
theorem stepM_real (s : ℕ → EReal) (hs : ∀ n, s n ≠ ⊤) (k : ℕ) (μ : ℝ) :
    ∃ μ' : ℝ, stepM B (μ : EReal) s k = (μ' : EReal) ∧ μ ≤ μ' ∧ (∀ r : Fin B, s (k * B + r.val) ≤ (μ' : EReal))
      ∧ (μ' = μ ∨ ∃ r : Fin B, s (k * B + r.val) = (μ' : EReal)) := by
  have hne : cmax (fun r : Fin B => s (k * B + r.val)) ≠ ⊤ := cmax_ne_top fun r => hs _
  unfold stepM
  generalize hτ : cmax (fun r : Fin B => s (k * B + r.val)) = τ at hne
  induction τ using EReal.rec with
  | bot =>
    refine ⟨μ, max_eq_left bot_le, le_rfl, fun r => ?_, Or.inl rfl⟩
    have := le_cmax (fun r : Fin B => s (k * B + r.val)) r
    rw [hτ] at this
    exact le_trans this bot_le
  | coe t =>
    refine ⟨max μ t, (EReal.coe_strictMono.monotone.map_max).symm, le_max_left _ _, fun r => ?_, ?_⟩
    · have := le_cmax (fun r : Fin B => s (k * B + r.val)) r
      rw [hτ] at this
      exact le_trans this (EReal.coe_le_coe_iff.mpr (le_max_right _ _))
    · rcases le_total t μ with h | h
      · exact Or.inl (max_eq_left h)
      · right
        have hb : cmax (fun r : Fin B => s (k * B + r.val)) ≠ ⊥ := by rw [hτ]; exact EReal.coe_ne_bot _
        obtain ⟨r0, hr0⟩ := exists_eq_cmax hb
        exact ⟨r0, by rw [hr0, hτ, max_eq_right h]⟩
  | top => exact absurd rfl hne

/-- The first tile, which holds a real score: from -∞ the maximum is a real number that bounds the tile and is one
    of its scores. -/
theorem stepM_first (s : ℕ → EReal) (hs : ∀ n, s n ≠ ⊤) (h0 : ∃ r : Fin B, s (0 * B + r.val) ≠ ⊥) :
    ∃ μ' : ℝ, stepM B ⊥ s 0 = (μ' : EReal) ∧ (∀ r : Fin B, s (0 * B + r.val) ≤ (μ' : EReal))
      ∧ ∃ r : Fin B, s (0 * B + r.val) = (μ' : EReal) := by
  have hne : cmax (fun r : Fin B => s (0 * B + r.val)) ≠ ⊤ := cmax_ne_top fun r => hs _
  have hb : cmax (fun r : Fin B => s (0 * B + r.val)) ≠ ⊥ := by
    obtain ⟨r, hr⟩ := h0
    intro e
    exact hr (eq_bot_of_cmax_eq_bot e r)
  obtain ⟨r0, hr0⟩ := exists_eq_cmax hb
  unfold stepM
  refine ⟨(cmax (fun r : Fin B => s (0 * B + r.val))).toReal, ?_, fun r => ?_, r0, ?_⟩
  · rw [EReal.coe_toReal hne hb]; exact max_eq_right bot_le
  · rw [EReal.coe_toReal hne hb]; exact le_cmax (fun r : Fin B => s (0 * B + r.val)) r
  · rw [EReal.coe_toReal hne hb]; exact hr0

theorem stepL_real (s : ℕ → EReal) (hs : ∀ n, s n ≠ ⊤) (k : ℕ) (μ μ' l : ℝ)
    (hm : stepM B (μ : EReal) s k = (μ' : EReal)) :
    stepL B (μ : EReal) (l : EReal) s k
      = ((Real.exp (μ - μ') * l + ∑ r : Fin B, w (s (k * B + r.val)) μ' : ℝ) : EReal) := by
  unfold stepL
  rw [hm]
  simp only [exp_sub (hs _), exp_coe_sub]
  rw [coe_sum, ← EReal.coe_mul, ← EReal.coe_add]

theorem stepA_real (s : ℕ → EReal) (hs : ∀ n, s n ≠ ⊤) (y : ℕ → ℝ) (k : ℕ) (μ μ' a : ℝ)
    (hm : stepM B (μ : EReal) s k = (μ' : EReal)) :
    stepA B (μ : EReal) (a : EReal) s (fun n => ((y n : ℝ) : EReal)) k
      = ((Real.exp (μ - μ') * a + ∑ r : Fin B, w (s (k * B + r.val)) μ' * y (k * B + r.val) : ℝ) : EReal) := by
  unfold stepA
  rw [hm]
  simp only [exp_sub (hs _), exp_coe_sub, ← EReal.coe_mul]
  rw [coe_sum, ← EReal.coe_add]

theorem stepL_first (s : ℕ → EReal) (hs : ∀ n, s n ≠ ⊤) (μ' : ℝ) (hm : stepM B ⊥ s 0 = (μ' : EReal)) :
    stepL B ⊥ 0 s 0 = ((∑ r : Fin B, w (s (0 * B + r.val)) μ' : ℝ) : EReal) := by
  unfold stepL
  rw [hm, mul_zero, zero_add]
  simp only [exp_sub (hs _)]
  rw [coe_sum]

theorem stepA_first (s : ℕ → EReal) (hs : ∀ n, s n ≠ ⊤) (y : ℕ → ℝ) (μ' : ℝ) (hm : stepM B ⊥ s 0 = (μ' : EReal)) :
    stepA B ⊥ 0 s (fun n => ((y n : ℝ) : EReal)) 0
      = ((∑ r : Fin B, w (s (0 * B + r.val)) μ' * y (0 * B + r.val) : ℝ) : EReal) := by
  unfold stepA
  rw [hm, mul_zero, zero_add]
  simp only [exp_sub (hs _), ← EReal.coe_mul]
  rw [coe_sum]

/-- THE INVARIANT with masked scores: after tile k the running maximum is a real number μ that bounds the scores seen
    and is one of them, and the normaliser and weighted sum are the sums of exp (s n - μ) and exp (s n - μ) · y n
    over the positions seen. -/
theorem run_inv (s : ℕ → EReal) (hs : ∀ n, s n ≠ ⊤) (h0 : ∃ r : Fin B, s (0 * B + r.val) ≠ ⊥) (y : ℕ → ℝ) (k : ℕ) :
    ∃ μ : ℝ, runM B s k = (μ : EReal)
      ∧ (∀ n, n < (k + 1) * B → s n ≤ (μ : EReal))
      ∧ (∃ n, n < (k + 1) * B ∧ s n = (μ : EReal))
      ∧ runL B s k = ((∑ n ∈ Finset.range ((k + 1) * B), w (s n) μ : ℝ) : EReal)
      ∧ runA B s (fun n => ((y n : ℝ) : EReal)) k
          = ((∑ n ∈ Finset.range ((k + 1) * B), w (s n) μ * y n : ℝ) : EReal) := by
  induction k with
  | zero =>
    obtain ⟨μ', hm, hub, r0, hr0⟩ := stepM_first B s hs h0
    refine ⟨μ', hm, ?_, ?_, ?_, ?_⟩
    · intro n hn
      have hn' : n < B := by simpa using hn
      simpa using hub ⟨n, hn'⟩
    · exact ⟨r0.val, by simpa using r0.2, by simpa using hr0⟩
    · show stepL B ⊥ 0 s 0 = _
      rw [stepL_first B s hs μ' hm, Fin.sum_univ_eq_sum_range (fun n => w (s (0 * B + n)) μ') B]
      simp
    · show stepA B ⊥ 0 s (fun n => ((y n : ℝ) : EReal)) 0 = _
      rw [stepA_first B s hs y μ' hm,
        Fin.sum_univ_eq_sum_range (fun n => w (s (0 * B + n)) μ' * y (0 * B + n)) B]
      simp
  | succ k ih =>
    obtain ⟨μ, hM, hub, ⟨n0, hn0, hatt⟩, hL, hA⟩ := ih
    obtain ⟨μ', hm, hle, hubt, hcase⟩ := stepM_real B s hs (k + 1) μ
    have hsucc : (k + 1 + 1) * B = (k + 1) * B + B := Nat.succ_mul (k + 1) B
    refine ⟨μ', ?_, ?_, ?_, ?_, ?_⟩
    · show stepM B (runM B s k) s (k + 1) = _
      rw [hM]; exact hm
    · intro n hn
      by_cases h : n < (k + 1) * B
      · exact le_trans (hub n h) (EReal.coe_le_coe_iff.mpr hle)
      · obtain ⟨r, rfl⟩ := Nat.exists_eq_add_of_le (not_lt.mp h)
        have hr : r < B := by omega
        exact hubt ⟨r, hr⟩
    · rcases hcase with h | ⟨r0, hr0⟩
      · exact ⟨n0, by omega, by rw [h]; exact hatt⟩
      · exact ⟨(k + 1) * B + r0.val, by have := r0.2; omega, hr0⟩
    · show stepL B (runM B s k) (runL B s k) s (k + 1) = _
      rw [hM, hL, stepL_real B s hs (k + 1) μ μ' _ hm, hsucc, Finset.sum_range_add, Finset.mul_sum,
        Fin.sum_univ_eq_sum_range (fun n => w (s ((k + 1) * B + n)) μ') B]
      congr 2
      exact Finset.sum_congr rfl fun n _ => w_shift (hs n) μ μ'
    · show stepA B (runM B s k) (runA B s (fun n => ((y n : ℝ) : EReal)) k) s (fun n => ((y n : ℝ) : EReal)) (k + 1) = _
      rw [hM, hA, stepA_real B s hs y (k + 1) μ μ' _ hm, hsucc, Finset.sum_range_add, Finset.mul_sum,
        Fin.sum_univ_eq_sum_range (fun n => w (s ((k + 1) * B + n)) μ' * y ((k + 1) * B + n)) B]
      congr 2
      exact Finset.sum_congr rfl fun n _ => by rw [← mul_assoc, w_shift (hs n) μ μ']

/-- THE LAW with a causal mask: N = (T + 1) · B positions, scores σ that are real numbers or -∞ with a real number
    among the first B, real values ν; if every position after the first (T' + 1) · B is masked, the tile-by-tile
    quotient a / l after tile T' is the softmax-weighted sum over all N positions. -/
theorem masked_online_softmax (T' T : ℕ) (hT : T' ≤ T) (N : ℕ) (hN : N = (T + 1) * B)
    (σ : Fin N → EReal) (hσ : ∀ n, σ n ≠ ⊤) (h0 : ∃ n : Fin N, n.val < B ∧ σ n ≠ ⊥)
    (hmask : ∀ n : Fin N, (T' + 1) * B ≤ n.val → σ n = ⊥) (ν : Fin N → ℝ) :
    Ideal.div (runA B (ext σ) (ext fun n => (ν n : EReal)) T') (runL B (ext σ) T')
      = ∑ n : Fin N, Ideal.div (Ideal.exp (σ n - cmax σ)) (∑ n' : Fin N, Ideal.exp (σ n' - cmax σ)) * (ν n : EReal) := by
  subst hN
  have hle : (T' + 1) * B ≤ (T + 1) * B := Nat.mul_le_mul_right B (by omega)
  have hs : ∀ n, ext σ n ≠ ⊤ := by
    intro n
    unfold ext
    split
    · exact hσ _
    · exact EReal.zero_ne_top
  have h0' : ∃ r : Fin B, ext σ (0 * B + r.val) ≠ ⊥ := by
    obtain ⟨n, hn, hne⟩ := h0
    refine ⟨⟨n.val, hn⟩, ?_⟩
    rw [show 0 * B + n.val = n.val by omega, ext_apply σ n.val n.2]
    exact hne
  rw [ext_coe ν]
  obtain ⟨μ, -, hub, ⟨n0, hn0, hatt⟩, hL, hA⟩ := run_inv B (ext σ) hs h0' (rext ν) T'
  have hn0N : n0 < (T + 1) * B := lt_of_lt_of_le hn0 hle
  -- the maximum of the whole row is μ
  have hcm : cmax σ = (μ : EReal) := by
    apply le_antisymm
    · refine cmax_le fun n => ?_
      by_cases h : n.val < (T' + 1) * B
      · have := hub n.val h
        rwa [ext_apply σ n.val n.2] at this
      · rw [hmask n (not_lt.mp h)]; exact bot_le
    · refine le_trans (le_of_eq ?_) (le_cmax σ ⟨n0, hn0N⟩)
      rw [← hatt, ext_apply σ n0 hn0N]
  -- the sums over the positions seen are the sums over all positions: the tail is masked
  have htail : ∀ n, n ∈ Finset.range ((T + 1) * B) → n ∉ Finset.range ((T' + 1) * B) → w (ext σ n) μ = 0 := by
    intro n hn hn'
    rw [Finset.mem_range] at hn hn'
    rw [ext_apply σ n hn, hmask ⟨n, hn⟩ (not_lt.mp hn'), w_bot]
  have hLs : (∑ n ∈ Finset.range ((T' + 1) * B), w (ext σ n) μ) = ∑ n : Fin ((T + 1) * B), w (σ n) μ := by
    rw [Finset.sum_subset (Finset.range_subset_range.mpr hle) htail,
      ← Fin.sum_univ_eq_sum_range (fun n => w (ext σ n) μ)]
    exact Finset.sum_congr rfl fun n _ => by rw [ext_apply σ n.val n.2]
  have hAs : (∑ n ∈ Finset.range ((T' + 1) * B), w (ext σ n) μ * rext ν n)
      = ∑ n : Fin ((T + 1) * B), w (σ n) μ * ν n := by
    rw [Finset.sum_subset (Finset.range_subset_range.mpr hle) (fun n hn hn' => by rw [htail n hn hn', zero_mul]),
      ← Fin.sum_univ_eq_sum_range (fun n => w (ext σ n) μ * rext ν n)]
    exact Finset.sum_congr rfl fun n _ => by rw [ext_apply σ n.val n.2, rext_apply]
  -- the normaliser is a positive real number: the position where μ is attained weighs 1
  have hpos : 0 < ∑ n : Fin ((T + 1) * B), w (σ n) μ := by
    refine lt_of_lt_of_le zero_lt_one ?_
    have h1 : w (σ ⟨n0, hn0N⟩) μ = 1 := by
      have : σ ⟨n0, hn0N⟩ = (μ : EReal) := by rw [← hatt, ext_apply σ n0 hn0N]
      rw [this, w_self]
    rw [← h1]
    exact Finset.single_le_sum (f := fun n => w (σ n) μ) (fun n _ => w_nonneg _ (hσ n) μ) (Finset.mem_univ _)
  rw [hcm, hA, hL, hLs, hAs]
  simp only [exp_sub (hσ _)]
  rw [coe_sum]
  simp only [Ideal.div_coe (ne_of_gt hpos), ← EReal.coe_mul]
  rw [coe_sum, Finset.sum_mul]
  congr 1
  exact Finset.sum_congr rfl fun n _ => by ring

end Cert.MaskedSoftmax

end
-- ==== Proof.AttnOnline.lean ====
/-
  The tile-by-tile softmax of the kernel is the specification's attention.

  A query position i = (query tile) · 512 + r attends to the key positions j ≤ i; the positions after it are masked,
  and they include every position from the end of the query's own tile on. So after the tiles 0, …, (query tile) the
  running weighted sum divided by the running normaliser is the softmax-weighted sum over ALL 1024 key positions: the
  masked positions weigh exp (-∞ - M) = 0. That quotient, taken for each feature d and carried through the output
  layer, is the specification's linear layer of the attention context.
-/
import proofs.«171720_j40072044871789_2_alg».proof.Proof.SpecReal
import proofs.«171720_j40072044871789_2_alg».proof.Proof.LibMaskedSoftmax

noncomputable section

open scoped BigOperators

namespace Cert.Attn

open Cert.RealSum Cert.LogShift Cert.OnlineSoftmax Idealize.ShloMosaic

/-- ONE FEATURE: for real queries, keys and values, the running quotient after the query's own tile is the
    softmax-weighted sum of the value column over every key position. -/
theorem online_quotient (q k v : T3) (hq : ∀ n t d, IsReal (q n t d)) (hk : ∀ n t d, IsReal (k n t d))
    (hv : ∀ n t d, IsReal (v n t d)) (b : Fin 8) (kq : ℕ) (hkq : kq < 2) (r : Fin 512) (i : Fin 1024)
    (hi : i.val = kq * 512 + r.val) (d : Fin 1024) :
    Ideal.div (runA 512 (ext (score q k b i)) (ext fun j : Fin 1024 => v b j d) kq) (runL 512 (ext (score q k b i)) kq)
      = ∑ j : Fin 1024, weight (score q k b i) j * v b j d := by
  have hr := r.isLt
  choose ν hν using fun j : Fin 1024 => hv b j d
  have hv' : (fun j : Fin 1024 => v b j d) = fun j => ((ν j : ℝ) : EReal) := funext hν
  rw [hv']
  refine (Cert.MaskedSoftmax.masked_online_softmax 512 kq 1 (by omega) 1024 (by norm_num) (score q k b i)
    (fun n => score_ne_top q k hq hk b i n)
    ⟨⟨0, by omega⟩, by norm_num, score_ne_bot_of_le q k hq hk b i ⟨0, by omega⟩ (Nat.zero_le _)⟩
    (fun n hn => score_bot_of_lt q k b i n (by omega)) ν).trans ?_
  refine Finset.sum_congr rfl fun j _ => ?_
  rw [hν j]
  rfl

/-- THE ROW: the quotients of all features, through the output layer, are the specification's output at (b, i, e). -/
theorem online_row (q k v : T3) (hq : ∀ n t d, IsReal (q n t d)) (hk : ∀ n t d, IsReal (k n t d))
    (hv : ∀ n t d, IsReal (v n t d)) (wo : M2) (bo : V1) (b : Fin 8) (kq : ℕ) (hkq : kq < 2) (r : Fin 512)
    (i : Fin 1024) (hi : i.val = kq * 512 + r.val) (e : Fin 1024) :
    (∑ d : Fin 1024, Ideal.div (runA 512 (ext (score q k b i)) (ext fun j : Fin 1024 => v b j d) kq)
        (runL 512 (ext (score q k b i)) kq) * wo e d) + bo e
      = lin (ctx q k v) wo bo b i e := by
  show _ = (∑ d : Fin 1024, (∑ j : Fin 1024, weight (score q k b i) j * v b j d) * wo e d) + bo e
  refine congrArg (· + bo e) (Finset.sum_congr rfl fun d _ => ?_)
  rw [online_quotient q k v hq hk hv b kq hkq r i hi d]

end Cert.Attn

end
-- ==== Proof.KIStep.lean ====
/-
  The attention kernel's arithmetic as three functions of the blocks: the accumulators after the reset, one fold step
  (the query tile against one key tile and its value tile), and the output tile from the accumulators.
-/
import proofs.«171720_j40072044871789_2_alg».proof.Proof.KIRegion1Pre

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

theorem zero_off2 : (![0, 0] : Fin 2 → ℕ) = fun _ => 0 := by funext a; fin_cases a <;> rfl
theorem zero_off3 : (![0, 0, 0] : Fin 3 → ℕ) = fun _ => 0 := by funext a; fin_cases a <;> rfl

/-- The three accumulators: maximum, normaliser, weighted sum. -/
abbrev St (F : FTy → Type) : Type := Vec F S512x1 .f32 × Vec F S512x1 .f32 × Vec F S512x1024 .f32

/-- The accumulators after the reset. -/
def initSt : St F := (k1_pay1 (F := F), k1_pay2 (F := F), k1_pay3 (F := F))

/-- The 512 rows of a resident key or value block that the fold reads at grid coordinates i. -/
def tile (i : grid1.Coords) (h : cond1_1 i) (x : Vec F S1x1024x1024 .bf16) : Vec F S1x512x1024 .bf16 :=
  View.ld x (Rect.unit (s := S1x1024x1024) (k1_off1 i) S1x512x1024.size (k1_off1_inb i h))

/-- One fold step at grid coordinates i. -/
def foldStep (i : grid1.Coords) (h : cond1_1 i) (x0 : Vec F S1x512x1024 .bf16) (x1 x2 : Vec F S1x1024x1024 .bf16) (s : St F) : St F :=
  (k1_pay5 (k1_pay9 (BitVec.ofNat 32 (i 1).val) (BitVec.ofNat 32 (i 2).val) x0 (tile i h x1) s.1),
   k1_pay12 (BitVec.ofNat 32 (i 1).val) (BitVec.ofNat 32 (i 2).val) x0 (tile i h x1) s.1 s.2.1,
   k1_pay4 (k1_pay7 (tile i h x2)) (k1_pay10 (BitVec.ofNat 32 (i 1).val) (BitVec.ofNat 32 (i 2).val) x0 (tile i h x1) s.1)
     (k1_pay11 (BitVec.ofNat 32 (i 1).val) (BitVec.ofNat 32 (i 2).val) x0 (tile i h x1) s.1) s.2.2)

/-- The output tile from the accumulators, the output weights and the bias row. -/
def finOut (s : St F) (x3 : Vec F S1024x1024 .bf16) (x4 : Vec F S1x1024 .f32) : Vec F S1x512x1024 .f32 :=
  k1_pay6 s.2.2 s.2.1 x3 x4

end Cert.KernelIdeal.Hand

end
-- ==== Proof.LibAxisFold.lean ====
/-
  The maximum down a column, the maximum along a row and the sum along a row of a matrix, each read at one
  index.

  An [a, b] array of extended reals reduced by `max` along axis 0 (down its rows), from the value a starting
  word denotes, holds at column l the fold of `max` from that value over the entries (k, l), k < a; reduced
  along axis 1 it holds at row p the fold over the entries (p, k), k < b; and reduced by addition along axis 1
  from a zero starting value it holds at row p the finite sum of the entries (p, k). (The sum down a column is
  the companion file's.) Stated with the operation's own proof arguments as variables, so that a printed
  reduction meets each lemma in term mode whatever proofs it carries. Depends on no program.
-/
import Idealize.ShloMosaic.Lib.ValueIdx
import Idealize.ShloMosaic.PureOps.Ideal.Laws

noncomputable section

namespace Cert.AxisFold

open Idealize.ShloMosaic Idealize.ShloMosaic.ValueIdx

/-- The maximum of column `l` of an [a, b] array over its `a` rows, folded from the value of the word `acc`. -/
theorem column_max {a b : ℕ} (v : FVec Ideal ⟨2, ![a, b]⟩ .f32) (acc : BitVec (FTy.f32).bits)
    (h : (⟨2, ![a, b]⟩ : Shape).Reduces [0] ⟨1, ![b]⟩)
    (hφ : FKind.Formats .f32) (hacc : acc = FKind.maximumf.neutral .f32 hφ) (l : Fin b) :
    multiReduction .maximumf [0] ⟨1, ![b]⟩ v acc h hφ hacc (ix1 l)
      = (Finset.univ : Finset (Fin a)).fold max (Ideal.ofBits .f32 acc) fun k => v (ix2 k l) :=
  (Ideal.multiReduction_maximumf_single v acc h hφ hacc (ix1 l)).trans
    (congrArg (fun f => Finset.fold max (Ideal.ofBits .f32 acc) f (Finset.univ : Finset (Fin a)))
      (funext fun k => congrArg v (funext fun c => Fin.ext (by
        match c with
        | ⟨0, _⟩ => rfl
        | ⟨1, _⟩ => rfl))))

/-- The maximum of row `p` of an [a, b] array over its `b` columns, folded from the value of the word `acc`. -/
theorem row_max {a b : ℕ} (v : FVec Ideal ⟨2, ![a, b]⟩ .f32) (acc : BitVec (FTy.f32).bits)
    (h : (⟨2, ![a, b]⟩ : Shape).Reduces [1] ⟨1, ![a]⟩)
    (hφ : FKind.Formats .f32) (hacc : acc = FKind.maximumf.neutral .f32 hφ) (p : Fin a) :
    multiReduction .maximumf [1] ⟨1, ![a]⟩ v acc h hφ hacc (ix1 p)
      = (Finset.univ : Finset (Fin b)).fold max (Ideal.ofBits .f32 acc) fun k => v (ix2 p k) :=
  (Ideal.multiReduction_maximumf_single v acc h hφ hacc (ix1 p)).trans
    (congrArg (fun f => Finset.fold max (Ideal.ofBits .f32 acc) f (Finset.univ : Finset (Fin b)))
      (funext fun k => congrArg v (funext fun c => Fin.ext (by
        match c with
        | ⟨0, _⟩ => rfl
        | ⟨1, _⟩ => rfl))))

/-- The sum of row `p` of an [a, b] array over its `b` columns, from a zero initial value. -/
theorem row_sum {a b : ℕ} (v : FVec Ideal ⟨2, ![a, b]⟩ .f32) (h : (⟨2, ![a, b]⟩ : Shape).Reduces [1] ⟨1, ![a]⟩)
    (hφ : FKind.Formats .f32) (hacc : (0x00000000#32 : BitVec (FTy.f32).bits) = FKind.add.neutral .f32 hφ) (p : Fin a) :
    multiReduction .add [1] ⟨1, ![a]⟩ v 0x00000000#32 h hφ hacc (ix1 p) = ∑ k : Fin b, v (ix2 p k) :=
  (Ideal.multiReduction_add_single v 0x00000000#32 h hφ hacc (ix1 p)).trans
    (Finset.sum_congr rfl fun k _ => congrArg v (funext fun c => Fin.ext (by
      match c with
      | ⟨0, _⟩ => rfl
      | ⟨1, _⟩ => rfl)))

end Cert.AxisFold

end
-- ==== Proof.LibColumn.lean ====
/-
  A vector as a column. A length-`a` vector reshaped to `[a, 1]` reads, at `(i, 0)`, the vector at `i`; and an
  `[a, 1]` column broadcast across `b` columns reads, at `(p, c)`, the column at `(p, 0)`. (The companions for
  a row `[1, a]` are the library's.)
-/
import Idealize.ShloMosaic.Lib.ValueLayout
import Idealize.ShloMosaic.Lib.Pipeline.Value

noncomputable section

namespace Cert.Column

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` array broadcast to `[a, b]` reads, at `(p, c)`, the operand's one column at `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.Column

end
-- ==== Proof.LibDotRowsByRows.lean ====
/-
  A matrix multiplied by the transpose of another, read at an index, on the extended reals.

  For dimension numbers that contract the SECOND axis of both operands, with no batch axes (an `M×K`
  matrix against an `N×K` matrix: every row of the left paired with every row of the right), entry
  `(p, c)` of the result is `Σ_{q < K} l[p, q] · r[c, q]` — the product `l · rᵀ` with no transpose ever
  formed. The library states a product as a sum over the contraction shape's multi-indices; here that
  sum is re-indexed by the one contracted coordinate, once, for every record of this form and every
  extent.
-/
import Idealize.ShloMosaic.PureOps.Ideal.Laws
import Idealize.ShloMosaic.Lib.ValueIdx

noncomputable section

open scoped BigOperators

namespace Cert.RowsByRows

open Idealize.ShloMosaic Idealize.ShloMosaic.ValueIdx

variable {M K N : Nat} (d : DotDims ⟨2, ![M, K]⟩ ⟨2, ![N, K]⟩ ⟨2, ![M, N]⟩)

/-- The dimension numbers of `l · rᵀ`: contract left axis 1 with right axis 1, keep left axis 0 then
    right axis 0, no batch axes. -/
structure IsRowsByRows : Prop where
  lc : d.lhsContracting = [1]
  rc : d.rhsContracting = [1]
  ln : d.lhsNonContracting = [0]
  rn : d.rhsNonContracting = [0]
  lb : d.lhsBatch = []
  rb : d.rhsBatch = []

variable {d}

/-- The contraction shape has one axis. -/
theorem contr_rank (h : IsRowsByRows d) : d.contr.rank = 1 := by rw [d.rank_contr, h.lc]; rfl

/-- That axis has the shared extent `K`. -/
theorem contr_size (h : IsRowsByRows d) : d.contr.size ⟨0, by rw [contr_rank h]; exact Nat.one_pos⟩ = K := by
  rw [d.size_contr 0 (by rw [h.lc]; exact Nat.one_pos), List.getElem_of_eq h.lc]
  rfl

/-- A coordinate of an index depends only on the axis number. -/
private theorem coord_congr {s : Shape} (j : s.Idx) (p q : Nat) (hp : p < s.rank) (hq : q < s.rank) (e : p = q) :
    (j ⟨p, hp⟩).val = (j ⟨q, hq⟩).val := by subst e; rfl

/-- The left operand is read at the result's row. -/
theorem lhs_row (h : IsRowsByRows d) (j : (⟨2, ![M, N]⟩ : Shape).Idx) (k : d.contr.Idx) : (d.lhsIdx j k 0).val = (j 0).val := by
  unfold DotDims.lhsIdx
  rw [dif_neg (by rw [h.lb]; exact List.not_mem_nil), dif_pos (by rw [h.ln]; exact List.mem_singleton.mpr rfl)]
  simp only [Fin.val_cast]
  exact coord_congr j _ _ _ _ (by rw [h.lb, h.ln]; rfl)

/-- The right operand's ROW is the result's column. -/
theorem rhs_row (h : IsRowsByRows d) (j : (⟨2, ![M, N]⟩ : Shape).Idx) (k : d.contr.Idx) : (d.rhsIdx j k 0).val = (j 1).val := by
  unfold DotDims.rhsIdx
  rw [dif_neg (by rw [h.rb]; exact List.not_mem_nil), dif_pos (by rw [h.rn]; exact List.mem_singleton.mpr rfl)]
  simp only [Fin.val_cast]
  exact coord_congr j _ _ _ _ (by rw [h.lb, h.ln, h.rn]; rfl)

/-- The library's sum over contraction multi-indices is the sum over the contracted coordinate, the second
    coordinate of both operands. -/
theorem sum_contr (h : IsRowsByRows d) (l : (⟨2, ![M, K]⟩ : Shape).Idx → EReal) (r : (⟨2, ![N, K]⟩ : Shape).Idx → EReal)
    (j : (⟨2, ![M, N]⟩ : Shape).Idx) :
    ∑ k : d.contr.Idx, l (d.lhsIdx j k) * r (d.rhsIdx j k) = ∑ q : Fin K, l (ix2 (j 0) q) * r (ix2 (j 1) q) := by
  have hr : d.contr.rank = 1 := contr_rank h
  have hs : d.contr.size ⟨0, by omega⟩ = K := contr_size h
  rw [← Equiv.sum_comp (contrEquiv1 d K hr hs).symm]
  refine Finset.sum_congr rfl fun q _ => ?_
  have hq := contrEquiv1_symm_val d K hr hs q
  have el : d.lhsIdx j ((contrEquiv1 d K hr hs).symm q) = ix2 (j 0) q := funext fun a => Fin.ext (by
    match a with
    | ⟨0, _⟩ => exact lhs_row h j _
    | ⟨1, _⟩ => exact (d.lhsIdx_val_of_single h.lc j _).trans hq)
  have er : d.rhsIdx j ((contrEquiv1 d K hr hs).symm q) = ix2 (j 1) q := funext fun a => Fin.ext (by
    match a with
    | ⟨0, _⟩ => exact rhs_row h j _
    | ⟨1, _⟩ => exact (d.rhsIdx_val_of_single h.rc j _).trans hq)
  rw [el, er]
  rfl

/-- A `tpu.matmul` of this form into a zero accumulator, at entry `(p, c)`. -/
theorem matmul_zero_apply (h : IsRowsByRows d) (prec : Option ContractPrecision) {φ₁ φ₂ : FTy}
    (l : FVec Ideal ⟨2, ![M, K]⟩ φ₁) (r : FVec Ideal ⟨2, ![N, K]⟩ φ₂) (p : Fin M) (c : Fin N) :
    matmul d prec l r (constant ⟨2, ![M, N]⟩ .f32 0x00000000#32) (ix2 p c) = ∑ q : Fin K, l (ix2 p q) * r (ix2 c q) :=
  (Ideal.matmul_constant_zero_apply d prec l r (ix2 p c)).trans (sum_contr h l r (ix2 p c))

/-- The host's `dot_general` of this form, at entry `(p, c)`. -/
theorem dotGeneral_apply (h : IsRowsByRows d) (prec : Option ContractPrecision) {φ₁ φ₂ : FTy}
    (l : FVec Ideal ⟨2, ![M, K]⟩ φ₁) (r : FVec Ideal ⟨2, ![N, K]⟩ φ₂) (p : Fin M) (c : Fin N) :
    Host.dotGeneral d prec l r (ix2 p c) = ∑ q : Fin K, l (ix2 p q) * r (ix2 c q) :=
  (Ideal.dotGeneral_apply d prec .single l r (ix2 p c)).trans (sum_contr h l r (ix2 p c))

end Cert.RowsByRows

end
-- ==== Proof.LibDropUnit.lean ====
/-
  A leading axis of extent one cast away, read at an index.

  A block of shape [1, A, B] reshaped to [A, B] keeps its elements in row-major order, so entry `(p, q)` of
  the reshaped block is entry `(0, p, q)` of the block. Any extents, any element type, no program needed.
-/
import Idealize.ShloMosaic.Lib.Pipeline.Value
import Idealize.ShloMosaic.Lib.ValueIdx

namespace Cert.DropUnit

open Idealize.ShloMosaic Idealize.ShloMosaic.ValueIdx

/-- An array of shape [1, A, B] with the unit axis cast away reads, at `(p, q)`, the array at `(0, p, q)`. -/
theorem dropUnit_apply {α : Type} {A B : Nat} (x : (⟨3, ![1, A, B]⟩ : Shape).Idx → α)
    (h : (⟨3, ![1, A, B]⟩ : Shape).ShapeCasts ⟨2, ![A, B]⟩) (p : Fin A) (q : Fin B) :
    shapeCast ⟨2, ![A, B]⟩ x h (ix2 p q) = x (ix3 0 p q) := by
  refine shapeCast_apply x h (ix2 p q) (ix3 0 p q) ?_
  rw [Shape.rowMajor_val_three, Shape.rowMajor_val_two]
  show ((0 : Fin 1).val * A + p.val) * B + q.val = p.val * B + q.val
  simp

end Cert.DropUnit
-- ==== Proof.LibAddUnit.lean ====
/-
  A leading axis of extent one added, read at an index.

  An array of shape [A, B] reshaped to [1, A, B] keeps its elements in row-major order, so entry `(0, p, q)` of the
  reshaped block is entry `(p, q)` of the array. Any extents, any element type, no program needed.
-/
import Idealize.ShloMosaic.Lib.Pipeline.Value
import Idealize.ShloMosaic.Lib.ValueIdx

namespace Cert.AddUnit

open Idealize.ShloMosaic Idealize.ShloMosaic.ValueIdx

/-- An array of shape [A, B] given a leading unit axis reads, at `(u, p, q)`, the array at `(p, q)`. -/
theorem addUnit_apply {α : Type} {A B : Nat} (x : (⟨2, ![A, B]⟩ : Shape).Idx → α)
    (h : (⟨2, ![A, B]⟩ : Shape).ShapeCasts ⟨3, ![1, A, B]⟩) (u : Fin 1) (p : Fin A) (q : Fin B) :
    shapeCast ⟨3, ![1, A, B]⟩ x h (ix3 u p q) = x (ix2 p q) := by
  refine shapeCast_apply x h (ix3 u p q) (ix2 p q) ?_
  rw [Shape.rowMajor_val_three, Shape.rowMajor_val_two]
  show p.val * B + q.val = (u.val * A + p.val) * B + q.val
  have hu : u.val = 0 := by omega
  rw [hu]
  simp

end Cert.AddUnit
-- ==== Proof.KIPay1.lean ====
import proofs.«171720_j40072044871789_2_alg».proof.Proof.Gen.KernelIdeal.Skeleton
import proofs.«171720_j40072044871789_2_alg».proof.Proof.KIRegion0Value
import proofs.«171720_j40072044871789_2_alg».proof.Proof.Consts
import proofs.«171720_j40072044871789_2_alg».proof.Proof.LibAxisFold
import proofs.«171720_j40072044871789_2_alg».proof.Proof.LibColumn
import proofs.«171720_j40072044871789_2_alg».proof.Proof.LibDotRowsByRows
import proofs.«171720_j40072044871789_2_alg».proof.Proof.LibDropUnit
import proofs.«171720_j40072044871789_2_alg».proof.Proof.LibAddUnit
import proofs.«171720_j40072044871789_2_alg».proof.Proof.LibLogShift
import Idealize.ShloMosaic.PureOps.IdealRules
import Idealize.ShloMosaic.Lib.Pipeline.Value
import Idealize.ShloMosaic.Lib.Affine

/-!
# One step of the tiled causal attention, entry by entry, on the extended reals

The second kernel walks the key/value tiles of a sequence for each query tile, keeping for every query row a running
maximum `m`, a normaliser `l` and an unnormalised output row `acc` (the online softmax). This file reads each
arithmetic step at an index:

* the start values: `m = -∞`, `l = 0`, `acc = 0`;
* the scores of a query tile against a key tile: the inner products of query rows with key rows, scaled by `1/32`
  (the inverse square root of the width 1024), with `-∞` wherever the key's position in the sequence exceeds the
  query's. Positions are tile number times 512 plus the coordinate in the tile; with two tiles they stay below 2048,
  so the comparison of the 32-bit words read signed is the comparison of the numbers;
* the step itself: the new maximum is the old one against the row's largest score; the old `l` and `acc` are rescaled
  by `exp (m_old - m_new)`; the scores become `exp (s - m_new)`, whose row sum joins `l` and whose product with the
  value tile joins `acc`;
* the end: `acc / l` against the output weights, plus the bias row.

A change of float format is the identity here, and a reshape that only adds or drops an axis of extent one keeps the
entries.
-/

noncomputable section

open scoped BigOperators

namespace Cert.KernelIdeal.Hand

open Cert.KernelIdeal Cert.KernelIdeal.Gen
open Idealize.ShloMosaic Idealize.ShloMosaic.ValueIdx

/-! ## The initial values of the running maximum, the normaliser and the accumulator -/

/-- The running maximum starts at `-∞`. -/
theorem pay1_apply (r : Fin 512) : k1_pay1 (F := Ideal) (ix2 r 0) = ⊥ := by
  unfold k1_pay1
  simp only [shapeCast_self]
  exact Cert.Consts.scalar_neg_inf

/-- The normaliser starts at `0`. -/
theorem pay2_apply (r : Fin 512) : k1_pay2 (F := Ideal) (ix2 r 0) = 0 := by
  unfold k1_pay2
  simp only [shapeCast_self]
  exact Cert.Consts.scalar_zero

/-- The accumulator starts at `0`. -/
theorem pay3_apply (r : Fin 512) (d : Fin 1024) : k1_pay3 (F := Ideal) (ix2 r d) = 0 := by
  unfold k1_pay3
  simp only [shapeCast_self]
  exact Cert.Consts.scalar_zero

/-! ## Reshapes -/

/-- A reshape to the same shape changes nothing. -/
theorem pay5_eq (v35 : FVec Ideal S512x1 .f32) : k1_pay5 (F := Ideal) v35 = v35 := by
  unfold k1_pay5
  exact shapeCast_self _ _

/-- The value tile with its unit axis dropped. -/
theorem pay7_apply (v17 : Vec Ideal S1x512x1024 .bf16) (c : Fin 512) (d : Fin 1024) :
    k1_pay7 (F := Ideal) v17 (ix2 c d) = v17 (ix3 0 c d) := by
  unfold k1_pay7
  exact Cert.DropUnit.dropUnit_apply v17 _ c d

/-! ## The masked, scaled scores -/

/-- A tile number below 2 times 512 plus a coordinate below 512, computed in 32-bit words and read signed, is the number. -/
theorem toInt_pos (q : ℕ) (hq : q < 2) (r : Fin 512) :
    (IntOp.addi (Scalar.muli (BitVec.ofNat 32 q) 512#32) (BitVec.ofNat 32 r.val)).toInt = ((q * 512 + r.val : ℕ) : Int) := by
  show ((BitVec.ofNat 32 q) * 512#32 + BitVec.ofNat 32 r.val).toInt = _
  have := r.isLt
  simp only [BitVec.toInt_eq_toNat_cond, BitVec.toNat_add, BitVec.toNat_mul, BitVec.toNat_ofNat, Nat.reducePow, Nat.reduceMod]
  omega

/-- The causal comparison "global row ≥ global column" of a query tile `qi` and a key tile `ki`, at `(r, c)`. -/
theorem causal_bit (qi ki : ℕ) (hq : qi < 2) (hk : ki < 2) (r c : Fin 512) :
    IntOp.cmpi .sge (IntOp.addi (Scalar.muli (BitVec.ofNat 32 qi) 512#32) (BitVec.ofNat 32 r.val))
        (IntOp.addi (Scalar.muli (BitVec.ofNat 32 ki) 512#32) (BitVec.ofNat 32 c.val))
      = if ki * 512 + c.val ≤ qi * 512 + r.val then 1#1 else 0#1 := by
  by_cases h : ki * 512 + c.val ≤ qi * 512 + r.val
  · rw [if_pos h]
    refine IntOp.cmpi_sge.mpr ?_
    rw [toInt_pos _ hq, toInt_pos _ hk]
    exact_mod_cast h
  · rw [if_neg h]
    refine eq_zero_of_ne_one fun e => h ?_
    have := IntOp.cmpi_sge.mp e
    rw [toInt_pos _ hq, toInt_pos _ hk] at this
    exact_mod_cast this

/-- The product of the query tile with the transposed key tile contracts the second axis of both. -/
theorem rowsByRows1 : Cert.RowsByRows.IsRowsByRows (M := 512) (K := 1024) (N := 512) dot_S512x1024_S512x1024_S512x512_1_1_0_0_n_n :=
  ⟨rfl, rfl, rfl, rfl, rfl, rfl⟩

/-- The named stand-in for `-∞` is `-∞`. -/
theorem neg_big : Named.named (F := Ideal) Cert.KernelIdeal.κ "neg_big" (φ := .f32) 0xFF333332#32 = (⊥ : EReal) :=
  IdealRules.named_const.ideal_named_scalar _ _ _ _ rfl

theorem cmpi_at {s : Shape} {w : ℕ} (p : CmpIPredicate) (x y : IVec s w) (i : s.Idx) : cmpi p x y i = IntOp.cmpi p (x i) (y i) := rfl
theorem addi_at {s : Shape} {w : ℕ} (x y : IVec s w) (i : s.Idx) : addi x y i = IntOp.addi (x i) (y i) := rfl

/-- Entry `(r, c)` of the scores of query tile `qi` against key tile `ki`: the scaled inner product of query row `r` and key
    row `c` where the key's position does not exceed the query's, `-∞` elsewhere. -/
theorem pay8_apply (qi ki : ℕ) (hq : qi < 2) (hk : ki < 2) (v11 v14 : Vec Ideal S1x512x1024 .bf16) (r c : Fin 512) :
    k1_pay8 (F := Ideal) (BitVec.ofNat 32 qi) (BitVec.ofNat 32 ki) v11 v14 (ix2 r c)
      = if ki * 512 + c.val ≤ qi * 512 + r.val then (∑ d : Fin 1024, v11 (ix3 0 r d) * v14 (ix3 0 c d)) * ((1 / 32 : ℝ) : EReal) else ⊥ := by
  unfold k1_pay8
  simp only [select_apply, cmpi_at, addi_at, broadcast_apply, mulf_apply]
  rw [iota_single_apply .tc S512x512 32 0 iota_S512x512_d0_w32 (ix2 r c),
    iota_single_apply .tc S512x512 32 1 iota_S512x512_d1_w32 (ix2 r c)]
  show Scalar.select (IntOp.cmpi .sge (IntOp.addi (Scalar.muli (BitVec.ofNat 32 qi) 512#32) (BitVec.ofNat 32 r.val))
      (IntOp.addi (Scalar.muli (BitVec.ofNat 32 ki) 512#32) (BitVec.ofNat 32 c.val))) _ _ = _
  rw [causal_bit qi ki hq hk r c, Cert.RowsByRows.matmul_zero_apply rowsByRows1, neg_big]
  by_cases h : ki * 512 + c.val ≤ qi * 512 + r.val
  · rw [if_pos h, if_pos h, select_one]
    refine congrArg₂ (· * ·) (Finset.sum_congr rfl fun d _ => ?_) Cert.Consts.scalar_scale
    rw [Cert.DropUnit.dropUnit_apply, Cert.DropUnit.dropUnit_apply]
  · rw [if_neg h, if_neg h, select_zero]

/-! ## The online softmax step -/

/-- The new running maximum of row `r`: the old one against the row's largest score. -/
theorem pay9_apply (a1 a2 : BitVec 32) (v11 v14 : Vec Ideal S1x512x1024 .bf16) (v32 : Vec Ideal S512x1 .f32) (r : Fin 512) :
    k1_pay9 (F := Ideal) a1 a2 v11 v14 v32 (ix2 r 0)
      = max (v32 (ix2 r 0)) (Cert.LogShift.cmax fun c : Fin 512 => k1_pay8 (F := Ideal) a1 a2 v11 v14 (ix2 r c)) := by
  unfold k1_pay9
  rw [maximumf_apply, Cert.Column.shapeCast_a_a1_apply]
  exact congrArg (max (v32 (ix2 r 0))) ((Cert.AxisFold.row_max _ _ _ _ _ r).trans
    (Cert.LogShift.fold_eq_cmax _ _ _ Cert.LogShift.neg_inf (fun _ => rfl)))

/-- The factor by which the old normaliser and accumulator of row `r` are rescaled. -/
theorem pay10_apply (a1 a2 : BitVec 32) (v11 v14 : Vec Ideal S1x512x1024 .bf16) (v32 : Vec Ideal S512x1 .f32) (r : Fin 512) :
    k1_pay10 (F := Ideal) a1 a2 v11 v14 v32 (ix2 r 0)
      = Ideal.exp (v32 (ix2 r 0) - k1_pay9 (F := Ideal) a1 a2 v11 v14 v32 (ix2 r 0)) := by
  unfold k1_pay10
  rfl

/-- The shifted exponential of the score at `(r, c)`. -/
theorem pay11_apply (a1 a2 : BitVec 32) (v11 v14 : Vec Ideal S1x512x1024 .bf16) (v32 : Vec Ideal S512x1 .f32) (r c : Fin 512) :
    k1_pay11 (F := Ideal) a1 a2 v11 v14 v32 (ix2 r c)
      = Ideal.exp (k1_pay8 (F := Ideal) a1 a2 v11 v14 (ix2 r c) - k1_pay9 (F := Ideal) a1 a2 v11 v14 v32 (ix2 r 0)) := by
  unfold k1_pay11
  show Ideal.exp (k1_pay8 (F := Ideal) a1 a2 v11 v14 (ix2 r c)
    - broadcastTo S512x512 (k1_pay9 (F := Ideal) a1 a2 v11 v14 v32) broadcasts_S512x1_S512x512 (ix2 r c)) = _
  rw [Cert.Column.broadcastTo_a1_ab_apply]

/-- The new normaliser of row `r`: the old one rescaled, plus the row's shifted exponentials. -/
theorem pay12_apply (a1 a2 : BitVec 32) (v11 v14 : Vec Ideal S1x512x1024 .bf16) (v32 v41 : Vec Ideal S512x1 .f32) (r : Fin 512) :
    k1_pay12 (F := Ideal) a1 a2 v11 v14 v32 v41 (ix2 r 0)
      = k1_pay10 (F := Ideal) a1 a2 v11 v14 v32 (ix2 r 0) * v41 (ix2 r 0)
        + ∑ c : Fin 512, k1_pay11 (F := Ideal) a1 a2 v11 v14 v32 (ix2 r c) := by
  unfold k1_pay12
  simp only [shapeCast_self]
  rw [addf_apply, mulf_apply, Cert.Column.shapeCast_a_a1_apply]
  exact congrArg (k1_pay10 (F := Ideal) a1 a2 v11 v14 v32 (ix2 r 0) * v41 (ix2 r 0) + ·) (Cert.AxisFold.row_sum _ _ _ _ r)

/-! ## The accumulator step and the final projection -/

/-- The product of the probabilities with the value tile is a plain matrix product. -/
theorem plain1 : Cert.PlainDot.IsPlain (M := 512) (K := 512) (N := 1024) dot_S512x512_S512x1024_S512x1024_1_0_0_1_n_n :=
  ⟨rfl, rfl, rfl, rfl, rfl, rfl⟩

/-- The new accumulator at `(r, d)`: the old one rescaled, plus row `r` of the shifted exponentials against column `d`
    of the value tile. -/
theorem pay4_apply (v18 : FVec Ideal S512x1024 .bf16) (v37 : FVec Ideal S512x1 .f32) (v40 : FVec Ideal S512x512 .f32)
    (v49 : Vec Ideal S512x1024 .f32) (r : Fin 512) (d : Fin 1024) :
    k1_pay4 (F := Ideal) v18 v37 v40 v49 (ix2 r d)
      = v37 (ix2 r 0) * v49 (ix2 r d) + ∑ c : Fin 512, v40 (ix2 r c) * v18 (ix2 c d) := by
  unfold k1_pay4
  simp only [shapeCast_self]
  rw [addf_apply, mulf_apply, Cert.Column.broadcastTo_a1_ab_apply, Cert.PlainDot.matmul_zero_apply plain1]
  rfl

/-- The output block at `(0, r, e)`: the accumulator's row `r` divided by the row's normaliser, against column `e` of the
    output weights, plus the bias entry `e`. -/
theorem pay6_apply (v9 : Vec Ideal S512x1024 .f32) (v10 : Vec Ideal S512x1 .f32) (v13 : Vec Ideal S1024x1024 .bf16)
    (v17b : Vec Ideal S1x1024 .f32) (r : Fin 512) (e : Fin 1024) :
    k1_pay6 (F := Ideal) v9 v10 v13 v17b (ix3 0 r e)
      = (∑ d : Fin 1024, Ideal.div (v9 (ix2 r d)) (v10 (ix2 r 0)) * v13 (ix2 d e)) + v17b (ix2 0 e) := by
  unfold k1_pay6
  simp only [shapeCast_self]
  rw [Cert.AddUnit.addUnit_apply, Cert.DenseLayer.affine_eq plain0, Cert.DenseLayer.affine_apply]
  refine congrArg (· + v17b (ix2 0 e)) (Finset.sum_congr rfl fun d _ => ?_)
  rw [truncf_apply, divf_apply, Cert.Column.broadcastTo_a1_ab_apply]

end Cert.KernelIdeal.Hand
end
-- ==== Proof.KIFold.lean ====
/-
  One fold step of the attention kernel, read along one query row, is one tile step of the online softmax.

  Fix a row r of the query tile.  If s is the row's scores indexed by key position (the masked, scaled products of
  the query row with the key rows) and v_d the d-th column of the values, then the row's entries of the new
  maximum, normaliser and weighted sum are stepM, stepL, stepA of the old ones at the key tile ki:

      m' = max m (max_c s(ki·512 + c)),   l' = exp (m - m') · l + Σ_c exp (s(ki·512 + c) - m'),
      a'_d = exp (m - m') · a_d + Σ_c exp (s(ki·512 + c) - m') · v_d(ki·512 + c).
-/
import proofs.«171720_j40072044871789_2_alg».proof.Proof.KIStep
import proofs.«171720_j40072044871789_2_alg».proof.Proof.KIPay1
import proofs.«171720_j40072044871789_2_alg».proof.Proof.LibOnlineSoftmax

noncomputable section

open scoped BigOperators

namespace Cert.KernelIdeal.Hand

open Cert.KernelIdeal Cert.KernelIdeal.Gen
open Idealize.ShloMosaic Idealize.ShloMosaic.ValueIdx Cert.LogShift Cert.OnlineSoftmax

/-- One fold step along row r. -/
theorem fold_row (i : grid1.Coords) (h : cond1_1 i) (hq : (i 1).val < 2) (hk : (i 2).val < 2)
    (x0 : Vec Ideal S1x512x1024 .bf16) (x1 x2 : Vec Ideal S1x1024x1024 .bf16) (s : St Ideal) (r : Fin 512)
    (srow : ℕ → EReal) (vcol : Fin 1024 → ℕ → EReal)
    (hs : ∀ c : Fin 512, srow ((i 2).val * 512 + c.val)
      = if (i 2).val * 512 + c.val ≤ (i 1).val * 512 + r.val
        then (∑ d : Fin 1024, x0 (ix3 0 r d) * tile i h x1 (ix3 0 c d)) * ((1 / 32 : ℝ) : EReal) else ⊥)
    (hv : ∀ (c : Fin 512) (d : Fin 1024), vcol d ((i 2).val * 512 + c.val) = tile i h x2 (ix3 0 c d)) :
    (foldStep i h x0 x1 x2 s).1 (ix2 r 0) = stepM 512 (s.1 (ix2 r 0)) srow (i 2).val
    ∧ (foldStep i h x0 x1 x2 s).2.1 (ix2 r 0) = stepL 512 (s.1 (ix2 r 0)) (s.2.1 (ix2 r 0)) srow (i 2).val
    ∧ ∀ d : Fin 1024, (foldStep i h x0 x1 x2 s).2.2 (ix2 r d)
        = stepA 512 (s.1 (ix2 r 0)) (s.2.2 (ix2 r d)) srow (vcol d) (i 2).val := by
  have h8 : ∀ c : Fin 512, k1_pay8 (F := Ideal) (BitVec.ofNat 32 (i 1).val) (BitVec.ofNat 32 (i 2).val) x0 (tile i h x1) (ix2 r c)
      = srow ((i 2).val * 512 + c.val) :=
    fun c => (pay8_apply (i 1).val (i 2).val hq hk x0 (tile i h x1) r c).trans (hs c).symm
  have h9 : k1_pay9 (F := Ideal) (BitVec.ofNat 32 (i 1).val) (BitVec.ofNat 32 (i 2).val) x0 (tile i h x1) s.1 (ix2 r 0)
      = stepM 512 (s.1 (ix2 r 0)) srow (i 2).val := by
    rw [pay9_apply]
    unfold stepM
    exact congrArg (max (s.1 (ix2 r 0))) (congrArg cmax (funext h8))
  have h11 : ∀ c : Fin 512, k1_pay11 (F := Ideal) (BitVec.ofNat 32 (i 1).val) (BitVec.ofNat 32 (i 2).val) x0 (tile i h x1) s.1 (ix2 r c)
      = Ideal.exp (srow ((i 2).val * 512 + c.val) - stepM 512 (s.1 (ix2 r 0)) srow (i 2).val) :=
    fun c => by rw [pay11_apply, h8, h9]
  have h10 : k1_pay10 (F := Ideal) (BitVec.ofNat 32 (i 1).val) (BitVec.ofNat 32 (i 2).val) x0 (tile i h x1) s.1 (ix2 r 0)
      = Ideal.exp (s.1 (ix2 r 0) - stepM 512 (s.1 (ix2 r 0)) srow (i 2).val) := by
    rw [pay10_apply, h9]
  refine ⟨?_, ?_, fun d => ?_⟩
  · unfold foldStep; dsimp only
    rw [pay5_eq]; exact h9
  · unfold foldStep; dsimp only
    rw [pay12_apply, h10]
    unfold stepL
    exact congrArg _ (Finset.sum_congr rfl fun c _ => h11 c)
  · unfold foldStep; dsimp only
    rw [pay4_apply, h10]
    unfold stepA
    refine congrArg _ (Finset.sum_congr rfl fun c _ => ?_)
    rw [h11, pay7_apply, hv]

/-- The reset accumulators along row r: -∞, 0, 0. -/
theorem init_row (r : Fin 512) (d : Fin 1024) :
    (initSt (F := Ideal)).1 (ix2 r 0) = ⊥ ∧ (initSt (F := Ideal)).2.1 (ix2 r 0) = 0 ∧ (initSt (F := Ideal)).2.2 (ix2 r d) = 0 :=
  ⟨pay1_apply r, pay2_apply r, pay3_apply r d⟩

/-- The output tile along row r: the quotient of the weighted sum by the normaliser, projected, plus the bias. -/
theorem fin_row (s : St Ideal) (x3 : Vec Ideal S1024x1024 .bf16) (x4 : Vec Ideal S1x1024 .f32) (r : Fin 512) (e : Fin 1024) :
    finOut s x3 x4 (ix3 0 r e) = (∑ d : Fin 1024, Ideal.div (s.2.2 (ix2 r d)) (s.2.1 (ix2 r 0)) * x3 (ix2 d e)) + x4 (ix2 0 e) :=
  pay6_apply s.2.2 s.2.1 x3 x4 r e

end Cert.KernelIdeal.Hand

end
-- ==== Proof.KIState.lean ====
import proofs.«171720_j40072044871789_2_alg».proof.Proof.KIFold
import proofs.«171720_j40072044871789_2_alg».proof.Proof.KIBlk1
import proofs.«171720_j40072044871789_2_alg».proof.Proof.Spec

/-!
# The accumulators along a query row are the online softmax's running quantities

Fix a grid point `t` of the attention kernel — batch element `t / 4`, query tile `t / 2 mod 2`, key tile `t mod 2` — and a
row `r` of the query tile, which is query position `i = 512 (t / 2 mod 2) + r`. Along that row:

* the scores the fold step computes against its key tile are the specification's masked, scaled scores of position `i`
  against key positions `512 (t mod 2) … 512 (t mod 2) + 511`; the value tile's column `d` is the values' column `d` at
  those positions;
* so one fold step takes the row's maximum, normaliser and weighted sums through one tile step of the online softmax
  over the row of scores.
-/

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Attn Cert.OnlineSoftmax Cert.LogShift

section State
variable (V : (c : Dev nD) → (b : Ref sig .tc) → Buf (Elt Ideal) ((c : Thread nD τ).loc b))

/-- The queries, keys and values the kernel is handed, by coordinates. -/
def Qf (c : Dev nD) : Cert.Attn.T3 := fun n i d => (V c main_v14 : S8x1024x1024.Idx → EReal) (ix3 n i d)
def Kf (c : Dev nD) : Cert.Attn.T3 := fun n i d => (V c main_v15 : S8x1024x1024.Idx → EReal) (ix3 n i d)
def Vf (c : Dev nD) : Cert.Attn.T3 := fun n i d => (V c main_v16 : S8x1024x1024.Idx → EReal) (ix3 n i d)

/-- The scores of query position `i` of batch element `b` against every key position, indexed by natural numbers. -/
def srow (c : Dev nD) (b : Fin 8) (i : Fin 1024) : ℕ → EReal :=
  ext (fun j : Fin 1024 => Cert.Attn.score (Qf V c) (Kf V c) b i j)
/-- Column `d` of the values of batch element `b`, indexed by natural numbers. -/
def vcol (c : Dev nD) (b : Fin 8) (d : Fin 1024) : ℕ → EReal := ext (fun j : Fin 1024 => Vf V c b j d)

/-- The query tile and the resident key and value blocks at a point, at their vector types. -/
abbrev qblk (c : Dev nD) (t : Fin cfg1.N) : Vec Ideal S1x512x1024 .bf16 := iblk1 V c 0 t
abbrev kblk (c : Dev nD) (t : Fin cfg1.N) : Vec Ideal S1x1024x1024 .bf16 := iblk1 V c 1 t
abbrev vblk (c : Dev nD) (t : Fin cfg1.N) : Vec Ideal S1x1024x1024 .bf16 := iblk1 V c 2 t

/-! ## The tiles a fold step reads are the row's scores and the values' columns -/

/-- The scores of row `r` against the point's key tile. -/
theorem srow_tile (c : Dev nD) (t : Fin cfg1.N) (h : cond1_1 (grid1.coords t)) (r : Fin 512) (c' : Fin 512) :
    srow V c (⟨t.val / 4, by have := lt32 t; omega⟩ : Fin 8) (⟨t.val / 2 % 2 * 512 + r.val, by have := r.isLt; omega⟩ : Fin 1024) (t.val % 2 * 512 + c'.val)
      = if t.val % 2 * 512 + c'.val ≤ t.val / 2 % 2 * 512 + r.val
        then (∑ d : Fin 1024, qblk V c t (ix3 0 r d) * tile (grid1.coords t) h (kblk V c t) (ix3 0 c' d)) * ((1 / 32 : ℝ) : EReal)
        else ⊥ := by
  have hc := c'.isLt
  have hlt : t.val % 2 * 512 + c'.val < 1024 := by omega
  unfold srow
  rw [ext_apply _ _ hlt]
  show (if t.val % 2 * 512 + c'.val ≤ t.val / 2 % 2 * 512 + r.val
      then (∑ d : Fin 1024, Qf V c (⟨t.val / 4, by have := lt32 t; omega⟩ : Fin 8) (⟨t.val / 2 % 2 * 512 + r.val, by have := r.isLt; omega⟩ : Fin 1024) d * Kf V c (⟨t.val / 4, by have := lt32 t; omega⟩ : Fin 8) ⟨t.val % 2 * 512 + c'.val, hlt⟩ d) * ((1 / 32 : ℝ) : EReal)
      else ⊥) = _
  refine if_congr Iff.rfl (congrArg (· * ((1 / 32 : ℝ) : EReal)) (Finset.sum_congr rfl fun d _ => ?_)) rfl
  have hq : qblk V c t (ix3 0 r d) = Qf V c (⟨t.val / 4, by have := lt32 t; omega⟩ : Fin 8) (⟨t.val / 2 % 2 * 512 + r.val, by have := r.isLt; omega⟩ : Fin 1024) d := blk1_0 V c t r d
  have hk : tile (grid1.coords t) h (kblk V c t) (ix3 0 c' d) = Kf V c (⟨t.val / 4, by have := lt32 t; omega⟩ : Fin 8) ⟨t.val % 2 * 512 + c'.val, hlt⟩ d :=
    (ktile t (kblk V c t) (k1_off1_inb (grid1.coords t) h) c' d).trans (blk1_1 V c t ⟨t.val % 2 * 512 + c'.val, hlt⟩ d)
  rw [hq, hk]

/-- Column `d` of the point's value tile. -/
theorem vcol_tile (c : Dev nD) (t : Fin cfg1.N) (h : cond1_1 (grid1.coords t)) (c' : Fin 512) (d : Fin 1024) :
    vcol V c (⟨t.val / 4, by have := lt32 t; omega⟩ : Fin 8) d (t.val % 2 * 512 + c'.val) = tile (grid1.coords t) h (vblk V c t) (ix3 0 c' d) := by
  have hc := c'.isLt
  have hlt : t.val % 2 * 512 + c'.val < 1024 := by omega
  unfold vcol
  rw [ext_apply _ _ hlt]
  exact ((ktile t (vblk V c t) (k1_off1_inb (grid1.coords t) h) c' d).trans (blk1_2 V c t ⟨t.val % 2 * 512 + c'.val, hlt⟩ d)).symm

/-! ## One fold step along a row is one tile step of the online softmax -/

/-- A fold step at point `t`, from any accumulators `s`, along row `r`. -/
theorem fold_at (c : Dev nD) (t : Fin cfg1.N) (h : cond1_1 (grid1.coords t)) (s : St Ideal) (r : Fin 512) :
    (foldStep (grid1.coords t) h (iblk1 V c 0 t) (iblk1 V c 1 t) (iblk1 V c 2 t) s).1 (ix2 r 0)
        = stepM 512 (s.1 (ix2 r 0)) (srow V c (⟨t.val / 4, by have := lt32 t; omega⟩ : Fin 8) (⟨t.val / 2 % 2 * 512 + r.val, by have := r.isLt; omega⟩ : Fin 1024)) (t.val % 2)
    ∧ (foldStep (grid1.coords t) h (iblk1 V c 0 t) (iblk1 V c 1 t) (iblk1 V c 2 t) s).2.1 (ix2 r 0)
        = stepL 512 (s.1 (ix2 r 0)) (s.2.1 (ix2 r 0)) (srow V c (⟨t.val / 4, by have := lt32 t; omega⟩ : Fin 8) (⟨t.val / 2 % 2 * 512 + r.val, by have := r.isLt; omega⟩ : Fin 1024)) (t.val % 2)
    ∧ ∀ d : Fin 1024, (foldStep (grid1.coords t) h (iblk1 V c 0 t) (iblk1 V c 1 t) (iblk1 V c 2 t) s).2.2 (ix2 r d)
        = stepA 512 (s.1 (ix2 r 0)) (s.2.2 (ix2 r d)) (srow V c (⟨t.val / 4, by have := lt32 t; omega⟩ : Fin 8) (⟨t.val / 2 % 2 * 512 + r.val, by have := r.isLt; omega⟩ : Fin 1024)) (vcol V c (⟨t.val / 4, by have := lt32 t; omega⟩ : Fin 8) d) (t.val % 2) := by
  have h1 := coords1_1 t
  have h2 := coords1_2 t
  have h32 := lt32 t
  have key := fold_row (grid1.coords t) h (by rw [h1]; omega) (by rw [h2]; omega) (iblk1 V c 0 t) (iblk1 V c 1 t) (iblk1 V c 2 t) s r
    (srow V c (⟨t.val / 4, by have := lt32 t; omega⟩ : Fin 8) (⟨t.val / 2 % 2 * 512 + r.val, by have := r.isLt; omega⟩ : Fin 1024)) (fun d => vcol V c (⟨t.val / 4, by have := lt32 t; omega⟩ : Fin 8) d)
    (fun c' => by rw [h1, h2]; exact srow_tile V c t h r c') (fun c' d => by rw [h2]; exact vcol_tile V c t h c' d)
  rw [h2] at key
  exact key

end State

end Cert.KernelIdeal.Hand

end
-- ==== Proof.KIPieces.lean ====
/-
  What the attention kernel's cases leave, as arithmetic of the blocks.

  One FOLD STEP takes the query tile, the key and value tiles of the current key tile (512 rows of the resident
  key and value blocks, starting at key tile × 512) and the three accumulators (maximum, normaliser, weighted sum) to
  the new accumulators.  The accumulators start at (-∞, 0, 0).  The OUTPUT TILE is the weighted sum divided by the
  normaliser, projected and shifted by the bias.  At key tile 0 the accumulators end at one fold step from the start;
  at key tile 1 they stay (key tile after the query tile) or take a second fold step (the diagonal), and the output
  tile is computed from them.
-/
import proofs.«171720_j40072044871789_2_alg».proof.Proof.KIRegion1Body
import proofs.«171720_j40072044871789_2_alg».proof.Proof.KIStep
import proofs.«171720_j40072044871789_2_alg».proof.Proof.KIBlk1
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

section Pieces

variable (V : (c : Dev nD) → (b : Ref sig .tc) → Buf (Elt F) ((c : Thread nD τ).loc b))

/-- The accumulators of an `Acc`. -/
abbrev stOf (p : Acc F) : St F := (p.2.1, p.2.2.1, p.2.2.2)

/-- A load through the whole buffer is the buffer's contents. -/
theorem ldl_512x1 {e : EltTy} (x : Vec F S512x1 e) (inb : ∀ a, (![0, 0] : Fin 2 → ℕ) a + (![512, 1] : Fin 2 → ℕ) a ≤ S512x1.size a) :
    View.ld x (Rect.unit (s := S512x1) ![0, 0] ![512, 1] inb) = x := ld_whole_S512x1 x inb
theorem ldl_512x1024 {e : EltTy} (x : Vec F S512x1024 e) (inb : ∀ a, (![0, 0] : Fin 2 → ℕ) a + (![512, 1024] : Fin 2 → ℕ) a ≤ S512x1024.size a) :
    View.ld x (Rect.unit (s := S512x1024) ![0, 0] ![512, 1024] inb) = x := ld_whole_S512x1024 x inb
theorem ldl_1024x1024 {e : EltTy} (x : Vec F S1024x1024 e) (inb : ∀ a, (![0, 0] : Fin 2 → ℕ) a + (![1024, 1024] : Fin 2 → ℕ) a ≤ S1024x1024.size a) :
    View.ld x (Rect.unit (s := S1024x1024) ![0, 0] ![1024, 1024] inb) = x := ld_whole_S1024x1024 x inb
theorem ldl_1x1024 {e : EltTy} (x : Vec F S1x1024 e) (inb : ∀ a, (![0, 0] : Fin 2 → ℕ) a + (![1, 1024] : Fin 2 → ℕ) a ≤ S1x1024.size a) :
    View.ld x (Rect.unit (s := S1x1024) ![0, 0] ![1, 1024] inb) = x := ld_whole_S1x1024 x inb
theorem ldl_1x512x1024 {e : EltTy} (x : Vec F S1x512x1024 e) (inb : ∀ a, (![0, 0, 0] : Fin 3 → ℕ) a + (![1, 512, 1024] : Fin 3 → ℕ) a ≤ S1x512x1024.size a) :
    View.ld x (Rect.unit (s := S1x512x1024) ![0, 0, 0] ![1, 512, 1024] inb) = x := ld_whole_S1x512x1024 x inb

/-- A whole scratch buffer set to hold X reads X. -/
theorem rd_sc0 (h : (scM1_0 : Memref sig .tc .vmem S512x1 .f32).IsWhole) (X : Vec F S512x1 .f32) :
    View.read (Elt F) (View.whole cc1_scratch0) (h.unread X) = X := h.read_unread X
theorem rd_sc1 (h : (scM1_1 : Memref sig .tc .vmem S512x1 .f32).IsWhole) (X : Vec F S512x1 .f32) :
    View.read (Elt F) (View.whole cc1_scratch1) (h.unread X) = X := h.read_unread X
theorem rd_sc2 (h : (scM1_2 : Memref sig .tc .vmem S512x1024 .f32).IsWhole) (X : Vec F S512x1024 .f32) :
    View.read (Elt F) (View.whole cc1_scratch2) (h.unread X) = X := h.read_unread X

set_option maxHeartbeats 2000000 in
theorem valB_out (c : Dev nD) (t : Fin cfg1.N) (h : t.val % 4 = 1) (p : Acc F) :
    (valB V c t h p).1 = finOut (stOf p) (iblk1 V c 3 t) (iblk1 V c 4 t) := by
  unfold valB; dsimp only
  rw [View.read_writes_eq_canon _ _ _ (coverB_5 V c t h _ _)]
  unfold kernelRun1_B; dsimp only
  sl_unfold_words
  rw [View.canon_unit_zero (S := S1x512x1024) zero_off3]
  simp only [View.readAt_eq_ld, Memref.IsWhole.read_unread, rd_sc0, rd_sc1, rd_sc2, ld_whole_S512x1, ld_whole_S512x1024, ld_whole_S1024x1024,
    ld_whole_S1x1024, ld_whole_S1x512x1024, ldl_512x1, ldl_512x1024, ldl_1024x1024, ldl_1x1024, ldl_1x512x1024, View.readCov_unit_zero (S := S512x1) _ zero_off2, View.readCov_unit_zero (S := S512x1024) _ zero_off2]
  rfl

set_option maxHeartbeats 4000000 in
/-- Key tile 0: the accumulators are one fold step from the reset. -/
theorem valA_st (c : Dev nD) (t : Fin cfg1.N) (h : t.val % 2 = 0) :
    stOf (valA V c t h) = foldStep (grid1.coords t) ((hcond1_1 t).mpr (by omega)) (iblk1 V c 0 t) (iblk1 V c 1 t) (iblk1 V c 2 t) initSt := by
  unfold valA stOf; dsimp only
  rw [View.read_writes_eq_canon _ _ _ (scoverA_0 V c t h), View.read_writes_eq_canon _ _ _ (scoverA_1 V c t h),
    View.read_writes_eq_canon _ _ _ (scoverA_2 V c t h)]
  unfold kernelRun1_A; dsimp only
  sl_unfold_words
  rw [View.canon_cons_unit_zero (S := S512x1) zero_off2, View.canon_cons_unit_zero (S := S512x1) zero_off2, View.canon_cons_unit_zero (S := S512x1024) zero_off2]
  simp only [View.readAt_eq_ld, Memref.IsWhole.read_unread, rd_sc0, rd_sc1, rd_sc2, ld_whole_S512x1, ld_whole_S512x1024, ld_whole_S1024x1024,
    ld_whole_S1x1024, ld_whole_S1x512x1024, ldl_512x1, ldl_512x1024, ldl_1024x1024, ldl_1x1024, ldl_1x512x1024, View.readCov_unit_zero (S := S512x1) _ zero_off2, View.readCov_unit_zero (S := S512x1024) _ zero_off2]
  rfl

set_option maxHeartbeats 4000000 in
/-- Key tile 1 on the diagonal: the accumulators take one more fold step. -/
theorem valC_st (c : Dev nD) (t : Fin cfg1.N) (h : t.val % 4 = 3) (p : Acc F) :
    stOf (valC V c t h p) = foldStep (grid1.coords t) ((hcond1_1 t).mpr (by omega)) (iblk1 V c 0 t) (iblk1 V c 1 t) (iblk1 V c 2 t) (stOf p) := by
  unfold valC stOf; dsimp only
  rw [View.read_writes_eq_canon _ _ _ (scoverC_0 V c t h _ _ _), View.read_writes_eq_canon _ _ _ (scoverC_1 V c t h _ _ _),
    View.read_writes_eq_canon _ _ _ (scoverC_2 V c t h _ _ _)]
  unfold kernelRun1_C; dsimp only
  sl_unfold_words
  rw [View.canon_unit_zero (S := S512x1) zero_off2, View.canon_unit_zero (S := S512x1) zero_off2, View.canon_unit_zero (S := S512x1024) zero_off2]
  simp only [View.readAt_eq_ld, Memref.IsWhole.read_unread, rd_sc0, rd_sc1, rd_sc2, ld_whole_S512x1, ld_whole_S512x1024, ld_whole_S1024x1024,
    ld_whole_S1x1024, ld_whole_S1x512x1024, ldl_512x1, ldl_512x1024, ldl_1024x1024, ldl_1x1024, ldl_1x512x1024, View.readCov_unit_zero (S := S512x1) _ zero_off2, View.readCov_unit_zero (S := S512x1024) _ zero_off2]
  rfl

set_option maxHeartbeats 4000000 in
/-- Key tile 1 on the diagonal: the output tile is computed from the accumulators after that fold step. -/
theorem valC_out (c : Dev nD) (t : Fin cfg1.N) (h : t.val % 4 = 3) (p : Acc F) :
    (valC V c t h p).1 = finOut (foldStep (grid1.coords t) ((hcond1_1 t).mpr (by omega)) (iblk1 V c 0 t) (iblk1 V c 1 t) (iblk1 V c 2 t) (stOf p)) (iblk1 V c 3 t) (iblk1 V c 4 t) := by
  unfold valC; dsimp only
  rw [View.read_writes_eq_canon _ _ _ (coverC_5 V c t h _ _ _)]
  unfold kernelRun1_C; dsimp only
  sl_unfold_words
  rw [View.canon_unit_zero (S := S1x512x1024) zero_off3]
  simp only [View.readAt_eq_ld, Memref.IsWhole.read_unread, rd_sc0, rd_sc1, rd_sc2, ld_whole_S512x1, ld_whole_S512x1024, ld_whole_S1024x1024,
    ld_whole_S1x1024, ld_whole_S1x512x1024, ldl_512x1, ldl_512x1024, ldl_1024x1024, ldl_1x1024, ldl_1x512x1024, View.readCov_unit_zero (S := S512x1) _ zero_off2, View.readCov_unit_zero (S := S512x1024) _ zero_off2]
  rfl

end Pieces

end Cert.KernelIdeal.Hand

end
-- ==== Proof.KIStateOut.lean ====
import proofs.«171720_j40072044871789_2_alg».proof.Proof.KIState
import proofs.«171720_j40072044871789_2_alg».proof.Proof.KIPieces

/-!
# The accumulators after each grid point, and the output tile, along a query row

A point of key tile 0 resets the accumulators and folds the first key tile in: along a query row they are the online
softmax's running maximum, normaliser and weighted sums after tile 0. The next point, of key tile 1, belongs to the same
batch element and query tile. If its key tile lies after the query tile (query tile 0) every score is masked and the
kernel skips the fold: the accumulators stay, and are the running quantities after tile 0, the last tile the row sees.
On the diagonal (query tile 1) it folds the second key tile in: the running quantities after tile 1. Either way the
stored output row is the weighted sums divided by the normaliser after the query tile's own key tile, against the
output weights, plus the bias.
-/

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Attn Cert.OnlineSoftmax Cert.LogShift

section StateOut
variable (V : (c : Dev nD) → (b : Ref sig .tc) → Buf (Elt Ideal) ((c : Thread nD τ).loc b))

/-! ## The accumulators after a point of key tile 0 -/

/-- After a point of key tile 0 the row's accumulators are the online softmax's after its first tile. -/
theorem st_even (c : Dev nD) (t : Fin cfg1.N) (ht : t.val % 2 = 0) (r : Fin 512) :
    ((outsAt1 V c t.val t.isLt).2.1 : S512x1.Idx → EReal) (ix2 r 0) = runM 512 (srow V c (⟨t.val / 4, by have := lt32 t; omega⟩ : Fin 8) (⟨t.val / 2 % 2 * 512 + r.val, by have := r.isLt; omega⟩ : Fin 1024)) 0
    ∧ ((outsAt1 V c t.val t.isLt).2.2.1 : S512x1.Idx → EReal) (ix2 r 0) = runL 512 (srow V c (⟨t.val / 4, by have := lt32 t; omega⟩ : Fin 8) (⟨t.val / 2 % 2 * 512 + r.val, by have := r.isLt; omega⟩ : Fin 1024)) 0
    ∧ ∀ d : Fin 1024, ((outsAt1 V c t.val t.isLt).2.2.2 : S512x1024.Idx → EReal) (ix2 r d)
        = runA 512 (srow V c (⟨t.val / 4, by have := lt32 t; omega⟩ : Fin 8) (⟨t.val / 2 % 2 * 512 + r.val, by have := r.isLt; omega⟩ : Fin 1024)) (vcol V c (⟨t.val / 4, by have := lt32 t; omega⟩ : Fin 8) d) 0 := by
  have hcond : cond1_1 (grid1.coords t) := (hcond1_1 t).mpr (by omega)
  have hst : stOf (outsAt1 V c t.val t.isLt)
      = foldStep (grid1.coords t) hcond (iblk1 V c 0 t) (iblk1 V c 1 t) (iblk1 V c 2 t) initSt := by
    rw [outsAt1_A V c t ht]; exact valA_st V c t ht
  obtain ⟨f1, f2, f3⟩ := fold_at V c t hcond initSt r
  rw [ht] at f1 f2 f3
  refine ⟨?_, ?_, fun d => ?_⟩
  · refine (congrFun (congrArg Prod.fst hst) (ix2 r 0)).trans (f1.trans ?_)
    rw [(init_row r 0).1]; rfl
  · refine (congrFun (congrArg (fun s : St Ideal => s.2.1) hst) (ix2 r 0)).trans (f2.trans ?_)
    rw [(init_row r 0).1, (init_row r 0).2.1]; rfl
  · refine (congrFun (congrArg (fun s : St Ideal => s.2.2) hst) (ix2 r d)).trans ((f3 d).trans ?_)
    rw [(init_row r d).1, (init_row r d).2.2]; rfl

/-- The same with the batch element and the query position under any names that have the point's values. -/
theorem st_even_of (c : Dev nD) (t : Fin cfg1.N) (ht : t.val % 2 = 0) (r : Fin 512) (b : Fin 8) (i : Fin 1024)
    (hb : b.val = t.val / 4) (hi : i.val = t.val / 2 % 2 * 512 + r.val) :
    ((outsAt1 V c t.val t.isLt).2.1 : S512x1.Idx → EReal) (ix2 r 0) = runM 512 (srow V c b i) 0
    ∧ ((outsAt1 V c t.val t.isLt).2.2.1 : S512x1.Idx → EReal) (ix2 r 0) = runL 512 (srow V c b i) 0
    ∧ ∀ d : Fin 1024, ((outsAt1 V c t.val t.isLt).2.2.2 : S512x1024.Idx → EReal) (ix2 r d)
        = runA 512 (srow V c b i) (vcol V c b d) 0 := by
  obtain ⟨bv, hbv⟩ := b
  obtain ⟨iv, hiv⟩ := i
  change bv = t.val / 4 at hb
  change iv = t.val / 2 % 2 * 512 + r.val at hi
  subst hb hi
  exact st_even V c t ht r

/-! ## The output tile written at a point of key tile 1 -/

/-- Row `r` of the output tile stored at a point of key tile 1: the row's weighted sums divided by its normaliser after the
    key tiles up to the query tile's own, against the output weights, plus the bias. -/
theorem out_row (c : Dev nD) (t : Fin cfg1.N) (ht : t.val % 2 = 1) (r : Fin 512) (e : Fin 1024) :
    ((outsAt1 V c t.val t.isLt).1 : S1x512x1024.Idx → EReal) (ix3 0 r e)
      = (∑ d : Fin 1024, Ideal.div (runA 512 (srow V c (⟨t.val / 4, by have := lt32 t; omega⟩ : Fin 8) (⟨t.val / 2 % 2 * 512 + r.val, by have := r.isLt; omega⟩ : Fin 1024)) (vcol V c (⟨t.val / 4, by have := lt32 t; omega⟩ : Fin 8) d) (t.val / 2 % 2))
              (runL 512 (srow V c (⟨t.val / 4, by have := lt32 t; omega⟩ : Fin 8) (⟨t.val / 2 % 2 * 512 + r.val, by have := r.isLt; omega⟩ : Fin 1024)) (t.val / 2 % 2))
            * (V c main_v8 : S1024x1024.Idx → EReal) (ix2 d e))
        + (V c main_v12 : S1x1024.Idx → EReal) (ix2 0 e) := by
  have h32 := lt32 t
  have hr := r.isLt
  -- the point before: key tile 0 of the same batch element and query tile
  have hlt' : t.val - 1 < cfg1.N := Nat.lt_of_le_of_lt (Nat.sub_le _ _) t.isLt
  obtain ⟨q1, q2, q3⟩ := st_even_of V c ⟨t.val - 1, hlt'⟩ (by show (t.val - 1) % 2 = 0; omega) r (⟨t.val / 4, by have := lt32 t; omega⟩ : Fin 8) (⟨t.val / 2 % 2 * 512 + r.val, by have := r.isLt; omega⟩ : Fin 1024)
    (by show t.val / 4 = (t.val - 1) / 4; omega) (by show t.val / 2 % 2 * 512 + r.val = (t.val - 1) / 2 % 2 * 512 + r.val; omega)
  have p1 : (outsAt1 V c (t.val - 1) hlt').2.1 (ix2 r 0) = runM 512 (srow V c (⟨t.val / 4, by have := lt32 t; omega⟩ : Fin 8) (⟨t.val / 2 % 2 * 512 + r.val, by have := r.isLt; omega⟩ : Fin 1024)) 0 := q1
  have p2 : (outsAt1 V c (t.val - 1) hlt').2.2.1 (ix2 r 0) = runL 512 (srow V c (⟨t.val / 4, by have := lt32 t; omega⟩ : Fin 8) (⟨t.val / 2 % 2 * 512 + r.val, by have := r.isLt; omega⟩ : Fin 1024)) 0 := q2
  have p3 : ∀ d : Fin 1024, (outsAt1 V c (t.val - 1) hlt').2.2.2 (ix2 r d)
      = runA 512 (srow V c (⟨t.val / 4, by have := lt32 t; omega⟩ : Fin 8) (⟨t.val / 2 % 2 * 512 + r.val, by have := r.isLt; omega⟩ : Fin 1024)) (vcol V c (⟨t.val / 4, by have := lt32 t; omega⟩ : Fin 8) d) 0 := q3
  rcases (by omega : t.val % 4 = 1 ∨ t.val % 4 = 3) with h4 | h4
  · -- the key tile lies after the query tile: the accumulators stay
    have hq : t.val / 2 % 2 = 0 := by omega
    rw [outsAt1_B V c t h4, valB_out V c t h4, fin_row]
    refine congrArg₂ (· + ·) (Finset.sum_congr rfl fun d _ => congrArg₂ (· * ·) ?_ (blk1_3 V c t d e)) (blk1_4 V c t e)
    exact congrArg₂ Ideal.div ((p3 d).trans (congrArg (runA 512 _ _) hq.symm)) (p2.trans (congrArg (runL 512 _) hq.symm))
  · -- the diagonal: one more fold step
    have hq : t.val / 2 % 2 = 1 := by omega
    have hcond : cond1_1 (grid1.coords t) := (hcond1_1 t).mpr (by omega)
    obtain ⟨f1, f2, f3⟩ := fold_at V c t hcond (stOf (outsAt1 V c (t.val - 1) hlt')) r
    rw [ht] at f2 f3
    rw [outsAt1_C V c t h4, valC_out V c t h4, fin_row]
    refine congrArg₂ (· + ·) (Finset.sum_congr rfl fun d _ => congrArg₂ (· * ·) ?_ (blk1_3 V c t d e)) (blk1_4 V c t e)
    refine congrArg₂ Ideal.div (((f3 d).trans ?_).trans (congrArg (runA 512 _ _) hq.symm)) ((f2.trans ?_).trans (congrArg (runL 512 _) hq.symm))
    · show stepA 512 ((outsAt1 V c (t.val - 1) hlt').2.1 (ix2 r 0)) ((outsAt1 V c (t.val - 1) hlt').2.2.2 (ix2 r d)) _ _ 1 = _
      rw [p1, p3 d]; rfl
    · show stepL 512 ((outsAt1 V c (t.val - 1) hlt').2.1 (ix2 r 0)) ((outsAt1 V c (t.val - 1) hlt').2.2.1 (ix2 r 0)) _ 1 = _
      rw [p1, p2]; rfl

end StateOut

end Cert.KernelIdeal.Hand

end
-- ==== Proof.KIValue.lean ====
/-
  The attention kernel's result is the specification.

  The kernel is handed the three linear layers of the arguments (the first kernel's results, cut back into batch
  elements), the transposed output weights and the output bias as a one-row matrix. Under the precondition every entry
  of those layers is a real number. Each output row the kernel writes back is, feature by feature, the running weighted
  sum divided by the running normaliser after the query's own tile, carried through the output layer; that is the
  specification's output layer of the attention context at that row. The rows written back fill the output array, so
  the array is the specification's block of the arguments.
-/
import proofs.«171720_j40072044871789_2_alg».proof.Proof.KIQkv
import proofs.«171720_j40072044871789_2_alg».proof.Proof.KIArr1
import proofs.«171720_j40072044871789_2_alg».proof.Proof.KIFinite
import proofs.«171720_j40072044871789_2_alg».proof.Proof.AttnOnline
import proofs.«171720_j40072044871789_2_alg».proof.Proof.KIState
import proofs.«171720_j40072044871789_2_alg».proof.Proof.KIStateOut

noncomputable section

open scoped BigOperators

namespace Cert.KernelIdeal.Hand

open Cert.KernelIdeal Cert.KernelIdeal.Gen
open Idealize.ShloMosaic Idealize.ShloMosaic.TcCoe Idealize.ShloMosaic.ValueIdx Idealize.SL.Sem
open Cert.Attn Cert.OnlineSoftmax Cert.LogShift Cert.RealSum

variable (m : (ℓ : Loc nD τ sig) → Buf (Elt Ideal) ℓ) (ρ : Dev nD → PrngReg)

/-! ## What the attention kernel is handed: the three linear layers of the arguments, real wherever the arguments are -/

/-- The queries handed to the attention kernel are the specification's query layer of the arguments. -/
theorem Qf_eq (c : Dev nD) : Qf (V3 m ρ) c = (lin (arr3 (m ((c.tc : Thread nD τ).loc main_arg0))) (arr2 (m ((c.tc : Thread nD τ).loc main_arg1))) (arr1 (m ((c.tc : Thread nD τ).loc main_arg2)))) :=
  funext fun n => funext fun t => funext fun e => q3_apply m ρ c n t e
/-- The keys likewise. -/
theorem Kf_eq (c : Dev nD) : Kf (V3 m ρ) c = (lin (arr3 (m ((c.tc : Thread nD τ).loc main_arg0))) (arr2 (m ((c.tc : Thread nD τ).loc main_arg3))) (arr1 (m ((c.tc : Thread nD τ).loc main_arg4)))) :=
  funext fun n => funext fun t => funext fun e => k3_apply m ρ c n t e
/-- The values likewise. -/
theorem Vf_eq (c : Dev nD) : Vf (V3 m ρ) c = (lin (arr3 (m ((c.tc : Thread nD τ).loc main_arg0))) (arr2 (m ((c.tc : Thread nD τ).loc main_arg5))) (arr1 (m ((c.tc : Thread nD τ).loc main_arg6)))) :=
  funext fun n => funext fun t => funext fun e => v3_apply m ρ c n t e

/-- Under the precondition each of the three layers has real entries. -/
theorem lin_args_real [Cert.Pre_finite_inputs.Facts] (hpre : Cert.Pre_KernelIdeal m) (c : Dev nD) :
    (∀ n t d, IsReal ((lin (arr3 (m ((c.tc : Thread nD τ).loc main_arg0))) (arr2 (m ((c.tc : Thread nD τ).loc main_arg1))) (arr1 (m ((c.tc : Thread nD τ).loc main_arg2)))) n t d)) ∧ (∀ n t d, IsReal ((lin (arr3 (m ((c.tc : Thread nD τ).loc main_arg0))) (arr2 (m ((c.tc : Thread nD τ).loc main_arg3))) (arr1 (m ((c.tc : Thread nD τ).loc main_arg4)))) n t d))
      ∧ (∀ n t d, IsReal ((lin (arr3 (m ((c.tc : Thread nD τ).loc main_arg0))) (arr2 (m ((c.tc : Thread nD τ).loc main_arg5))) (arr1 (m ((c.tc : Thread nD τ).loc main_arg6)))) n t d)) :=
  ⟨lin_real _ _ _ (arr3_real _ fun i => finite_arg0 m hpre c i) (arr2_real _ fun i => finite_arg1 m hpre c i)
      (arr1_real _ fun i => finite_arg2 m hpre c i),
   lin_real _ _ _ (arr3_real _ fun i => finite_arg0 m hpre c i) (arr2_real _ fun i => finite_arg3 m hpre c i)
      (arr1_real _ fun i => finite_arg4 m hpre c i),
   lin_real _ _ _ (arr3_real _ fun i => finite_arg0 m hpre c i) (arr2_real _ fun i => finite_arg5 m hpre c i)
      (arr1_real _ fun i => finite_arg6 m hpre c i)⟩

/-! ## The result -/

/-- Given that each row written back is the quotient of the running weighted sum by the running normaliser carried
    through the output layer, the output buffer after the run holds the specification's block of the arguments. -/
theorem result_eq_of [Cert.Pre_finite_inputs.Facts]
    (out_row : ∀ (c : Dev nD) (t : Fin cfg1.N) (ht : t.val % 2 = 1) (r : Fin 512) (e : Fin 1024),
      ((outsAt1 (V3 m ρ) c t.val t.isLt).1 : S1x512x1024.Idx → EReal) (ix3 (0 : Fin 1) r e)
        = (∑ d : Fin 1024, Ideal.div
            (runA 512 (srow (V3 m ρ) c (⟨t.val / 4, by have := lt32 t; omega⟩ : Fin 8)
                (⟨t.val / 2 % 2 * 512 + r.val, by have := r.isLt; omega⟩ : Fin 1024))
              (vcol (V3 m ρ) c (⟨t.val / 4, by have := lt32 t; omega⟩ : Fin 8) d) (t.val / 2 % 2))
            (runL 512 (srow (V3 m ρ) c (⟨t.val / 4, by have := lt32 t; omega⟩ : Fin 8)
                (⟨t.val / 2 % 2 * 512 + r.val, by have := r.isLt; omega⟩ : Fin 1024)) (t.val / 2 % 2))
            * ((V3 m ρ) c main_v8 : S1024x1024.Idx → EReal) (ix2 d e))
          + ((V3 m ρ) c main_v12 : S1x1024.Idx → EReal) (ix2 (0 : Fin 1) e))
    (hpre : Cert.Pre_KernelIdeal m) (c : Dev nD) :
    W4 m ρ c (Proc.devRef .tc main_v17) = Cert.Attn.block (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) := by
  obtain ⟨hq, hk, hv⟩ := lin_args_real m hpre c
  refine (W4_arr m ρ c 5).trans (arr1_5_of_rows (V3 m ρ) c _ fun t r e ht => ?_)
  refine (out_row c t ht r e).trans ?_
  have hkq : t.val / 2 % 2 < 2 := Nat.mod_lt _ (by norm_num)
  unfold srow vcol
  rw [Qf_eq, Kf_eq, Vf_eq]
  simp only [wo3_apply m ρ c, bo3_apply m ρ c]
  exact online_row _ _ _ hq hk hv (arr2 (m ((c.tc : Thread nD τ).loc main_arg7))) (arr1 (m ((c.tc : Thread nD τ).loc main_arg8))) _ (t.val / 2 % 2) hkq r _ rfl e

/-- THE KERNEL'S RESULT IS THE SPECIFICATION: under the precondition, after the run the output buffer holds the
    specification's block of the arguments. -/
theorem result_eq [Cert.Pre_finite_inputs.Facts] (hpre : Cert.Pre_KernelIdeal m) (c : Dev nD) :
    W4 m ρ c (Proc.devRef .tc main_v17) = Cert.Attn.block (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) :=
  result_eq_of m ρ (fun c t ht r e => out_row (V3 m ρ) c t ht r e) hpre c

end Cert.KernelIdeal.Hand

end
-- ==== Proof.lean ====
/-
  Causal self-attention with linear input and output layers: a pair of fused kernels against the plain computation.

  The kernel program runs two kernels among host reshapes and transposes.  The first projects the input onto queries,
  keys and values, 512 rows at a time.  The second walks the grid (batch, query tile, key tile) in 512-row tiles and
  keeps, for every query row, a running maximum, a running normaliser and a running weighted sum of value rows — the
  online softmax —; a key tile that lies after the query tile is skipped, the diagonal tile is masked above the
  diagonal with -∞ (the kernel's finite stand-in is the one named constant), and at the last key tile the weighted
  sum is divided by the normaliser, projected through the output weights and shifted by the bias.  The reference
  computes the same attention in one pass: masked scaled scores, a softmax along each row, the weighted sum of the
  values, the output layer.  The scale is 1024^(-1/2) = 1/32 on both sides.

  At the ideal instance both programs are ONE function of the nine argument arrays (Spec.lean).  The reference is that
  function, read off its run one operation at a time (RefSpec.lean).  For the kernels: the projection kernel's blocks
  tile its three output arrays with the linear layers' values (KIArr0.lean), which the host reshapes into queries, keys
  and values (KIQkv.lean); one fold step of the attention kernel along a query row is one tile step of the online softmax
  (KIFold.lean), so the row's accumulators after its last folded key tile are the online softmax's running quantities
  over the row's masked scores (KIState.lean, KIStateOut.lean); their quotient is the softmax-weighted sum over ALL
  key positions, because a masked position weighs exp(-∞ - M) = 0 and the skipped tile is wholly masked
  (LibMaskedSoftmax.lean: this is where the scores and values must be real numbers, which the finite inputs give —
  KIFinite.lean, SpecReal.lean); the output tiles cover the result array (KIArr1.lean), and the whole is the
  specification (KIValue.lean).  The frames: each kernel body's obligation to its pipeline (KIRegion0.lean; KIRun1A/B/C.lean
  for the attention kernel's three cases, KIRegion1.lean and KIRegion1Body.lean for its accumulators carried from key
  tile 0 to key tile 1) and the run over the two regions and the host stretches between them (KIRun.lean), for the
  idealised program and, in the same words, for the word-level program (the K… modules).  The idealisation's one
  rewrite is the named -∞.
-/
import proofs.«171720_j40072044871789_2_alg».proof.Defs
import proofs.«171720_j40072044871789_2_alg».proof.Proof.Claims
import proofs.«171720_j40072044871789_2_alg».proof.Proof.KIValue

noncomputable section

namespace Cert.Proof

theorem claim : Cert.Claim :=
  ⟨Cert.Kernel.Gen.facts, Cert.KernelIdeal.Gen.facts, Cert.ReferenceIdeal.Gen.facts, Cert.Pre_finite_inputs.Gen.facts,
    Cert.Proof.Claims.frame_k, Cert.Proof.Claims.frame_ki, Cert.Proof.Claims.frame_ri, Cert.Proof.Claims.preserves,
    Cert.Proof.Claims.algebraic_of fun m ρ hpre c => Cert.KernelIdeal.Hand.result_eq m ρ hpre c⟩

end Cert.Proof

end
